-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  main_v20

def fn {F : FTy → Type} [FloatOps F] (main_arg0 : IVec S4096x200 32) (main_arg1 : FVec F S100000x128 .f32) (main_arg2 : FVec F S1x128 .f32) (main_arg3 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 99999#32
  fn_part1 (F := F) main_arg0 main_v13 main_v15 main_c_5
-- ==== Kernel.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S819200 : Shape := ⟨1, ![819200]⟩
abbrev S100x1x1000 : Shape := ⟨3, ![100, 1, 1000]⟩
abbrev S1000x128 : Shape := ⟨2, ![1000, 128]⟩
abbrev S1x1x1000 : Shape := ⟨3, ![1, 1, 1000]⟩
abbrev S1000 : Shape := ⟨1, ![1000]⟩
abbrev S100000 : Shape := ⟨1, ![100000]⟩
abbrev S2x16x16 : Shape := ⟨3, ![2, 16, 16]⟩
abbrev S25600 : Shape := ⟨1, ![25600]⟩
abbrev S16 : Shape := ⟨1, ![16]⟩
abbrev S_ : Shape := ⟨0, ![]⟩
abbrev S1x1x16 : Shape := ⟨3, ![1, 1, 16]⟩
abbrev S1x1 : Shape := ⟨2, ![1, 1]⟩
abbrev S1x16x16 : Shape := ⟨3, ![1, 16, 16]⟩
abbrev S16x16 : Shape := ⟨2, ![16, 16]⟩
abbrev S1x1x1 : Shape := ⟨3, ![1, 1, 1]⟩
abbrev S128 : Shape := ⟨1, ![128]⟩
abbrev S12800 : Shape := ⟨1, ![12800]⟩
abbrev S4096x200x1 : Shape := ⟨3, ![4096, 200, 1]⟩

abbrev nBuf : Table → Nat
  | .hbm => 15
  | .local .tc .vmem => 13
  | .local .scVector .vmem => 6
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S819200, .i32⟩
  | .hbm, ⟨5, _⟩ => ⟨S100x1x1000, .f32⟩
  | .hbm, ⟨6, _⟩ => ⟨S100x1x1000, .f32⟩
  | .hbm, ⟨7, _⟩ => ⟨S100000, .f32⟩
  | .hbm, ⟨8, _⟩ => ⟨S100000, .f32⟩
  | .hbm, ⟨9, _⟩ => ⟨S2x16x16, .f32⟩
  | .hbm, ⟨10, _⟩ => ⟨S1x1, .f32⟩
  | .hbm, ⟨11, _⟩ => ⟨S100x1x1000, .f32⟩
  | .hbm, ⟨12, _⟩ => ⟨S100000, .f32⟩
  | .hbm, ⟨13, _⟩ => ⟨S819200, .f32⟩
  | .hbm, ⟨14, _⟩ => ⟨S4096x200x1, .f32⟩
  | .local .tc .vmem, ⟨0, _⟩ => ⟨S1000x128, .f32⟩
  | .local .tc .vmem, ⟨1, _⟩ => ⟨S1000x128, .f32⟩
  | .local .tc .vmem, ⟨2, _⟩ => ⟨S1x1x1000, .f32⟩
  | .local .tc .vmem, ⟨3, _⟩ => ⟨S1x1x1000, .f32⟩
  | .local .tc .vmem, ⟨4, _⟩ => ⟨S1x1x1000, .f32⟩
  | .local .tc .vmem, ⟨5, _⟩ => ⟨S1x1x1000, .f32⟩
  | .local .tc .vmem, ⟨6, _⟩ => ⟨S1000x128, .f32⟩
  | .local .tc .vmem, ⟨7, _⟩ => ⟨S1000x128, .f32⟩
  | .local .tc .vmem, ⟨8, _⟩ => ⟨S2x16x16, .f32⟩
  | .local .tc .vmem, ⟨9, _⟩ => ⟨S1x128, .f32⟩
  | .local .tc .vmem, ⟨10, _⟩ => ⟨S1x1, .f32⟩
  | .local .tc .vmem, ⟨11, _⟩ => ⟨S1x1x1000, .f32⟩
  | .local .tc .vmem, ⟨12, _⟩ => ⟨S1x1x1000, .f32⟩
  | .local .scVector .vmem, ⟨0, _⟩ => ⟨S100000, .f32⟩
  | .local .scVector .vmem, ⟨1, _⟩ => ⟨S25600, .i32⟩
  | .local .scVector .vmem, ⟨2, _⟩ => ⟨S16, .f32⟩
  | .local .scVector .vmem, ⟨3, _⟩ => ⟨S100000, .f32⟩
  | .local .scVector .vmem, ⟨4, _⟩ => ⟨S12800, .i32⟩
  | .local .scVector .vmem, ⟨5, _⟩ => ⟨S12800, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v0_scv : Ref sig .scVector := ⟨.hbm, 4, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev main_v7_scv : Ref sig .scVector := ⟨.hbm, 12, rfl⟩
abbrev main_v8_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg4_1 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

@[reducible] def k1_t1_loop : Scf.Loop 32 :=
  let c0_i32_2 : BitVec 32 := 0#32
  let c2_i32 : BitVec 32 := 2#32
  let v8 : BitVec 32 := Scalar.addi c0_i32_2 c2_i32
  let c1_i32 : BitVec 32 := 1#32
  ⟨c0_i32_2, v8, c1_i32⟩
def k1_off1 (i : grid1.Coords) (k1_t1 : Fin k1_t1_loop.trips) : Fin 1 → Nat :=
  let arg1 : BitVec 32 := BitVec.ofNat 32 (i 1).val
  let c51200_i32 : BitVec 32 := 51200#32
  let v1 : BitVec 32 := Scalar.muli arg1 c51200_i32
  let c0_i32_2 : BitVec 32 := 0#32
  let c1_i32 : BitVec 32 := 1#32
  let arg9 : BitVec 32 := Scf.iv c0_i32_2 c1_i32 k1_t1
  let c25600_i32 : BitVec 32 := 25600#32
  let v11 : BitVec 32 := Scalar.muli arg9 c25600_i32
  let v12 : BitVec 32 := Scalar.addi v1 v11
  ![v12.toNat]
@[reducible] def k1_t2_loop : Scf.Loop 32 :=
  let c0_i32_4 : BitVec 32 := 0#32
  let c200_i32 : BitVec 32 := 200#32
  let v13 : BitVec 32 := Scalar.addi c0_i32_4 c200_i32
  let c1_i32_5 : BitVec 32 := 1#32
  ⟨c0_i32_4, v13, c1_i32_5⟩
def k1_off2 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32 : BitVec 32 := 8#32
  let v15 : BitVec 32 := Scalar.muli arg11 c8_i32
  let c0_i32_7 : BitVec 32 := 0#32
  let v16 : BitVec 32 := Scalar.addi v15 c0_i32_7
  let c16_i32 : BitVec 32 := 16#32
  let v17 : BitVec 32 := Scalar.muli v16 c16_i32
  let v18 : Index := Scalar.indexCast v17
  ![v18.toNat]

def k1_chk1 (i : grid1.Coords) (v19 : IVec S16 32) : Prop :=
  (∀ (k1_h1 : k1_cond1 i = 1#1), ∀ a x, ((![v19] : Fin 1 → IVec S16 32) a x).toNat < S100000.size a)
instance k1_chk1.dec : ∀ (i : grid1.Coords) (v19 : IVec S16 32), Decidable (k1_chk1 i v19) := fun i v19 => decidable_of_iff' _ (Iff.of_eq (k1_chk1.eq_1 i v19))
theorem k1_idx1_inb : ∀ (i : grid1.Coords) (v19 : IVec S16 32) (k1_hw1 : k1_chk1 i v19), ∀ (k1_h1 : k1_cond1 i = 1#1), ∀ a x, ((![v19] : Fin 1 → IVec S16 32) a x).toNat < S100000.size a := fun i v19 k1_hw1 k1_h1 => k1_hw1 k1_h1
def k1_off3 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_8 : BitVec 32 := 8#32
  let v22 : BitVec 32 := Scalar.muli arg11 c8_i32_8
  let c1_i32_9 : BitVec 32 := 1#32
  let v23 : BitVec 32 := Scalar.addi v22 c1_i32_9
  let c16_i32_10 : BitVec 32 := 16#32
  let v24 : BitVec 32 := Scalar.muli v23 c16_i32_10
  let v25 : Index := Scalar.indexCast v24
  ![v25.toNat]

def k1_chk2 (i : grid1.Coords) (v26 : IVec S16 32) : Prop :=
  (∀ (k1_h1 : k1_cond1 i = 1#1), ∀ a x, ((![v26] : Fin 1 → IVec S16 32) a x).toNat < S100000.size a)
instance k1_chk2.dec : ∀ (i : grid1.Coords) (v26 : IVec S16 32), Decidable (k1_chk2 i v26) := fun i v26 => decidable_of_iff' _ (Iff.of_eq (k1_chk2.eq_1 i v26))
theorem k1_idx2_inb : ∀ (i : grid1.Coords) (v26 : IVec S16 32) (k1_hw2 : k1_chk2 i v26), ∀ (k1_h1 : k1_cond1 i = 1#1), ∀ a x, ((![v26] : Fin 1 → IVec S16 32) a x).toNat < S100000.size a := fun i v26 k1_hw2 k1_h1 => k1_hw2 k1_h1
def k1_off4 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_11 : BitVec 32 := 8#32
  let v29 : BitVec 32 := Scalar.muli arg11 c8_i32_11
  let c2_i32_12 : BitVec 32 := 2#32
  let v30 : BitVec 32 := Scalar.addi v29 c2_i32_12
  let c16_i32_13 : BitVec 32 := 16#32
  let v31 : BitVec 32 := Scalar.muli v30 c16_i32_13
  let v32 : Index := Scalar.indexCast v31
  ![v32.toNat]

def k1_chk3 (i : grid1.Coords) (v33 : IVec S16 32) : Prop :=
  (∀ (k1_h1 : k1_cond1 i = 1#1), ∀ a x, ((![v33] : Fin 1 → IVec S16 32) a x).toNat < S100000.size a)
instance k1_chk3.dec : ∀ (i : grid1.Coords) (v33 : IVec S16 32), Decidable (k1_chk3 i v33) := fun i v33 => decidable_of_iff' _ (Iff.of_eq (k1_chk3.eq_1 i v33))
theorem k1_idx3_inb : ∀ (i : grid1.Coords) (v33 : IVec S16 32) (k1_hw3 : k1_chk3 i v33), ∀ (k1_h1 : k1_cond1 i = 1#1), ∀ a x, ((![v33] : Fin 1 → IVec S16 32) a x).toNat < S100000.size a := fun i v33 k1_hw3 k1_h1 => k1_hw3 k1_h1
def k1_off5 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_14 : BitVec 32 := 8#32
  let v36 : BitVec 32 := Scalar.muli arg11 c8_i32_14
  let c3_i32 : BitVec 32 := 3#32
  let v37 : BitVec 32 := Scalar.addi v36 c3_i32
  let c16_i32_15 : BitVec 32 := 16#32
  let v38 : BitVec 32 := Scalar.muli v37 c16_i32_15
  let v39 : Index := Scalar.indexCast v38
  ![v39.toNat]

def k1_chk4 (i : grid1.Coords) (v40 : IVec S16 32) : Prop :=
  (∀ (k1_h1 : k1_cond1 i = 1#1), ∀ a x, ((![v40] : Fin 1 → IVec S16 32) a x).toNat < S100000.size a)
instance k1_chk4.dec : ∀ (i : grid1.Coords) (v40 : IVec S16 32), Decidable (k1_chk4 i v40) := fun i v40 => decidable_of_iff' _ (Iff.of_eq (k1_chk4.eq_1 i v40))
theorem k1_idx4_inb : ∀ (i : grid1.Coords) (v40 : IVec S16 32) (k1_hw4 : k1_chk4 i v40), ∀ (k1_h1 : k1_cond1 i = 1#1), ∀ a x, ((![v40] : Fin 1 → IVec S16 32) a x).toNat < S100000.size a := fun i v40 k1_hw4 k1_h1 => k1_hw4 k1_h1
def k1_off6 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_16 : BitVec 32 := 8#32
  let v43 : BitVec 32 := Scalar.muli arg11 c8_i32_16
  let c4_i32 : BitVec 32 := 4#32
  let v44 : BitVec 32 := Scalar.addi v43 c4_i32
  let c16_i32_17 : BitVec 32 := 16#32
  let v45 : BitVec 32 := Scalar.muli v44 c16_i32_17
  let v46 : Index := Scalar.indexCast v45
  ![v46.toNat]

def k1_chk5 (i : grid1.Coords) (v47 : IVec S16 32) : Prop :=
  (∀ (k1_h1 : k1_cond1 i = 1#1), ∀ a x, ((![v47] : Fin 1 → IVec S16 32) a x).toNat < S100000.size a)
instance k1_chk5.dec : ∀ (i : grid1.Coords) (v47 : IVec S16 32), Decidable (k1_chk5 i v47) := fun i v47 => decidable_of_iff' _ (Iff.of_eq (k1_chk5.eq_1 i v47))
theorem k1_idx5_inb : ∀ (i : grid1.Coords) (v47 : IVec S16 32) (k1_hw5 : k1_chk5 i v47), ∀ (k1_h1 : k1_cond1 i = 1#1), ∀ a x, ((![v47] : Fin 1 → IVec S16 32) a x).toNat < S100000.size a := fun i v47 k1_hw5 k1_h1 => k1_hw5 k1_h1
def k1_off7 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_18 : BitVec 32 := 8#32
  let v50 : BitVec 32 := Scalar.muli arg11 c8_i32_18
  let c5_i32 : BitVec 32 := 5#32
  let v51 : BitVec 32 := Scalar.addi v50 c5_i32
  let c16_i32_19 : BitVec 32 := 16#32
  let v52 : BitVec 32 := Scalar.muli v51 c16_i32_19
  let v53 : Index := Scalar.indexCast v52
  ![v53.toNat]

def k1_chk6 (i : grid1.Coords) (v54 : IVec S16 32) : Prop :=
  (∀ (k1_h1 : k1_cond1 i = 1#1), ∀ a x, ((![v54] : Fin 1 → IVec S16 32) a x).toNat < S100000.size a)
instance k1_chk6.dec : ∀ (i : grid1.Coords) (v54 : IVec S16 32), Decidable (k1_chk6 i v54) := fun i v54 => decidable_of_iff' _ (Iff.of_eq (k1_chk6.eq_1 i v54))
theorem k1_idx6_inb : ∀ (i : grid1.Coords) (v54 : IVec S16 32) (k1_hw6 : k1_chk6 i v54), ∀ (k1_h1 : k1_cond1 i = 1#1), ∀ a x, ((![v54] : Fin 1 → IVec S16 32) a x).toNat < S100000.size a := fun i v54 k1_hw6 k1_h1 => k1_hw6 k1_h1
def k1_off8 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_20 : BitVec 32 := 8#32
  let v57 : BitVec 32 := Scalar.muli arg11 c8_i32_20
  let c6_i32 : BitVec 32 := 6#32
  let v58 : BitVec 32 := Scalar.addi v57 c6_i32
  let c16_i32_21 : BitVec 32 := 16#32
  let v59 : BitVec 32 := Scalar.muli v58 c16_i32_21
  let v60 : Index := Scalar.indexCast v59
  ![v60.toNat]

def k1_chk7 (i : grid1.Coords) (v61 : IVec S16 32) : Prop :=
  (∀ (k1_h1 : k1_cond1 i = 1#1), ∀ a x, ((![v61] : Fin 1 → IVec S16 32) a x).toNat < S100000.size a)
instance k1_chk7.dec : ∀ (i : grid1.Coords) (v61 : IVec S16 32), Decidable (k1_chk7 i v61) := fun i v61 => decidable_of_iff' _ (Iff.of_eq (k1_chk7.eq_1 i v61))
theorem k1_idx7_inb : ∀ (i : grid1.Coords) (v61 : IVec S16 32) (k1_hw7 : k1_chk7 i v61), ∀ (k1_h1 : k1_cond1 i = 1#1), ∀ a x, ((![v61] : Fin 1 → IVec S16 32) a x).toNat < S100000.size a := fun i v61 k1_hw7 k1_h1 => k1_hw7 k1_h1
def k1_off9 (k1_t2 : Fin k1_t2_loop.trips) : Fin 1 → Nat :=
  let c0_i32_4 : BitVec 32 := 0#32
  let c1_i32_5 : BitVec 32 := 1#32
  let arg11 : BitVec 32 := Scf.iv c0_i32_4 c1_i32_5 k1_t2
  let c8_i32_22 : BitVec 32 := 8#32
  let v64 : BitVec 32 := Scalar.muli arg11 c8_i32_22
  let c7_i32 : BitVec 32 := 7#32
  let v65 : BitVec 32 := Scalar.addi v64 c7_i32
  let c16_i32_23 : BitVec 32 := 16#32
  let v66 : BitVec 32 := Scalar.muli v65 c16_i32_23
  let v67 : Index := Scalar.indexCast v66
  ![v67.toNat]

def k1_chk8 (i : grid1.Coords) (v68 : IVec S16 32) : Prop :=
  (∀ (k1_h1 : k1_cond1 i = 1#1), ∀ a x, ((![v68] : Fin 1 → IVec S16 32) a x).toNat < S100000.size a)
instance k1_chk8.dec : ∀ (i : grid1.Coords) (v68 : IVec S16 32), Decidable (k1_chk8 i v68) := fun i v68 => decidable_of_iff' _ (Iff.of_eq (k1_chk8.eq_1 i v68))
theorem k1_idx8_inb : ∀ (i : grid1.Coords) (v68 : IVec S16 32) (k1_hw8 : k1_chk8 i v68), ∀ (k1_h1 : k1_cond1 i = 1#1), ∀ a x, ((![v68] : Fin 1 → IVec S16 32) a x).toNat < S100000.size a := fun i v68 k1_hw8 k1_h1 => k1_hw8 k1_h1
def k1_cond2 (i : grid1.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v4 : BitVec 1 := Scalar.xori v0 v_true
  let v5 : BitVec 32 := Scalar.extui v4
  let c0_i32_1 : BitVec 32 := 0#32
  let v6 : BitVec 1 := Scalar.cmpi .ne v5 c0_i32_1
  v6

@[reducible] def k1_t3_loop : Scf.Loop 32 :=
  let c0_i32_2 : BitVec 32 := 0#32
  let c2_i32 : BitVec 32 := 2#32
  let v8 : BitVec 32 := Scalar.addi c0_i32_2 c2_i32
  let c1_i32 : BitVec 32 := 1#32
  ⟨c0_i32_2, v8, c1_i32⟩
def k1_off10 (i : grid1.Coords) (k1_t3 : Fin k1_t3_loop.trips) : Fin 1 → Nat :=
  let arg1 : BitVec 32 := BitVec.ofNat 32 (i 1).val
  let c51200_i32 : BitVec 32 := 51200#32
  let v1 : BitVec 32 := Scalar.muli arg1 c51200_i32
  let c0_i32_2 : BitVec 32 := 0#32
  let c1_i32 : BitVec 32 := 1#32
  let arg9 : BitVec 32 := Scf.iv c0_i32_2 c1_i32 k1_t3
  let c25600_i32 : BitVec 32 := 25600#32
  let v11 : BitVec 32 := Scalar.muli arg9 c25600_i32
  let v12 : BitVec 32 := Scalar.addi v1 v11
  ![v12.toNat]
@[reducible] def k1_t4_loop : Scf.Loop 32 :=
  let c0_i32_4 : BitVec 32 := 0#32
  let c200_i32 : BitVec 32 := 200#32
  let v13 : BitVec 32 := Scalar.addi c0_i32_4 c200_i32
  let c1_i32_5 : BitVec 32 := 1#32
  ⟨c0_i32_4, v13, c1_i32_5⟩
def k1_off11 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32 : BitVec 32 := 8#32
  let v15 : BitVec 32 := Scalar.muli arg11 c8_i32
  let c0_i32_7 : BitVec 32 := 0#32
  let v16 : BitVec 32 := Scalar.addi v15 c0_i32_7
  let c16_i32 : BitVec 32 := 16#32
  let v17 : BitVec 32 := Scalar.muli v16 c16_i32
  let v18 : Index := Scalar.indexCast v17
  ![v18.toNat]

def k1_chk9 (i : grid1.Coords) (v19 : IVec S16 32) : Prop :=
  (∀ (k1_h2 : k1_cond2 i = 1#1), ∀ a x, ((![v19] : Fin 1 → IVec S16 32) a x).toNat < S100000.size a)
instance k1_chk9.dec : ∀ (i : grid1.Coords) (v19 : IVec S16 32), Decidable (k1_chk9 i v19) := fun i v19 => decidable_of_iff' _ (Iff.of_eq (k1_chk9.eq_1 i v19))
theorem k1_idx9_inb : ∀ (i : grid1.Coords) (v19 : IVec S16 32) (k1_hw9 : k1_chk9 i v19), ∀ (k1_h2 : k1_cond2 i = 1#1), ∀ a x, ((![v19] : Fin 1 → IVec S16 32) a x).toNat < S100000.size a := fun i v19 k1_hw9 k1_h2 => k1_hw9 k1_h2
def k1_off12 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_8 : BitVec 32 := 8#32
  let v22 : BitVec 32 := Scalar.muli arg11 c8_i32_8
  let c1_i32_9 : BitVec 32 := 1#32
  let v23 : BitVec 32 := Scalar.addi v22 c1_i32_9
  let c16_i32_10 : BitVec 32 := 16#32
  let v24 : BitVec 32 := Scalar.muli v23 c16_i32_10
  let v25 : Index := Scalar.indexCast v24
  ![v25.toNat]

def k1_chk10 (i : grid1.Coords) (v26 : IVec S16 32) : Prop :=
  (∀ (k1_h2 : k1_cond2 i = 1#1), ∀ a x, ((![v26] : Fin 1 → IVec S16 32) a x).toNat < S100000.size a)
instance k1_chk10.dec : ∀ (i : grid1.Coords) (v26 : IVec S16 32), Decidable (k1_chk10 i v26) := fun i v26 => decidable_of_iff' _ (Iff.of_eq (k1_chk10.eq_1 i v26))
theorem k1_idx10_inb : ∀ (i : grid1.Coords) (v26 : IVec S16 32) (k1_hw10 : k1_chk10 i v26), ∀ (k1_h2 : k1_cond2 i = 1#1), ∀ a x, ((![v26] : Fin 1 → IVec S16 32) a x).toNat < S100000.size a := fun i v26 k1_hw10 k1_h2 => k1_hw10 k1_h2
def k1_off13 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_11 : BitVec 32 := 8#32
  let v29 : BitVec 32 := Scalar.muli arg11 c8_i32_11
  let c2_i32_12 : BitVec 32 := 2#32
  let v30 : BitVec 32 := Scalar.addi v29 c2_i32_12
  let c16_i32_13 : BitVec 32 := 16#32
  let v31 : BitVec 32 := Scalar.muli v30 c16_i32_13
  let v32 : Index := Scalar.indexCast v31
  ![v32.toNat]

def k1_chk11 (i : grid1.Coords) (v33 : IVec S16 32) : Prop :=
  (∀ (k1_h2 : k1_cond2 i = 1#1), ∀ a x, ((![v33] : Fin 1 → IVec S16 32) a x).toNat < S100000.size a)
instance k1_chk11.dec : ∀ (i : grid1.Coords) (v33 : IVec S16 32), Decidable (k1_chk11 i v33) := fun i v33 => decidable_of_iff' _ (Iff.of_eq (k1_chk11.eq_1 i v33))
theorem k1_idx11_inb : ∀ (i : grid1.Coords) (v33 : IVec S16 32) (k1_hw11 : k1_chk11 i v33), ∀ (k1_h2 : k1_cond2 i = 1#1), ∀ a x, ((![v33] : Fin 1 → IVec S16 32) a x).toNat < S100000.size a := fun i v33 k1_hw11 k1_h2 => k1_hw11 k1_h2
def k1_off14 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_14 : BitVec 32 := 8#32
  let v36 : BitVec 32 := Scalar.muli arg11 c8_i32_14
  let c3_i32 : BitVec 32 := 3#32
  let v37 : BitVec 32 := Scalar.addi v36 c3_i32
  let c16_i32_15 : BitVec 32 := 16#32
  let v38 : BitVec 32 := Scalar.muli v37 c16_i32_15
  let v39 : Index := Scalar.indexCast v38
  ![v39.toNat]

def k1_chk12 (i : grid1.Coords) (v40 : IVec S16 32) : Prop :=
  (∀ (k1_h2 : k1_cond2 i = 1#1), ∀ a x, ((![v40] : Fin 1 → IVec S16 32) a x).toNat < S100000.size a)
instance k1_chk12.dec : ∀ (i : grid1.Coords) (v40 : IVec S16 32), Decidable (k1_chk12 i v40) := fun i v40 => decidable_of_iff' _ (Iff.of_eq (k1_chk12.eq_1 i v40))
theorem k1_idx12_inb : ∀ (i : grid1.Coords) (v40 : IVec S16 32) (k1_hw12 : k1_chk12 i v40), ∀ (k1_h2 : k1_cond2 i = 1#1), ∀ a x, ((![v40] : Fin 1 → IVec S16 32) a x).toNat < S100000.size a := fun i v40 k1_hw12 k1_h2 => k1_hw12 k1_h2
def k1_off15 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_16 : BitVec 32 := 8#32
  let v43 : BitVec 32 := Scalar.muli arg11 c8_i32_16
  let c4_i32 : BitVec 32 := 4#32
  let v44 : BitVec 32 := Scalar.addi v43 c4_i32
  let c16_i32_17 : BitVec 32 := 16#32
  let v45 : BitVec 32 := Scalar.muli v44 c16_i32_17
  let v46 : Index := Scalar.indexCast v45
  ![v46.toNat]

def k1_chk13 (i : grid1.Coords) (v47 : IVec S16 32) : Prop :=
  (∀ (k1_h2 : k1_cond2 i = 1#1), ∀ a x, ((![v47] : Fin 1 → IVec S16 32) a x).toNat < S100000.size a)
instance k1_chk13.dec : ∀ (i : grid1.Coords) (v47 : IVec S16 32), Decidable (k1_chk13 i v47) := fun i v47 => decidable_of_iff' _ (Iff.of_eq (k1_chk13.eq_1 i v47))
theorem k1_idx13_inb : ∀ (i : grid1.Coords) (v47 : IVec S16 32) (k1_hw13 : k1_chk13 i v47), ∀ (k1_h2 : k1_cond2 i = 1#1), ∀ a x, ((![v47] : Fin 1 → IVec S16 32) a x).toNat < S100000.size a := fun i v47 k1_hw13 k1_h2 => k1_hw13 k1_h2
def k1_off16 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_18 : BitVec 32 := 8#32
  let v50 : BitVec 32 := Scalar.muli arg11 c8_i32_18
  let c5_i32 : BitVec 32 := 5#32
  let v51 : BitVec 32 := Scalar.addi v50 c5_i32
  let c16_i32_19 : BitVec 32 := 16#32
  let v52 : BitVec 32 := Scalar.muli v51 c16_i32_19
  let v53 : Index := Scalar.indexCast v52
  ![v53.toNat]

def k1_chk14 (i : grid1.Coords) (v54 : IVec S16 32) : Prop :=
  (∀ (k1_h2 : k1_cond2 i = 1#1), ∀ a x, ((![v54] : Fin 1 → IVec S16 32) a x).toNat < S100000.size a)
instance k1_chk14.dec : ∀ (i : grid1.Coords) (v54 : IVec S16 32), Decidable (k1_chk14 i v54) := fun i v54 => decidable_of_iff' _ (Iff.of_eq (k1_chk14.eq_1 i v54))
theorem k1_idx14_inb : ∀ (i : grid1.Coords) (v54 : IVec S16 32) (k1_hw14 : k1_chk14 i v54), ∀ (k1_h2 : k1_cond2 i = 1#1), ∀ a x, ((![v54] : Fin 1 → IVec S16 32) a x).toNat < S100000.size a := fun i v54 k1_hw14 k1_h2 => k1_hw14 k1_h2
def k1_off17 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_20 : BitVec 32 := 8#32
  let v57 : BitVec 32 := Scalar.muli arg11 c8_i32_20
  let c6_i32 : BitVec 32 := 6#32
  let v58 : BitVec 32 := Scalar.addi v57 c6_i32
  let c16_i32_21 : BitVec 32 := 16#32
  let v59 : BitVec 32 := Scalar.muli v58 c16_i32_21
  let v60 : Index := Scalar.indexCast v59
  ![v60.toNat]

def k1_chk15 (i : grid1.Coords) (v61 : IVec S16 32) : Prop :=
  (∀ (k1_h2 : k1_cond2 i = 1#1), ∀ a x, ((![v61] : Fin 1 → IVec S16 32) a x).toNat < S100000.size a)
instance k1_chk15.dec : ∀ (i : grid1.Coords) (v61 : IVec S16 32), Decidable (k1_chk15 i v61) := fun i v61 => decidable_of_iff' _ (Iff.of_eq (k1_chk15.eq_1 i v61))
theorem k1_idx15_inb : ∀ (i : grid1.Coords) (v61 : IVec S16 32) (k1_hw15 : k1_chk15 i v61), ∀ (k1_h2 : k1_cond2 i = 1#1), ∀ a x, ((![v61] : Fin 1 → IVec S16 32) a x).toNat < S100000.size a := fun i v61 k1_hw15 k1_h2 => k1_hw15 k1_h2
def k1_off18 (k1_t4 : Fin k1_t4_loop.trips) : Fin 1 → Nat :=
  let c0_i32_4 : BitVec 32 := 0#32
  let c1_i32_5 : BitVec 32 := 1#32
  let arg11 : BitVec 32 := Scf.iv c0_i32_4 c1_i32_5 k1_t4
  let c8_i32_22 : BitVec 32 := 8#32
  let v64 : BitVec 32 := Scalar.muli arg11 c8_i32_22
  let c7_i32 : BitVec 32 := 7#32
  let v65 : BitVec 32 := Scalar.addi v64 c7_i32
  let c16_i32_23 : BitVec 32 := 16#32
  let v66 : BitVec 32 := Scalar.muli v65 c16_i32_23
  let v67 : Index := Scalar.indexCast v66
  ![v67.toNat]

def k1_chk16 (i : grid1.Coords) (v68 : IVec S16 32) : Prop :=
  (∀ (k1_h2 : k1_cond2 i = 1#1), ∀ a x, ((![v68] : Fin 1 → IVec S16 32) a x).toNat < S100000.size a)
instance k1_chk16.dec : ∀ (i : grid1.Coords) (v68 : IVec S16 32), Decidable (k1_chk16 i v68) := fun i v68 => decidable_of_iff' _ (Iff.of_eq (k1_chk16.eq_1 i v68))
theorem k1_idx16_inb : ∀ (i : grid1.Coords) (v68 : IVec S16 32) (k1_hw16 : k1_chk16 i v68), ∀ (k1_h2 : k1_cond2 i = 1#1), ∀ a x, ((![v68] : Fin 1 → IVec S16 32) a x).toNat < S100000.size a := fun i v68 k1_hw16 k1_h2 => k1_hw16 k1_h2
def k1_off19 (i : grid1.Coords) : Fin 3 → Nat :=
  let arg0 : BitVec 32 := BitVec.ofNat 32 (i 0).val
  let arg1 : BitVec 32 := BitVec.ofNat 32 (i 1).val
  let c0_i32_2_r4 : BitVec 32 := 0#32
  ![arg0.toNat, arg1.toNat, 0]
abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

@[reducible] def k3_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k3_t1
  let c12800_i32 : BitVec 32 := 12800#32
  let v5 : BitVec 32 := Scalar.muli arg8 c12800_i32
  let v6 : BitVec 32 := Scalar.addi v2 v5
  ![v6.toNat]
@[reducible] def k3_t2_loop : Scf.Loop 32 :=
  let c0_i32_4 : BitVec 32 := 0#32
  let c100_i32 : BitVec 32 := 100#32
  let v7 : BitVec 32 := Scalar.addi c0_i32_4 c100_i32
  let c1_i32_5 : BitVec 32 := 1#32
  ⟨c0_i32_4, v7, c1_i32_5⟩
def k3_off2 (k3_t2 : Fin k3_t2_loop.trips) : Fin 1 → Nat :=
  let c0_i32_4 : BitVec 32 := 0#32
  let c1_i32_5 : BitVec 32 := 1#32
  let arg10 : BitVec 32 := Scf.iv c0_i32_4 c1_i32_5 k3_t2
  let c8_i32 : BitVec 32 := 8#32
  let v9 : BitVec 32 := Scalar.muli arg10 c8_i32
  let c0_i32_8 : BitVec 32 := 0#32
  let v10 : BitVec 32 := Scalar.addi v9 c0_i32_8
  let c16_i32 : BitVec 32 := 16#32
  let v11 : BitVec 32 := Scalar.muli v10 c16_i32
  let v12 : Index := Scalar.indexCast v11
  ![v12.toNat]

def k3_chk1 (v13 : IVec S16 32) : Prop :=
  (∀ a x, ((![v13] : Fin 1 → IVec S16 32) a x).toNat < S100000.size a)
instance k3_chk1.dec : ∀ (v13 : IVec S16 32), Decidable (k3_chk1 v13) := fun v13 => decidable_of_iff' _ (Iff.of_eq (k3_chk1.eq_1 v13))
theorem k3_idx1_inb : ∀ (v13 : IVec S16 32) (k3_hw1 : k3_chk1 v13), ∀ a x, ((![v13] : Fin 1 → IVec S16 32) a x).toNat < S100000.size a := fun v13 k3_hw1 => k3_hw1
def k3_off3 (k3_t2 : Fin k3_t2_loop.trips) (c0_i32_8 : BitVec 32) : Fin 1 → Nat :=
  let c0_i32_4 : BitVec 32 := 0#32
  let c1_i32_5 : BitVec 32 := 1#32
  let arg10 : BitVec 32 := Scf.iv c0_i32_4 c1_i32_5 k3_t2
  let c8_i32 : BitVec 32 := 8#32
  let v9 : BitVec 32 := Scalar.muli arg10 c8_i32
  let v10 : BitVec 32 := Scalar.addi v9 c0_i32_8
  let c16_i32 : BitVec 32 := 16#32
  let v11 : BitVec 32 := Scalar.muli v10 c16_i32
  let v15 : Index := Scalar.indexCast v11
  ![v15.toNat]

def k3_chk2 (v21 : IVec S16 32) : Prop :=
  (∀ a x, ((![v21] : Fin 1 → IVec S16 32) a x).toNat < S100000.size a)
instance k3_chk2.dec : ∀ (v21 : IVec S16 32), Decidable (k3_chk2 v21) := fun v21 => decidable_of_iff' _ (Iff.of_eq (k3_chk2.eq_1 v21))
theorem k3_idx2_inb : ∀ (v21 : IVec S16 32) (k3_hw2 : k3_chk2 v21), ∀ a x, ((![v21] : Fin 1 → IVec S16 32) a x).toNat < S100000.size a := fun v21 k3_hw2 => k3_hw2
def k3_off4 (k3_t2 : Fin k3_t2_loop.trips) (c1_i32_10 : BitVec 32) : Fin 1 → Nat :=
  let c0_i32_4 : BitVec 32 := 0#32
  let c1_i32_5 : BitVec 32 := 1#32
  let arg10 : BitVec 32 := Scf.iv c0_i32_4 c1_i32_5 k3_t2
  let c8_i32_9 : BitVec 32 := 8#32
  let v17 : BitVec 32 := Scalar.muli arg10 c8_i32_9
  let v18 : BitVec 32 := Scalar.addi v17 c1_i32_10
  let c16_i32_11 : BitVec 32 := 16#32
  let v19 : BitVec 32 := Scalar.muli v18 c16_i32_11
  let v23 : Index := Scalar.indexCast v19
  ![v23.toNat]

def k3_chk3 (v29 : IVec S16 32) : Prop :=
  (∀ a x, ((![v29] : Fin 1 → IVec S16 32) a x).toNat < S100000.size a)
instance k3_chk3.dec : ∀ (v29 : IVec S16 32), Decidable (k3_chk3 v29) := fun v29 => decidable_of_iff' _ (Iff.of_eq (k3_chk3.eq_1 v29))
theorem k3_idx3_inb : ∀ (v29 : IVec S16 32) (k3_hw3 : k3_chk3 v29), ∀ a x, ((![v29] : Fin 1 → IVec S16 32) a x).toNat < S100000.size a := fun v29 k3_hw3 => k3_hw3
def k3_off5 (k3_t2 : Fin k3_t2_loop.trips) (c2_i32_13 : BitVec 32) : Fin 1 → Nat :=
  let c0_i32_4 : BitVec 32 := 0#32
  let c1_i32_5 : BitVec 32 := 1#32
  let arg10 : BitVec 32 := Scf.iv c0_i32_4 c1_i32_5 k3_t2
  let c8_i32_12 : BitVec 32 := 8#32
  let v25 : BitVec 32 := Scalar.muli arg10 c8_i32_12
  let v26 : BitVec 32 := Scalar.addi v25 c2_i32_13
  let c16_i32_14 : BitVec 32 := 16#32
  let v27 : BitVec 32 := Scalar.muli v26 c16_i32_14
  let v31 : Index := Scalar.indexCast v27
  ![v31.toNat]

def k3_chk4 (v37 : IVec S16 32) : Prop :=
  (∀ a x, ((![v37] : Fin 1 → IVec S16 32) a x).toNat < S100000.size a)
instance k3_chk4.dec : ∀ (v37 : IVec S16 32), Decidable (k3_chk4 v37) := fun v37 => decidable_of_iff' _ (Iff.of_eq (k3_chk4.eq_1 v37))
theorem k3_idx4_inb : ∀ (v37 : IVec S16 32) (k3_hw4 : k3_chk4 v37), ∀ a x, ((![v37] : Fin 1 → IVec S16 32) a x).toNat < S100000.size a := fun v37 k3_hw4 => k3_hw4
def k3_off6 (k3_t2 : Fin k3_t2_loop.trips) (c3_i32 : BitVec 32) : Fin 1 → Nat :=
  let c0_i32_4 : BitVec 32 := 0#32
  let c1_i32_5 : BitVec 32 := 1#32
  let arg10 : BitVec 32 := Scf.iv c0_i32_4 c1_i32_5 k3_t2
  let c8_i32_15 : BitVec 32 := 8#32
  let v33 : BitVec 32 := Scalar.muli arg10 c8_i32_15
  let v34 : BitVec 32 := Scalar.addi v33 c3_i32
  let c16_i32_16 : BitVec 32 := 16#32
  let v35 : BitVec 32 := Scalar.muli v34 c16_i32_16
  let v39 : Index := Scalar.indexCast v35
  ![v39.toNat]

def k3_chk5 (v45 : IVec S16 32) : Prop :=
  (∀ a x, ((![v45] : Fin 1 → IVec S16 32) a x).toNat < S100000.size a)
instance k3_chk5.dec : ∀ (v45 : IVec S16 32), Decidable (k3_chk5 v45) := fun v45 => decidable_of_iff' _ (Iff.of_eq (k3_chk5.eq_1 v45))
theorem k3_idx5_inb : ∀ (v45 : IVec S16 32) (k3_hw5 : k3_chk5 v45), ∀ a x, ((![v45] : Fin 1 → IVec S16 32) a x).toNat < S100000.size a := fun v45 k3_hw5 => k3_hw5
def k3_off7 (k3_t2 : Fin k3_t2_loop.trips) (c4_i32 : BitVec 32) : Fin 1 → Nat :=
  let c0_i32_4 : BitVec 32 := 0#32
  let c1_i32_5 : BitVec 32 := 1#32
  let arg10 : BitVec 32 := Scf.iv c0_i32_4 c1_i32_5 k3_t2
  let c8_i32_17 : BitVec 32 := 8#32
  let v41 : BitVec 32 := Scalar.muli arg10 c8_i32_17
  let v42 : BitVec 32 := Scalar.addi v41 c4_i32
  let c16_i32_18 : BitVec 32 := 16#32
  let v43 : BitVec 32 := Scalar.muli v42 c16_i32_18
  let v47 : Index := Scalar.indexCast v43
  ![v47.toNat]

def k3_chk6 (v53 : IVec S16 32) : Prop :=
  (∀ a x, ((![v53] : Fin 1 → IVec S16 32) a x).toNat < S100000.size a)
instance k3_chk6.dec : ∀ (v53 : IVec S16 32), Decidable (k3_chk6 v53) := fun v53 => decidable_of_iff' _ (Iff.of_eq (k3_chk6.eq_1 v53))
theorem k3_idx6_inb : ∀ (v53 : IVec S16 32) (k3_hw6 : k3_chk6 v53), ∀ a x, ((![v53] : Fin 1 → IVec S16 32) a x).toNat < S100000.size a := fun v53 k3_hw6 => k3_hw6
def k3_off8 (k3_t2 : Fin k3_t2_loop.trips) (c5_i32 : BitVec 32) : Fin 1 → Nat :=
  let c0_i32_4 : BitVec 32 := 0#32
  let c1_i32_5 : BitVec 32 := 1#32
  let arg10 : BitVec 32 := Scf.iv c0_i32_4 c1_i32_5 k3_t2
  let c8_i32_19 : BitVec 32 := 8#32
  let v49 : BitVec 32 := Scalar.muli arg10 c8_i32_19
  let v50 : BitVec 32 := Scalar.addi v49 c5_i32
  let c16_i32_20 : BitVec 32 := 16#32
  let v51 : BitVec 32 := Scalar.muli v50 c16_i32_20
  let v55 : Index := Scalar.indexCast v51
  ![v55.toNat]

def k3_chk7 (v61 : IVec S16 32) : Prop :=
  (∀ a x, ((![v61] : Fin 1 → IVec S16 32) a x).toNat < S100000.size a)
instance k3_chk7.dec : ∀ (v61 : IVec S16 32), Decidable (k3_chk7 v61) := fun v61 => decidable_of_iff' _ (Iff.of_eq (k3_chk7.eq_1 v61))
theorem k3_idx7_inb : ∀ (v61 : IVec S16 32) (k3_hw7 : k3_chk7 v61), ∀ a x, ((![v61] : Fin 1 → IVec S16 32) a x).toNat < S100000.size a := fun v61 k3_hw7 => k3_hw7
def k3_off9 (k3_t2 : Fin k3_t2_loop.trips) (c6_i32 : BitVec 32) : Fin 1 → Nat :=
  let c0_i32_4 : BitVec 32 := 0#32
  let c1_i32_5 : BitVec 32 := 1#32
  let arg10 : BitVec 32 := Scf.iv c0_i32_4 c1_i32_5 k3_t2
  let c8_i32_21 : BitVec 32 := 8#32
  let v57 : BitVec 32 := Scalar.muli arg10 c8_i32_21
  let v58 : BitVec 32 := Scalar.addi v57 c6_i32
  let c16_i32_22 : BitVec 32 := 16#32
  let v59 : BitVec 32 := Scalar.muli v58 c16_i32_22
  let v63 : Index := Scalar.indexCast v59
  ![v63.toNat]

def k3_chk8 (v69 : IVec S16 32) : Prop :=
  (∀ a x, ((![v69] : Fin 1 → IVec S16 32) a x).toNat < S100000.size a)
instance k3_chk8.dec : ∀ (v69 : IVec S16 32), Decidable (k3_chk8 v69) := fun v69 => decidable_of_iff' _ (Iff.of_eq (k3_chk8.eq_1 v69))
theorem k3_idx8_inb : ∀ (v69 : IVec S16 32) (k3_hw8 : k3_chk8 v69), ∀ a x, ((![v69] : Fin 1 → IVec S16 32) a x).toNat < S100000.size a := fun v69 k3_hw8 => k3_hw8
def k3_off10 (k3_t2 : Fin k3_t2_loop.trips) : Fin 1 → Nat :=
  let c0_i32_4 : BitVec 32 := 0#32
  let c1_i32_5 : BitVec 32 := 1#32
  let arg10 : BitVec 32 := Scf.iv c0_i32_4 c1_i32_5 k3_t2
  let c8_i32_23 : BitVec 32 := 8#32
  let v65 : BitVec 32 := Scalar.muli arg10 c8_i32_23
  let c7_i32 : BitVec 32 := 7#32
  let v66 : BitVec 32 := Scalar.addi v65 c7_i32
  let c16_i32_24 : BitVec 32 := 16#32
  let v67 : BitVec 32 := Scalar.muli v66 c16_i32_24
  let v71 : Index := Scalar.indexCast v67
  ![v71.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S4096x200_S819200 : S4096x200.ShapeCasts S819200
  inb_S1000x128_S1000x128_0_0 : ∀ a, (![0, 0] : Fin 2 → Nat) a + S1000x128.size a ≤ S1000x128.size a
  h_S1000x128 : 0 < S1000x128.numel
  reduces_S1000x128_S1000 : S1000x128.Reduces [1] S1000
  shapeCasts_S1000_S1x1x1000 : S1000.ShapeCasts S1x1x1000
  inb_S1x1x1000_S1x1x1000_0_0_0 : ∀ a, (![0, 0, 0] : Fin 3 → Nat) a + S1x1x1000.size a ≤ S1x1x1000.size a
  h_S1x1x1000 : 0 < S1x1x1000.numel
  shapeCasts_S100x1x1000_S100000 : S100x1x1000.ShapeCasts S100000
  h_S16 : 0 < S16.numel
  h_S100000 : 0 < S100000.numel
  inb_S16_S16_0 : ∀ a, (![0] : Fin 1 → Nat) a + S16.size a ≤ S16.size a
  squeezes_S1x1x16_S16 : S1x1x16.Squeezes S16
  shapeCasts_S1_S1x1 : S1.ShapeCasts S1x1
  inb_S2x16x16_S2x16x16_0_0_0 : ∀ a, (![0, 0, 0] : Fin 3 → Nat) a + S2x16x16.size a ≤ S2x16x16.size a
  h_S2x16x16 : 0 < S2x16x16.numel
  shapeCasts_S2x16x16_S2x16x16 : S2x16x16.ShapeCasts S2x16x16
  slices_S2x16x16_o0_0_0_S1x16x16 : S2x16x16.Slices ![0, 0, 0] S1x16x16
  shapeCasts_S1x16x16_S16x16 : S1x16x16.ShapeCasts S16x16
  shapeCasts_S16x16_S1x16x16 : S16x16.ShapeCasts S1x16x16
  reduces_S1x16x16_S1 : S1x16x16.Reduces [1, 2] S1
  shapeCasts_S1_S1x1x1 : S1.ShapeCasts S1x1x1
  inpos_S1x1x1_p0_0_0 : ∀ a, (![0, 0, 0] : Fin 3 → Nat) a < S1x1x1.size a
  slices_S2x16x16_o1_0_0_S1x16x16 : S2x16x16.Slices ![1, 0, 0] S1x16x16
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S819200_S4096x200x1 : S819200.ShapeCasts S4096x200x1
  hcc1_scoped0 : 6 + S_.numel ≤ 21
  hcc1_scoped1 : 7 + S_.numel ≤ 21
  hcc1_scoped2 : 8 + S_.numel ≤ 21
  hcc1_scoped3 : 9 + S_.numel ≤ 21
  hcc1_scoped4 : 10 + S_.numel ≤ 21
  hcc3_scoped0 : 18 + S_.numel ≤ 21
  hcc3_scoped1 : 19 + S_.numel ≤ 21
  hcc3_scoped2 : 20 + S_.numel ≤ 21
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1000.size a ≤ S100x1x1000.size a
  hwx0_1 : ∀ i : grid0.Coords, EltTy.bits .f32 = 32 ∨ (Rect.block (s := S100x1x1000) S1x1x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1000.size a ≤ S100x1x1000.size a
  hwx0_2 : ∀ i : grid0.Coords, EltTy.bits .f32 = 32 ∨ (Rect.block (s := S100x1x1000) S1x1x1000.size (cc0_transform_2 i) (hinb0_2 i)).WholeWords (EltTy.packing .f32)
  hcore1 : grid1.bound 0 ≤ τ.nSC
  hsub1 : grid1.bound 1 ≤ τ.nSub
  k1_t1_ok : ∀ i : grid1.Coords, ∀ (k1_h1 : k1_cond1 i = 1#1), k1_t1_loop.OK
  k1_off1_inb : ∀ (i : grid1.Coords) (k1_t1 : Fin k1_t1_loop.trips), ∀ (k1_h1 : k1_cond1 i = 1#1), ∀ a, (k1_off1 i k1_t1) a + S25600.size a ≤ S819200.size a
  k1_t2_ok : ∀ i : grid1.Coords, ∀ (k1_h1 : k1_cond1 i = 1#1), k1_t2_loop.OK
  k1_off2_inb : ∀ (i : grid1.Coords) (k1_t2 : Fin k1_t2_loop.trips), ∀ (k1_h1 : k1_cond1 i = 1#1), ∀ a, (k1_off2 k1_t2) a + S16.size a ≤ S25600.size a
  k1_off3_inb : ∀ (i : grid1.Coords) (k1_t2 : Fin k1_t2_loop.trips), ∀ (k1_h1 : k1_cond1 i = 1#1), ∀ a, (k1_off3 k1_t2) a + S16.size a ≤ S25600.size a
  k1_off4_inb : ∀ (i : grid1.Coords) (k1_t2 : Fin k1_t2_loop.trips), ∀ (k1_h1 : k1_cond1 i = 1#1), ∀ a, (k1_off4 k1_t2) a + S16.size a ≤ S25600.size a
  k1_off5_inb : ∀ (i : grid1.Coords) (k1_t2 : Fin k1_t2_loop.trips), ∀ (k1_h1 : k1_cond1 i = 1#1), ∀ a, (k1_off5 k1_t2) a + S16.size a ≤ S25600.size a
  k1_off6_inb : ∀ (i : grid1.Coords) (k1_t2 : Fin k1_t2_loop.trips), ∀ (k1_h1 : k1_cond1 i = 1#1), ∀ a, (k1_off6 k1_t2) a + S16.size a ≤ S25600.size a
  k1_off7_inb : ∀ (i : grid1.Coords) (k1_t2 : Fin k1_t2_loop.trips), ∀ (k1_h1 : k1_cond1 i = 1#1), ∀ a, (k1_off7 k1_t2) a + S16.size a ≤ S25600.size a
  k1_off8_inb : ∀ (i : grid1.Coords) (k1_t2 : Fin k1_t2_loop.trips), ∀ (k1_h1 : k1_cond1 i = 1#1), ∀ a, (k1_off8 k1_t2) a + S16.size a ≤ S25600.size a
  k1_off9_inb : ∀ (i : grid1.Coords) (k1_t2 : Fin k1_t2_loop.trips), ∀ (k1_h1 : k1_cond1 i = 1#1), ∀ a, (k1_off9 k1_t2) a + S16.size a ≤ S25600.size a
  k1_t3_ok : ∀ i : grid1.Coords, ∀ (k1_h2 : k1_cond2 i = 1#1), k1_t3_loop.OK
  k1_off10_inb : ∀ (i : grid1.Coords) (k1_t3 : Fin k1_t3_loop.trips), ∀ (k1_h2 : k1_cond2 i = 1#1), ∀ a, (k1_off10 i k1_t3) a + S25600.size a ≤ S819200.size a
  k1_t4_ok : ∀ i : grid1.Coords, ∀ (k1_h2 : k1_cond2 i = 1#1), k1_t4_loop.OK
  k1_off11_inb : ∀ (i : grid1.Coords) (k1_t4 : Fin k1_t4_loop.trips), ∀ (k1_h2 : k1_cond2 i = 1#1), ∀ a, (k1_off11 k1_t4) a + S16.size a ≤ S25600.size a
  k1_off12_inb : ∀ (i : grid1.Coords) (k1_t4 : Fin k1_t4_loop.trips), ∀ (k1_h2 : k1_cond2 i = 1#1), ∀ a, (k1_off12 k1_t4) a + S16.size a ≤ S25600.size a
  k1_off13_inb : ∀ (i : grid1.Coords) (k1_t4 : Fin k1_t4_loop.trips), ∀ (k1_h2 : k1_cond2 i = 1#1), ∀ a, (k1_off13 k1_t4) a + S16.size a ≤ S25600.size a
  k1_off14_inb : ∀ (i : grid1.Coords) (k1_t4 : Fin k1_t4_loop.trips), ∀ (k1_h2 : k1_cond2 i = 1#1), ∀ a, (k1_off14 k1_t4) a + S16.size a ≤ S25600.size a
  k1_off15_inb : ∀ (i : grid1.Coords) (k1_t4 : Fin k1_t4_loop.trips), ∀ (k1_h2 : k1_cond2 i = 1#1), ∀ a, (k1_off15 k1_t4) a + S16.size a ≤ S25600.size a
  k1_off16_inb : ∀ (i : grid1.Coords) (k1_t4 : Fin k1_t4_loop.trips), ∀ (k1_h2 : k1_cond2 i = 1#1), ∀ a, (k1_off16 k1_t4) a + S16.size a ≤ S25600.size a
  k1_off17_inb : ∀ (i : grid1.Coords) (k1_t4 : Fin k1_t4_loop.trips), ∀ (k1_h2 : k1_cond2 i = 1#1), ∀ a, (k1_off17 k1_t4) a + S16.size a ≤ S25600.size a
  k1_off18_inb : ∀ (i : grid1.Coords) (k1_t4 : Fin k1_t4_loop.trips), ∀ (k1_h2 : k1_cond2 i = 1#1), ∀ a, (k1_off18 k1_t4) a + S16.size a ≤ S25600.size a
  k1_off19_inb : ∀ i : grid1.Coords, ∀ a, (k1_off19 i) a + S1x1x16.size a ≤ S2x16x16.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x16x16.size a ≤ S2x16x16.size a
  hwx2_1 : ∀ i : grid2.Coords, EltTy.bits .f32 = 32 ∨ (Rect.block (s := S2x16x16) S2x16x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1000.size a ≤ S100x1x1000.size a
  hwx2_4 : ∀ i : grid2.Coords, EltTy.bits .f32 = 32 ∨ (Rect.block (s := S100x1x1000) S1x1x1000.size (cc2_transform_4 i) (hinb2_4 i)).WholeWords (EltTy.packing .f32)
  hcore3 : grid3.bound 0 ≤ τ.nSC
  hsub3 : grid3.bound 1 ≤ τ.nSub
  k3_t1_ok : k3_t1_loop.OK
  k3_off1_inb : ∀ (i : grid3.Coords) (k3_t1 : Fin k3_t1_loop.trips), ∀ a, (k3_off1 i k3_t1) a + S12800.size a ≤ S819200.size a
  k3_t2_ok : k3_t2_loop.OK
  k3_off2_inb : ∀ k3_t2 : Fin k3_t2_loop.trips, ∀ a, (k3_off2 k3_t2) a + S16.size a ≤ S12800.size a
  k3_off3_inb : ∀ k3_t2 : Fin k3_t2_loop.trips, ∀ (r : Fin 2), ∀ a, (k3_off3 k3_t2 (BitVec.ofNat 32 r.val)) a + S16.size a ≤ S12800.size a
  k3_off4_inb : ∀ k3_t2 : Fin k3_t2_loop.trips, ∀ (r : Fin 2), ∀ a, (k3_off4 k3_t2 (BitVec.ofNat 32 (1 + r.val))) a + S16.size a ≤ S12800.size a
  k3_off5_inb : ∀ k3_t2 : Fin k3_t2_loop.trips, ∀ (r : Fin 2), ∀ a, (k3_off5 k3_t2 (BitVec.ofNat 32 (2 + r.val))) a + S16.size a ≤ S12800.size a
  k3_off6_inb : ∀ k3_t2 : Fin k3_t2_loop.trips, ∀ (r : Fin 2), ∀ a, (k3_off6 k3_t2 (BitVec.ofNat 32 (3 + r.val))) a + S16.size a ≤ S12800.size a
  k3_off7_inb : ∀ k3_t2 : Fin k3_t2_loop.trips, ∀ (r : Fin 2), ∀ a, (k3_off7 k3_t2 (BitVec.ofNat 32 (4 + r.val))) a + S16.size a ≤ S12800.size a
  k3_off8_inb : ∀ k3_t2 : Fin k3_t2_loop.trips, ∀ (r : Fin 2), ∀ a, (k3_off8 k3_t2 (BitVec.ofNat 32 (5 + r.val))) a + S16.size a ≤ S12800.size a
  k3_off9_inb : ∀ k3_t2 : Fin k3_t2_loop.trips, ∀ (r : Fin 2), ∀ a, (k3_off9 k3_t2 (BitVec.ofNat 32 (6 + r.val))) a + S16.size a ≤ S12800.size a
  k3_off10_inb : ∀ k3_t2 : Fin k3_t2_loop.trips, ∀ a, (k3_off10 k3_t2) a + S16.size a ≤ S12800.size a

variable [Facts₀]

abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4
abbrev cc3_scoped0 : DmaSems sig S_ := SemArray.consecutive 18 S_ hcc3_scoped0
abbrev cc3_scoped1 : DmaSems sig S_ := SemArray.consecutive 19 S_ hcc3_scoped1
abbrev cc3_scoped2 : DmaSems sig S_ := SemArray.consecutive 20 S_ hcc3_scoped2

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x1000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_arg1) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2x16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1x1000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x128 : Shape := ⟨3, ![4096, 200, 128]⟩
abbrev S128x1 : Shape := ⟨2, ![128, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096x200x128, .f32⟩
  | .hbm, ⟨51, _⟩ => ⟨S4096x200x128, .f32⟩
  | .hbm, ⟨52, _⟩ => ⟨S4096x200x128, .f32⟩
  | .hbm, ⟨53, _⟩ => ⟨S4096x200x128, .f32⟩
  | .hbm, ⟨54, _⟩ => ⟨S4096x200x128, .f32⟩
  | .hbm, ⟨55, _⟩ => ⟨S_, .f32⟩
  | .hbm, ⟨56, _⟩ => ⟨S4096x200x128, .f32⟩
  | .hbm, ⟨57, _⟩ => ⟨S4096x200x128, .i1⟩
  | .hbm, ⟨58, _⟩ => ⟨S_, .f32⟩
  | .hbm, ⟨59, _⟩ => ⟨S4096x200x128, .f32⟩
  | .hbm, ⟨60, _⟩ => ⟨S4096x200x128, .i1⟩
  | .hbm, ⟨61, _⟩ => ⟨S4096x200x128, .i1⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x200x128, .f32⟩
  | .hbm, ⟨66, _⟩ => ⟨S4096x200x128, .f32⟩
  | .hbm, ⟨67, _⟩ => ⟨S_, .f32⟩
  | .hbm, ⟨68, _⟩ => ⟨S4096x200x128, .f32⟩
  | .hbm, ⟨69, _⟩ => ⟨S4096x200x128, .f32⟩
  | .hbm, ⟨70, _⟩ => ⟨S4096x200x128, .f32⟩
  | .hbm, ⟨71, _⟩ => ⟨S4096x200x128, .f32⟩
  | .hbm, ⟨72, _⟩ => ⟨S4096x200x128, .f32⟩
  | .hbm, ⟨73, _⟩ => ⟨S4096x200x128, .f32⟩
  | .hbm, ⟨74, _⟩ => ⟨S_, .f32⟩
  | .hbm, ⟨75, _⟩ => ⟨S_, .f32⟩
  | .hbm, ⟨76, _⟩ => ⟨S4096x200x128, .f32⟩
  | .hbm, ⟨77, _⟩ => ⟨S4096x200x128, .f32⟩
  | .hbm, ⟨78, _⟩ => ⟨S4096x200x128, .f32⟩
  | .hbm, ⟨79, _⟩ => ⟨S4096x200x128, .f32⟩
  | .hbm, ⟨80, _⟩ => ⟨S128x1, .f32⟩
  | .hbm, ⟨81, _⟩ => ⟨S4096x200x1, .f32⟩
  | .hbm, ⟨82, _⟩ => ⟨S1x1x1, .f32⟩
  | .hbm, ⟨83, _⟩ => ⟨S4096x200x1, .f32⟩
  | .hbm, ⟨84, _⟩ => ⟨S4096x200x1, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_cst_1 : Ref sig .tc := ⟨.hbm, 31, rfl⟩
abbrev main_v3 : Ref sig .tc := ⟨.hbm, 32, rfl⟩
abbrev main_cst_2 : Ref sig .tc := ⟨.hbm, 33, rfl⟩
abbrev main_v4 : Ref sig .tc := ⟨.hbm, 34, rfl⟩
abbrev main_v5 : Ref sig .tc := ⟨.hbm, 35, rfl⟩
abbrev main_cst_3 : Ref sig .tc := ⟨.hbm, 36, rfl⟩
abbrev main_v6 : Ref sig .tc := ⟨.hbm, 37, rfl⟩
abbrev main_cst_4 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_5 : Ref sig .tc := ⟨.hbm, 42, rfl⟩
abbrev main_v10 : Ref sig .tc := ⟨.hbm, 43, rfl⟩
abbrev main_cst_6 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_8 : Ref sig .tc := ⟨.hbm, 55, rfl⟩
abbrev main_v17 : Ref sig .tc := ⟨.hbm, 56, rfl⟩
abbrev main_v18 : Ref sig .tc := ⟨.hbm, 57, rfl⟩
abbrev main_cst_9 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_10 : Ref sig .tc := ⟨.hbm, 62, rfl⟩
abbrev main_cst_11 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_cst_12 : Ref sig .tc := ⟨.hbm, 74, rfl⟩
abbrev main_call5_v0 : Ref sig .tc := ⟨.hbm, 75, rfl⟩
abbrev main_call5_v1 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  reducesTo_S4096x200x128_S_d0_1_2 : S4096x200x128.ReducesTo [0, 1, 2] S_
  transposes_S1x128_S128x1_1_0 : S1x128.Transposes [1, 0] S128x1
  gather_S100000x128_S4096x200x1_S4096x200x128_2_0_n_n_0_2_1128_wf : GatherDims.WF S100000x128 S4096x200x1 S4096x200x128 [2] [0] [] [0] [] 2 ![1, 128]
  dot_S4096x200x128_S128x1_S4096x200x1_2_0_01_1_n_n_wf : DotDims.WF S4096x200x128 S128x1 S4096x200x1 [2] [0] [0, 1] [1] [] []

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def dot_S4096x200x128_S128x1_S4096x200x1_2_0_01_1_n_n : DotDims S4096x200x128 S128x1 S4096x200x1 where
  lhsContracting := [2]
  rhsContracting := [0]
  lhsNonContracting := [0, 1]
  rhsNonContracting := [1]
  lhsBatch := []
  rhsBatch := []
  wf := dot_S4096x200x128_S128x1_S4096x200x1_2_0_01_1_n_n_wf

class Facts : Prop extends Facts₀ where

variable [Facts]
-- ==== Proof.SetupI.lean ====
/-
  The program as the launch theorem for SparseCore programs sees it, and the ghost state its proof runs over.
  The program has two SparseCore calls (each a vector-subcore kernel on 2 × 16 tiles) and two TensorCore
  pipelines. The ghost state has three components side by side: the rounds of the four handshake semaphores,
  the rounds of the pipelines' staging semaphores, and the counters of the tiles' own transfers, each of which
  is issued and waited for by one tile on a semaphore of its own, so that no schedule is needed for them.
-/
import proofs.«211894_g61933428415975_cont_9to1c4b_619_7_alg».proof.Defs
import proofs.«211894_g61933428415975_cont_9to1c4b_619_7_alg».proof.Proof.Gen.KernelIdeal
import proofs.«211894_g61933428415975_cont_9to1c4b_619_7_alg».proof.Proof.Gen.KernelIdeal.Launch
import proofs.«211894_g61933428415975_cont_9to1c4b_619_7_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The machine's algebra at this ghost state. -/
abbrev MM (F : FTy → Type) : Type := MT nD τ sig (HIx 2) (Elt F) ℕ UU ℕ

/-- The handshakes' rounds: the left component. -/
abbrev EH : Emb UH (MM F) := embL
/-- The pipelines' staging cells' rounds: the left of the right component. -/
def EP : Emb UP (MM F) := (Emb.inl : Emb UP (UP × Counters)).trans embR

instance EP_landsIn : (EP : Emb UP (MM F)).LandsIn (upEmb : UEmb _ (MM F)) := by unfold EP; infer_instance

end Cert.KernelIdeal.Hand

end
-- ==== Proof.LaunchElemI.lean ====
/-
  The launch element: the ghost state the proof starts from is the handshake semaphores' rounds, the rounds of
  the two pipelines' staging semaphores, and the unit of the tiles' transfer counters. The handshakes' part goes
  to the launch theorem as it is; the staging cells' part funds, per device and per pipeline, the cells' launch
  state and the duty tokens of every transfer the pipeline's loop will issue; the tiles' kernels consume nothing
  of the launch's.
-/
import proofs.«211894_g61933428415975_cont_9to1c4b_619_7_alg».proof.Proof.SetupI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

abbrev adm : (p : Fin 2) → (pcfgs (F := F) p).Adm := fun p => (cfgs p).toPCfg_adm

/-- The launch element. -/
def u₀ : UU := (initOf (K (F := F)).hsCells (K (F := F)).hsToks, (initOf (Pipeline.cells cfgs cellOf_inj) (Pipeline.launchToks cfgs cellOf_inj), 1))

/-- What the launch deals the TensorCore of a device for the two pipelines: each one's staging cells' launch state
    and its duty tokens. -/
def G (d : Dev nD) : sProp 𝕄 :=
  bigSep Finset.univ fun p : Fin 2 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- Owning through the composed injections is owning through the staging cells' embedding. -/
theorem own_EP (x : UP) : (BI.own (((Emb.inl : Emb UP (UP × Counters)).trans (embR : Emb (UP × Counters) 𝕄)) x) : sProp 𝕄) ⊢ BI.own (EP (F := F) x) := .rfl

/-- The element splits into the handshakes' part and the staging cells' part (the counters' unit is dropped);
    the latter funds every pipeline's ghost state on every device. -/
theorem hu₀_core : (ownU (u₀ (F := F)) : sProp 𝕄)
    ⊢ |={Set.univ}=> iprop(BI.own (EH (F := F) (initOf (K (F := F)).hsCells (K (F := F)).hsToks)) ∗ bigSep Finset.univ (G (F := F))) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (own_EP _) $$ HP
  imod (Pipeline.fund_ghost cfgs (EP (F := F)) cellOf_inj) $$ HP' with ⟨Hc, Ht⟩
  imodintro
  isplitl [HH]; · iexact HH
  unfold G
  simp only [bigSep_sep']
  isplitl [Hc]
  · iexact Hc
  · iexact Ht

end Cert.KernelIdeal.Hand

end
-- ==== Proof.RegionStepI.lean ====
/-
  Entering a TensorCore pipeline from inside @main of the SparseCore program: the custom call of the program's
  signature is the pipeline's entry lifted, so a region's record — its pipeline's layout, its body's obligation, and
  the thread state it is entered from and leaves — runs it, from the region boundary and that pipeline's staging
  cells' ghost state, to the boundary and the record's exit state.
-/
import proofs.«211894_g61933428415975_cont_9to1c4b_619_7_alg».proof.Proof.LaunchElemI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

set_option backward.isDefEq.respectTransparency.types false in
/-- One region's step on device `d`, under any continuation's post. -/
theorem region_step {p : Fin 2}
    (pd : (p : Fin 2) → (c : Dev nD) → Pipeline.Dat τ (Elt F) (HIx 2) ℕ UU ℕ (Pipeline.pin (pcfgs (F := F)) adm p) c)
    (R : Pipeline.RegionSeg (pcfgs (F := F)) adm pd none (defs₀ (F := F)) 𝒱₀ (K (F := F)).L (K (F := F)).lev p) (d : Dev nD) (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (T d) none) Set.univ
          (Prog.lift (.customCall (SparseCore.inner (Pipeline.entry p)) ())) Φ := by
  iintro ⟨Hk, Hb, Hpre, Hl, Hc, Ht⟩
  iapply ((K (F := F)).wp_liftProg (D (F := F)) 𝒱 (T d) Set.univ none (.op (.customCall (Pipeline.entry p) ()) .ret) Φ)
  iapply (Pipeline.RegionSeg.wp (pcfgs (F := F)) adm pd none cellOf_inj (EP (F := F)) (defs₀ (F := F)) 𝒱₀ (K (F := F)).L (K (F := F)).lev R d none (fun _ h => nomatch h) .ret Φ)
  isplitl [Hk]
  · iintro H
    rw [wp_ret]
    imodintro
    iapply Hk; iexact H
  isplitl [Hb]; · iexact Hb
  isplitl [Hpre]; · iexact Hpre
  isplitl [Hl]; · iexact Hl
  isplitl [Hc]; · iexact Hc
  iexact Ht

end Cert.KernelIdeal.Hand

end
-- ==== Proof.PayI.lean ====
/-
  What the handshakes carry. The TensorCore hands each SparseCore of a call a read share of the arrays its tiles
  read and the part of the call's result array its tiles write; the sequencer hands each tile its share and its
  part; the tile hands its part back holding the values its body computed, and the sequencer hands the parts back
  together. Call 0 (per-tile minima and maxima): the index words, the two arrays of row extrema, and row
  (core, tile) of the 2 × 16 × 16 result. Call 1 (the gather): the index words, the score table, and the tile's two
  chunks of the result.
-/
import proofs.«211894_g61933428415975_cont_9to1c4b_619_7_alg».proof.Proof.SetupI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MM F

/-- The grid point of tile `s` of SparseCore `c`, in each call's grid. -/
def coords1 (c : Fin (grid1.bound 0)) (s : Fin (grid1.bound 1)) : grid1.Coords :=
  fun | 0 => c | 1 => s | ⟨_ + 2, h⟩ => absurd h (Nat.not_lt.2 (Nat.le_add_left _ _))
def coords3 (c : Fin (grid3.bound 0)) (s : Fin (grid3.bound 1)) : grid3.Coords :=
  fun | 0 => c | 1 => s | ⟨_ + 2, h⟩ => absurd h (Nat.not_lt.2 (Nat.le_add_left _ _))

/-- Row (core, tile) of the minima / maxima array, spelt as the kernel slices it. -/
abbrev rowSet (L : grid1.Coords) : Finset S2x16x16.Idx :=
  (((Memref.whole main_v4_scv : Memref sig .scVector .hbm S2x16x16 .f32).slice (Rect.unit (s := S2x16x16) (k1_off19 L) S1x1x16.size (k1_off19_inb L)) (fun _ => rfl)).squeeze S16 squeezes_S1x1x16_S16).view.set

/-- Chunk `t` of a tile's part of the gathered array, spelt as the kernel slices it. -/
abbrev chunkSet (L : grid3.Coords) (t : Fin k3_t1_loop.trips) : Finset S819200.Idx :=
  ((Memref.whole main_v8_scv : Memref sig .scVector .hbm S819200 .f32).slice (Rect.unit (s := S819200) (k3_off1 L t) S12800.size (k3_off1_inb L t)) (fun _ => rfl)).view.set

/-- The read share of SparseCore `c` of two, and of its tile `i` of sixteen. -/
abbrev shC (c : Fin 2) : PosShare TreeShare := shareTok fullShare 2 c
abbrev shT (c : Fin 2) (i : Fin 16) : PosShare TreeShare := shareTok (shC c) 16 i

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0, the arrays read, at a share. -/
def rd0 (d : Dev nD) (q : PosShare TreeShare) : sProp 𝕄 :=
  iprop(((SparseCore.T d).loc main_v0 ↦{q} xv d) ∗ ((SparseCore.T d).loc main_v2 ↦{q} rmin d) ∗ ((SparseCore.T d).loc main_v3 ↦{q} rmax d))
/-- Call 1, the arrays read, at a share. -/
def rd1 (d : Dev nD) (q : PosShare TreeShare) : sProp 𝕄 :=
  iprop(((SparseCore.T d).loc main_v0 ↦{q} xv d) ∗ ((SparseCore.T d).loc main_v7 ↦{q} tv d))

def go0 (d : Dev nD) (c : Fin 2) (i : Fin 16) : sProp 𝕄 :=
  iprop(rd0 xv rmin rmax d (shT c i) ∗ ∃ f, (SparseCore.T d).loc main_v4 ↦[rowSet (coords1 c i)]{fullShare} f)
def td0 (d : Dev nD) (c : Fin 2) (i : Fin 16) : sProp 𝕄 :=
  iprop(rd0 xv rmin rmax d (shT c i) ∗ (SparseCore.T d).loc main_v4 ↦[rowSet (coords1 c i)]{fullShare} p4 d)
def st0 (d : Dev nD) (c : Fin 2) : sProp 𝕄 :=
  iprop(rd0 xv rmin rmax d (shC c) ∗ bigSep Finset.univ fun i : Fin 16 => iprop(∃ f, (SparseCore.T d).loc main_v4 ↦[rowSet (coords1 c i)]{fullShare} f))
def dn0 (d : Dev nD) (c : Fin 2) : sProp 𝕄 :=
  iprop(rd0 xv rmin rmax d (shC c) ∗ bigSep Finset.univ fun i : Fin 16 => (SparseCore.T d).loc main_v4 ↦[rowSet (coords1 c i)]{fullShare} p4 d)

def go1 (d : Dev nD) (c : Fin 2) (i : Fin 16) : sProp 𝕄 :=
  iprop(rd1 xv tv d (shT c i) ∗ bigSep Finset.univ fun t : Fin k3_t1_loop.trips => iprop(∃ f, (SparseCore.T d).loc main_v8 ↦[chunkSet (coords3 c i) t]{fullShare} f))
def td1 (d : Dev nD) (c : Fin 2) (i : Fin 16) : sProp 𝕄 :=
  iprop(rd1 xv tv d (shT c i) ∗ bigSep Finset.univ fun t : Fin k3_t1_loop.trips => (SparseCore.T d).loc main_v8 ↦[chunkSet (coords3 c i) t]{fullShare} g3 d)
def st1 (d : Dev nD) (c : Fin 2) : sProp 𝕄 :=
  iprop(rd1 xv tv d (shC c) ∗ bigSep Finset.univ fun i : Fin 16 => bigSep Finset.univ fun t : Fin k3_t1_loop.trips => iprop(∃ f, (SparseCore.T d).loc main_v8 ↦[chunkSet (coords3 c i) t]{fullShare} f))
def dn1 (d : Dev nD) (c : Fin 2) : sProp 𝕄 :=
  iprop(rd1 xv tv d (shC c) ∗ bigSep Finset.univ fun i : Fin 16 => bigSep Finset.univ fun t : Fin k3_t1_loop.trips => (SparseCore.T d).loc main_v8 ↦[chunkSet (coords3 c i) t]{fullShare} g3 d)

/-- The payloads of the two calls; no kernel's proof consumes anything of the launch's. -/
def P : (K (F := F)).Pay (nD := nD) (Val := Elt F) (Name := ℕ) (U := UU) where
  st := fun q => match q with
    | ⟨0, _⟩ => fun d c => st0 xv rmin rmax d c
    | ⟨1, _⟩ => fun d c => st1 xv tv d c
  dn := fun q => match q with
    | ⟨0, _⟩ => fun d c => dn0 xv rmin rmax p4 d c
    | ⟨1, _⟩ => fun d c => dn1 xv tv g3 d c
  go := fun q => match q with
    | ⟨0, _⟩ => fun d c i => go0 xv rmin rmax d c i
    | ⟨1, _⟩ => fun d c i => go1 xv tv d c i
  td := fun q => match q with
    | ⟨0, _⟩ => fun d c i => td0 xv rmin rmax p4 d c i
    | ⟨1, _⟩ => fun d c i => td1 xv tv g3 d c i
  x := fun _ _ => iprop(emp)

instance P_storable : (P (F := F) xv rmin rmax p4 tv g3).IsStorable where
  st q d c := by
    match q with
    | ⟨0, _⟩ => unfold P st0 rd0; infer_instance
    | ⟨1, _⟩ => unfold P st1 rd1; infer_instance
  dn q d c := by
    match q with
    | ⟨0, _⟩ => unfold P dn0 rd0; infer_instance
    | ⟨1, _⟩ => unfold P dn1 rd1; infer_instance
  go q d c i := by
    match q with
    | ⟨0, _⟩ => unfold P go0 rd0; infer_instance
    | ⟨1, _⟩ => unfold P go1 rd1; infer_instance
  td q d c i := by
    match q with
    | ⟨0, _⟩ => unfold P td0 rd0; infer_instance
    | ⟨1, _⟩ => unfold P td1 rd1; infer_instance

end Contents

end Cert.KernelIdeal.Hand

end
-- ==== Proof.ObligI.lean ====
/-
  The launch theorem's obligations for the two vector-subcore kernels: each tile's task, from what its go signal
  carries to what its taskDone signal carries, is the kernel's body run at the tile's grid point; and a
  SparseCore's operands split into its sixteen tiles' and the tiles' results gather into the SparseCore's.
  The bodies themselves are hypotheses here (one statement per kernel, at a symbolic grid point); the shares of
  the arrays read split sixteen ways and rejoin; the parts written are disjoint by construction.
-/
import proofs.«211894_g61933428415975_cont_9to1c4b_619_7_alg».proof.Proof.PayI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MM F

abbrev thr1 (d : Dev nD) (L : grid1.Coords) : Thread nD τ := V d ((L 0).castLE hcore1) ((L 1).castLE hsub1)
abbrev thr3 (d : Dev nD) (L : grid3.Coords) : Thread nD τ := V d ((L 0).castLE hcore3) ((L 1).castLE hsub3)

/-- The kernels' functions at a tile, on the whole arrays and the tile's scratch, as the body table calls them. -/
abbrev prog1 (L : grid1.Coords) := cc1_k (F := F) L (Memref.whole main_v0_scv) (Memref.isWhole_whole _) (Memref.whole main_v2_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2 cc1_scoped3 cc1_scoped4
abbrev prog3 (L : grid3.Coords) := cc3_k (F := F) L (Memref.whole main_v0_scv) (Memref.isWhole_whole _) (Memref.whole main_v7_scv) (Memref.isWhole_whole _) (Memref.whole main_v8_scv) (Memref.isWhole_whole _) (Memref.whole cc3_scratch0) (Memref.isWhole_whole _) (Memref.whole cc3_scratch1) (Memref.isWhole_whole _) (Memref.whole cc3_scratch2) (Memref.isWhole_whole _) cc3_scoped0 cc3_scoped1 cc3_scoped2

theorem defs₀_vector1 (c : Fin τ.nSC) (s : Fin τ.nSub) :
    defs₀ (F := F) (.scVector c s) 1 () = SparseCore.onTile hcore1 hsub1 (fun c s => prog1 (F := F) (coords1 c s)) ⟨⟩ c s := rfl
theorem defs₀_vector3 (c : Fin τ.nSC) (s : Fin τ.nSub) :
    defs₀ (F := F) (.scVector c s) 3 () = SparseCore.onTile hcore3 hsub3 (fun c s => prog3 (F := F) (coords3 c s)) ⟨⟩ c s := rfl

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- The body of the minima / maxima kernel at a tile, as a hypothesis. -/
def Body1 : Prop :=
  ∀ (d : Dev nD) (L : grid1.Coords) (q₁ q₂ q₃ : PosShare TreeShare) (O : CellTallies nD τ sig (HIx 2)) (W : Waits sig (HIx 2)), (∀ g, O g none = 0) →
    iprop(levAts (K (F := F)).L (K (F := F)).lev ∗ ((SparseCore.T d).loc main_v0 ↦{q₁} xv d) ∗ ((SparseCore.T d).loc main_v2 ↦{q₂} rmin d) ∗ ((SparseCore.T d).loc main_v3 ↦{q₃} rmax d)
        ∗ (∃ f, (SparseCore.T d).loc main_v4 ↦[rowSet L]{fullShare} f) ∗ scopedBufs (thr1 d L) ∗ scopedSems0 (thr1 d L) ∗ owes (thr1 d L) O W)
      ⊢ (wp frame (wpE (defs₀ (F := F)) 𝒱₀ (thr1 d L) none) Set.univ (prog1 (F := F) L)
          fun _ => iprop(((SparseCore.T d).loc main_v0 ↦{q₁} xv d) ∗ ((SparseCore.T d).loc main_v2 ↦{q₂} rmin d) ∗ ((SparseCore.T d).loc main_v3 ↦{q₃} rmax d)
            ∗ ((SparseCore.T d).loc main_v4 ↦[rowSet L]{fullShare} p4 d) ∗ scopedBufs (thr1 d L) ∗ scopedSems0 (thr1 d L) ∗ ∃ W', ⌜∀ p ∈ W', p ∈ W ∨ p.2 = none⌝ ∗ owes (thr1 d L) O W') : sProp 𝕄)

/-- The body of the gather kernel at a tile, as a hypothesis. -/
def Body3 : Prop :=
  ∀ (d : Dev nD) (L : grid3.Coords) (q₁ q₂ : PosShare TreeShare) (O : CellTallies nD τ sig (HIx 2)) (W : Waits sig (HIx 2)), (∀ g, O g none = 0) →
    iprop(levAts (K (F := F)).L (K (F := F)).lev ∗ ((SparseCore.T d).loc main_v0 ↦{q₁} xv d) ∗ ((SparseCore.T d).loc main_v7 ↦{q₂} tv d)
        ∗ (bigSep Finset.univ fun t : Fin k3_t1_loop.trips => iprop(∃ f, (SparseCore.T d).loc main_v8 ↦[chunkSet L t]{fullShare} f))
        ∗ scopedBufs (thr3 d L) ∗ scopedSems0 (thr3 d L) ∗ owes (thr3 d L) O W)
      ⊢ (wp frame (wpE (defs₀ (F := F)) 𝒱₀ (thr3 d L) none) Set.univ (prog3 (F := F) L)
          fun _ => iprop(((SparseCore.T d).loc main_v0 ↦{q₁} xv d) ∗ ((SparseCore.T d).loc main_v7 ↦{q₂} tv d)
            ∗ (bigSep Finset.univ fun t : Fin k3_t1_loop.trips => (SparseCore.T d).loc main_v8 ↦[chunkSet L t]{fullShare} g3 d)
            ∗ scopedBufs (thr3 d L) ∗ scopedSems0 (thr3 d L) ∗ ∃ W', ⌜∀ p ∈ W', p ∈ W ∨ p.2 = none⌝ ∗ owes (thr3 d L) O W') : sProp 𝕄)

local notation "PP" => P (F := F) xv rmin rmax p4 tv g3

theorem tileObl0 (h1 : Body1 (F := F) xv rmin rmax p4) : (K (F := F)).TileObl (D (F := F)) 𝒱 PP v₀ 0 := by
  intro d c i O W hO _ _
  simp only [show (PP).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  refine BI.Entails.trans ?_ ((h1 d (coords1 ⟨_, hc.1⟩ ⟨_, hc.2⟩) (shT c i) (shT c i) (shT c i) O W hO).trans (wp_mono frame _ _ fun _ => ?_))
  · show iprop(_ ∗ emp ∗ go0 xv rmin rmax d c i ∗ _ ∗ _ ∗ _) ⊢ _
    unfold go0 rd0
    iintro ⟨Hl, -, ⟨⟨Hx, H2, H3⟩, Ho⟩, Hb, Hs, HO⟩
    isplitl [Hl]; · iexact Hl
    isplitl [Hx]; · iexact Hx
    isplitl [H2]; · iexact H2
    isplitl [H3]; · iexact H3
    isplitl [Ho]; · iexact Ho
    isplitl [Hb]; · iexact Hb
    isplitl [Hs]; · iexact Hs
    iexact HO
  · show _ ⊢ iprop(td0 xv rmin rmax p4 d c i ∗ _ ∗ _ ∗ _)
    unfold td0 rd0
    iintro ⟨Hx, H2, H3, Ho, Hb, Hs, %W', %hW', HO⟩
    isplitl [Hx H2 H3 Ho]
    · isplitl [Hx H2 H3]
      · isplitl [Hx]; · iexact Hx
        isplitl [H2]; · iexact H2
        iexact H3
      · iexact Ho
    isplitl [Hb]; · iexact Hb
    isplitl [Hs]; · iexact Hs
    iexists W'; isplitr
    · ipureintro; exact fun p hp => (hW' p hp).imp_right Or.inl
    · iexact HO

theorem tileObl1 (h3 : Body3 (F := F) xv tv g3) : (K (F := F)).TileObl (D (F := F)) 𝒱 PP v₀ 1 := by
  intro d c i O W hO _ _
  simp only [show (PP).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  refine BI.Entails.trans ?_ ((h3 d (coords3 ⟨_, hc.1⟩ ⟨_, hc.2⟩) (shT c i) (shT c i) O W hO).trans (wp_mono frame _ _ fun _ => ?_))
  · show iprop(_ ∗ emp ∗ go1 xv tv d c i ∗ _ ∗ _ ∗ _) ⊢ _
    unfold go1 rd1
    iintro ⟨Hl, -, ⟨⟨Hx, H2⟩, Ho⟩, Hb, Hs, HO⟩
    isplitl [Hl]; · iexact Hl
    isplitl [Hx]; · iexact Hx
    isplitl [H2]; · iexact H2
    isplitl [Ho]; · iexact Ho
    isplitl [Hb]; · iexact Hb
    isplitl [Hs]; · iexact Hs
    iexact HO
  · show _ ⊢ iprop(td1 xv tv g3 d c i ∗ _ ∗ _ ∗ _)
    unfold td1 rd1
    iintro ⟨Hx, H2, Ho, Hb, Hs, %W', %hW', HO⟩
    isplitl [Hx H2 Ho]
    · isplitl [Hx H2]
      · isplitl [Hx]; · iexact Hx
        iexact H2
      · iexact Ho
    isplitl [Hb]; · iexact Hb
    isplitl [Hs]; · iexact Hs
    iexists W'; isplitr
    · ipureintro; exact fun p hp => (hW' p hp).imp_right Or.inl
    · iexact HO

end Contents

end Cert.KernelIdeal.Hand

end
-- ==== Proof.MainI.lean ====
/-
  @main on the TensorCore, step by step: six reshapes, two pipelines and two SparseCore calls. The TensorCore's
  unscoped buffers are held whole at a valuation that each step moves on: a reshape to its result; a pipeline to its
  region's exit contents; a SparseCore call to the call's result array at the function its tiles' bodies compute.
-/
import proofs.«211894_g61933428415975_cont_9to1c4b_619_7_alg».proof.Proof.RegionStepI
import proofs.«211894_g61933428415975_cont_9to1c4b_619_7_alg».proof.Proof.ObligI
import Idealize.ShloMosaic.Lib.Pipeline.Frame

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split)
open Idealize.ShloMosaic.Tactic

variable {F : FTy → Type} [FloatOps F] [∀ e, Nonempty (Elt F e)]

local notation "𝕄" => MM F
/-- The TensorCore's unscoped buffers. -/
abbrev UC : Finset (DevRef τ sig) := Pipeline.ucRefs τ sig

/-! ## The host operations and the references they touch -/

abbrev op0 : HloOp τ sig (Elt F) := StableHlo.reshape main_arg0 main_v0 rfl Facts₀.shapeCasts_S4096x200_S819200
abbrev op2 : HloOp τ sig (Elt F) := StableHlo.reshape main_v1_0 main_v2 rfl Facts₀.shapeCasts_S100x1x1000_S100000
abbrev op3 : HloOp τ sig (Elt F) := StableHlo.reshape main_v1_1 main_v3 rfl Facts₀.shapeCasts_S100x1x1000_S100000
abbrev op5 : HloOp τ sig (Elt F) := StableHlo.reshape main_arg3 main_v5 rfl Facts₀.shapeCasts_S1_S1x1
abbrev op7 : HloOp τ sig (Elt F) := StableHlo.reshape main_v6 main_v7 rfl Facts₀.shapeCasts_S100x1x1000_S100000
abbrev op9 : HloOp τ sig (Elt F) := StableHlo.reshape main_v8 main_v9 rfl Facts₀.shapeCasts_S819200_S4096x200x1

abbrev rv0 : DevRef τ sig := Proc.devRef .tc (main_v0 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)
abbrev rv7 : DevRef τ sig := Proc.devRef .tc (main_v7 : Ref sig .tc)
abbrev rv8 : DevRef τ sig := Proc.devRef .tc (main_v8 : Ref sig .tc)

theorem op_sub (op : HloOp τ sig (Elt F)) (h : op.bufs ⊆ StableHlo.tcRefs τ sig) : op.bufs ⊆ UC := Pipeline.sub_ucRefs op h

/-- A host operation with no continuation of its own: from the boundary and the buffers at `W` to the boundary and
    the buffers at the operation's result. -/
theorem hlo_step (d : Dev nD) (op : HloOp τ sig (Elt F)) (hS : op.bufs ⊆ UC) (hf : op.fresh = ∅) (W : Valuation τ sig (Elt F)) (Φ : PUnit → sProp 𝕄) :
    iprop(boundary (T d) ∗ (held (T d) UC W : sProp 𝕄) ∗ (iprop(boundary (T d) ∗ (held (T d) UC (op.result W) : sProp 𝕄)) -∗ Φ ⟨⟩))
      ⊢ wp frame (wpE ((K (F := F)).defs (D (F := F))) 𝒱 (T d) none) Set.univ (hlo rfl op (fun _ => .ret ⟨⟩)) Φ := by
  iintro ⟨Hb, Hh, Hk⟩
  iapply (wp_hlo_within 𝒱 (T d) none Set.univ (op := op) (S := UC) hS (V := W) hf) $$ [Hb Hh]
  · isplitl [Hb]; · iexact Hb
    iexact Hh
  iintro H
  rw [wp_ret]; imodintro
  iapply Hk; iexact H

/-! ## A region's record at its entry and exit contents -/

/-- What rides beside the buffers through a region: the generator register at some state, and the TensorCore's debts
    (the start signals of the calls to come) with its recorded waits below a level. -/
abbrev Rown (O : Dev nD → CellTallies nD τ sig (HIx 2)) (bnd : ℕ) (c : Dev nD) : sProp 𝕄 :=
  iprop((∃ r, prngReg c r) ∗ ∃ Wt, ⌜(K (F := F)).WBelow (T c) Wt bnd⌝ ∗ owes (T c) (O c) Wt)

/-- A region's record whose entry state is the buffers at `W` and whose exit state is the buffers at `Wo`. -/
structure RegAt (p : Fin 2) (O : Dev nD → CellTallies nD τ sig (HIx 2)) (bnd : ℕ) (W Wo : Dev nD → Valuation τ sig (Elt F)) where
  pd : (p : Fin 2) → (c : Dev nD) → Pipeline.Dat τ (Elt F) (HIx 2) ℕ UU ℕ (Pipeline.pin (pcfgs (F := F)) adm p) c
  R : Pipeline.RegionSeg (pcfgs (F := F)) adm pd none (defs₀ (F := F)) 𝒱₀ (K (F := F)).L (K (F := F)).lev p
  hpre : ∀ c, R.pre c = iprop((held (T c) UC (W c) : sProp 𝕄) ∗ Rown (F := F) O bnd c)
  hpost : ∀ c, R.post c = iprop((held (T c) UC (Wo c) : sProp 𝕄) ∗ Rown (F := F) O bnd c)

theorem reg_step {p : Fin 2} {O : Dev nD → CellTallies nD τ sig (HIx 2)} {bnd : ℕ} {W Wo : Dev nD → Valuation τ sig (Elt F)}
    (r : RegAt (F := F) p O bnd W Wo) (d : Dev nD) (Φ : PUnit → sProp 𝕄) :
    iprop(boundary (T d) ∗ (held (T d) UC (W d) : sProp 𝕄) ∗ Rown (F := F) O bnd d ∗ levAts (K (F := F)).L (K (F := F)).lev
        ∗ Pipeline.cellsGhost cfgs (EP (F := F)) p d ∗ Pipeline.toksInit cfgs (EP (F := F)) p d
        ∗ (iprop(boundary (T d) ∗ (held (T d) UC (Wo d) : sProp 𝕄) ∗ Rown (F := F) O bnd d) -∗ Φ ⟨⟩))
      ⊢ wp frame (wpE ((K (F := F)).defs (D (F := F))) 𝒱 (T d) none) Set.univ
          (Prog.lift (.customCall (SparseCore.inner (Pipeline.entry p)) ())) Φ := by
  iintro ⟨Hb, Hh, HR, Hl, Hc, Ht, Hk⟩
  iapply (region_step r.pd r.R d Φ)
  rw [r.hpre, r.hpost]
  isplitl [Hk]
  · iintro ⟨Hb, Hh, HR⟩
    iapply Hk
    isplitl [Hb]; · iexact Hb
    isplitl [Hh]; · iexact Hh
    iexact HR
  isplitl [Hb]; · iexact Hb
  isplitl [Hh HR]
  · isplitl [Hh]; · iexact Hh
    iexact HR
  isplitl [Hl]; · iexact Hl
  isplitl [Hc]; · iexact Hc
  iexact Ht

/-- The TensorCore owes nothing at the index of a kernel's own waits. -/
theorem Otc_none (d : Dev nD) (n : ℕ) (g : GSem nD τ sig) : (K (F := F)).Otc d n g none = 0 := by
  by_contra h
  have := (K (F := F)).lev_of_Otc_pos (d := d) (n := n) (g := g) (ι := none) (Nat.pos_of_ne_zero h)
  rw [SparseCore.Cfg.lev_none] at this; omega

/-! ## The TensorCore's handshake state, its debts apart -/

/-- The TensorCore's handshake state before call `n` beside what it owes: its position on its `done` cell, the rounds
    reached, and the later calls' tokens and credit. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_unfold (d : Dev nD) (n : ℕ) :
    ((K (F := F)).tcSt (EH (F := F)) d n : sProp 𝕄)
      = iprop((∃ W, ⌜(K (F := F)).WBelow (T d) W (8 * n)⌝ ∗ owes (T d) ((K (F := F)).Otc d n) W) ∗ tcRest (F := F) d n) := rfl

/-! ## The buffers a SparseCore call hands over -/

abbrev S4 : Finset (DevRef τ sig) := {rv0, rv2, rv3, rv4}
abbrev S3 : Finset (DevRef τ sig) := {rv0, rv7, rv8}
theorem S4_sub : S4 ⊆ UC := by decide
theorem S3_sub : S3 ⊆ UC := by decide

theorem held_S4 (d : Dev nD) (W : Valuation τ sig (Elt F)) :
    (held (T d) S4 W : sProp 𝕄) = iprop(((SparseCore.T (τ := τ) d).loc main_v0 ↦{fullShare} W rv0) ∗ ((SparseCore.T (τ := τ) d).loc main_v2 ↦{fullShare} W rv2)
      ∗ ((SparseCore.T (τ := τ) d).loc main_v3 ↦{fullShare} W rv3) ∗ ((SparseCore.T (τ := τ) d).loc main_v4 ↦{fullShare} W rv4)) := by
  unfold held S4
  rw [SparseCore.bigSep_insert' (by decide), SparseCore.bigSep_insert' (by decide), SparseCore.bigSep_insert' (by decide), bigSep_singleton]

theorem held_S3 (d : Dev nD) (W : Valuation τ sig (Elt F)) :
    (held (T d) S3 W : sProp 𝕄) = iprop(((SparseCore.T (τ := τ) d).loc main_v0 ↦{fullShare} W rv0) ∗ ((SparseCore.T (τ := τ) d).loc main_v7 ↦{fullShare} W rv7)
      ∗ ((SparseCore.T (τ := τ) d).loc main_v8 ↦{fullShare} W rv8)) := by
  unfold held S3
  rw [SparseCore.bigSep_insert' (by decide), SparseCore.bigSep_insert' (by decide), bigSep_singleton]

/-- Buffers outside a set are unchanged by an update inside it. -/
theorem held_update_out (d : Dev nD) (S' : Finset (DevRef τ sig)) (W : Valuation τ sig (Elt F)) (b : DevRef τ sig) (hb : b ∉ S') (f) :
    (held (T d) S' (Function.update W b f) : sProp 𝕄) = held (T d) S' W :=
  bigSep_congr fun b' hb' => by
    have hne : b' ≠ b := fun e => hb (by rw [← e]; exact hb')
    rw [Function.update_of_ne hne]

/-! ## The contents at each step, and @main -/

section Run

variable (m : (ℓ : Loc nD τ sig) → Buf (Elt F) ℓ) (ρ : Dev nD → PrngReg)
-- the two regions' exit contents, and the two calls' result arrays
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

abbrev W0 (d : Dev nD) : Valuation τ sig (Elt F) := fun b => m (d, b)
def W1 (d : Dev nD) : Valuation τ sig (Elt F) := (op0 (F := F)).result (W0 m d)
def W3 (d : Dev nD) : Valuation τ sig (Elt F) := (op3 (F := F)).result ((op2 (F := F)).result (W2 d))
def W4 (d : Dev nD) : Valuation τ sig (Elt F) := Function.update (W3 W2 d) rv4 (p4 d)
def W5 (d : Dev nD) : Valuation τ sig (Elt F) := (op5 (F := F)).result (W4 W2 p4 d)
def W7 (d : Dev nD) : Valuation τ sig (Elt F) := (op7 (F := F)).result (W6 d)
def W8 (d : Dev nD) : Valuation τ sig (Elt F) := Function.update (W7 W6 d) rv8 (g3 d)
def W9 (d : Dev nD) : Valuation τ sig (Elt F) := (op9 (F := F)).result (W8 W6 g3 d)

/-- The arrays the calls read: the index words, the row extrema, the score table. -/
abbrev xvC (d : Dev nD) : Buf (Elt F) ((SparseCore.T (τ := τ) d).loc main_v0) := W3 W2 d rv0
abbrev rminC (d : Dev nD) : Buf (Elt F) ((SparseCore.T (τ := τ) d).loc main_v2) := W3 W2 d rv2
abbrev rmaxC (d : Dev nD) : Buf (Elt F) ((SparseCore.T (τ := τ) d).loc main_v3) := W3 W2 d rv3
abbrev tvC (d : Dev nD) : Buf (Elt F) ((SparseCore.T (τ := τ) d).loc main_v7) := W7 W6 d rv7

local notation "PP" => P (F := F) (xvC W2) (rminC W2) (rmaxC W2) p4 (tvC W6) g3

/-- The TensorCore's side of call 0: the four arrays go out to the two SparseCores and come back, the result array at `p4`. -/
def Hand0 : Prop := ∀ d : Dev nD,
  iprop(((SparseCore.T (τ := τ) d).loc main_v0 ↦{fullShare} xvC W2 d) ∗ ((SparseCore.T (τ := τ) d).loc main_v2 ↦{fullShare} rminC W2 d) ∗ ((SparseCore.T (τ := τ) d).loc main_v3 ↦{fullShare} rmaxC W2 d)
      ∗ (∃ f, (SparseCore.T (τ := τ) d).loc main_v4 ↦{fullShare} f))
    ⊢ (iprop((bigSep Finset.univ fun c : Fin ((K (F := F)).nCore 0) => (PP).st 0 d c)
        ∗ ((bigSep Finset.univ fun c : Fin ((K (F := F)).nCore 0) => (PP).dn 0 d c)
            -∗ iprop(((SparseCore.T (τ := τ) d).loc main_v0 ↦{fullShare} xvC W2 d) ∗ ((SparseCore.T (τ := τ) d).loc main_v2 ↦{fullShare} rminC W2 d) ∗ ((SparseCore.T (τ := τ) d).loc main_v3 ↦{fullShare} rmaxC W2 d)
              ∗ ((SparseCore.T (τ := τ) d).loc main_v4 ↦{fullShare} p4 d)))) : sProp 𝕄)

/-- The TensorCore's side of call 1. -/
def Hand1 : Prop := ∀ d : Dev nD,
  iprop(((SparseCore.T (τ := τ) d).loc main_v0 ↦{fullShare} xvC W2 d) ∗ ((SparseCore.T (τ := τ) d).loc main_v7 ↦{fullShare} tvC W6 d) ∗ (∃ f, (SparseCore.T (τ := τ) d).loc main_v8 ↦{fullShare} f))
    ⊢ (iprop((bigSep Finset.univ fun c : Fin ((K (F := F)).nCore 1) => (PP).st 1 d c)
        ∗ ((bigSep Finset.univ fun c : Fin ((K (F := F)).nCore 1) => (PP).dn 1 d c)
            -∗ iprop(((SparseCore.T (τ := τ) d).loc main_v0 ↦{fullShare} xvC W2 d) ∗ ((SparseCore.T (τ := τ) d).loc main_v7 ↦{fullShare} tvC W6 d) ∗ ((SparseCore.T (τ := τ) d).loc main_v8 ↦{fullShare} g3 d)))) : sProp 𝕄)

/-- SparseCore call 0 from the TensorCore: the buffers at `W3` before, at `W4` after. -/
theorem call0_step (h0 : Hand0 (F := F) W2 W6 p4 g3) (κ : GSem nD τ sig → ℕ) (d : Dev nD) (Φ : PUnit → sProp 𝕄) :
    iprop((K (F := F)).ctx (EH (F := F)) PP κ ∗ (K (F := F)).tcSt (EH (F := F)) d 0 ∗ (held (T d) UC (W3 W2 d) : sProp 𝕄)
        ∗ (iprop((K (F := F)).tcSt (EH (F := F)) d 1 ∗ (held (T d) UC (W4 W2 p4 d) : sProp 𝕄)) -∗ Φ ⟨⟩))
      ⊢ wp frame (wpE ((K (F := F)).defs (D (F := F))) 𝒱 (T d) none) Set.univ ((K (F := F)).run d 0) Φ := by
  rw [held_sub_split (T d) S4_sub (W3 W2 d), held_sub_split (T d) S4_sub (W4 W2 p4 d), held_S4, held_S4]
  unfold W4
  rw [held_update_out d (UC \ S4) (W3 W2 d) rv4 (by decide) (p4 d),
    Function.update_of_ne (show rv0 ≠ rv4 by decide), Function.update_of_ne (show rv2 ≠ rv4 by decide), Function.update_of_ne (show rv3 ≠ rv4 by decide), Function.update_self]
  iintro ⟨#Hctx, Hst, ⟨⟨Hx, H2, H3, H4⟩, Hrest⟩, Hk⟩
  ihave Hh := (h0 d) $$ [Hx H2 H3 H4]
  · isplitl [Hx]; · iexact Hx
    isplitl [H2]; · iexact H2
    isplitl [H3]; · iexact H3
    iexists _; iexact H4
  icases Hh with ⟨Hsts, Hback⟩
  iapply ((K (F := F)).wp_run (D (F := F)) 𝒱 (EH := EH (F := F)) (P := PP) κ d 0) $$ [Hst Hsts Hback Hrest Hk]
  isplitr; · iexact Hctx
  isplitl [Hst]; · iexact Hst
  isplitl [Hsts]; · iexact Hsts
  iintro ⟨Hst, Hdn⟩
  ihave Hb := Hback $$ Hdn
  icases Hb with ⟨Hx, H2, H3, H4⟩
  iapply Hk
  isplitl [Hst]; · iexact Hst
  isplitl [Hx H2 H3 H4]
  · isplitl [Hx]; · iexact Hx
    isplitl [H2]; · iexact H2
    isplitl [H3]; · iexact H3
    iexact H4
  iexact Hrest

end Run

section Run2

variable (m : (ℓ : Loc nD τ sig) → Buf (Elt F) ℓ) (ρ : Dev nD → PrngReg)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

local notation "PP" => P (F := F) (xvC W2) (rminC W2) (rmaxC W2) p4 (tvC W6) g3

/-- SparseCore call 1 from the TensorCore: the buffers at `W7` before, at `W8` after; the index words it reads are
    the ones call 0 read (`hx7`: nothing in between writes them). -/
theorem call1_step (h1 : Hand1 (F := F) W2 W6 p4 g3) (hx7 : ∀ d, W7 W6 d rv0 = W3 W2 d rv0) (κ : GSem nD τ sig → ℕ) (d : Dev nD) (Φ : PUnit → sProp 𝕄) :
    iprop((K (F := F)).ctx (EH (F := F)) PP κ ∗ (K (F := F)).tcSt (EH (F := F)) d 1 ∗ (held (T d) UC (W7 W6 d) : sProp 𝕄)
        ∗ (iprop((K (F := F)).tcSt (EH (F := F)) d 2 ∗ (held (T d) UC (W8 W6 g3 d) : sProp 𝕄)) -∗ Φ ⟨⟩))
      ⊢ wp frame (wpE ((K (F := F)).defs (D (F := F))) 𝒱 (T d) none) Set.univ ((K (F := F)).run d 1) Φ := by
  rw [held_sub_split (T d) S3_sub (W7 W6 d), held_sub_split (T d) S3_sub (W8 W6 g3 d), held_S3, held_S3]
  unfold W8
  rw [held_update_out d (UC \ S3) (W7 W6 d) rv8 (by decide) (g3 d),
    Function.update_of_ne (show rv0 ≠ rv8 by decide), Function.update_of_ne (show rv7 ≠ rv8 by decide), Function.update_self, hx7 d]
  iintro ⟨#Hctx, Hst, ⟨⟨Hx, H7, H8⟩, Hrest⟩, Hk⟩
  ihave Hh := (h1 d) $$ [Hx H7 H8]
  · isplitl [Hx]; · iexact Hx
    isplitl [H7]; · iexact H7
    iexists _; iexact H8
  icases Hh with ⟨Hsts, Hback⟩
  iapply ((K (F := F)).wp_run (D (F := F)) 𝒱 (EH := EH (F := F)) (P := PP) κ d 1) $$ [Hst Hsts Hback Hrest Hk]
  isplitr; · iexact Hctx
  isplitl [Hst]; · iexact Hst
  isplitl [Hsts]; · iexact Hsts
  iintro ⟨Hst, Hdn⟩
  ihave Hb := Hback $$ Hdn
  icases Hb with ⟨Hx, H7, H8⟩
  iapply Hk
  isplitl [Hst]; · iexact Hst
  isplitl [Hx H7 H8]
  · isplitl [Hx]; · iexact Hx
    isplitl [H7]; · iexact H7
    iexact H8
  iexact Hrest

theorem G_split (d : Dev nD) :
    (G (F := F) d : sProp 𝕄) = iprop((Pipeline.cellsGhost cfgs (EP (F := F)) 0 d ∗ Pipeline.toksInit cfgs (EP (F := F)) 0 d)
      ∗ (Pipeline.cellsGhost cfgs (EP (F := F)) 1 d ∗ Pipeline.toksInit cfgs (EP (F := F)) 1 d)) := by
  unfold G
  rw [show (Finset.univ : Finset (Fin 2)) = {0, 1} by decide, SparseCore.bigSep_insert' (by decide), bigSep_singleton]

/-- What @main leaves the claim: every unscoped buffer at the last contents. -/
abbrev FIN (d : Dev nD) : sProp 𝕄 := held (T d) UC (W9 W6 g3 d)

theorem op0_sub : (op0 (F := F)).bufs ⊆ UC := show ({Proc.devRef .tc (main_arg0 : Ref sig .tc), Proc.devRef .tc (main_v0 : Ref sig .tc)} : Finset (DevRef τ sig)) ⊆ UC by decide
theorem op2_sub : (op2 (F := F)).bufs ⊆ UC := show ({Proc.devRef .tc (main_v1_0 : Ref sig .tc), Proc.devRef .tc (main_v2 : Ref sig .tc)} : Finset (DevRef τ sig)) ⊆ UC by decide
theorem op3_sub : (op3 (F := F)).bufs ⊆ UC := show ({Proc.devRef .tc (main_v1_1 : Ref sig .tc), Proc.devRef .tc (main_v3 : Ref sig .tc)} : Finset (DevRef τ sig)) ⊆ UC by decide
theorem op5_sub : (op5 (F := F)).bufs ⊆ UC := show ({Proc.devRef .tc (main_arg3 : Ref sig .tc), Proc.devRef .tc (main_v5 : Ref sig .tc)} : Finset (DevRef τ sig)) ⊆ UC by decide
theorem op7_sub : (op7 (F := F)).bufs ⊆ UC := show ({Proc.devRef .tc (main_v6 : Ref sig .tc), Proc.devRef .tc (main_v7 : Ref sig .tc)} : Finset (DevRef τ sig)) ⊆ UC by decide
theorem op9_sub : (op9 (F := F)).bufs ⊆ UC := show ({Proc.devRef .tc (main_v8 : Ref sig .tc), Proc.devRef .tc (main_v9 : Ref sig .tc)} : Finset (DevRef τ sig)) ⊆ UC by decide

set_option maxHeartbeats 2000000 in
/-- The launch's unscoped buffers are the TensorCore's buffers held at the launch contents. -/
theorem unscoped_held (d : Dev nD) :
    (unscopedBufs d (fun b => m ((SparseCore.T (τ := τ) d).loc b)) : sProp 𝕄) = held (SparseCore.T d) UC (W0 m d) :=
  Pipeline.unscopedBufs_held (Ix := HIx 2) (Name := ℕ) (U := UU) (Lvl := ℕ) d (W0 m d)

/-- @main on device `d`'s TensorCore. -/
theorem hmain (r0 : RegAt (F := F) 0 (fun d => (K (F := F)).Otc d 0) (8 * 0) (W1 m) W2)
    (r2 : RegAt (F := F) 1 (fun d => (K (F := F)).Otc d 1) (8 * 1) (W5 W2 p4) W6)
    (h0 : Hand0 (F := F) W2 W6 p4 g3) (h1 : Hand1 (F := F) W2 W6 p4 g3) (hx7 : ∀ d, W7 W6 d rv0 = W3 W2 d rv0)
    (κ : GSem nD τ sig → ℕ) (d : Dev nD) :
    iprop((K (F := F)).ctx (EH (F := F)) PP κ ∗ (K (F := F)).tcSt (EH (F := F)) d 0 ∗ (K (F := F)).tcRes m ρ d ∗ G (F := F) d)
      ⊢ wp frame (wpE ((K (F := F)).defs (D (F := F))) 𝒱 (T d) none) Set.univ (main (F := F) d)
          fun _ => iprop((K (F := F)).tcSt (EH (F := F)) d 2 ∗ FIN (F := F) W6 g3 d) := by
  unfold SparseCore.Cfg.tcRes
  rw [unscoped_held m d, G_split]
  simp only [main, wp_bind, wp_pure]
  iintro ⟨#Hctx, Hst, ⟨Hb, Hheld, -, Hp⟩, ⟨⟨Hc0, Ht0⟩, ⟨Hc1, Ht1⟩⟩⟩
  -- the index array flattened
  iapply (hlo_step d op0 op0_sub rfl (W0 m d) _)
  isplitl [Hb]; · iexact Hb
  isplitl [Hheld]; · iexact Hheld
  iintro ⟨Hb, Hheld⟩
  -- pipeline 0
  ihave Hst' := (Entails.of_eq (tcSt_unfold (F := F) d 0)) $$ Hst
  icases Hst' with ⟨HO, Hrest⟩
  iapply (reg_step r0 d _)
  isplitl [Hb]; · iexact Hb
  isplitl [Hheld]; · iexact Hheld
  isplitl [Hp HO]
  · isplitl [Hp]; · iexists _; iexact Hp
    iexact HO
  isplitr; · iapply (SparseCore.Cfg.ctx_levAts κ); iexact Hctx
  isplitl [Hc0]; · iexact Hc0
  isplitl [Ht0]; · iexact Ht0
  iintro ⟨Hb, Hheld, Hp, HO⟩
  ihave Hst := (Entails.of_eq (tcSt_unfold (F := F) d 0).symm) $$ [HO Hrest]
  · isplitl [HO]; · iexact HO
    iexact Hrest
  -- the row extrema flattened
  iapply (hlo_step d op2 op2_sub rfl (W2 d) _)
  isplitl [Hb]; · iexact Hb
  isplitl [Hheld]; · iexact Hheld
  iintro ⟨Hb, Hheld⟩
  iapply (hlo_step d op3 op3_sub rfl _ _)
  isplitl [Hb]; · iexact Hb
  isplitl [Hheld]; · iexact Hheld
  iintro ⟨Hb, Hheld⟩
  -- call 0
  iapply (call0_step W2 W6 p4 g3 h0 κ d _)
  isplitr; · iexact Hctx
  isplitl [Hst]; · iexact Hst
  isplitl [Hheld]; · iexact Hheld
  iintro ⟨Hst, Hheld⟩
  -- the bias reshaped
  iapply (hlo_step d op5 op5_sub rfl (W4 W2 p4 d) _)
  isplitl [Hb]; · iexact Hb
  isplitl [Hheld]; · iexact Hheld
  iintro ⟨Hb, Hheld⟩
  -- pipeline 1
  ihave Hst' := (Entails.of_eq (tcSt_unfold (F := F) d 1)) $$ Hst
  icases Hst' with ⟨HO, Hrest⟩
  iapply (reg_step r2 d _)
  isplitl [Hb]; · iexact Hb
  isplitl [Hheld]; · iexact Hheld
  isplitl [Hp HO]
  · isplitl [Hp]; · iexact Hp
    iexact HO
  isplitr; · iapply (SparseCore.Cfg.ctx_levAts κ); iexact Hctx
  isplitl [Hc1]; · iexact Hc1
  isplitl [Ht1]; · iexact Ht1
  iintro ⟨Hb, Hheld, Hp, HO⟩
  ihave Hst := (Entails.of_eq (tcSt_unfold (F := F) d 1).symm) $$ [HO Hrest]
  · isplitl [HO]; · iexact HO
    iexact Hrest
  -- the score table flattened
  iapply (hlo_step d op7 op7_sub rfl (W6 d) _)
  isplitl [Hb]; · iexact Hb
  isplitl [Hheld]; · iexact Hheld
  iintro ⟨Hb, Hheld⟩
  -- call 1
  iapply (call1_step W2 W6 p4 g3 h1 hx7 κ d _)
  isplitr; · iexact Hctx
  isplitl [Hst]; · iexact Hst
  isplitl [Hheld]; · iexact Hheld
  iintro ⟨Hst, Hheld⟩
  -- the result reshaped
  iapply (hlo_step d op9 op9_sub rfl (W8 W6 g3 d) _)
  isplitl [Hb]; · iexact Hb
  isplitl [Hheld]; · iexact Hheld
  iintro ⟨Hb, Hheld⟩
  imodintro
  isplitl [Hst]; · iexact Hst
  iexact Hheld

end Run2

section Final

variable (m : (ℓ : Loc nD τ sig) → Buf (Elt F) ℓ) (ρ : Dev nD → PrngReg)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

local notation "PP" => P (F := F) (xvC W2) (rminC W2) (rmaxC W2) p4 (tvC W6) g3

/-- The launch element deals the handshakes' rounds, each device's pipelines' ghost state, and nothing to the kernels. -/
theorem hu₀ : (ownU (u₀ (F := F)) : sProp 𝕄)
    ⊢ |={Set.univ}=> iprop(BI.own (EH (F := F) (initOf (K (F := F)).hsCells (K (F := F)).hsToks)) ∗ bigSep Finset.univ (G (F := F))
        ∗ bigSep Finset.univ fun thr : Thread nD τ => bigSep Finset.univ fun q : Fin 2 => (PP).x q thr) := by
  iintro Hu
  imod (hu₀_core (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-- What the final memory holds, read off @main's last state. -/
def fq (d : Dev nD) (s' : Phys nD τ sig (Elt F)) : Prop := ∀ b ∈ UC, s'.mem.mem ((SparseCore.T (τ := τ) d).1, b) = W9 W6 g3 d b

theorem hfin (d : Dev nD) (s' : Phys nD τ sig (Elt F)) : iprop(FIN (F := F) W6 g3 d ∗ SI s') ⊢ (⌜fq (F := F) W6 g3 d s'⌝ : sProp 𝕄) := by
  unfold fq
  exact (pointsTo_read_all UC (fun b => ((SparseCore.T (τ := τ) d).1, b)) (W9 W6 g3 d) s').trans sep_elim_left

/-- The run's post: on every device every unscoped TensorCore buffer ends at the last contents. -/
def QC : PUnit × MemSt nD τ sig (Elt F) → Prop := fun r => ∀ d : Dev nD, ∀ b ∈ UC, r.2.mem ((SparseCore.T (τ := τ) d).1, b) = W9 W6 g3 d b

/-- The program's run, from the two tile bodies, the two regions' records and the hand-overs. -/
theorem run_main (r0 : RegAt (F := F) 0 (fun d => (K (F := F)).Otc d 0) (8 * 0) (W1 m) W2)
    (r2 : RegAt (F := F) 1 (fun d => (K (F := F)).Otc d 1) (8 * 1) (W5 W2 p4) W6)
    (h0 : Hand0 (F := F) W2 W6 p4 g3) (h1 : Hand1 (F := F) W2 W6 p4 g3) (hx7 : ∀ d, W7 W6 d rv0 = W3 W2 d rv0)
    (hb1 : Body1 (F := F) (xvC W2) (rminC W2) (rmaxC W2) p4) (hb3 : Body3 (F := F) (xvC W2) (tvC W6) g3)
    (hs0 : (K (F := F)).VecSplit' PP 0) (hs1 : (K (F := F)).VecSplit' PP 1) :
    θ_run (Cert.KernelIdeal.defs (F := F)) (Cert.KernelIdeal.threads (F := F)) ⟨m, fun _ => 0, ρ⟩ (QC (F := F) W6 g3) :=
  SparseCore.Cfg.θ_run_sc (K := K (F := F)) (D := D (F := F)) (𝒱 := 𝒱) (EH := EH (F := F)) (P := PP) facts v₀
    (fun q hq => match q with | 0 => nomatch hq | 1 => nomatch hq)
    (fun q _ => match q with
      | 0 => tileObl0 (xvC W2) (rminC W2) (rmaxC W2) p4 (tvC W6) g3 hb1
      | 1 => tileObl1 (xvC W2) (rminC W2) (rmaxC W2) p4 (tvC W6) g3 hb3)
    (fun q _ => match q with
      | 0 => SparseCore.Cfg.VecSplit.of_plain hs0
      | 1 => SparseCore.Cfg.VecSplit.of_plain hs1)
    m ρ main (G (F := F)) (FIN (F := F) W6 g3) (u₀ (F := F)) (sep_elim_left.trans (hu₀ W2 W6 p4 g3))
    (hmain m ρ W2 W6 p4 g3 r0 r2 h0 h1 hx7) (fq (F := F) W6 g3) (hfin W6 g3) (QC (F := F) W6 g3) (fun _ h => h)

end Final

end Cert.KernelIdeal.Hand

end
-- ==== Proof.Region0I.lean ====
/-
  REGION 0 of @main: the TensorCore pipeline of the row minimum / row maximum kernel, as a region record over the
  ghost state of a program that also launches SparseCore kernels. Per grid point the body loads a block of 1000 table
  rows and stores, into two output windows, the fold of `minimumf` (from +inf) and of `maximumf` (from -inf) along
  each row. The record is stated at a parameter `V`, the TensorCore's buffer contents when the region is entered, and
  at a parameter `O`, what the TensorCore owes then (units at the indices of calls still to come, none at index
  `none`): the region's own waits are at index `none`, level 0, below everything owed.
-/
import proofs.«211894_g61933428415975_cont_9to1c4b_619_7_alg».proof.Proof.SetupI
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand.Reg0

open Cert.KernelIdeal Cert.KernelIdeal.Gen Cert.KernelIdeal.Hand

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

-- the TensorCore's buffer contents when the region is entered
variable (V : (c : Dev nD) → (b : Ref sig .tc) → Buf (Elt F) ((c : Thread nD τ).loc b))
-- what the TensorCore owes during the region: constant, nothing at index `none`
variable (O : Dev nD → CellTallies nD τ sig (HIx 2)) (bnd : ℕ)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it computes -/

abbrev rIn : Rect S1000x128 := Rect.unit (s := S1000x128) ![0, 0] S1000x128.size inb_S1000x128_S1000x128_0_0
abbrev rOut : Rect S1x1x1000 := Rect.unit (s := S1x1x1000) ![0, 0, 0] S1x1x1000.size inb_S1x1x1000_S1x1x1000_0_0_0

/-- The row minima of a loaded block, reshaped as the output window's block: the program's own lines. -/
def payMin (v0 : Vec F S1000x128 .f32) : FVec F S1x1x1000 .f32 :=
  have v1 : FVec F S1000 .f32 := multiReduction .minimumf [1] S1000 v0 0x7F800000#32 reduces_S1000x128_S1000 (.inl rfl) rfl
  have v2 : FVec F S1x1x1000 .f32 := shapeCast S1x1x1000 v1 shapeCasts_S1000_S1x1x1000
  v2

/-- The row maxima of a loaded block, reshaped as the output window's block. -/
def payMax (v0 : Vec F S1000x128 .f32) : FVec F S1x1x1000 .f32 :=
  have v4 : FVec F S1000 .f32 := multiReduction .maximumf [1] S1000 v0 0xFF800000#32 reduces_S1000x128_S1000 (.inl rfl) rfl
  have v5 : FVec F S1x1x1000 .f32 := shapeCast S1x1x1000 v4 shapeCasts_S1000_S1x1x1000
  v5

/-- Window 1's staging buffer after the body, from the input block: its one store as a piece. -/
def out0_1 (x0 : Vec F S1000x128 .f32) : Vec F S1x1x1000 .f32 :=
  View.canon [⟨rOut, payMin (View.ld x0 rIn)⟩]

/-- Window 2's staging buffer after the body. -/
def out0_2 (x0 : Vec F S1000x128 .f32) : Vec F S1x1x1000 .f32 :=
  View.canon [⟨rOut, payMax (View.ld x0 rIn)⟩]

/-- The one store tiles the buffer, so it covers it. -/
theorem cover0 (p0 : Vec F S1x1x1000 .f32) (y : S1x1x1000.Idx) :
    ∃ pc ∈ ([⟨rOut, p0⟩] : List (View.Piece (Elt F) S1x1x1000 .f32)), y ∈ pc.1.set :=
  View.cover_of_tiled [⟨rOut, p0⟩] S1x1x1000.size (by rfl) y

/-! ## The body's triple -/

set_option maxHeartbeats 1000000 in
/-- The kernel body on whole staging memrefs, the input's at read contents `x0` and the outputs' at anything, runs to
    the continuation holding the input's as it was and the outputs' at the row minima and the row maxima of `x0`. -/
theorem sound_kernel0 (c : Dev nD) (E : Set ℕ) (i : grid0.Coords)
    (arg1 : Memref sig .tc .vmem S1000x128 .f32) (harg1 : arg1.IsWhole)
    (arg2 : Memref sig .tc .vmem S1x1x1000 .f32) (harg2 : arg2.IsWhole)
    (arg3 : Memref sig .tc .vmem S1x1x1000 .f32) (harg3 : arg3.IsWhole)
    (x0 : Vec F S1000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__rowminmax_body i arg1 harg1 arg2 harg2 arg3 harg3) K := by
  unfold cc0__rowminmax_body
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- What rides through the region untouched: the core's scoped buffers that are no staging buffer of this pipeline,
    each at some contents, and its generator register at some state. -/
def Φ0 (c : Dev nD) : sProp 𝕄 :=
  iprop(Pipeline.scopedRest (Ix := HIx 2) (Name := ℕ) (U := UU) (Lvl := ℕ) (Val := Elt F) spec0 c ∗ ∃ r, prngReg c r)

/-- The proof data of pipeline 0 on core `c`: the arrays as the region finds them (`V`); after the body at point `t`
    the input's buffer at its block and the outputs' at the row minima and the row maxima of that block; the invariant
    the scoped rest and the generator register; full shares; the core owes `O c` throughout, and every pair its waits
    have recorded sits at level at most `bnd`. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Φ0 c
  q _ := fullShare
  owed _ := O c
  recorded _ := {p | (K (F := F)).lev (T c, p.1) p.2 ≤ bnd}

theorem A_eq0 (c : Dev nD) (w : Fin cfg0.W) : (dat0 V O bnd c).A w = V c (Pipeline.arrRef spec0 w) := by
  dsimp only [dat0]

theorem after0_0 (c : Dev nD) (t : Fin cfg0.N) : (dat0 V O bnd c).after 0 t = iblk0 V c 0 t := by dsimp only [dat0]
theorem after0_1 (c : Dev nD) (t : Fin cfg0.N) : (dat0 V O bnd c).after 1 t = out0_1 (iblk0 V c 0 t) := by dsimp only [dat0]
theorem after0_2 (c : Dev nD) (t : Fin cfg0.N) : (dat0 V O bnd c).after 2 t = out0_2 (iblk0 V c 0 t) := by dsimp only [dat0]

/-- The input's current staging buffer holds its block at every point, fetched there or not. -/
theorem before0_0 (c : Dev nD) (t : Fin cfg0.N) (d) : (dat0 V O bnd c).before 0 t d = iblk0 V c 0 t :=
  before0_0_of V (dat0 V O bnd c) (A_eq0 V O bnd c 0) (after0_0 V O bnd c) t d

/-! ## The body obligation, at a generic point -/

/-- What the body is called with at point `t`, the windows one by one, -/
def bodyPre0 (c : Dev nD) (t : Fin cfg0.N) : sProp 𝕄 :=
  iprop((dat0 V O bnd c).Φ t.castSucc ∗ (dat0 V O bnd c).owesAt none t.castSucc
    ∗ (∃ d, owns (c : Thread nD τ) (st0_0 t) fullShare ((dat0 V O bnd c).before 0 t d))
    ∗ (∃ d, owns (c : Thread nD τ) (st0_1 t) fullShare ((dat0 V O bnd c).before 1 t d))
    ∗ (∃ d, owns (c : Thread nD τ) (st0_2 t) fullShare ((dat0 V O bnd c).before 2 t d)))

/-- and what it returns. -/
def bodyPost0 (c : Dev nD) (t : Fin cfg0.N) : sProp 𝕄 :=
  iprop((dat0 V O bnd c).Φ t.succ ∗ (dat0 V O bnd c).owesAt none t.succ
    ∗ owns (c : Thread nD τ) (st0_0 t) fullShare ((dat0 V O bnd c).after 0 t)
    ∗ owns (c : Thread nD τ) (st0_1 t) fullShare ((dat0 V O bnd c).after 1 t)
    ∗ owns (c : Thread nD τ) (st0_2 t) fullShare ((dat0 V O bnd c).after 2 t))

/-- The body at any point: the input's memref holds its block, so `sound_kernel0` applies; the invariant and the core's
    `owes` pass through unread. -/
theorem sound_body0 (c : Dev nD) (t : Fin cfg0.N) :
    bodyPre0 V O bnd c t ⊢ wp frame (wpE (defs₀ (F := F)) Variants.none c none) Set.univ (bodyAt0 t) (fun _ => bodyPost0 V O bnd c t) := by
  unfold bodyPre0 bodyPost0 bodyAt0
  simp only [before0_0]
  rw [show (dat0 V O bnd c).Φ t.succ = (dat0 V O bnd c).Φ t.castSucc from rfl,
    show (dat0 V O bnd c).owesAt none t.succ = (dat0 V O bnd c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V O bnd c) (defs₀ (F := F)) Variants.none none Set.univ := fun t => by
  rw [bigSep_W0, bigSep_W0]
  exact sound_body0 V O bnd c t

/-! ## The two output arrays in closed form

Block `g` of the table is its rows `1000 g … 1000 g + 999`; entry `(g, 0, j)` of an output array is the fold, along
row `j` of that block, of `minimumf` from +inf (of `maximumf` from -inf). -/

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1000 g … 1000 g + 999` of the table, as one block. -/
def tblBlock (emb : S100000x128.Idx → Elt F .f32) (g : Fin 100) : Vec F S1000x128 .f32 :=
  fun y => emb (ValueIdx.ix2 (n0 := 100000) (n1 := 128)
    ⟨1000 * g.val + (y 0).val, by have h0 : (y 0).val < 1000 := (y 0).isLt; have hg := g.isLt; omega⟩ ⟨(y 1).val, (y 1).isLt⟩)

/-- The array of row minima: entry `(g, 0, j)` is the minimum of row `1000 g + j` of the table. -/
def rowMin (emb : S100000x128.Idx → Elt F .f32) : S100x1x1000.Idx → Elt F .f32 :=
  fun i => payMin (tblBlock emb ⟨(i 0).val, (i 0).isLt⟩) (ValueIdx.ix3 (n0 := 1) (n1 := 1) (n2 := 1000) 0 0 ⟨(i 2).val, (i 2).isLt⟩)

/-- The array of row maxima. -/
def rowMax (emb : S100000x128.Idx → Elt F .f32) : S100x1x1000.Idx → Elt F .f32 :=
  fun i => payMax (tblBlock emb ⟨(i 0).val, (i 0).isLt⟩) (ValueIdx.ix3 (n0 := 1) (n1 := 1) (n2 := 1000) 0 0 ⟨(i 2).val, (i 2).isLt⟩)

/-- An index of a `[1, 1, 1000]` block is determined by its last coordinate. -/
theorem ix3_last (j : S1x1x1000.Idx) (n : Fin 1000) (h : n.val = (j 2).val) :
    ValueIdx.ix3 (n0 := 1) (n1 := 1) (n2 := 1000) 0 0 n = j := by
  funext a
  match a with
  | ⟨0, _⟩ => exact Fin.ext (by have h0 : (j 0).val < 1 := (j 0).isLt; show 0 = (j 0).val; omega)
  | ⟨1, _⟩ => exact Fin.ext (by have h1 : (j 1).val < 1 := (j 1).isLt; show 0 = (j 1).val; omega)
  | ⟨2, _⟩ => exact Fin.ext h

/-- The row minima of block `g`, at `j`, are the array of row minima at any index with first coordinate `g` and last
    coordinate `j`'s. -/
theorem payMin_eq_rowMin (G : S100000x128.Idx → Elt F .f32) (x0 : Vec F S1000x128 .f32) (g : Fin 100) (j : S1x1x1000.Idx)
    (i : S100x1x1000.Idx) (hi0 : (i 0).val = g.val) (hi2 : (i 2).val = (j 2).val) (hx : x0 = tblBlock G g) :
    payMin x0 j = rowMin G i := by
  subst hx
  unfold rowMin
  rw [show (⟨(i 0).val, (i 0).isLt⟩ : Fin 100) = g from Fin.ext hi0, ix3_last j ⟨(i 2).val, (i 2).isLt⟩ hi2]

theorem payMax_eq_rowMax (G : S100000x128.Idx → Elt F .f32) (x0 : Vec F S1000x128 .f32) (g : Fin 100) (j : S1x1x1000.Idx)
    (i : S100x1x1000.Idx) (hi0 : (i 0).val = g.val) (hi2 : (i 2).val = (j 2).val) (hx : x0 = tblBlock G g) :
    payMax x0 j = rowMax G i := by
  subst hx
  unfold rowMax
  rw [show (⟨(i 0).val, (i 0).isLt⟩ : Fin 100) = g from Fin.ext hi0, ix3_last j ⟨(i 2).val, (i 2).isLt⟩ hi2]

/-- The printed index maps, decided over the grid: every window's block index along its first axis is the point, and 0
    along the others. -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt_N0 (t : Fin cfg0.N) : t.val < 100 := Nat.lt_of_lt_of_eq t.isLt N_0

/-- The input window's block at point `t` is block `t` of the table as the region finds it. -/
theorem iblk0_eq (c : Dev nD) (t : Fin cfg0.N) : iblk0 V c 0 t = tblBlock (V c main_arg1) ⟨t.val, lt_N0 t⟩ := by
  obtain ⟨e0, e1, -⟩ := idx_facts0 t
  funext y
  show V c main_arg1 (((cfg0.win 0).blk t).view.emb y) = V c main_arg1 _
  refine congrArg (V c main_arg1) ?_
  funext a; apply Fin.ext
  match a with
  | ⟨0, _⟩ => show win0_0.index t (0 : Fin 2) * 1000 + 1 * (y 0).val = 1000 * t.val + (y 0).val; omega
  | ⟨1, _⟩ => show win0_0.index t (1 : Fin 2) * 128 + 1 * (y 1).val = (y 1).val; omega

-- from here on the closed forms are read through the lemmas above only
attribute [local irreducible] rowMin rowMax tblBlock payMin payMax

/-- What point `t` writes back to output window 1's array is block `t` of the array of row minima. -/
theorem flushed1_eq (c : Dev nD) (t : Fin cfg0.N) :
    (dat0 V O bnd c).flushed 1 t = ((cfg0.win 1).blk t).view.read (Elt F) (rowMin (V c main_arg1)) := by
  show (cfg0.win 1).cut (grid0.coords t) ((dat0 V O bnd c).after 1 t) = _
  rw [after0_1]
  unfold out0_1
  rw [View.canon_unit_zero hz3]
  simp only [View.ld_unit_zero (S := S1000x128) hz2]
  obtain ⟨-, -, e0, e1, e2, -⟩ := idx_facts0 t
  funext j
  rw [View.read_apply]
  refine payMin_eq_rowMin (V c main_arg1) _ ⟨t.val, lt_N0 t⟩ ((cfg0.win 1).xinj (grid0.coords t) j) _ ?_ ?_ (iblk0_eq V c t)
  · have h0 : (j 0).val < 1 := (j 0).isLt
    show win0_1.index t (0 : Fin 3) * 1 + 1 * (j 0).val = t.val; omega
  · show win0_1.index t (2 : Fin 3) * 1000 + 1 * (j 2).val = (j 2).val; omega

theorem flushed2_eq (c : Dev nD) (t : Fin cfg0.N) :
    (dat0 V O bnd c).flushed 2 t = ((cfg0.win 2).blk t).view.read (Elt F) (rowMax (V c main_arg1)) := by
  show (cfg0.win 2).cut (grid0.coords t) ((dat0 V O bnd c).after 2 t) = _
  rw [after0_2]
  unfold out0_2
  rw [View.canon_unit_zero hz3]
  simp only [View.ld_unit_zero (S := S1000x128) hz2]
  obtain ⟨-, -, -, -, -, e0, e1, e2⟩ := idx_facts0 t
  funext j
  rw [View.read_apply]
  refine payMax_eq_rowMax (V c main_arg1) _ ⟨t.val, lt_N0 t⟩ ((cfg0.win 2).xinj (grid0.coords t) j) _ ?_ ?_ (iblk0_eq V c t)
  · have h0 : (j 0).val < 1 := (j 0).isLt
    show win0_2.index t (0 : Fin 3) * 1 + 1 * (j 0).val = t.val; omega
  · show win0_2.index t (2 : Fin 3) * 1000 + 1 * (j 2).val = (j 2).val; omega

/-- An index of an output array is in point `t`'s block iff each coordinate is in the block's range on its axis. -/
theorem mem_blk1 (t : Fin cfg0.N) (i : S100x1x1000.Idx) :
    i ∈ ((cfg0.win 1).blk t).view.set ↔ ∀ a : Fin 3, win0_1.index t a * S1x1x1000.size a ≤ (i a).val ∧ (i a).val < win0_1.index t a * S1x1x1000.size a + S1x1x1000.size a := by
  show i ∈ ((View.whole main_v1_0).slice (win0_1.rect t)).set ↔ _
  rw [View.set_slice_whole, Rect.mem_set_unit]
  exact Iff.rfl
theorem mem_blk2 (t : Fin cfg0.N) (i : S100x1x1000.Idx) :
    i ∈ ((cfg0.win 2).blk t).view.set ↔ ∀ a : Fin 3, win0_2.index t a * S1x1x1000.size a ≤ (i a).val ∧ (i a).val < win0_2.index t a * S1x1x1000.size a + S1x1x1000.size a := by
  show i ∈ ((View.whole main_v1_1).slice (win0_2.rect t)).set ↔ _
  rw [View.set_slice_whole, Rect.mem_set_unit]
  exact Iff.rfl

/-- Every index of an output array is in the block of the point its first coordinate names. -/
theorem cover1 (i : S100x1x1000.Idx) : ∃ t : Fin cfg0.N, (cfg0.win 1).flush t = true ∧ i ∈ ((cfg0.win 1).blk t).view.set := by
  have hi0 : (i 0).val < 100 := (i 0).isLt
  have hi1 : (i 1).val < 1 := (i 1).isLt
  have hi2 : (i 2).val < 1000 := (i 2).isLt
  let t : Fin cfg0.N := ⟨(i 0).val, Nat.lt_of_lt_of_eq hi0 N_0.symm⟩
  obtain ⟨-, -, e0, e1, e2, -⟩ := idx_facts0 t
  have et : t.val = (i 0).val := rfl
  refine ⟨t, flush0_1 t, ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 1000 ≤ (i 2).val ∧ (i 2).val < win0_1.index t (2 : Fin 3) * 1000 + 1000; omega

theorem cover2 (i : S100x1x1000.Idx) : ∃ t : Fin cfg0.N, (cfg0.win 2).flush t = true ∧ i ∈ ((cfg0.win 2).blk t).view.set := by
  have hi0 : (i 0).val < 100 := (i 0).isLt
  have hi1 : (i 1).val < 1 := (i 1).isLt
  have hi2 : (i 2).val < 1000 := (i 2).isLt
  let t : Fin cfg0.N := ⟨(i 0).val, Nat.lt_of_lt_of_eq hi0 N_0.symm⟩
  obtain ⟨-, -, -, -, -, e0, e1, e2⟩ := idx_facts0 t
  have et : t.val = (i 0).val := rfl
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1000 ≤ (i 2).val ∧ (i 2).val < win0_2.index t (2 : Fin 3) * 1000 + 1000; omega

/-- The arrays after the region: the table as entered, the row minima, the row maxima. -/
theorem final0 (c : Dev nD) : (dat0 V O bnd c).arrAt 0 cfg0.N = V c main_arg1 :=
  ((dat0 V O bnd c).arrAt_in 0 rfl _).trans (A_eq0 V O bnd c 0)
theorem final1 (c : Dev nD) : (dat0 V O bnd c).arrAt 1 cfg0.N = rowMin (V c main_arg1) :=
  (dat0 V O bnd c).arrAt_eq_of_cover 1 (rowMin (V c main_arg1)) (fun t _ => flushed1_eq V O bnd c t) cover1
theorem final2 (c : Dev nD) : (dat0 V O bnd c).arrAt 2 cfg0.N = rowMax (V c main_arg1) :=
  (dat0 V O bnd c).arrAt_eq_of_cover 2 (rowMax (V c main_arg1)) (fun t _ => flushed2_eq V O bnd c t) cover2

/-! ## The proof data family -/

/-- The prefetched tables' admissible contents: no pipeline has a table. -/
abbrev adm : (p : Fin 2) → (pcfgs (F := F) p).Adm := fun p => (cfgs p).toPCfg_adm

/-- Every pipeline's proof data as this region sees it: pipeline 0's is `dat0`; pipeline 1 is not entered here,
    and its data say nothing. A literal `match`, so that the pinned configuration at a numeral reduces to the printed one. -/
def pdats : (p : Fin 2) → (c : Dev nD) → Dat τ (Elt F) (HIx 2) ℕ UU ℕ (Pipeline.pin (pcfgs (F := F)) adm p) c
  | ⟨0, _⟩ => fun c => dat0 V O bnd c
  | ⟨1, _⟩ => fun c =>
    { A := fun w => V c (Pipeline.arrRef spec2 w)
      after := fun _ _ _ => Classical.arbitrary _
      Φ := fun _ => iprop(emp)
      q := fun _ => fullShare
      owed := fun _ => O c }

/-! ## The region -/

section Region

-- the core's buffer contents at the region's entry, every buffer of the device
variable (W : Dev nD → Valuation τ sig (Elt F))

/-- The same read at the TensorCore's references (what the proof data take). -/
abbrev VW : (c : Dev nD) → (b : Ref sig .tc) → Buf (Elt F) ((c : Thread nD τ).loc b) := fun c b => W c b

/-- At the region's exit: its arrays at what the pipeline leaves (the input as entered, each output's write-backs
    folded), every other buffer as entered. -/
def Wout (c : Dev nD) : Valuation τ sig (Elt F) :=
  Pipeline.withArrays spec0 c (W c) fun w => (dat0 (VW W) O bnd c).arrAt w cfg0.N
theorem Wout_arr (c : Dev nD) (w : Fin cfg0.W) :
    Wout O bnd W c (Proc.devRef .tc (Pipeline.arrRef spec0 w)) = (dat0 (VW W) O bnd c).arrAt w cfg0.N := by
  unfold Wout; exact Pipeline.withArrays_arr spec0 launch0.win.arr_inj c _ _ w
theorem Wout_of_ne (c : Dev nD) (b : Ref sig .tc) (hb : ∀ w, Pipeline.arrRef spec0 w ≠ b) :
    Wout O bnd W c (Proc.devRef .tc b) = W c (Proc.devRef .tc b) := by
  unfold Wout; exact Pipeline.withArrays_of_ne spec0 c _ _ b hb
abbrev VWout : (c : Dev nD) → (b : Ref sig .tc) → Buf (Elt F) ((c : Thread nD τ).loc b) := fun c b => Wout O bnd W c b
theorem hF0 (c : Dev nD) (w : Fin cfg0.W) : (dat0 (VW W) O bnd c).arrAt w cfg0.N = VWout O bnd W c (Pipeline.arrRef spec0 w) :=
  (Wout_arr O bnd W c w).symm
theorem hrest0 (c : Dev nD) : ∀ b, b ∉ Finset.univ.image (Pipeline.arrRef spec0) → VWout O bnd W c b = VW W c b :=
  fun b hb => Wout_of_ne O bnd W c b fun w e => hb (Finset.mem_image.mpr ⟨w, Finset.mem_univ _, e⟩)

/-- What rides beside the buffers: the generator register at some state, and the core's `owes` at `O c` with every
    recorded pair at level at most `bnd`. -/
abbrev Rown (c : Dev nD) : sProp 𝕄 :=
  iprop((∃ r, prngReg c r) ∗ ∃ Wt, ⌜(K (F := F)).WBelow (T c) Wt bnd⌝ ∗ owes (T c) (O c) Wt)

set_option backward.isDefEq.respectTransparency.types false in
/-- REGION 0 over the thread state: entered from every unscoped buffer at `W`, left at `Wout`. Its arrays split out of
    the unscoped buffers and put back at the exit contents; the generator register into the invariant and out; the
    core owes `O c` throughout, nothing at index `none`, so that the pipeline's waits (index `none`, level 0) sit below
    everything owed; the pairs those waits record are at level 0. -/
def reg (hO : ∀ c g, O c g none = 0) :
    Pipeline.RegionSeg (pcfgs (F := F)) adm (pdats (VW W) O bnd) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) O bnd c).loose
  hwaits c := Pipeline.cellsWaits_intro (Pipeline.pin (pcfgs (F := F)) adm) (pdats (VW W) O bnd) none 0 c
    (R := levAts (K (F := F)).L (K (F := F)).lev) fun w s t => (K (F := F)).mayWait_none _ (hO c)
  pre c := iprop(StableHlo.held (c : Thread nD τ) (Pipeline.ucRefs τ sig) (W c) ∗ Rown O bnd c)
  post c := iprop(StableHlo.held (c : Thread nD τ) (Pipeline.ucRefs τ sig) (Wout O bnd W c) ∗ Rown O bnd c)
  X c := iprop(∃ r, prngReg c r)
  Y c := iprop(∃ r, prngReg c r)
  Z c := Pipeline.unscopedRest (Ix := HIx 2) (Name := ℕ) (U := UU) (Lvl := ℕ) spec0 c (VW W c)
  hentry c := by
    rw [Pipeline.ownSems0_none]
    have hsplit := Pipeline.arrays_of_unscopedBufs (p := 0) (pcfgs (F := F)) adm (pdats (VW W) O bnd) launch0.win launch0.arr_whole c
      ((pdats (VW W) O bnd 0 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr; · ipureintro; exact fun p hp => Or.inl (hWt p hp)
      iexact HO
    isplitl [Hp]; · iexact Hp
    iexact Hrest
  hin c := by
    rw [show (pdats (VW W) O bnd 0 c).Φ 0 = Φ0 c from rfl]; unfold Φ0
    iintro ⟨Hp, -, Hr⟩
    isplitl [Hr]; · iexact Hr
    iexact Hp
  hout c := by
    rw [Pipeline.ownSems0_none, show (pdats (VW W) O bnd 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats (VW W) O bnd) ((pdats (VW W) O bnd 0 c).share_full fun _ => rfl)
      (VW W c) (VWout O bnd W c) ((pdats (VW W) O bnd 0 c).arrAt · cfg0.N) (hF0 O bnd W c) (hrest0 O bnd W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro
      intro p hp
      rcases hWt hp with h | ⟨w, s, rfl⟩
      · exact h
      · exact Nat.zero_le _
    iexact HO

end Region

/-! ## The exit contents, buffer by buffer -/

section Exit

variable (W : Dev nD → Valuation τ sig (Elt F))

/-- The table is as entered. -/
theorem Wout_arg1 (c : Dev nD) : Wout O bnd W c (Proc.devRef .tc main_arg1) = W c (Proc.devRef .tc main_arg1) :=
  (Wout_arr O bnd W c 0).trans (final0 (VW W) O bnd c)
/-- The first result holds the row minima of the table, -/
theorem Wout_v1_0 (c : Dev nD) : Wout O bnd W c (Proc.devRef .tc main_v1_0) = rowMin (W c (Proc.devRef .tc main_arg1)) :=
  (Wout_arr O bnd W c 1).trans (final1 (VW W) O bnd c)
/-- the second its row maxima, -/
theorem Wout_v1_1 (c : Dev nD) : Wout O bnd W c (Proc.devRef .tc main_v1_1) = rowMax (W c (Proc.devRef .tc main_arg1)) :=
  (Wout_arr O bnd W c 2).trans (final2 (VW W) O bnd c)
/-- and every other buffer of the TensorCore is as entered. -/
theorem Wout_other (c : Dev nD) (b : Ref sig .tc) (h0 : b ≠ main_arg1) (h1 : b ≠ main_v1_0) (h2 : b ≠ main_v1_1) :
    Wout O bnd W c (Proc.devRef .tc b) = W c (Proc.devRef .tc b) :=
  Wout_of_ne O bnd W c b fun w => by
    match w with
    | ⟨0, _⟩ => exact h0.symm
    | ⟨1, _⟩ => exact h1.symm
    | ⟨2, _⟩ => exact h2.symm

end Exit

end Cert.KernelIdeal.Hand.Reg0

end
-- ==== Proof.Region2I.lean ====
/-
  The table kernel — the program's second TensorCore pipeline — as one region of the program's run on the TensorCore.

  Per block of 1000 table rows the kernel's body reads the 2 × 16 × 16 partial extrema, takes the least entry of the
  first slab and the greatest of the second, caps them at zero, forms the quantisation step and the zero point,
  fake-quantises the 1000 × 128 block, multiplies each row by the weight row, sums it and adds the bias: one score per
  table row. This module states what the body leaves in the output block as a pure function of the four input blocks,
  proves the body's triple, assembles the pipeline's proof data and the region record over the thread state "every
  unscoped buffer at a valuation, the generator register, the core's debts", and reads the output array after the
  region as one function of the argument arrays.
-/
import proofs.«211894_g61933428415975_cont_9to1c4b_619_7_alg».proof.Proof.SetupI
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand.Reg2

open Cert.KernelIdeal Cert.KernelIdeal.Gen Cert.KernelIdeal.Hand
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! # The table kernel (the second TensorCore pipeline), as a region of the program

Per block of 1000 table rows the body reads the 2 × 16 × 16 partial extrema, forms the quantisation step and the zero
point, fake-quantises the block, multiplies by the weight row, sums each row and adds the bias. The output block holds
one score per row. -/

section Region

variable (V : (c : Dev nD) → (b : Ref sig .tc) → Buf (Elt F) ((c : Thread nD τ).loc b))
variable (O : Dev nD → CellTallies nD τ sig (HIx 2)) (bnd : ℕ)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: a window whose block
    index does not move is fetched once, and what the body leaves in its buffer is the block again. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 2) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev rH : Rect S1000x128 := Rect.unit (s := S1000x128) ![0, 0] S1000x128.size inb_S1000x128_S1000x128_0_0
abbrev rP : Rect S2x16x16 := Rect.unit (s := S2x16x16) ![0, 0, 0] S2x16x16.size inb_S2x16x16_S2x16x16_0_0_0
abbrev rW : Rect S1x128 := Rect.unit (s := S1x128) ![0, 0] S1x128.size inb_S1x128_S1x128_0_0
abbrev rB : Rect S1x1 := Rect.unit (s := S1x1) ![0, 0] S1x1.size inb_S1x1_S1x1_0_0
abbrev rO : Rect S1x1x1000 := Rect.unit (s := S1x1x1000) ![0, 0, 0] S1x1x1000.size inb_S1x1x1000_S1x1x1000_0_0_0

/-! ## The body's arithmetic, as pure functions of what it loads -/

/-- The least entry of the first 16 × 16 slab of the partials, capped above by zero. -/
def qlo (p : Vec F S2x16x16 .f32) : F .f32 :=
  have v1 : FVec F S2x16x16 .f32 := shapeCast S2x16x16 p shapeCasts_S2x16x16_S2x16x16
  have v2 : FVec F S1x16x16 .f32 := extractStridedSlice S1x16x16 ![0, 0, 0] v1 slices_S2x16x16_o0_0_0_S1x16x16
  have v3 : FVec F S16x16 .f32 := shapeCast S16x16 v2 shapeCasts_S1x16x16_S16x16
  have v4 : FVec F S1x16x16 .f32 := shapeCast S1x16x16 v3 shapeCasts_S16x16_S1x16x16
  have v5 : FVec F S1 .f32 := multiReduction .minimumf [1, 2] S1 v4 0x7F800000#32 reduces_S1x16x16_S1 (.inl rfl) rfl
  have v6 : FVec F S1x1x1 .f32 := shapeCast S1x1x1 v5 shapeCasts_S1_S1x1x1
  have v7 : F .f32 := extractAt ![0, 0, 0] v6 inpos_S1x1x1_p0_0_0
  have cst_2 : F .f32 := Scalar.ofBits .f32 0x00000000#32
  Scalar.minimumf v7 cst_2

/-- The greatest entry of the second slab, capped below by zero. -/
def qhi (p : Vec F S2x16x16 .f32) : F .f32 :=
  have v1 : FVec F S2x16x16 .f32 := shapeCast S2x16x16 p shapeCasts_S2x16x16_S2x16x16
  have v9 : FVec F S1x16x16 .f32 := extractStridedSlice S1x16x16 ![1, 0, 0] v1 slices_S2x16x16_o1_0_0_S1x16x16
  have v10 : FVec F S16x16 .f32 := shapeCast S16x16 v9 shapeCasts_S1x16x16_S16x16
  have v11 : FVec F S1x16x16 .f32 := shapeCast S1x16x16 v10 shapeCasts_S16x16_S1x16x16
  have v12 : FVec F S1 .f32 := multiReduction .maximumf [1, 2] S1 v11 0xFF800000#32 reduces_S1x16x16_S1 (.inl rfl) rfl
  have v13 : FVec F S1x1x1 .f32 := shapeCast S1x1x1 v12 shapeCasts_S1_S1x1x1
  have v14 : F .f32 := extractAt ![0, 0, 0] v13 inpos_S1x1x1_p0_0_0
  have cst_4 : F .f32 := Scalar.ofBits .f32 0x00000000#32
  Scalar.maximumf v14 cst_4

/-- The quantisation step: the range over 255, at least the least step. -/
def qstep (p : Vec F S2x16x16 .f32) : F .f32 :=
  have v16 : F .f32 := Scalar.subf (qhi p) (qlo p)
  have cst_5 : F .f32 := Scalar.ofBits .f32 0x437F0000#32
  have v17 : F .f32 := Scalar.divf v16 cst_5
  have cst_6 : F .f32 := Scalar.ofBits .f32 0x34000000#32
  Scalar.maximumf v17 cst_6

/-- The zero point: -128 less the rounded quotient of the capped least entry by the step, clipped to [-128, 127]. -/
def qzero (p : Vec F S2x16x16 .f32) : F .f32 :=
  have v19 : F .f32 := Scalar.divf (qlo p) (qstep p)
  have v20 : F .f32 := Scalar.roundeven v19
  have cst_7 : F .f32 := Scalar.ofBits .f32 0xC3000000#32
  have v21 : F .f32 := Scalar.subf cst_7 v20
  have cst_8 : F .f32 := Scalar.ofBits .f32 0xC3000000#32
  have cst_9 : F .f32 := Scalar.ofBits .f32 0x42FE0000#32
  have v22 : F .f32 := Scalar.maximumf cst_8 v21
  Scalar.minimumf cst_9 v22

/-- The block fake-quantised entry by entry. -/
def quant (p : Vec F S2x16x16 .f32) (h : Vec F S1000x128 .f32) : FVec F S1000x128 .f32 :=
  have v25 : FVec F S1000x128 .f32 := broadcast S1000x128 (qstep p)
  have v26 : FVec F S1000x128 .f32 := divf h v25
  have v27 : FVec F S1000x128 .f32 := roundeven v26
  have v28 : FVec F S1000x128 .f32 := broadcast S1000x128 (qzero p)
  have v29 : FVec F S1000x128 .f32 := addf v27 v28
  have cst_12 : F .f32 := Scalar.ofBits .f32 0xC3000000#32
  have cst_13 : F .f32 := Scalar.ofBits .f32 0x42FE0000#32
  have v30 : FVec F S1000x128 .f32 := broadcast S1000x128 cst_12
  have v31 : FVec F S1000x128 .f32 := maximumf v30 v29
  have v32 : FVec F S1000x128 .f32 := broadcast S1000x128 cst_13
  have v33 : FVec F S1000x128 .f32 := minimumf v32 v31
  have v34 : FVec F S1000x128 .f32 := broadcast S1000x128 (qzero p)
  have v35 : FVec F S1000x128 .f32 := subf v33 v34
  have v36 : FVec F S1000x128 .f32 := broadcast S1000x128 (qstep p)
  mulf v35 v36

/-- The score of each row of the block: the fake-quantised row against the weight row, summed, plus the bias. -/
def score (h : Vec F S1000x128 .f32) (p : Vec F S2x16x16 .f32) (W : Vec F S1x128 .f32) (b : Vec F S1x1 .f32) : FVec F S1000 .f32 :=
  have v39 : FVec F S128 .f32 := shapeCast S128 W shapeCasts_S1x128_S128
  have v40 : FVec F S1x128 .f32 := shapeCast S1x128 v39 shapeCasts_S128_S1x128
  have v41 : FVec F S1000x128 .f32 := broadcastTo S1000x128 v40 broadcasts_S1x128_S1000x128
  have v42 : FVec F S1000x128 .f32 := mulf (quant p h) v41
  have v43 : FVec F S1000 .f32 := multiReduction .add [1] S1000 v42 0x00000000#32 reduces_S1000x128_S1000 (.inl rfl) rfl
  have v45 : F .f32 := extractAt ![0, 0] b inpos_S1x1_p0_0
  have v46 : FVec F S1000 .f32 := broadcast S1000 v45
  addf v43 v46

/-- What the body stores: the scores as a 1 × 1 × 1000 block. -/
def pay2 (h : Vec F S1000x128 .f32) (p : Vec F S2x16x16 .f32) (W : Vec F S1x128 .f32) (b : Vec F S1x1 .f32) : FVec F S1x1x1000 .f32 :=
  shapeCast S1x1x1000 (score h p W b) shapeCasts_S1000_S1x1x1000

/-- The output window's staging buffer after the body, from the input windows' blocks: its one store. -/
def out2_4 (x0 : Vec F S1000x128 .f32) (x1 : Vec F S2x16x16 .f32) (x2 : Vec F S1x128 .f32) (x3 : Vec F S1x1 .f32) : Vec F S1x1x1000 .f32 :=
  View.canon [⟨rO, pay2 (View.ld x0 rH) (View.ld x1 rP) (View.ld x2 rW) (View.ld x3 rB)⟩]

/-- The store covers the buffer. -/
theorem cover2_4 (p0 : Vec F S1x1x1000 .f32) (y : S1x1x1000.Idx) :
    ∃ pc ∈ ([⟨rO, p0⟩] : List (View.Piece (Elt F) S1x1x1000 .f32)), y ∈ pc.1.set :=
  View.cover_of_tiled [⟨rO, p0⟩] S1x1x1000.size (by rfl) y

/-! ## The body's triple -/

set_option maxHeartbeats 4000000 in
/-- The body on whole staging memrefs, the inputs' at read contents and the output's at anything, runs to the
    continuation holding the inputs' as they were and the output's at `out2_4` of the inputs'. -/
theorem sound_kernel2 (c : Dev nD) (E : Set ℕ) (i : grid2.Coords)
    (arg1 : Memref sig .tc .vmem S1000x128 .f32) (harg1 : arg1.IsWhole) (arg2 : Memref sig .tc .vmem S2x16x16 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1x1000 .f32) (harg5 : arg5.IsWhole)
    (x0 : Vec F S1000x128 .f32) (x1 : Vec F S2x16x16 .f32) (x2 : Vec F S1x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__table_body i arg1 harg1 arg2 harg2 arg3 harg3 arg4 harg4 arg5 harg5) K := by
  unfold cc2__table_body k2_part1
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The region's invariant: the core's scoped buffers that are no staging buffer of this pipeline, each at some
    contents, and its generator register at some state — what the body neither reads nor describes. -/
def Φ2 (c : Dev nD) : sProp 𝕄 :=
  iprop(Pipeline.scopedRest (Ix := HIx 2) (Name := ℕ) (U := UU) (Lvl := ℕ) (Val := Elt F) spec2 c ∗ ∃ r, prngReg c r)

/-- The bound on the pairs the core's waits have recorded: every pair at level at most `bnd`. -/
def rec2 (c : Dev nD) : Set (SemLoc sig × HIx 2) := {p | (K (F := F)).lev (T c, p.1) p.2 ≤ bnd}

/-- The proof data of the table pipeline on core `c`: the arrays as the region finds them; after the body at point `t`
    each input's buffer at its block and the output's at `out2_4` of the input blocks; the invariant `Φ2`; the core
    owes `O c` throughout; full shares. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Φ2 c
  q _ := fullShare
  owed _ := O c
  recorded _ := rec2 (F := F) bnd c

theorem A_eq2 (c : Dev nD) (w : Fin cfg2.W) : (dat2 V O bnd c).A w = V c (Pipeline.arrRef spec2 w) := by
  dsimp only [dat2]

theorem after2_0 (c : Dev nD) (t : Fin cfg2.N) : (dat2 V O bnd c).after 0 t = iblk2 V c 0 t := by dsimp only [dat2]
theorem after2_1 (c : Dev nD) (t : Fin cfg2.N) : (dat2 V O bnd c).after 1 t = iblk2 V c 1 t := by dsimp only [dat2]
theorem after2_2 (c : Dev nD) (t : Fin cfg2.N) : (dat2 V O bnd c).after 2 t = iblk2 V c 2 t := by dsimp only [dat2]
theorem after2_3 (c : Dev nD) (t : Fin cfg2.N) : (dat2 V O bnd c).after 3 t = iblk2 V c 3 t := by dsimp only [dat2]
theorem after2_4 (c : Dev nD) (t : Fin cfg2.N) :
    (dat2 V O bnd c).after 4 t = out2_4 (iblk2 V c 0 t) (iblk2 V c 1 t) (iblk2 V c 2 t) (iblk2 V c 3 t) := by dsimp only [dat2]

theorem before2_0 (c : Dev nD) (t : Fin cfg2.N) (d) : (dat2 V O bnd c).before 0 t d = iblk2 V c 0 t :=
  before2_0_of V (dat2 V O bnd c) (A_eq2 V O bnd c 0) (after2_0 V O bnd c) t d
theorem before2_1 (c : Dev nD) (t : Fin cfg2.N) (d) : (dat2 V O bnd c).before 1 t d = iblk2 V c 1 t :=
  before2_1_of V (dat2 V O bnd c) (A_eq2 V O bnd c 1) (after2_1 V O bnd c) t d
theorem before2_2 (c : Dev nD) (t : Fin cfg2.N) (d) : (dat2 V O bnd c).before 2 t d = iblk2 V c 2 t :=
  before2_2_of V (dat2 V O bnd c) (A_eq2 V O bnd c 2) (after2_2 V O bnd c) t d
theorem before2_3 (c : Dev nD) (t : Fin cfg2.N) (d) : (dat2 V O bnd c).before 3 t d = iblk2 V c 3 t :=
  before2_3_of V (dat2 V O bnd c) (A_eq2 V O bnd c 3) (after2_3 V O bnd c) t d

/-! ## The body obligation, at a generic point -/

/-- What the body is called with at point `t`, -/
def bodyPre2 (c : Dev nD) (t : Fin cfg2.N) : sProp 𝕄 :=
  iprop((dat2 V O bnd c).Φ t.castSucc ∗ (dat2 V O bnd c).owesAt none t.castSucc
    ∗ (∃ d, owns (c : Thread nD τ) (st2_0 t) fullShare ((dat2 V O bnd c).before 0 t d))
    ∗ (∃ d, owns (c : Thread nD τ) (st2_1 t) fullShare ((dat2 V O bnd c).before 1 t d))
    ∗ (∃ d, owns (c : Thread nD τ) (st2_2 t) fullShare ((dat2 V O bnd c).before 2 t d))
    ∗ (∃ d, owns (c : Thread nD τ) (st2_3 t) fullShare ((dat2 V O bnd c).before 3 t d))
    ∗ (∃ d, owns (c : Thread nD τ) (st2_4 t) fullShare ((dat2 V O bnd c).before 4 t d)))

/-- and what it returns. -/
def bodyPost2 (c : Dev nD) (t : Fin cfg2.N) : sProp 𝕄 :=
  iprop((dat2 V O bnd c).Φ t.succ ∗ (dat2 V O bnd c).owesAt none t.succ
    ∗ owns (c : Thread nD τ) (st2_0 t) fullShare ((dat2 V O bnd c).after 0 t)
    ∗ owns (c : Thread nD τ) (st2_1 t) fullShare ((dat2 V O bnd c).after 1 t)
    ∗ owns (c : Thread nD τ) (st2_2 t) fullShare ((dat2 V O bnd c).after 2 t)
    ∗ owns (c : Thread nD τ) (st2_3 t) fullShare ((dat2 V O bnd c).after 3 t)
    ∗ owns (c : Thread nD τ) (st2_4 t) fullShare ((dat2 V O bnd c).after 4 t))

/-- The body at any point: the inputs' memrefs hold their blocks, so `sound_kernel2` applies; the invariant and the
    core's `owes` pass through unread. -/
theorem sound_body2 (c : Dev nD) (t : Fin cfg2.N) :
    bodyPre2 V O bnd c t ⊢ wp frame (wpE (defs₀ (F := F)) Variants.none c none) Set.univ (bodyAt2 t) (fun _ => bodyPost2 V O bnd c t) := by
  unfold bodyPre2 bodyPost2 bodyAt2
  simp only [before2_0, before2_1, before2_2, before2_3]
  rw [show (dat2 V O bnd c).Φ t.succ = (dat2 V O bnd c).Φ t.castSucc from rfl,
    show (dat2 V O bnd c).owesAt none t.succ = (dat2 V O bnd c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V O bnd c) (defs₀ (F := F)) Variants.none none Set.univ := fun t => by
  rw [bigSep_W2, bigSep_W2]
  exact sound_body2 V O bnd c t

/-! ## The proof data family -/

/-- Data for the row-extrema pipeline, which this region never enters: its arrays and blocks as this region finds them. -/
def dat0 (c : Dev nD) : Dat τ (Elt F) (HIx 2) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
  Φ _ := iprop(emp)
  q _ := fullShare
  owed _ := O c

/-- The prefetched tables' admissible contents: no pipeline has a table. -/
abbrev adm : (p : Fin 2) → (pcfgs (F := F) p).Adm := fun p => (cfgs p).toPCfg_adm

/-- Every pipeline's proof data: a literal match on the pipeline. -/
def pdats : (p : Fin 2) → (c : Dev nD) → Dat τ (Elt F) (HIx 2) ℕ UU ℕ (Pipeline.pin (pcfgs (F := F)) adm p) c
  | ⟨0, _⟩ => fun c => dat0 V O c
  | ⟨1, _⟩ => fun c => dat2 V O bnd c

end Region

/-! ## The output array after the region, as one function of the argument arrays -/

section Closed

variable [∀ e, Nonempty (Elt F e)]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1000 g` … `1000 g + 999` of the table: the block the body reads at grid point `g`. -/
def rowsOf (emb : Vec F S100000x128 .f32) (g : Fin 100) : Vec F S1000x128 .f32 :=
  fun y => emb (ValueIdx.ix2
    (⟨1000 * g.val + (y 0).val, by have hg := g.isLt; have h : (y 0).val < 1000 := (y 0).isLt; omega⟩ : Fin 100000)
    ((y 1 : Fin 128)))

/-- The output array after the region as a whole-array function: entry `(g, 0, j)` is the body's score of table row
    `1000 g + j`. -/
def table (emb : Vec F S100000x128 .f32) (p : Vec F S2x16x16 .f32) (W : Vec F S1x128 .f32) (b : Vec F S1x1 .f32) :
    Vec F S100x1x1000 .f32 :=
  fun i => pay2 (rowsOf emb (i 0 : Fin 100)) p W b (ValueIdx.ix3 (0 : Fin 1) (0 : Fin 1) (i 2 : Fin 1000))

/-- An entry of the array read through a block's coordinates. -/
theorem table_blk (emb : Vec F S100000x128 .f32) (p : Vec F S2x16x16 .f32) (W : Vec F S1x128 .f32) (b : Vec F S1x1 .f32)
    (g : Fin 100) (j : S1x1x1000.Idx) (i : S100x1x1000.Idx) (hi0 : (i 0).val = g.val) (hi2 : (i 2).val = (j 2).val) :
    table emb p W b i = pay2 (rowsOf emb g) p W b j := by
  unfold table
  have e0 : (i 0 : Fin 100) = g := Fin.ext hi0
  have ej : ValueIdx.ix3 (0 : Fin 1) (0 : Fin 1) (i 2 : Fin 1000) = j := by
    funext a
    match a with
    | ⟨0, _⟩ => exact Fin.ext (by have h : (j 0).val < 1 := (j 0).isLt; show 0 = (j 0).val; omega)
    | ⟨1, _⟩ => exact Fin.ext (by have h : (j 1).val < 1 := (j 1).isLt; show 0 = (j 1).val; omega)
    | ⟨2, _⟩ => exact Fin.ext hi2
  rw [e0]
  exact congrArg (pay2 (rowsOf emb g) p W b) ej

variable (V : (c : Dev nD) → (b : Ref sig .tc) → Buf (Elt F) ((c : Thread nD τ).loc b))
variable (O : Dev nD → CellTallies nD τ sig (HIx 2)) (bnd : ℕ)

/-- The printed index maps, decided over the grid: the table block and the output block move with the point, the
    partials, the weight row and the bias stay. -/
theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The table window's block at point `t` is rows `1000 t` … of the table. -/
theorem iblk2_0_eq (c : Dev nD) (t : Fin cfg2.N) :
    iblk2 V c 0 t = rowsOf (V c main_arg1) (⟨t.val, t.isLt.trans_eq N_2⟩ : Fin 100) := by
  obtain ⟨e0, e1, -⟩ := idx_facts2 t
  funext y
  show V c main_arg1 (((cfg2.win 0).blk t).view.emb y) = V c main_arg1 _
  congr 1
  funext a; apply Fin.ext
  match a with
  | ⟨0, _⟩ => show win2_0.index t (0 : Fin 2) * 1000 + 1 * (y 0).val = 1000 * t.val + (y 0).val; rw [e0]; omega
  | ⟨1, _⟩ => show win2_0.index t (1 : Fin 2) * 128 + 1 * (y 1).val = (y 1).val; rw [e1]; omega

/-- The partials', the weight row's and the bias's window hold their whole arrays at every point. -/
theorem iblk2_1_eq (c : Dev nD) (t : Fin cfg2.N) : iblk2 V c 1 t = V c main_v4 := by
  obtain ⟨-, -, e0, e1, e2, -⟩ := idx_facts2 t
  funext y
  show V c main_v4 (((cfg2.win 1).blk t).view.emb y) = V c main_v4 y
  congr 1
  funext a; apply Fin.ext
  match a with
  | ⟨0, _⟩ => show win2_1.index t (0 : Fin 3) * 2 + 1 * (y 0).val = (y 0).val; rw [e0]; omega
  | ⟨1, _⟩ => show win2_1.index t (1 : Fin 3) * 16 + 1 * (y 1).val = (y 1).val; rw [e1]; omega
  | ⟨2, _⟩ => show win2_1.index t (2 : Fin 3) * 16 + 1 * (y 2).val = (y 2).val; rw [e2]; omega

theorem iblk2_2_eq (c : Dev nD) (t : Fin cfg2.N) : iblk2 V c 2 t = V c main_arg2 := by
  obtain ⟨-, -, -, -, -, e0, e1, -⟩ := idx_facts2 t
  funext y
  show V c main_arg2 (((cfg2.win 2).blk t).view.emb y) = V c main_arg2 y
  congr 1
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

theorem iblk2_3_eq (c : Dev nD) (t : Fin cfg2.N) : iblk2 V c 3 t = V c main_v5 := by
  obtain ⟨-, -, -, -, -, -, -, e0, e1, -⟩ := idx_facts2 t
  funext y
  show V c main_v5 (((cfg2.win 3).blk t).view.emb y) = V c main_v5 y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 1 + 1 * (y 1).val = (y 1).val; rw [e1]; omega

/-- What point `t` writes back is block `t` of `table` of the arrays as the region finds them. -/
theorem flushed2_eq (c : Dev nD) (t : Fin cfg2.N) :
    (dat2 V O bnd c).flushed 4 t
      = ((cfg2.win 4).blk t).view.read (Elt F) (table (V c main_arg1) (V c main_v4) (V c main_arg2) (V c main_v5)) := by
  show (cfg2.win 4).cut (grid2.coords t) ((dat2 V O bnd c).after 4 t) = _
  rw [after2_4]
  unfold out2_4
  rw [View.canon_unit_zero hz3]
  simp only [View.ld_unit_zero (S := S1000x128) hz2, View.ld_unit_zero (S := S2x16x16) hz3, View.ld_unit_zero (S := S1x128) hz2,
    View.ld_unit_zero (S := S1x1) hz2]
  rw [iblk2_0_eq, iblk2_1_eq, iblk2_2_eq, iblk2_3_eq]
  obtain ⟨-, -, -, -, -, -, -, -, -, e0, e1, e2⟩ := idx_facts2 t
  funext j
  show pay2 _ _ _ _ j = table _ _ _ _ (((cfg2.win 4).blk t).view.emb j)
  refine (table_blk _ _ _ _ _ j _ ?_ ?_).symm
  · show win2_4.index t (0 : Fin 3) * 1 + 1 * (j 0).val = t.val
    have h : (j 0).val < 1 := (j 0).isLt
    rw [e0]; omega
  · show win2_4.index t (2 : Fin 3) * 1000 + 1 * (j 2).val = (j 2).val
    rw [e2]; omega

/-- An index of the output array is in point `t`'s block iff each coordinate is in the block's range on its axis. -/
theorem mem_blk2 (t : Fin cfg2.N) (i : S100x1x1000.Idx) :
    i ∈ ((cfg2.win 4).blk t).view.set ↔ ∀ a : Fin 3, win2_4.index t a * S1x1x1000.size a ≤ (i a).val ∧ (i a).val < win2_4.index t a * S1x1x1000.size a + S1x1x1000.size a := by
  show i ∈ ((View.whole main_v6).slice (win2_4.rect t)).set ↔ _
  rw [View.set_slice_whole, Rect.mem_set_unit]
  exact Iff.rfl

/-- Every entry `(g, 0, j)` of the output array is in point `g`'s block. -/
theorem cover2 (i : S100x1x1000.Idx) : ∃ t : Fin cfg2.N, (cfg2.win 4).flush t = true ∧ i ∈ ((cfg2.win 4).blk t).view.set := by
  have hi0 : (i 0).val < 100 := (i 0).isLt
  have hi1 : (i 1).val < 1 := (i 1).isLt
  have hi2 : (i 2).val < 1000 := (i 2).isLt
  let t : Fin cfg2.N := ⟨(i 0).val, hi0.trans_eq N_2.symm⟩
  obtain ⟨-, -, -, -, -, -, -, -, -, e0, e1, e2⟩ := idx_facts2 t
  refine ⟨t, flush2_4 t, ?_⟩
  rw [mem_blk2]
  intro a
  match a with
  | ⟨0, _⟩ => show win2_4.index t (0 : Fin 3) * 1 ≤ (i 0).val ∧ (i 0).val < win2_4.index t (0 : Fin 3) * 1 + 1; rw [e0]; show (i 0).val * 1 ≤ (i 0).val ∧ (i 0).val < (i 0).val * 1 + 1; omega
  | ⟨1, _⟩ => show win2_4.index t (1 : Fin 3) * 1 ≤ (i 1).val ∧ (i 1).val < win2_4.index t (1 : Fin 3) * 1 + 1; rw [e1]; omega
  | ⟨2, _⟩ => show win2_4.index t (2 : Fin 3) * 1000 ≤ (i 2).val ∧ (i 2).val < win2_4.index t (2 : Fin 3) * 1000 + 1000; rw [e2]; omega

/-- The output array after the region. -/
theorem final2 (c : Dev nD) :
    (dat2 V O bnd c).arrAt 4 cfg2.N = table (V c main_arg1) (V c main_v4) (V c main_arg2) (V c main_v5) :=
  (dat2 V O bnd c).arrAt_eq_of_cover 4 _ (fun t _ => flushed2_eq V O bnd c t) cover2

end Closed

/-! ## The region as a segment of the program -/

section Segment

variable (Wv : Dev nD → Valuation τ sig (Elt F)) (O : Dev nD → CellTallies nD τ sig (HIx 2)) (bnd : ℕ)

/-- The buffer contents at the region's entry, read at the TensorCore's references. -/
abbrev Vof (Wv : Dev nD → Valuation τ sig (Elt F)) : (c : Dev nD) → (b : Ref sig .tc) → Buf (Elt F) ((c : Thread nD τ).loc b) :=
  fun c b => Wv c b

/-- The buffer contents at the region's exit: the pipeline's arrays at what its write-backs leave, every other
    buffer as entered. -/
def Wout (c : Dev nD) : Valuation τ sig (Elt F) :=
  Pipeline.withArrays spec2 c (Wv c) fun w => (dat2 (Vof Wv) O bnd c).arrAt w cfg2.N

theorem Wout_arr (c : Dev nD) (w : Fin cfg2.W) :
    Wout Wv O bnd c (Proc.devRef .tc (Pipeline.arrRef spec2 w)) = (dat2 (Vof Wv) O bnd c).arrAt w cfg2.N := by
  unfold Wout; exact Pipeline.withArrays_arr spec2 launch2.win.arr_inj c _ _ w

theorem Wout_of_not_arr (c : Dev nD) (b : Ref sig .tc) (hb : ∀ w, Pipeline.arrRef spec2 w ≠ b) :
    Wout Wv O bnd c (Proc.devRef .tc b) = Wv c (Proc.devRef .tc b) := by
  unfold Wout; exact Pipeline.withArrays_of_ne spec2 c _ _ b hb

theorem hF2 (c : Dev nD) (w : Fin cfg2.W) :
    (dat2 (Vof Wv) O bnd c).arrAt w cfg2.N = Vof (Wout Wv O bnd) c (Pipeline.arrRef spec2 w) :=
  (Wout_arr Wv O bnd c w).symm

theorem hrest2 (c : Dev nD) : ∀ b, b ∉ Finset.univ.image (Pipeline.arrRef spec2) → Vof (Wout Wv O bnd) c b = Vof Wv c b :=
  fun b hb => Wout_of_not_arr Wv O bnd c b fun w e => hb (Finset.mem_image.mpr ⟨w, Finset.mem_univ _, e⟩)

/-- The output array after the region is `table` of the arrays the region found. -/
theorem Wout_v6 [∀ e, Nonempty (Elt F e)] (c : Dev nD) :
    Wout Wv O bnd c (Proc.devRef .tc main_v6)
      = table (Vof Wv c main_arg1) (Vof Wv c main_v4) (Vof Wv c main_arg2) (Vof Wv c main_v5) :=
  (Wout_arr Wv O bnd c 4).trans (final2 (Vof Wv) O bnd c)

/-- Every other buffer of the TensorCore is as the region found it: an input window's array is never written, and no
    other buffer is the pipeline's. -/
theorem Wout_of_ne (c : Dev nD) (b : Ref sig .tc) (hb : b ≠ main_v6) :
    Wout Wv O bnd c (Proc.devRef .tc b) = Wv c (Proc.devRef .tc b) := by
  by_cases h : ∃ w, Pipeline.arrRef spec2 w = b
  · obtain ⟨w, rfl⟩ := h
    match w with
    | ⟨0, _⟩ => exact (Wout_arr Wv O bnd c 0).trans (((dat2 (Vof Wv) O bnd c).arrAt_in 0 rfl _).trans (A_eq2 (Vof Wv) O bnd c 0))
    | ⟨1, _⟩ => exact (Wout_arr Wv O bnd c 1).trans (((dat2 (Vof Wv) O bnd c).arrAt_in 1 rfl _).trans (A_eq2 (Vof Wv) O bnd c 1))
    | ⟨2, _⟩ => exact (Wout_arr Wv O bnd c 2).trans (((dat2 (Vof Wv) O bnd c).arrAt_in 2 rfl _).trans (A_eq2 (Vof Wv) O bnd c 2))
    | ⟨3, _⟩ => exact (Wout_arr Wv O bnd c 3).trans (((dat2 (Vof Wv) O bnd c).arrAt_in 3 rfl _).trans (A_eq2 (Vof Wv) O bnd c 3))
    | ⟨4, _⟩ => exact absurd rfl hb
  · exact Wout_of_not_arr Wv O bnd c b fun w e => h ⟨w, e⟩

/-- What rides beside the buffers: the generator register at some state, and the core owing `O c` with every recorded
    pair at level at most `bnd`. -/
abbrev Rr (c : Dev nD) : sProp 𝕄 :=
  iprop((∃ r, prngReg c r) ∗ ∃ W, ⌜(K (F := F)).WBelow (T c) W bnd⌝ ∗ owes (T c) (O c) W)

set_option backward.isDefEq.respectTransparency.types false in
/-- The table pipeline as a region: entered from every unscoped buffer at `Wv`, left at `Wout`. Its arrays split out
    of the unscoped buffers and put back at the exit contents; the generator register into the invariant and out; the
    core owes `O c`, all at a call's index (`hO`), so its waits at the kernel's own index sit below everything owed. -/
def reg (hO : ∀ c g, O c g none = 0) :
    Pipeline.RegionSeg (pcfgs (F := F)) adm (pdats (Vof Wv) O bnd) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof Wv) O bnd c).loose
  hwaits c := Pipeline.cellsWaits_of_cut (Pipeline.pin (pcfgs (F := F)) adm) (pdats (Vof Wv) O bnd) none 1 c 0 (O c) (fun _ => rfl)
    (fun _ _ => Finset.mem_univ _) (fun _ _ => le_of_eq rfl)
    (fun g i h => by
      cases i with
      | none => rw [hO] at h; exact absurd h (Nat.lt_irrefl 0)
      | some q => exact ⟨Finset.mem_univ _, (K (F := F)).lev_some_pos g q⟩)
  pre c := iprop(StableHlo.held (c : Thread nD τ) (Pipeline.ucRefs τ sig) (Wv c) ∗ Rr O bnd c)
  post c := iprop(StableHlo.held (c : Thread nD τ) (Pipeline.ucRefs τ sig) (Wout Wv O bnd c) ∗ Rr O bnd c)
  X c := iprop(∃ r, prngReg c r)
  Y c := iprop(∃ r, prngReg c r)
  Z c := Pipeline.unscopedRest (Ix := HIx 2) (Name := ℕ) (U := UU) (Lvl := ℕ) spec2 c (Vof Wv c)
  hentry c := by
    rw [Pipeline.ownSems0_none]
    have hsplit := Pipeline.arrays_of_unscopedBufs (p := 1) (pcfgs (F := F)) adm (pdats (Vof Wv) O bnd) launch2.win launch2.arr_whole c
      ((pdats (Vof Wv) O bnd 1 c).share_full fun _ => rfl) (Vof Wv c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats (Vof Wv) O bnd 1 c).Φ 0 = Φ2 c from rfl]; unfold Φ2
    iintro ⟨Hp, -, Hr⟩
    isplitl [Hr]; · iexact Hr
    iexact Hp
  hout c := by
    rw [Pipeline.ownSems0_none, show (pdats (Vof Wv) O bnd 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch2.win launch2.arr_whole c (pdats (Vof Wv) O bnd) ((pdats (Vof Wv) O bnd 1 c).share_full fun _ => rfl)
      (Vof Wv c) (Vof (Wout Wv O bnd) c) ((pdats (Vof Wv) O bnd 1 c).arrAt · cfg2.N) (hF2 Wv O bnd c) (hrest2 Wv O bnd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Segment

end Cert.KernelIdeal.Hand.Reg2

end
-- ==== Proof.SplitVecI.lean ====
/-
  The splits of the launch: separation-logic bookkeeping over points-to assertions; no program is run.

  A read share splits into a remainder and one token per receiver, and rejoins. The TensorCore gives each of the
  two SparseCores of a call a token of the full share of the arrays the call reads, and the rows (or chunks) of the
  result array its sixteen tiles write; each SparseCore's sequencer gives each tile a token of its token, and the
  tile's row (or chunks). Handing back rejoins the tokens with the remainders kept aside, and the parts of the
  result array, all now held at one whole-array function, into the whole array.
-/
import proofs.«211894_g61933428415975_cont_9to1c4b_619_7_alg».proof.Proof.PayI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MM F

/-! ## Read shares: a remainder and one token per receiver -/

section Shares

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (tv : (d : Dev nD) → Buf (Elt F) ((SparseCore.T d).loc main_v7))

/-- The arrays call 0 reads, at a share: the remainder after `n` tokens, and the `n` tokens. -/
theorem rd0_split (d : Dev nD) (q : PosShare TreeShare) (n : ℕ) :
    rd0 xv rmin rmax d q ⊢ (iprop(rd0 xv rmin rmax d (shareDrop q n) ∗ bigSep Finset.univ fun i : Fin n => rd0 xv rmin rmax d (shareTok q n i)) : sProp 𝕄) := by
  unfold rd0
  rw [bigSep_sep', bigSep_sep']
  iintro ⟨H0, H2, H3⟩
  ihave H0 := (pointsTo_toks_split (ℓ := (SparseCore.T d).loc main_v0) (S := Finset.univ) (f := xv d) q n) $$ H0
  ihave H2 := (pointsTo_toks_split (ℓ := (SparseCore.T d).loc main_v2) (S := Finset.univ) (f := rmin d) q n) $$ H2
  ihave H3 := (pointsTo_toks_split (ℓ := (SparseCore.T d).loc main_v3) (S := Finset.univ) (f := rmax d) q n) $$ H3
  icases H0 with ⟨D0, T0⟩
  icases H2 with ⟨D2, T2⟩
  icases H3 with ⟨D3, T3⟩
  isplitl [D0 D2 D3]
  · isplitl [D0]; · iexact D0
    isplitl [D2]; · iexact D2
    iexact D3
  · isplitl [T0]; · iexact T0
    isplitl [T2]; · iexact T2
    iexact T3

/-- and back. -/
theorem rd0_join (d : Dev nD) (q : PosShare TreeShare) (n : ℕ) :
    (iprop(rd0 xv rmin rmax d (shareDrop q n) ∗ bigSep Finset.univ fun i : Fin n => rd0 xv rmin rmax d (shareTok q n i)) : sProp 𝕄) ⊢ rd0 xv rmin rmax d q := by
  unfold rd0
  rw [bigSep_sep', bigSep_sep']
  iintro ⟨⟨D0, D2, D3⟩, T0, T2, T3⟩
  isplitl [D0 T0]
  · iapply (pointsTo_toks_join (ℓ := (SparseCore.T d).loc main_v0) (S := Finset.univ) (f := xv d) q n)
    isplitl [D0]; · iexact D0
    iexact T0
  isplitl [D2 T2]
  · iapply (pointsTo_toks_join (ℓ := (SparseCore.T d).loc main_v2) (S := Finset.univ) (f := rmin d) q n)
    isplitl [D2]; · iexact D2
    iexact T2
  · iapply (pointsTo_toks_join (ℓ := (SparseCore.T d).loc main_v3) (S := Finset.univ) (f := rmax d) q n)
    isplitl [D3]; · iexact D3
    iexact T3

/-- The arrays call 1 reads, at a share: the remainder after `n` tokens, and the `n` tokens. -/
theorem rd1_split (d : Dev nD) (q : PosShare TreeShare) (n : ℕ) :
    rd1 xv tv d q ⊢ (iprop(rd1 xv tv d (shareDrop q n) ∗ bigSep Finset.univ fun i : Fin n => rd1 xv tv d (shareTok q n i)) : sProp 𝕄) := by
  unfold rd1
  rw [bigSep_sep']
  iintro ⟨H0, H7⟩
  ihave H0 := (pointsTo_toks_split (ℓ := (SparseCore.T d).loc main_v0) (S := Finset.univ) (f := xv d) q n) $$ H0
  ihave H7 := (pointsTo_toks_split (ℓ := (SparseCore.T d).loc main_v7) (S := Finset.univ) (f := tv d) q n) $$ H7
  icases H0 with ⟨D0, T0⟩
  icases H7 with ⟨D7, T7⟩
  isplitl [D0 D7]
  · isplitl [D0]; · iexact D0
    iexact D7
  · isplitl [T0]; · iexact T0
    iexact T7

/-- and back. -/
theorem rd1_join (d : Dev nD) (q : PosShare TreeShare) (n : ℕ) :
    (iprop(rd1 xv tv d (shareDrop q n) ∗ bigSep Finset.univ fun i : Fin n => rd1 xv tv d (shareTok q n i)) : sProp 𝕄) ⊢ rd1 xv tv d q := by
  unfold rd1
  rw [bigSep_sep']
  iintro ⟨⟨D0, D7⟩, T0, T7⟩
  isplitl [D0 T0]
  · iapply (pointsTo_toks_join (ℓ := (SparseCore.T d).loc main_v0) (S := Finset.univ) (f := xv d) q n)
    isplitl [D0]; · iexact D0
    iexact T0
  · iapply (pointsTo_toks_join (ℓ := (SparseCore.T d).loc main_v7) (S := Finset.univ) (f := tv d) q n)
    isplitl [D7]; · iexact D7
    iexact T7

end Shares

/-! ## The sequencer's side: a SparseCore's share and parts to its sixteen tiles, and back -/

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0: the SparseCore's token splits into a remainder, kept until the tiles are done, and a token per tile; the
    rows are already per tile. -/
theorem vecSplit0 : (K (F := F)).VecSplit' (P (F := F) xv rmin rmax p4 tv g3) 0 := by
  intro d c
  change st0 xv rmin rmax d c ⊢ |={Set.univ}=> iprop(
      (bigSep Finset.univ fun i : Fin 16 => go0 xv rmin rmax d c i)
      ∗ ((bigSep Finset.univ fun i : Fin 16 => td0 xv rmin rmax p4 d c i) -∗ dn0 xv rmin rmax p4 d c))
  unfold st0 go0 td0 dn0
  rw [bigSep_sep', bigSep_sep']
  iintro ⟨Hr, Hw⟩
  ihave Hr := (rd0_split xv rmin rmax d (shC c) 16) $$ Hr
  icases Hr with ⟨Hd, Ht⟩
  imodintro
  isplitl [Ht Hw]
  · isplitl [Ht]; · iexact Ht
    iexact Hw
  iintro ⟨Ht, Hw⟩
  isplitl [Hd Ht]
  · iapply (rd0_join xv rmin rmax d (shC c) 16)
    isplitl [Hd]; · iexact Hd
    iexact Ht
  iexact Hw

/-- Call 1: the same, the parts being the tiles' chunks. -/
theorem vecSplit1 : (K (F := F)).VecSplit' (P (F := F) xv rmin rmax p4 tv g3) 1 := by
  intro d c
  change st1 xv tv d c ⊢ |={Set.univ}=> iprop(
      (bigSep Finset.univ fun i : Fin 16 => go1 xv tv d c i)
      ∗ ((bigSep Finset.univ fun i : Fin 16 => td1 xv tv g3 d c i) -∗ dn1 xv tv g3 d c))
  unfold st1 go1 td1 dn1
  rw [bigSep_sep', bigSep_sep']
  iintro ⟨Hr, Hw⟩
  ihave Hr := (rd1_split xv tv d (shC c) 16) $$ Hr
  icases Hr with ⟨Hd, Ht⟩
  imodintro
  isplitl [Ht Hw]
  · isplitl [Ht]; · iexact Ht
    iexact Hw
  iintro ⟨Ht, Hw⟩
  isplitl [Hd Ht]
  · iapply (rd1_join xv tv d (shC c) 16)
    isplitl [Hd]; · iexact Hd
    iexact Ht
  iexact Hw

end Contents

end Cert.KernelIdeal.Hand

end
-- ==== Proof.SplitI.lean ====
/-
  The parts of the two result arrays, and the TensorCore's side of the two calls.

  The 2 × 16 × 16 array of minima and maxima is the disjoint union of its 32 rows (core, tile), each the unit
  rectangle at offsets (core, tile, 0) of sizes (1, 1, 16); the gathered array of 819200 words is the disjoint
  union of its 64 chunks of 12800 words, chunk t of tile i of core c being the one of number 4 i + 2 c + t. So a
  points-to on a whole result array is the separating conjunction of the points-tos on its parts, all at one
  function. The TensorCore splits the full share of the arrays a call reads into a remainder and a token per
  SparseCore, and the result array into its parts; handing back rejoins them.
-/
import proofs.«211894_g61933428415975_cont_9to1c4b_619_7_alg».proof.Proof.SplitVecI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MM F

/-! ## The rows of the array of minima and maxima -/

/-- A row, as the kernel slices it, is the unit rectangle at the printed offsets. -/
theorem rowSet_eq (L : grid1.Coords) : rowSet L = (Rect.unit (s := S2x16x16) (k1_off19 L) S1x1x16.size (k1_off19_inb L)).set := by
  show (((View.whole (main_v4_scv : Ref sig .scVector)).slice (Rect.unit (s := S2x16x16) (k1_off19 L) S1x1x16.size (k1_off19_inb L))).reshape S16 squeezes_S1x1x16_S16.numel_eq).set = _
  rw [View.set_reshape, View.set_slice_whole]

/-- Its elements: the first two coordinates are the grid point's. -/
theorem mem_rowSet (L : grid1.Coords) (x : S2x16x16.Idx) : x ∈ rowSet L ↔ (x 0).val = (L 0).val ∧ (x 1).val = (L 1).val := by
  rw [rowSet_eq, Rect.mem_set_unit, k1_off19_eq]
  constructor
  · intro h
    have h0 := h 0; have h1 := h 1
    change (L 0).val ≤ (x 0).val ∧ (x 0).val < (L 0).val + 1 at h0
    change (L 1).val ≤ (x 1).val ∧ (x 1).val < (L 1).val + 1 at h1
    omega
  · intro ⟨e0, e1⟩ a
    match a with
    | 0 => show (L 0).val ≤ (x 0).val ∧ (x 0).val < (L 0).val + 1; omega
    | 1 => show (L 1).val ≤ (x 1).val ∧ (x 1).val < (L 1).val + 1; omega
    | 2 =>
      have h2 : (x 2).val < 16 := (x 2).isLt
      show 0 ≤ (x 2).val ∧ (x 2).val < 0 + 16; omega

theorem mem_rowSet' (c : Fin 2) (i : Fin 16) (x : S2x16x16.Idx) : x ∈ rowSet (coords1 c i) ↔ (x 0).val = c.val ∧ (x 1).val = i.val :=
  mem_rowSet (coords1 c i) x

theorem rows_disjoint : ∀ a ∈ (Finset.univ : Finset (Fin 2 × Fin 16)), ∀ b ∈ (Finset.univ : Finset (Fin 2 × Fin 16)), a ≠ b →
    Disjoint (rowSet (coords1 a.1 a.2)) (rowSet (coords1 b.1 b.2)) := by
  intro a _ b _ hab
  rw [Finset.disjoint_left]
  intro x ha hb
  rw [mem_rowSet'] at ha hb
  exact hab (Prod.ext (Fin.ext (ha.1.symm.trans hb.1)) (Fin.ext (ha.2.symm.trans hb.2)))

theorem rows_cover : (Finset.univ : Finset (Fin 2 × Fin 16)).biUnion (fun a => rowSet (coords1 a.1 a.2)) = Finset.univ := by
  ext x
  simp only [Finset.mem_biUnion, Finset.mem_univ, true_and, iff_true]
  exact ⟨((x 0 : Fin 2), (x 1 : Fin 16)), (mem_rowSet' _ _ x).2 ⟨rfl, rfl⟩⟩

/-! ## The chunks of the gathered array -/

/-- Each tile's loop over its chunks makes two trips. -/
theorem trips3 : k3_t1_loop.trips = 2 := by decide

/-- A chunk, as the kernel slices it, is the unit rectangle at the printed offset. -/
theorem chunkSet_eq (L : grid3.Coords) (t : Fin k3_t1_loop.trips) :
    chunkSet L t = (Rect.unit (s := S819200) (k3_off1 L t) S12800.size (k3_off1_inb L t)).set := by
  show ((View.whole (main_v8_scv : Ref sig .scVector)).slice (Rect.unit (s := S819200) (k3_off1 L t) S12800.size (k3_off1_inb L t))).set = _
  rw [View.set_slice_whole]

/-- Its elements: the 12800 words from 12800 times the chunk's number. -/
theorem mem_chunkSet (L : grid3.Coords) (t : Fin k3_t1_loop.trips) (x : S819200.Idx) :
    x ∈ chunkSet L t ↔ 12800 * (4 * (L 1).val + 2 * (L 0).val + t.val) ≤ (x 0).val ∧ (x 0).val < 12800 * (4 * (L 1).val + 2 * (L 0).val + t.val) + 12800 := by
  rw [chunkSet_eq, Rect.mem_set_unit, k3_off1_eq]
  constructor
  · intro h
    have h0 := h 0
    change 51200 * (L 1).val + 25600 * (L 0).val + 12800 * t.val ≤ (x 0).val ∧ (x 0).val < 51200 * (L 1).val + 25600 * (L 0).val + 12800 * t.val + 12800 at h0
    omega
  · intro h a
    match a with
    | 0 =>
      show 51200 * (L 1).val + 25600 * (L 0).val + 12800 * t.val ≤ (x 0).val ∧ (x 0).val < 51200 * (L 1).val + 25600 * (L 0).val + 12800 * t.val + 12800
      omega

theorem mem_chunkSet' (c : Fin 2) (i : Fin 16) (t : Fin k3_t1_loop.trips) (x : S819200.Idx) :
    x ∈ chunkSet (coords3 c i) t ↔ 12800 * (4 * i.val + 2 * c.val + t.val) ≤ (x 0).val ∧ (x 0).val < 12800 * (4 * i.val + 2 * c.val + t.val) + 12800 :=
  mem_chunkSet (coords3 c i) t x

theorem chunks_disjoint : ∀ a ∈ (Finset.univ : Finset (Fin 2 × Fin 16 × Fin k3_t1_loop.trips)), ∀ b ∈ (Finset.univ : Finset (Fin 2 × Fin 16 × Fin k3_t1_loop.trips)), a ≠ b →
    Disjoint (chunkSet (coords3 a.1 a.2.1) a.2.2) (chunkSet (coords3 b.1 b.2.1) b.2.2) := by
  intro a _ b _ hab
  rw [Finset.disjoint_left]
  intro x ha hb
  rw [mem_chunkSet'] at ha hb
  have hta : a.2.2.val < 2 := lt_of_lt_of_eq a.2.2.isLt trips3
  have htb : b.2.2.val < 2 := lt_of_lt_of_eq b.2.2.isLt trips3
  have hca : a.1.val < 2 := a.1.isLt
  have hcb : b.1.val < 2 := b.1.isLt
  refine hab (Prod.ext (Fin.ext ?_) (Prod.ext (Fin.ext ?_) (Fin.ext ?_))) <;> omega

theorem chunks_cover : (Finset.univ : Finset (Fin 2 × Fin 16 × Fin k3_t1_loop.trips)).biUnion (fun a => chunkSet (coords3 a.1 a.2.1) a.2.2) = Finset.univ := by
  ext x
  simp only [Finset.mem_biUnion, Finset.mem_univ, true_and, iff_true]
  have hx : (x 0).val < 819200 := (x 0).isLt
  refine ⟨(⟨(x 0).val / 12800 % 4 / 2, by omega⟩, ⟨(x 0).val / 12800 / 4, by omega⟩, ⟨(x 0).val / 12800 % 2, by rw [trips3]; omega⟩), (mem_chunkSet' _ _ _ x).2 ?_⟩
  show 12800 * (4 * ((x 0).val / 12800 / 4) + 2 * ((x 0).val / 12800 % 4 / 2) + (x 0).val / 12800 % 2) ≤ (x 0).val
    ∧ (x 0).val < 12800 * (4 * ((x 0).val / 12800 / 4) + 2 * ((x 0).val / 12800 % 4 / 2) + (x 0).val / 12800 % 2) + 12800
  omega

/-! ## A whole result array is its parts -/

/-- A separating conjunction over triples, one index after another. -/
theorem bigSep_univ3 {A B C : Type} [Fintype A] [Fintype B] [Fintype C] [DecidableEq A] [DecidableEq B] [DecidableEq C]
    (Φ : A × B × C → sProp 𝕄) :
    bigSep Finset.univ Φ = bigSep Finset.univ fun a => bigSep Finset.univ fun b => bigSep Finset.univ fun c => Φ (a, b, c) := by
  rw [← Finset.univ_product_univ, SparseCore.bigSep_product]
  refine bigSep_congr fun a _ => ?_
  rw [← Finset.univ_product_univ, SparseCore.bigSep_product]

theorem v4_rows (d : Dev nD) (f : Buf (Elt F) ((SparseCore.T d).loc main_v4)) :
    ((SparseCore.T d).loc main_v4 ↦{fullShare} f : sProp 𝕄)
      = bigSep Finset.univ fun c : Fin 2 => bigSep Finset.univ fun i : Fin 16 => (SparseCore.T d).loc main_v4 ↦[rowSet (coords1 c i)]{fullShare} f := by
  rw [← SparseCore.bigSep_product Finset.univ Finset.univ (fun a : Fin 2 × Fin 16 => ((SparseCore.T d).loc main_v4 ↦[rowSet (coords1 a.1 a.2)]{fullShare} f : sProp 𝕄)),
    Finset.univ_product_univ,
    ← pointsTo_biUnion Finset.univ (ℓ := (SparseCore.T d).loc main_v4) (fun a : Fin 2 × Fin 16 => rowSet (coords1 a.1 a.2)) rows_disjoint, rows_cover]
  try rfl

theorem v8_chunks (d : Dev nD) (f : Buf (Elt F) ((SparseCore.T d).loc main_v8)) :
    ((SparseCore.T d).loc main_v8 ↦{fullShare} f : sProp 𝕄)
      = bigSep Finset.univ fun c : Fin 2 => bigSep Finset.univ fun i : Fin 16 => bigSep Finset.univ fun t : Fin k3_t1_loop.trips =>
          (SparseCore.T d).loc main_v8 ↦[chunkSet (coords3 c i) t]{fullShare} f := by
  rw [← bigSep_univ3 (fun a : Fin 2 × Fin 16 × Fin k3_t1_loop.trips => ((SparseCore.T d).loc main_v8 ↦[chunkSet (coords3 a.1 a.2.1) a.2.2]{fullShare} f : sProp 𝕄)),
    ← pointsTo_biUnion Finset.univ (ℓ := (SparseCore.T d).loc main_v8) (fun a : Fin 2 × Fin 16 × Fin k3_t1_loop.trips => chunkSet (coords3 a.1 a.2.1) a.2.2) chunks_disjoint, chunks_cover]
  try rfl

/-! ## The TensorCore's side: the full share and the whole result array to the two SparseCores, and back -/

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0: the full share of the arrays read splits into a remainder, kept until both SparseCores are done, and a
    token per SparseCore; the result array splits into its 32 rows, and comes back whole at the one function. -/
theorem call0_hand (d : Dev nD) :
    iprop(((SparseCore.T d).loc main_v0 ↦{fullShare} xv d) ∗ ((SparseCore.T d).loc main_v2 ↦{fullShare} rmin d) ∗ ((SparseCore.T d).loc main_v3 ↦{fullShare} rmax d)
        ∗ (∃ f, (SparseCore.T d).loc main_v4 ↦{fullShare} f))
      ⊢ (iprop((bigSep Finset.univ fun c : Fin ((K (F := F)).nCore 0) => (P (F := F) xv rmin rmax p4 tv g3).st 0 d c)
          ∗ ((bigSep Finset.univ fun c : Fin ((K (F := F)).nCore 0) => (P (F := F) xv rmin rmax p4 tv g3).dn 0 d c)
            -∗ iprop(((SparseCore.T d).loc main_v0 ↦{fullShare} xv d) ∗ ((SparseCore.T d).loc main_v2 ↦{fullShare} rmin d) ∗ ((SparseCore.T d).loc main_v3 ↦{fullShare} rmax d)
              ∗ ((SparseCore.T d).loc main_v4 ↦{fullShare} p4 d)))) : sProp 𝕄) := by
  change _ ⊢ iprop((bigSep Finset.univ fun c : Fin 2 => st0 xv rmin rmax d c)
      ∗ ((bigSep Finset.univ fun c : Fin 2 => dn0 xv rmin rmax p4 d c) -∗ _))
  unfold st0 dn0
  rw [bigSep_sep', bigSep_sep', v4_rows d (p4 d)]
  iintro ⟨H0, H2, H3, %f, H4⟩
  ihave H4 := (Entails.of_eq (v4_rows d f)) $$ H4
  have hex : ∀ I : Finset S2x16x16.Idx, ((SparseCore.T d).loc main_v4 ↦[I]{fullShare} f : sProp 𝕄) ⊢ iprop(∃ f, (SparseCore.T d).loc main_v4 ↦[I]{fullShare} f) :=
    fun I => exists_intro (Φ := fun f => ((SparseCore.T d).loc main_v4 ↦[I]{fullShare} f : sProp 𝕄)) f
  have hmono : (bigSep Finset.univ fun c : Fin 2 => bigSep Finset.univ fun i : Fin 16 => ((SparseCore.T d).loc main_v4 ↦[rowSet (coords1 c i)]{fullShare} f : sProp 𝕄))
      ⊢ bigSep Finset.univ fun c : Fin 2 => bigSep Finset.univ fun i : Fin 16 => iprop(∃ f, (SparseCore.T d).loc main_v4 ↦[rowSet (coords1 c i)]{fullShare} f) :=
    bigSep_mono fun c _ => bigSep_mono fun i _ => hex (rowSet (coords1 c i))
  ihave Hr := (rd0_split xv rmin rmax d fullShare 2) $$ [H0 H2 H3]
  · unfold rd0
    isplitl [H0]; · iexact H0
    isplitl [H2]; · iexact H2
    iexact H3
  icases Hr with ⟨Hd, Ht⟩
  isplitl [Ht H4]
  · isplitl [Ht]; · iexact Ht
    iapply hmono
    iexact H4
  iintro ⟨Ht, H4⟩
  ihave Hr := (rd0_join xv rmin rmax d fullShare 2) $$ [Hd Ht]
  · isplitl [Hd]; · iexact Hd
    iexact Ht
  unfold rd0
  icases Hr with ⟨H0, H2, H3⟩
  isplitl [H0]; · iexact H0
  isplitl [H2]; · iexact H2
  isplitl [H3]; · iexact H3
  iexact H4

/-- Call 1: the same, the result array splitting into its 64 chunks. -/
theorem call1_hand (d : Dev nD) :
    iprop(((SparseCore.T d).loc main_v0 ↦{fullShare} xv d) ∗ ((SparseCore.T d).loc main_v7 ↦{fullShare} tv d)
        ∗ (∃ f, (SparseCore.T d).loc main_v8 ↦{fullShare} f))
      ⊢ (iprop((bigSep Finset.univ fun c : Fin ((K (F := F)).nCore 1) => (P (F := F) xv rmin rmax p4 tv g3).st 1 d c)
          ∗ ((bigSep Finset.univ fun c : Fin ((K (F := F)).nCore 1) => (P (F := F) xv rmin rmax p4 tv g3).dn 1 d c)
            -∗ iprop(((SparseCore.T d).loc main_v0 ↦{fullShare} xv d) ∗ ((SparseCore.T d).loc main_v7 ↦{fullShare} tv d)
              ∗ ((SparseCore.T d).loc main_v8 ↦{fullShare} g3 d)))) : sProp 𝕄) := by
  change _ ⊢ iprop((bigSep Finset.univ fun c : Fin 2 => st1 xv tv d c)
      ∗ ((bigSep Finset.univ fun c : Fin 2 => dn1 xv tv g3 d c) -∗ _))
  unfold st1 dn1
  rw [bigSep_sep', bigSep_sep', v8_chunks d (g3 d)]
  iintro ⟨H0, H7, %f, H8⟩
  ihave H8 := (Entails.of_eq (v8_chunks d f)) $$ H8
  have hex : ∀ I : Finset S819200.Idx, ((SparseCore.T d).loc main_v8 ↦[I]{fullShare} f : sProp 𝕄) ⊢ iprop(∃ f, (SparseCore.T d).loc main_v8 ↦[I]{fullShare} f) :=
    fun I => exists_intro (Φ := fun f => ((SparseCore.T d).loc main_v8 ↦[I]{fullShare} f : sProp 𝕄)) f
  have hmono : (bigSep Finset.univ fun c : Fin 2 => bigSep Finset.univ fun i : Fin 16 => bigSep Finset.univ fun t : Fin k3_t1_loop.trips =>
        ((SparseCore.T d).loc main_v8 ↦[chunkSet (coords3 c i) t]{fullShare} f : sProp 𝕄))
      ⊢ bigSep Finset.univ fun c : Fin 2 => bigSep Finset.univ fun i : Fin 16 => bigSep Finset.univ fun t : Fin k3_t1_loop.trips =>
        iprop(∃ f, (SparseCore.T d).loc main_v8 ↦[chunkSet (coords3 c i) t]{fullShare} f) :=
    bigSep_mono fun c _ => bigSep_mono fun i _ => bigSep_mono fun t _ => hex (chunkSet (coords3 c i) t)
  ihave Hr := (rd1_split xv tv d fullShare 2) $$ [H0 H7]
  · unfold rd1
    isplitl [H0]; · iexact H0
    iexact H7
  icases Hr with ⟨Hd, Ht⟩
  isplitl [Ht H8]
  · isplitl [Ht]; · iexact Ht
    iapply hmono
    iexact H8
  iintro ⟨Ht, H8⟩
  ihave Hr := (rd1_join xv tv d fullShare 2) $$ [Hd Ht]
  · isplitl [Hd]; · iexact Hd
    iexact Ht
  unfold rd1
  icases Hr with ⟨H0, H7⟩
  isplitl [H0]; · iexact H0
  isplitl [H7]; · iexact H7
  iexact H8

end Contents

end Cert.KernelIdeal.Hand

end
-- ==== Proof.Spec.lean ====
/-
  The function both programs compute, over the extended reals, stated once and index by index.

  Inputs: an index array `x` (4096 × 200 words), a table `emb` (100000 rows of 128 reals), a weight row `W`
  (1 × 128) and a bias `b` (one real). Write `r n` for the table row the n-th index word names.
  * `lo` is the least and `hi` the greatest entry among the gathered rows `emb (r n) k`;
  * the quantisation step is `s = max ((max hi 0 - min lo 0) / 255) ε` and the zero point
    `z = clip (-128 - round (min lo 0 / s)) (-128) 127`, rounding half to even;
  * an entry `y` is fake-quantised to `(clip (round (y / s) + z) (-128) 127 - z) * s`;
  * row `r` of the table scores `t r = (∑ k, fq (emb r k) * W k) + b`, and result entry `n` is `t (r n)`.
  The literals are kept as the binary words both programs print; none is evaluated.
-/
import Idealize.ShloMosaic.PureOps.Ideal
import Idealize.ShloMosaic.Lib.ValueIdx

noncomputable section

namespace Cert.Spec

open Idealize.ShloMosaic

abbrev S4096x200 : Shape := ⟨2, ![4096, 200]⟩
abbrev S100000x128 : Shape := ⟨2, ![100000, 128]⟩
abbrev S1x128 : Shape := ⟨2, ![1, 128]⟩
abbrev S1 : Shape := ⟨1, ![1]⟩
abbrev S4096x200x1 : Shape := ⟨3, ![4096, 200, 1]⟩

/-- The five literals, as the words the programs print. -/
def c0 : EReal := Ideal.ofBits .f32 0x00000000#32
def c255 : EReal := Ideal.ofBits .f32 0x437F0000#32
def cEps : EReal := Ideal.ofBits .f32 0x34000000#32
def cLo : EReal := Ideal.ofBits .f32 0xC3000000#32
def cHi : EReal := Ideal.ofBits .f32 0x42FE0000#32

/-- Rounding to the nearest integer, ties to even, on the extended reals. -/
def rnd (y : EReal) : EReal := Ideal.liftRound Ideal.roundHalfEven y

/-- The quantisation step from the least and the greatest gathered entry. -/
def scale (lo hi : EReal) : EReal := max (Ideal.div (max hi c0 - min lo c0) c255) cEps

/-- The zero point. -/
def zp (lo hi : EReal) : EReal := min cHi (max cLo (cLo - rnd (Ideal.div (min lo c0) (scale lo hi))))

/-- One entry fake-quantised. -/
def fq (lo hi y : EReal) : EReal :=
  (min cHi (max cLo (rnd (Ideal.div y (scale lo hi)) + zp lo hi)) - zp lo hi) * scale lo hi

/-- The table row an index word names (a word in range names itself). -/
def row (w : BitVec 32) : Fin 100000 := ⟨w.toNat % 100000, Nat.mod_lt _ (by norm_num)⟩

theorem row_of_lt {w : BitVec 32} (h : w.toNat < 100000) : (row w).val = w.toNat := Nat.mod_eq_of_lt h

variable (x : S4096x200.Idx → BitVec 32) (emb : S100000x128.Idx → EReal) (W : S1x128.Idx → EReal) (b : S1.Idx → EReal)

/-- The least gathered entry. -/
def lo : EReal := ⨅ (p : Fin 4096) (q : Fin 200) (k : Fin 128), emb (ValueIdx.ix2 (row (x (ValueIdx.ix2 p q))) k)
/-- The greatest gathered entry. -/
def hi : EReal := ⨆ (p : Fin 4096) (q : Fin 200) (k : Fin 128), emb (ValueIdx.ix2 (row (x (ValueIdx.ix2 p q))) k)

/-- The score of table row `r`. -/
def score (r : Fin 100000) : EReal :=
  (∑ k : Fin 128, fq (lo x emb) (hi x emb) (emb (ValueIdx.ix2 r k)) * W (ValueIdx.ix2 0 k)) + b (ValueIdx.ix1 0)

/-- The result, entry by entry. -/
def out (p : Fin 4096) (q : Fin 200) : EReal := score x emb W b (row (x (ValueIdx.ix2 p q)))

end Cert.Spec

end
-- ==== Proof.TileGatherI.lean ====
/-
  One tile's body of the second SparseCore kernel (the gather), at a symbolic grid point.

  The tile copies the whole table into its table scratch. Then, for each of its two chunks of 12800 index words: it
  copies the chunk's index words into its index scratch; in 100 trips of eight steps it reads sixteen index words,
  reads the table scratch at the rows they name and stores the sixteen values into its out scratch at the same
  offset; and it copies the out scratch to the chunk of the output. Each copy is issued and waited for by the tile on
  a semaphore of its own.

  The value is carried in the loops' invariants: before inner trip `j` the first `128 j` entries of the out scratch
  are the table entries the chunk's first `128 j` index words name; before outer trip `k` the chunks below `k` of the
  output hold the gathered array `G3`. Index words are below the table's extent (`hx`), so each range check passes
  and a word names the row of its own value.
-/
import proofs.«211894_g61933428415975_cont_9to1c4b_619_7_alg».proof.Proof.SetupI
import proofs.«211894_g61933428415975_cont_9to1c4b_619_7_alg».proof.Proof.Spec

noncomputable section

namespace Cert.KernelIdeal.Hand.Gather

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]

/-- The tile at grid point `L` of device `d`. -/
abbrev thr (d : Dev nD) (L : grid3.Coords) : Thread nD τ := V d ((L 0).castLE hcore3) ((L 1).castLE hsub3)

abbrev cV (L : grid3.Coords) : Fin τ.nSC := (L 0).castLE hcore3
abbrev jV (L : grid3.Coords) : Fin τ.nSub := (L 1).castLE hsub3

/-- The gathered array: entry `n` is the table entry the `n`-th index word names. -/
def G3 {d : Dev nD} (xv : Buf (Elt F) ((SparseCore.T (τ := τ) d).loc main_v0)) (tv : Buf (Elt F) ((SparseCore.T (τ := τ) d).loc main_v7)) :
    Buf (Elt F) ((SparseCore.T (τ := τ) d).loc main_v8) :=
  fun n => tv (ValueIdx.ix1 (Cert.Spec.row (xv n)))

/-- The part of the output that chunk `t` of tile `L` covers, spelt as the program slices it. -/
abbrev chunkSet (L : grid3.Coords) (t : Fin k3_t1_loop.trips) : Finset S819200.Idx :=
  ((Memref.whole main_v8_scv : Memref sig .scVector .hbm S819200 .f32).slice
    (Rect.unit (s := S819200) (k3_off1 L t) S12800.size (k3_off1_inb L t)) (fun _ => rfl)).view.set

-- the kernel's memrefs, spelt as the program names them
local notation "xW" => (Memref.whole Cert.KernelIdeal.main_v0_scv : Memref Cert.KernelIdeal.sig Kind.scVector Space.hbm Cert.KernelIdeal.S819200 EltTy.i32)
local notation "tW" => (Memref.whole Cert.KernelIdeal.main_v7_scv : Memref Cert.KernelIdeal.sig Kind.scVector Space.hbm Cert.KernelIdeal.S100000 EltTy.f32)
local notation "oW" => (Memref.whole Cert.KernelIdeal.main_v8_scv : Memref Cert.KernelIdeal.sig Kind.scVector Space.hbm Cert.KernelIdeal.S819200 EltTy.f32)
local notation "s5" => (Memref.whole Cert.KernelIdeal.cc3_scratch0 : Memref Cert.KernelIdeal.sig Kind.scVector Space.vmem Cert.KernelIdeal.S100000 EltTy.f32)
local notation "s6" => (Memref.whole Cert.KernelIdeal.cc3_scratch1 : Memref Cert.KernelIdeal.sig Kind.scVector Space.vmem Cert.KernelIdeal.S12800 EltTy.i32)
local notation "s7" => (Memref.whole Cert.KernelIdeal.cc3_scratch2 : Memref Cert.KernelIdeal.sig Kind.scVector Space.vmem Cert.KernelIdeal.S12800 EltTy.f32)

/-- Chunk `t` of the index array and of the output, as the tile slices them. -/
abbrev xChunk (L : grid3.Coords) (t : Fin k3_t1_loop.trips) : Memref sig .scVector .hbm S12800 .i32 :=
  (xW).slice (Rect.unit (s := S819200) (k3_off1 L t) S12800.size (k3_off1_inb L t)) (fun _ => rfl)
abbrev oChunk (L : grid3.Coords) (t : Fin k3_t1_loop.trips) : Memref sig .scVector .hbm S12800 .f32 :=
  (oW).slice (Rect.unit (s := S819200) (k3_off1 L t) S12800.size (k3_off1_inb L t)) (fun _ => rfl)

section Tile

variable (d : Dev nD) (L : grid3.Coords)

abbrev c0cell : GSem nD τ sig := (thr d L, .dma cc3_scoped0.sem)
abbrev c1cell : GSem nD τ sig := (thr d L, .dma cc3_scoped1.sem)
abbrev c2cell : GSem nD τ sig := (thr d L, .dma cc3_scoped2.sem)

omit [FloatOps F] in
theorem ownSems0_V :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc3_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc3_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc3_scoped2.sem : SemLoc sig).isScoped .scVector = true; decide⟩⟩⟩)]

omit [FloatOps F] in
/-- The three scratch buffers are among the tile's own: they are them, at some contents, and the rest. -/
theorem ownBufs_V :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

/-! The arrays as the tile's memrefs address them are the device's arrays. -/
omit [FloatOps F] in
theorem pts_x (q : PosShare TreeShare) (f : Buf (Elt F) ((SparseCore.T d).loc main_v0)) :
    ((xW).view.loc (thr d L) ↦{q} f : sProp 𝕄) = (SparseCore.T d).loc main_v0 ↦{q} f := by
  simp only [Memref.view_whole, View.set_whole]
omit [FloatOps F] in
theorem pts_t (q : PosShare TreeShare) (f : Buf (Elt F) ((SparseCore.T d).loc main_v7)) :
    ((tW).view.loc (thr d L) ↦{q} f : sProp 𝕄) = (SparseCore.T d).loc main_v7 ↦{q} f := by
  simp only [Memref.view_whole, View.set_whole]
omit [FloatOps F] in
theorem pts_o (t : Fin k3_t1_loop.trips) (f : Buf (Elt F) ((SparseCore.T d).loc main_v8)) :
    ((oChunk L t).view.loc (thr d L) ↦[(oChunk L t).view.set]{fullShare} f : sProp 𝕄)
      = (SparseCore.T d).loc main_v8 ↦[chunkSet L t]{fullShare} f := rfl
omit [FloatOps F] in
theorem pts_s5 (f : Buf (Elt F) ((thr d L).loc cc3_scratch0)) :
    ((s5).view.loc (thr d L) ↦{fullShare} f : sProp 𝕄) = (thr d L).loc cc3_scratch0 ↦{fullShare} f := rfl
omit [FloatOps F] in
theorem pts_s6 (f : Buf (Elt F) ((thr d L).loc cc3_scratch1)) :
    ((s6).view.loc (thr d L) ↦{fullShare} f : sProp 𝕄) = (thr d L).loc cc3_scratch1 ↦{fullShare} f := rfl
omit [FloatOps F] in
theorem pts_s7 (f : Buf (Elt F) ((thr d L).loc cc3_scratch2)) :
    ((s7).view.loc (thr d L) ↦{fullShare} f : sProp 𝕄) = (thr d L).loc cc3_scratch2 ↦{fullShare} f := rfl

/-- What the index words name, read through a tile's index scratch holding `f6`. -/
abbrev gath (tv : Buf (Elt F) ((SparseCore.T (τ := τ) d).loc main_v7)) (f6 : Buf (Elt F) ((thr d L).loc cc3_scratch1)) :
    Buf (Elt F) ((thr d L).loc cc3_scratch2) :=
  fun y => tv (ValueIdx.ix1 (Cert.Spec.row (f6 y)))

/-- Before inner trip `j`: the table scratch holds the table, the index scratch the chunk's index words, and the first
    `128 * j` entries of the out scratch are the table entries those words name. -/
def invI (tv : Buf (Elt F) ((SparseCore.T (τ := τ) d).loc main_v7)) (f6 : Buf (Elt F) ((thr d L).loc cc3_scratch1)) (j : Nat) (_ : BitVec 32) : sProp 𝕄 :=
  iprop(((s5).view.loc (thr d L) ↦{fullShare} tv)
    ∗ ((s6).view.loc (thr d L) ↦{fullShare} f6)
    ∗ ∃ f7, ((s7).view.loc (thr d L) ↦{fullShare} f7) ∗ ⌜∀ y : S12800.Idx, (y 0).val < 128 * j → f7 y = gath d L tv f6 y⌝)

/-- Before outer trip `k`: the chunks below `k` hold the gathered array. -/
def invO (q₁ : PosShare TreeShare) (xv : Buf (Elt F) ((SparseCore.T (τ := τ) d).loc main_v0)) (tv : Buf (Elt F) ((SparseCore.T (τ := τ) d).loc main_v7))
    (O : CellTallies nD τ sig (HIx 2)) (W : Waits sig (HIx 2)) (k : Nat) (_ : BitVec 32) : sProp 𝕄 :=
  iprop(Transfers.MayWaits (thr d L) (none : HIx 2) O
    ∗ ((xW).view.loc (thr d L) ↦{q₁} xv)
    ∗ ((s5).view.loc (thr d L) ↦{fullShare} tv)
    ∗ (∃ f, (s6).view.loc (thr d L) ↦{fullShare} f)
    ∗ (∃ f, (s7).view.loc (thr d L) ↦{fullShare} f)
    ∗ (bigSep Finset.univ fun t : Fin k3_t1_loop.trips =>
        iprop(∃ f, ((SparseCore.T d).loc main_v8 ↦[chunkSet L t]{fullShare} f) ∗ ⌜t.val < k → ∀ i ∈ chunkSet L t, f i = G3 xv tv i⌝))
    ∗ semVal (c1cell d L) 0 ∗ semVal (c2cell d L) 0
    ∗ ∃ W', ⌜∀ p ∈ W', p ∈ W ∨ p.2 = none⌝ ∗ owes (thr d L) O W')

omit [FloatOps F] in
/-- Sixteen index words, each below the table's extent, pass the kernel's range check. -/
theorem chk_of_lt (v : IVec S16 32) (h : ∀ x, (v x).toNat < 100000) :
    ∀ a x, ((![v] : Fin 1 → IVec S16 32) a x).toNat < S100000.size a := by
  intro a x
  obtain rfl : a = 0 := Subsingleton.elim _ _
  exact h x

omit [FloatOps F] in
theorem s6_lands (f6 : Buf (Elt F) ((thr d L).loc cc3_scratch1)) (w) :
    View.write (Elt F) (s6).view f6 w Finset.univ = w := View.write_whole_univ _ _ _
omit [FloatOps F] in
theorem s5_lands (f5 : Buf (Elt F) ((thr d L).loc cc3_scratch0)) (w) :
    View.write (Elt F) (s5).view f5 w Finset.univ = w := View.write_whole_univ _ _ _

omit [FloatOps F] in
/-- The index scratch after chunk `t`'s fetch holds the chunk's index words. -/
theorem read_x (xv : Buf (Elt F) ((SparseCore.T (τ := τ) d).loc main_v0)) (t : Fin k3_t1_loop.trips) (y : S12800.Idx) :
    (xChunk L t).view.read (Elt F) xv y = xv ((xChunk L t).view.emb y) :=
  (View.read_apply _ _).trans (cast_eq _ _)

omit [FloatOps F] in
theorem read_x_lt (xv : Buf (Elt F) ((SparseCore.T (τ := τ) d).loc main_v0)) (hx : ∀ n, (xv n).toNat < 100000)
    (t : Fin k3_t1_loop.trips) (y : S12800.Idx) : ((xChunk L t).view.read (Elt F) xv y).toNat < 100000 := by
  rw [read_x]; exact hx _

omit [FloatOps F] in
/-- A unit rectangle of sixteen entries of the scratch from entry `c` on. -/
theorem mem_piece {off : Fin 1 → Nat} {inb : ∀ a, off a + S16.size a ≤ S12800.size a} {c : Nat} (e : off = ![c]) (y : S12800.Idx) :
    y ∈ (Rect.unit (s := S12800) off S16.size inb).set ↔ c ≤ (y 0).val ∧ (y 0).val < c + 16 := by
  subst e
  rw [Rect.mem_set_unit]
  constructor
  · intro h; simpa using h 0
  · intro h a; obtain rfl : a = 0 := Subsingleton.elim _ _; simpa using h

omit [FloatOps F] in
/-- One gathered block of sixteen: the table entries that sixteen index words of the index scratch name. -/
theorem piece_eq (tv : Buf (Elt F) ((SparseCore.T (τ := τ) d).loc main_v7)) (F6 : Buf (Elt F) ((thr d L).loc cc3_scratch1))
    (off : Fin 1 → Nat) (inb : ∀ a, off a + S16.size a ≤ S12800.size a)
    (h : ∀ a x, ((![View.readAt (Elt F) (s6).view (Rect.unit (s := S12800) off S16.size inb).toLoadRect F6] : Fin 1 → IVec S16 32) a x).toNat < S100000.size a)
    (x : (Rect.unit (s := S12800) off S16.size inb).shape.Idx) :
    loadIdx (View.readAt (Elt F) (s5).view (LoadRect.whole S100000) tv)
        ![View.readAt (Elt F) (s6).view (Rect.unit (s := S12800) off S16.size inb).toLoadRect F6] h x
      = gath d L tv F6 ((Rect.unit (s := S12800) off S16.size inb).emb x) := by
  show tv ((LoadRect.whole S100000).idx (idxAt _ h x)) = tv (ValueIdx.ix1 _)
  rw [LoadRect.idx_whole]
  congr 1
  funext a
  obtain rfl : a = 0 := Subsingleton.elim _ _
  apply Fin.ext
  exact (Nat.mod_eq_of_lt (h 0 x)).symm

omit [FloatOps F] in
/-- One inner trip's eight stores extend the gathered prefix of the out scratch by 128 entries. -/
theorem trip_val (G : S12800.Idx → F .f32) (g7 : Buf (Elt F) ((thr d L).loc cc3_scratch2)) (j : ℕ) (Ls : List (View.Piece (Elt F) S12800 .f32))
    (hL : ∀ p ∈ Ls, ∀ x, p.2 x = G (p.1.emb x))
    (hin : ∀ p ∈ Ls, ∀ y ∈ p.1.set, 128 * j ≤ (y 0).val)
    (hcov : ∀ y : S12800.Idx, 128 * j ≤ (y 0).val → (y 0).val < 128 * (j + 1) → ∃ p ∈ Ls, y ∈ p.1.set)
    (h7 : ∀ y : S12800.Idx, (y 0).val < 128 * j → g7 y = G y) :
    ∀ y : S12800.Idx, (y 0).val < 128 * (j + 1) → (s7).view.writes (Elt F) g7 Ls y = G y := by
  intro y hy
  by_cases h : (y 0).val < 128 * j
  · have := View.read_writes_apply_of_forall_not_mem (s7).view g7 y Ls (fun p hp hm => absurd (hin p hp y hm) (by omega))
    exact this.trans (h7 y h)
  · exact View.read_writes_apply_of_pieces (s7).view g7 G Ls hL y (hcov y (by omega) hy)

omit [FloatOps F] in
/-- The eight stores of inner trip `j` land at entries `128 j + 16 r`, `r = 0 … 7`, of the out scratch. -/
theorem offs (j : Fin k3_t2_loop.trips) :
    k3_off3 j 0#32 = ![128 * j.val + 16 * 0] ∧ k3_off4 j 1#32 = ![128 * j.val + 16 * 0 + 16] ∧ k3_off5 j 2#32 = ![128 * j.val + 16 * 0 + 32]
      ∧ k3_off6 j 3#32 = ![128 * j.val + 16 * 0 + 48] ∧ k3_off7 j 4#32 = ![128 * j.val + 16 * 0 + 64] ∧ k3_off8 j 5#32 = ![128 * j.val + 16 * 0 + 80]
      ∧ k3_off9 j 6#32 = ![128 * j.val + 16 * 0 + 96] ∧ k3_off10 j = ![128 * j.val + 112] :=
  ⟨k3_off3_eq j ⟨0, by decide⟩, k3_off4_eq j ⟨0, by decide⟩, k3_off5_eq j ⟨0, by decide⟩, k3_off6_eq j ⟨0, by decide⟩,
    k3_off7_eq j ⟨0, by decide⟩, k3_off8_eq j ⟨0, by decide⟩, k3_off9_eq j ⟨0, by decide⟩, k3_off10_eq j⟩

omit [FloatOps F] in
theorem trips2 : k3_t2_loop.trips = 100 := by decide

omit [FloatOps F] in
/-- What the copy-out of the out scratch leaves in chunk `t` of the output: the gathered array there. -/
theorem chunk_val (xv : Buf (Elt F) ((SparseCore.T (τ := τ) d).loc main_v0)) (tv : Buf (Elt F) ((SparseCore.T (τ := τ) d).loc main_v7))
    (t : Fin k3_t1_loop.trips) (fo : Buf (Elt F) ((SparseCore.T (τ := τ) d).loc main_v8)) (w : S12800.Idx → F .f32)
    (hw : ∀ y : S12800.Idx, w y = gath d L tv ((xChunk L t).view.read (Elt F) xv) y) :
    ∀ i ∈ chunkSet L t, (oChunk L t).view.writes (Elt F) fo [⟨Rect.whole S12800, w⟩] i = G3 xv tv i := by
  intro i hi
  obtain ⟨y, -, rfl⟩ := Finset.mem_map.mp hi
  have h1 := View.read_writes_cons_emb (oChunk L t).view fo (Rect.whole S12800) w [] y
  rw [Rect.emb_whole_apply, View.read_apply, cast_eq] at h1
  rw [h1, hw y]
  show tv _ = tv _
  rw [read_x]
  rfl

omit [FloatOps F] in
/-- A proof-mode entailment, as the library's big-conjunction lemmas ask for it. -/
theorem unent {P Q : sProp 𝕄} (h : P ⊢ Q) : Idealize.SL.BI.Entails P Q := h

omit [FloatOps F] in
/-- Chunk `t` of tile `L` is the 12800 entries of the output from entry `25600 (2 L₁ + L₀) + 12800 t` on. -/
theorem chunkSet_mem (t : Fin k3_t1_loop.trips) (n : S819200.Idx) :
    n ∈ chunkSet L t ↔ 25600 * (2 * (L 1).val + (L 0).val) + 12800 * t.val ≤ (n 0).val
      ∧ (n 0).val < 25600 * (2 * (L 1).val + (L 0).val) + 12800 * t.val + 12800 := by
  have e : chunkSet L t = (Rect.unit (s := S819200) (k3_off1 L t) S12800.size (k3_off1_inb L t)).set := View.set_slice_whole _ _
  rw [e, Rect.mem_set_unit, k3_off1_eq]
  constructor
  · intro h
    have h0 := h 0
    simp only [Matrix.cons_val_zero] at h0
    have : S12800.size 0 = 12800 := rfl
    omega
  · intro h a
    obtain rfl : a = 0 := Subsingleton.elim _ _
    simp only [Matrix.cons_val_zero]
    have : S12800.size 0 = 12800 := rfl
    omega

set_option maxHeartbeats 4000000 in
theorem body (q₁ q₂ : PosShare TreeShare) (xv : Buf (Elt F) ((SparseCore.T d).loc main_v0)) (tv : Buf (Elt F) ((SparseCore.T d).loc main_v7))
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v7 ↦{q₂} tv)
        ∗ (bigSep Finset.univ fun t : Fin k3_t1_loop.trips => iprop(∃ f, (SparseCore.T d).loc main_v8 ↦[chunkSet L t]{fullShare} f))
        ∗ scopedBufs (thr d L) ∗ scopedSems0 (thr d L) ∗ owes (thr d L) O W) : sProp 𝕄)
      ⊢ wp frame (wpE (defs₀ (F := F)) 𝒱₀ (thr d L) none) Set.univ
          (cc3_k L xW (Memref.isWhole_whole _) tW (Memref.isWhole_whole _) oW (Memref.isWhole_whole _)
            s5 (Memref.isWhole_whole _) s6 (Memref.isWhole_whole _) s7 (Memref.isWhole_whole _) cc3_scoped0 cc3_scoped1 cc3_scoped2)
          fun _ => iprop(((SparseCore.T d).loc main_v0 ↦{q₁} xv) ∗ ((SparseCore.T d).loc main_v7 ↦{q₂} tv)
            ∗ (bigSep Finset.univ fun t : Fin k3_t1_loop.trips => (SparseCore.T d).loc main_v8 ↦[chunkSet L t]{fullShare} G3 xv tv)
            ∗ scopedBufs (thr d L) ∗ scopedSems0 (thr d L) ∗ ∃ W', ⌜∀ p ∈ W', p ∈ W ∨ p.2 = none⌝ ∗ owes (thr d L) O W') := by

  rw [(K (F := F)).scopedBufs_V (facts (F := F)) d (cV L) (jV L), SparseCore.Cfg.scopedSems0_V (Val := Elt F) d (cV L) (jV L), ownSems0_V, ownBufs_V]
  iintro ⟨#Hlv, Hx, Ht, Ho, ⟨⟨%f5, H5⟩, ⟨%f6, H6⟩, ⟨%f7, H7⟩, Hbufs⟩, ⟨Hsem0, Hsem1, Hsem2, Hsems⟩, HO⟩
  ihave Hmw := ((K (F := F)).mayWaits_none (thr := thr d L) hO) $$ Hlv
  ihave Hx' := (Entails.of_eq (pts_x (F := F) d L _ _).symm) $$ Hx
  ihave Ht' := (Entails.of_eq (pts_t (F := F) d L _ _).symm) $$ Ht
  ihave H5' := (Entails.of_eq (pts_s5 (F := F) d L _).symm) $$ H5
  ihave H6' := (Entails.of_eq (pts_s6 (F := F) d L _).symm) $$ H6
  ihave H7' := (Entails.of_eq (pts_s7 (F := F) d L _).symm) $$ H7
  sl_unfold [cc3_k]
  sl_exec

  sl_for (invO d L q₁ xv tv O W) $$ [Hmw Hx' H5' H6' H7' Ho Hsem1 Hsem2 HO]
  case region =>
    intro k _
    unfold invO
    iintro ⟨#Hmw, Hx, H5, ⟨%f6, H6⟩, ⟨%f7, H7⟩, Ho, Hsem1, Hsem2, %W', %hW', HO⟩
    ihave Ho' := (Entails.of_eq (SparseCore.bigSep_erase' (Finset.mem_univ k))) $$ Ho
    icases Ho' with ⟨⟨%fo, Hok, -⟩, Horest⟩
    ihave Hok' := (Entails.of_eq (pts_o (F := F) d L k _).symm) $$ Hok
    sl_exec
    sl_for (invI d L tv ((xChunk L k).view.read (Elt F) xv)) $$ [H5 H6 H7]
    case region =>
      intro j _
      unfold invI
      iintro ⟨H5, H6, %g7, H7, %h7⟩
      sl_respell [k3_part1, SparseCore.vectorLoadIdx]
      sl_exec (disch := exact chk_of_lt _ (fun x => read_x_lt d L xv hx k _))
      sl_step
      isplitl [H5]; · iexact H5
      isplitl [H6]; · iexact H6
      iexists _; isplitl [H7]; · iexact H7
      ipureintro
      obtain ⟨e3, e4, e5, e6, e7, e8, e9, e10⟩ := offs j
      refine trip_val d L (gath d L tv _) g7 j.val _ ?hL ?hin ?hcov h7
      case hL =>
        intro p hp x
        simp only [List.mem_cons, List.not_mem_nil, or_false] at hp
        rcases hp with rfl | rfl | rfl | rfl | rfl | rfl | rfl | rfl <;> exact piece_eq d L tv _ _ _ _ x
      case hin =>
        intro p hp y hy
        simp only [List.mem_cons, List.not_mem_nil, or_false] at hp
        rcases hp with rfl | rfl | rfl | rfl | rfl | rfl | rfl | rfl
        · have hy' : y ∈ (Rect.unit (s := S12800) (k3_off10 j) S16.size (k3_off10_inb j)).set := hy
          have := (mem_piece e10 y).mp hy'; omega
        · have hy' : y ∈ (Rect.unit (s := S12800) (k3_off9 j 6#32) S16.size (k3_off9_inb j ⟨0, by decide⟩)).set := hy
          have := (mem_piece e9 y).mp hy'; omega
        · have hy' : y ∈ (Rect.unit (s := S12800) (k3_off8 j 5#32) S16.size (k3_off8_inb j ⟨0, by decide⟩)).set := hy
          have := (mem_piece e8 y).mp hy'; omega
        · have hy' : y ∈ (Rect.unit (s := S12800) (k3_off7 j 4#32) S16.size (k3_off7_inb j ⟨0, by decide⟩)).set := hy
          have := (mem_piece e7 y).mp hy'; omega
        · have hy' : y ∈ (Rect.unit (s := S12800) (k3_off6 j 3#32) S16.size (k3_off6_inb j ⟨0, by decide⟩)).set := hy
          have := (mem_piece e6 y).mp hy'; omega
        · have hy' : y ∈ (Rect.unit (s := S12800) (k3_off5 j 2#32) S16.size (k3_off5_inb j ⟨0, by decide⟩)).set := hy
          have := (mem_piece e5 y).mp hy'; omega
        · have hy' : y ∈ (Rect.unit (s := S12800) (k3_off4 j 1#32) S16.size (k3_off4_inb j ⟨0, by decide⟩)).set := hy
          have := (mem_piece e4 y).mp hy'; omega
        · have hy' : y ∈ (Rect.unit (s := S12800) (k3_off3 j 0#32) S16.size (k3_off3_inb j ⟨0, by decide⟩)).set := hy
          have := (mem_piece e3 y).mp hy'; omega
      case hcov =>
        intro y h1 h2
        rcases (by omega : (y 0).val < 128 * j.val + 16 ∨ (128 * j.val + 16 ≤ (y 0).val ∧ (y 0).val < 128 * j.val + 32)
            ∨ (128 * j.val + 32 ≤ (y 0).val ∧ (y 0).val < 128 * j.val + 48) ∨ (128 * j.val + 48 ≤ (y 0).val ∧ (y 0).val < 128 * j.val + 64)
            ∨ (128 * j.val + 64 ≤ (y 0).val ∧ (y 0).val < 128 * j.val + 80) ∨ (128 * j.val + 80 ≤ (y 0).val ∧ (y 0).val < 128 * j.val + 96)
            ∨ (128 * j.val + 96 ≤ (y 0).val ∧ (y 0).val < 128 * j.val + 112) ∨ 128 * j.val + 112 ≤ (y 0).val) with h | h | h | h | h | h | h | h
        · exact ⟨_, .tail _ (.tail _ (.tail _ (.tail _ (.tail _ (.tail _ (.tail _ (.head _))))))), (mem_piece (inb := k3_off3_inb j ⟨0, by decide⟩) e3 y).mpr ⟨by omega, by omega⟩⟩
        · exact ⟨_, .tail _ (.tail _ (.tail _ (.tail _ (.tail _ (.tail _ (.head _)))))), (mem_piece (inb := k3_off4_inb j ⟨0, by decide⟩) e4 y).mpr ⟨by omega, by omega⟩⟩
        · exact ⟨_, .tail _ (.tail _ (.tail _ (.tail _ (.tail _ (.head _))))), (mem_piece (inb := k3_off5_inb j ⟨0, by decide⟩) e5 y).mpr ⟨by omega, by omega⟩⟩
        · exact ⟨_, .tail _ (.tail _ (.tail _ (.tail _ (.head _)))), (mem_piece (inb := k3_off6_inb j ⟨0, by decide⟩) e6 y).mpr ⟨by omega, by omega⟩⟩
        · exact ⟨_, .tail _ (.tail _ (.tail _ (.head _))), (mem_piece (inb := k3_off7_inb j ⟨0, by decide⟩) e7 y).mpr ⟨by omega, by omega⟩⟩
        · exact ⟨_, .tail _ (.tail _ (.head _)), (mem_piece (inb := k3_off8_inb j ⟨0, by decide⟩) e8 y).mpr ⟨by omega, by omega⟩⟩
        · exact ⟨_, .tail _ (.head _), (mem_piece (inb := k3_off9_inb j ⟨0, by decide⟩) e9 y).mpr ⟨by omega, by omega⟩⟩
        · exact ⟨_, .head _, (mem_piece (inb := k3_off10_inb j) e10 y).mpr ⟨by omega, by omega⟩⟩
    · unfold invI
      rw [s6_lands]
      sl_unfold_run_names
      isplitl [H5]; · iexact H5
      isplitl [H6]; · iexact H6
      iexists _; isplitl [H7]; · iexact H7
      ipureintro; intro y hy; omega
    iintro %_ HI
    unfold invI
    icases HI with ⟨H5, H6, %g7, H7, %h7⟩
    sl_exec
    sl_step
    have ht2 : Scf.trips k3_t2_loop.lb k3_t2_loop.ub k3_t2_loop.st = 100 := trips2
    isplitr; · iexact Hmw
    isplitl [Hx]; · iexact Hx
    isplitl [H5]; · iexact H5
    isplitl [H6]; · iexists _; iexact H6
    isplitl [H7]; · iexists _; iexact H7
    isplitl [Hok' Horest]
    · irw [SparseCore.bigSep_erase' (Finset.mem_univ k)]
      isplitl [Hok']
      · iexists _; isplitl [Hok']
        · iapply (Entails.of_eq (pts_o (F := F) d L k _)); iexact Hok'
        · ipureintro; intro _
          sl_unfold_run_names
          exact chunk_val d L xv tv k fo _ (fun y => h7 y (by rw [ht2]; exact (y 0).isLt))
      · iapply (SparseCore.ent (bigSep_mono ?hmono)) $$ Horest
        case hmono =>
          intro t ht
          refine unent ?_
          iintro ⟨%f, H, %hf⟩
          iexists f; isplitl [H]; · iexact H
          ipureintro; intro hlt
          have hne : t.val ≠ k.val := Fin.val_ne_of_ne (Finset.ne_of_mem_erase ht)
          exact hf (by omega)
    isplitl [Hsem1]; · iexact Hsem1
    isplitl [Hsem2]; · iexact Hsem2
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold invO
    rw [s5_lands]
    sl_unfold_run_names
    isplitr; · iexact Hmw
    isplitl [Hx']; · iexact Hx'
    isplitl [H5']; · iexact H5'
    isplitl [H6']; · iexists _; iexact H6'
    isplitl [H7']; · iexists _; iexact H7'
    isplitl [Ho]
    · iapply (SparseCore.ent (bigSep_mono ?hmono0)) $$ Ho
      case hmono0 =>
        intro t _
        refine unent ?_
        iintro ⟨%f, H⟩
        iexists f; isplitl [H]; · iexact H
        ipureintro; intro h; exact absurd h (Nat.not_lt_zero _)
    isplitl [Hsem1]; · iexact Hsem1
    isplitl [Hsem2]; · iexact Hsem2
    iexists _; isplitr
    rotate_left
    · iexact HO
    · ipureintro; intro p hp
      rcases Finset.mem_insert.mp hp with hp | hp
      · exact .inr (by subst hp; rfl)
      · exact .inl hp
  iintro %_ HI
  unfold invO
  icases HI with ⟨-, Hx, H5, ⟨%g6, H6⟩, ⟨%g7, H7⟩, Ho, Hsem1, Hsem2, %W', %hW', HO⟩
  sl_exec
  sl_step
  isplitl [Hx]; · iapply (Entails.of_eq (pts_x (F := F) d L _ _)); iexact Hx
  isplitl [Ht']; · iapply (Entails.of_eq (pts_t (F := F) d L _ _)); iexact Ht'
  isplitl [Ho]
  · iapply (SparseCore.ent (bigSep_mono ?hfin)) $$ Ho
    case hfin =>
      intro t _
      refine unent ?_
      iintro ⟨%f, H, %hf⟩
      ihave H' := (Entails.of_eq (pointsTo_congr (hf t.isLt))) $$ H
      iexact H'
  ihave H5 := (Entails.of_eq (pts_s5 (F := F) d L _)) $$ H5
  ihave H6 := (Entails.of_eq (pts_s6 (F := F) d L _)) $$ H6
  ihave H7 := (Entails.of_eq (pts_s7 (F := F) d L _)) $$ H7
  isplitl [H5 H6 H7 Hbufs]
  · isplitl [H5]; · iexists _; iexact H5
    isplitl [H6]; · iexists _; iexact H6
    isplitl [H7]; · iexists _; iexact H7
    iexact Hbufs
  isplitl [Hsem0 Hsem1 Hsem2 Hsems]
  · isplitl [Hsem0]; · iexact Hsem0
    isplitl [Hsem1]; · iexact Hsem1
    isplitl [Hsem2]; · iexact Hsem2
    iexact Hsems
  iexists W'; isplitr
  · ipureintro; exact hW'
  · iexact HO

end Tile
end Cert.KernelIdeal.Hand.Gather
end
-- ==== Proof.TileMinMaxI.lean ====
/-
  The body of one tile of the first SparseCore kernel: the per-tile minimum (core 0) or maximum (core 1) of the table
  entries the tile's 51200 index words name, as a weakest-precondition statement at a symbolic grid point.

  The tile copies the table (row minima on core 0, row maxima on core 1) into its scratch, then for each of its two
  chunks copies 25600 index words into its index scratch and folds, 16 lanes at a time, the gathered table entries
  into a carried vector; the carried vector is stored and copied to the tile's row of the result. The loops go by
  invariants over a symbolic trip: the carried vector is a function (`inner`, `outer`) of what the scratches hold.
  What the tile leaves in its row is `part`, and `P4` is the whole-array function the 32 rows are pieces of.
-/
import proofs.«211894_g61933428415975_cont_9to1c4b_619_7_alg».proof.Proof.SetupI
import proofs.«211894_g61933428415975_cont_9to1c4b_619_7_alg».proof.Proof.Spec

noncomputable section

namespace Cert.KernelIdeal.Hand.MinMax

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev thr (d : Dev nD) (L : grid1.Coords) : Thread nD τ := V d ((L 0).castLE hcore1) ((L 1).castLE hsub1)

/-- A semaphore of the tile, as a cell of the machine. -/
abbrev cell (d : Dev nD) (L : grid1.Coords) (sm : DmaSem sig) : GSem nD τ sig := (thr d L, .dma sm)

abbrev xW : Memref sig .scVector .hbm S819200 .i32 := Memref.whole main_v0_scv
abbrev mnW : Memref sig .scVector .hbm S100000 .f32 := Memref.whole main_v2_scv
abbrev mxW : Memref sig .scVector .hbm S100000 .f32 := Memref.whole main_v3_scv
abbrev oW : Memref sig .scVector .hbm S2x16x16 .f32 := Memref.whole main_v4_scv
abbrev sT : Memref sig .scVector .vmem S100000 .f32 := Memref.whole cc1_scratch0
abbrev sI : Memref sig .scVector .vmem S25600 .i32 := Memref.whole cc1_scratch1
abbrev sA : Memref sig .scVector .vmem S16 .f32 := Memref.whole cc1_scratch2

abbrev outRow (L : grid1.Coords) : Memref sig .scVector .hbm S16 .f32 :=
  ((oW : Memref sig .scVector .hbm S2x16x16 .f32).slice (Rect.unit (s := S2x16x16) (k1_off19 L) S1x1x16.size (k1_off19_inb L)) (fun _ => rfl)).squeeze S16 squeezes_S1x1x16_S16
abbrev rowSet (L : grid1.Coords) : Finset S2x16x16.Idx := (outRow L).view.set

omit [FloatOps F] in
theorem pts_x (d : Dev nD) (L : grid1.Coords) (q : PosShare TreeShare) (f : Buf (Elt F) ((SparseCore.T d).loc main_v0)) :
    ((xW).view.loc (thr d L) ↦{q} f : sProp 𝕄) = (SparseCore.T d).loc main_v0 ↦{q} f := rfl
omit [FloatOps F] in
theorem pts_mn (d : Dev nD) (L : grid1.Coords) (q : PosShare TreeShare) (f : Buf (Elt F) ((SparseCore.T d).loc main_v2)) :
    ((mnW).view.loc (thr d L) ↦{q} f : sProp 𝕄) = (SparseCore.T d).loc main_v2 ↦{q} f := rfl
omit [FloatOps F] in
theorem pts_mx (d : Dev nD) (L : grid1.Coords) (q : PosShare TreeShare) (f : Buf (Elt F) ((SparseCore.T d).loc main_v3)) :
    ((mxW).view.loc (thr d L) ↦{q} f : sProp 𝕄) = (SparseCore.T d).loc main_v3 ↦{q} f := rfl
omit [FloatOps F] in
theorem pts_o (d : Dev nD) (L : grid1.Coords) (f : Buf (Elt F) ((SparseCore.T d).loc main_v4)) :
    ((outRow L).view.loc (thr d L) ↦[(outRow L).view.set]{fullShare} f : sProp 𝕄) = (SparseCore.T d).loc main_v4 ↦[rowSet L]{fullShare} f := rfl

omit [FloatOps F] in
theorem sem_ne {a b : Fin 21} (h : a ≠ b) (d : Dev nD) (L : grid1.Coords) : cell d L a ≠ cell d L b :=
  fun e => h (SemLoc.dma.inj (Prod.mk.inj e).2)

omit [FloatOps F] in
theorem mem_own (d : Dev nD) (L : grid1.Coords) (sm : DmaSem sig) (h : (SemLoc.dma sm : SemLoc sig).isScoped .scVector = true) :
    cell d L sm ∈ ownCells (thr d L) := (mem_ownCells (g := cell d L sm)).mpr ⟨rfl, h⟩

omit [FloatOps F] in
/-- The tile's own semaphores: the five this kernel uses, each at zero, and the rest. -/
theorem ownSems0_V (d : Dev nD) (L : grid1.Coords) :
    (ownSems0 (thr d L) : sProp 𝕄)
      = iprop(semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0
          ∗ bigSep (((((ownCells (thr d L)).erase (cell d L cc1_scoped0.sem)).erase (cell d L cc1_scoped1.sem)).erase (cell d L cc1_scoped2.sem)).erase
              (cell d L cc1_scoped3.sem) |>.erase (cell d L cc1_scoped4.sem)) fun g => semVal g 0) := by
  unfold SparseCore.Cfg.ownSems0
  rw [SparseCore.bigSep_erase' (mem_own d L cc1_scoped0.sem (by decide)),
    SparseCore.bigSep_erase' (Finset.mem_erase.mpr ⟨sem_ne (by decide) d L, mem_own d L cc1_scoped1.sem (by decide)⟩),
    SparseCore.bigSep_erase' (Finset.mem_erase.mpr ⟨sem_ne (by decide) d L, Finset.mem_erase.mpr ⟨sem_ne (by decide) d L, mem_own d L cc1_scoped2.sem (by decide)⟩⟩),
    SparseCore.bigSep_erase' (Finset.mem_erase.mpr ⟨sem_ne (by decide) d L, Finset.mem_erase.mpr ⟨sem_ne (by decide) d L,
      Finset.mem_erase.mpr ⟨sem_ne (by decide) d L, mem_own d L cc1_scoped3.sem (by decide)⟩⟩⟩),
    SparseCore.bigSep_erase' (Finset.mem_erase.mpr ⟨sem_ne (by decide) d L, Finset.mem_erase.mpr ⟨sem_ne (by decide) d L,
      Finset.mem_erase.mpr ⟨sem_ne (by decide) d L, Finset.mem_erase.mpr ⟨sem_ne (by decide) d L, mem_own d L cc1_scoped4.sem (by decide)⟩⟩⟩⟩)]

abbrev pV (L : grid1.Coords) : Proc τ := Proc.scVector ((L 0).castLE hcore1) ((L 1).castLE hsub1)

omit [FloatOps F] in
theorem ref_ne {a b : Ref sig .scVector} (h : a ≠ b) (L : grid1.Coords) : (pV L).devRef a ≠ (pV L).devRef b :=
  fun e => h (Proc.devRef_injective _ e)
omit [FloatOps F] in
theorem mem_ownR (L : grid1.Coords) (b : Ref sig .scVector) (h : ((pV L).devRef b).owner = .proc (pV L)) : (pV L).devRef b ∈ ownRefs (τ := τ) (sig := sig) (pV L) :=
  SparseCore.Cfg.mem_ownRefs_of_owner h

omit [FloatOps F] in
/-- The tile's own buffers: the three scratches of this kernel, each at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (pV L)).erase ((pV L).devRef cc1_scratch0)).erase ((pV L).devRef cc1_scratch1)).erase ((pV L).devRef cc1_scratch2))
              fun b => iprop(∃ f, ((d, b) : Loc nD τ sig) ↦{fullShare} f)) := by
  unfold SparseCore.Cfg.ownBufs
  refine (SparseCore.bigSep_erase' (mem_ownR L cc1_scratch0 rfl)).trans ?_
  rw [SparseCore.bigSep_erase' (Finset.mem_erase.mpr ⟨ref_ne (by decide) L, mem_ownR L cc1_scratch1 rfl⟩),
    SparseCore.bigSep_erase' (Finset.mem_erase.mpr ⟨ref_ne (by decide) L, Finset.mem_erase.mpr ⟨ref_ne (by decide) L, mem_ownR L cc1_scratch2 rfl⟩⟩)]

theorem cond1_iff : ∀ L : grid1.Coords, k1_cond1 L = 1#1 ↔ (L 0).val = 0 := by decide +kernel
theorem cond2_iff : ∀ L : grid1.Coords, k1_cond2 L = 1#1 ↔ (L 0).val ≠ 0 := by decide +kernel

omit [FloatOps F] in
theorem pts_sT (d : Dev nD) (L : grid1.Coords) (f : Buf (Elt F) ((thr d L).loc cc1_scratch0)) :
    ((sT).view.loc (thr d L) ↦{fullShare} f : sProp 𝕄) = (thr d L).loc cc1_scratch0 ↦{fullShare} f := rfl
omit [FloatOps F] in
theorem pts_sI (d : Dev nD) (L : grid1.Coords) (f : Buf (Elt F) ((thr d L).loc cc1_scratch1)) :
    ((sI).view.loc (thr d L) ↦{fullShare} f : sProp 𝕄) = (thr d L).loc cc1_scratch1 ↦{fullShare} f := rfl
omit [FloatOps F] in
theorem pts_sA (d : Dev nD) (L : grid1.Coords) (f : Buf (Elt F) ((thr d L).loc cc1_scratch2)) :
    ((sA).view.loc (thr d L) ↦{fullShare} f : sProp 𝕄) = (thr d L).loc cc1_scratch2 ↦{fullShare} f := rfl

omit [FloatOps F] in
theorem pts_sT_access (d : Dev nD) (L : grid1.Coords) (f : Buf (Elt F) ((thr d L).loc cc1_scratch0)) :
    ((((sT).access (.whole S100000)).loc (thr d L)) ↦{fullShare} f : sProp 𝕄) = ((sT).view.loc (thr d L) ↦{fullShare} f) := rfl

omit [FloatOps F] in
/-- Every word loaded from an index scratch whose words are all in range is in range. -/
theorem chk_of (fI : Vec F S25600 .i32) (hI : ∀ j, (fI j).toNat < 100000) (off : Fin 1 → ℕ) (inb : ∀ a, off a + S16.size a ≤ S25600.size a) :
    ∀ a x, ((![(sI : Memref sig .scVector .vmem S25600 .i32).view.readAt (Elt F) (Rect.unit (s := S25600) off S16.size inb).toLoadRect fI] : Fin 1 → IVec S16 32) a x).toNat < S100000.size a := by
  intro a x
  obtain rfl : a = 0 := Subsingleton.elim _ _
  exact hI _

/-! ## What a tile computes, as a function of what its scratches hold -/

section Value

variable (op : F .f32 → F .f32 → F .f32)

/-- The table entry an index word names (a word in range names itself). -/
def gat (fT : Vec F S100000 .f32) (w : BitVec 32) : F .f32 := fT (ValueIdx.ix1 (Cert.Spec.row w))

/-- Word `p` of the index scratch (positions are taken modulo its length). -/
def wd (fI : Vec F S25600 .i32) (p : ℕ) : BitVec 32 := fI (ValueIdx.ix1 ⟨p % 25600, Nat.mod_lt _ (by norm_num)⟩)

/-- One step at position `p`: lane `l` takes `op` with the table entry that word `p + l` of the index scratch names. -/
def step (fI : Vec F S25600 .i32) (fT : Vec F S100000 .f32) (p : ℕ) (a : FVec F S16 .f32) : FVec F S16 .f32 :=
  fun l => op (a l) (gat fT (wd fI (p + (l 0).val)))

/-- One trip of the inner loop: eight steps, at positions `128 j + 16 u`. -/
def trip (fI : Vec F S25600 .i32) (fT : Vec F S100000 .f32) (j : ℕ) (a : FVec F S16 .f32) : FVec F S16 .f32 :=
  step op fI fT (128 * j + 112) (step op fI fT (128 * j + 96) (step op fI fT (128 * j + 80) (step op fI fT (128 * j + 64)
    (step op fI fT (128 * j + 48) (step op fI fT (128 * j + 32) (step op fI fT (128 * j + 16) (step op fI fT (128 * j) a)))))))

/-- The first `j` trips of the inner loop. -/
def inner (fI : Vec F S25600 .i32) (fT : Vec F S100000 .f32) : ℕ → FVec F S16 .f32 → FVec F S16 .f32
  | 0, a => a
  | j + 1, a => trip op fI fT j (inner fI fT j a)

/-- Chunk `t` of tile `L`'s index words: the 25600 words of `xv` from position `51200 (L 1) + 25600 t` on. -/
def chunk (xv : Vec F S819200 .i32) (L : grid1.Coords) (t : ℕ) : Vec F S25600 .i32 :=
  fun j => xv (ValueIdx.ix1 ⟨(51200 * (L 1).val + 25600 * t + (j 0).val) % 819200, Nat.mod_lt _ (by norm_num)⟩)

/-- The first `t` chunks. -/
def outer (xv : Vec F S819200 .i32) (fT : Vec F S100000 .f32) (L : grid1.Coords) : ℕ → FVec F S16 .f32 → FVec F S16 .f32
  | 0, a => a
  | t + 1, a => inner op (chunk xv L t) fT 200 (outer xv fT L t a)

end Value

/-! ## The loops' invariants -/

/-- Before trip `j` of the inner loop: the two scratches as the chunk's copy left them, the carried vector the first `j` trips' value. -/
def invI (d : Dev nD) (L : grid1.Coords) (op : F .f32 → F .f32 → F .f32) (fI : Vec F S25600 .i32) (fT : Vec F S100000 .f32) (a0 : FVec F S16 .f32)
    (j : ℕ) (acc : FVec F S16 .f32) : sProp 𝕄 :=
  iprop(((sI).view.loc (thr d L) ↦{fullShare} fI) ∗ (((sT).access (.whole S100000)).loc (thr d L) ↦{fullShare} fT) ∗ ⌜acc = inner op fI fT j a0⌝)

/-- Before chunk `t`: the index array, the index scratch at some contents, the table scratch, the chunk copy's semaphore at zero,
    what the tile owes, and the carried vector the first `t` chunks' value. -/
def invO (d : Dev nD) (L : grid1.Coords) (sm : DmaSem sig) (q₁ : PosShare TreeShare) (op : F .f32 → F .f32 → F .f32) (xv : Vec F S819200 .i32) (fT : Vec F S100000 .f32)
    (a0 : FVec F S16 .f32) (O : CellTallies nD τ sig (HIx 2)) (W : Waits sig (HIx 2)) (t : ℕ) (acc : FVec F S16 .f32) : sProp 𝕄 :=
  iprop(Transfers.MayWaits (thr d L) (none : HIx 2) O
    ∗ ((xW).view.loc (thr d L) ↦{q₁} xv)
    ∗ (∃ fI, (sI).view.loc (thr d L) ↦{fullShare} fI)
    ∗ ((sT).view.loc (thr d L) ↦{fullShare} fT)
    ∗ semVal (cell d L sm) 0
    ∗ (∃ W', ⌜∀ p ∈ W', p ∈ W ∨ p.2 = none⌝ ∗ owes (thr d L) O W')
    ∗ ⌜acc = outer op xv fT L t a0⌝)

/-! ## The values the program's operations produce, read through the functions above -/

omit [FloatOps F] in
/-- An indexed load of the table scratch reads, lane by lane, the entry the lane's word names. -/
theorem loadIdx_eq (fT : Vec F S100000 .f32) (v : IVec S16 32) (h : ∀ a x, ((![v] : Fin 1 → IVec S16 32) a x).toNat < S100000.size a) (l : S16.Idx) :
    loadIdx (((sT : Memref sig .scVector .vmem S100000 .f32).access (.whole S100000)).read (Elt F) fT) ![v] h l = gat fT (v l) := by
  unfold loadIdx gat
  rw [View.read_apply]
  refine (cast_eq _ _).trans (congrArg fT ?_)
  refine funext fun (a : Fin 1) => ?_
  obtain rfl : a = 0 := Subsingleton.elim _ _
  apply Fin.ext
  have this : (v l).toNat < 100000 := h 0 l
  show 0 + 1 * (v l).toNat = (v l).toNat % 100000
  rw [Nat.mod_eq_of_lt this]; omega

omit [FloatOps F] in
/-- Sixteen words loaded from position `off` of the index scratch are its words `off + l`. -/
theorem readAt_eq (fI : Vec F S25600 .i32) (off : Fin 1 → ℕ) (inb : ∀ a, off a + S16.size a ≤ S25600.size a) (l : S16.Idx) :
    (sI : Memref sig .scVector .vmem S25600 .i32).view.readAt (Elt F) (Rect.unit (s := S25600) off S16.size inb).toLoadRect fI l = wd fI (off 0 + (l 0).val) := by
  unfold wd
  rw [View.readAt_apply]
  show fI _ = fI _
  congr 1
  refine funext fun (a : Fin 1) => ?_
  obtain rfl : a = 0 := Subsingleton.elim _ _
  apply Fin.ext
  have h1 : off 0 + 16 ≤ 25600 := inb 0
  have h2 : (l 0).val < 16 := (l 0).isLt
  show off 0 + 1 * (l 0).val = (off 0 + (l 0).val) % 25600
  rw [Nat.mod_eq_of_lt (by omega)]; omega

/-- One unrolled step of the minimum: the carried vector against the gathered one. -/
theorem step_min (fI : Vec F S25600 .i32) (fT : Vec F S100000 .f32) (a : FVec F S16 .f32) (off : Fin 1 → ℕ) (inb : ∀ a, off a + S16.size a ≤ S25600.size a)
    (h : ∀ b x, ((![(sI : Memref sig .scVector .vmem S25600 .i32).view.readAt (Elt F) (Rect.unit (s := S25600) off S16.size inb).toLoadRect fI] : Fin 1 → IVec S16 32) b x).toNat < S100000.size b) :
    minimumf a (loadIdx (((sT : Memref sig .scVector .vmem S100000 .f32).access (.whole S100000)).read (Elt F) fT)
      ![(sI : Memref sig .scVector .vmem S25600 .i32).view.readAt (Elt F) (Rect.unit (s := S25600) off S16.size inb).toLoadRect fI] h)
      = step (FloatOps.minimumf (F := F) (φ := .f32)) fI fT (off 0) a := by
  funext l
  show FloatOps.minimumf (a l) _ = FloatOps.minimumf (a l) _
  rw [loadIdx_eq, readAt_eq]

/-- One unrolled step of the maximum. -/
theorem step_max (fI : Vec F S25600 .i32) (fT : Vec F S100000 .f32) (a : FVec F S16 .f32) (off : Fin 1 → ℕ) (inb : ∀ a, off a + S16.size a ≤ S25600.size a)
    (h : ∀ b x, ((![(sI : Memref sig .scVector .vmem S25600 .i32).view.readAt (Elt F) (Rect.unit (s := S25600) off S16.size inb).toLoadRect fI] : Fin 1 → IVec S16 32) b x).toNat < S100000.size b) :
    maximumf a (loadIdx (((sT : Memref sig .scVector .vmem S100000 .f32).access (.whole S100000)).read (Elt F) fT)
      ![(sI : Memref sig .scVector .vmem S25600 .i32).view.readAt (Elt F) (Rect.unit (s := S25600) off S16.size inb).toLoadRect fI] h)
      = step (FloatOps.maximumf (F := F) (φ := .f32)) fI fT (off 0) a := by
  funext l
  show FloatOps.maximumf (a l) _ = FloatOps.maximumf (a l) _
  rw [loadIdx_eq, readAt_eq]

omit [FloatOps F] in
theorem inner_succ (op : F .f32 → F .f32 → F .f32) (fI : Vec F S25600 .i32) (fT : Vec F S100000 .f32) (j : ℕ) (a : FVec F S16 .f32) :
    inner op fI fT (j + 1) a = trip op fI fT j (inner op fI fT j a) := rfl
omit [FloatOps F] in
theorem outer_succ (op : F .f32 → F .f32 → F .f32) (xv : Vec F S819200 .i32) (fT : Vec F S100000 .f32) (L : grid1.Coords) (t : ℕ) (a : FVec F S16 .f32) :
    outer op xv fT L (t + 1) a = inner op (chunk xv L t) fT 200 (outer op xv fT L t a) := rfl

theorem trips1 : Scf.trips k1_t1_loop.lb k1_t1_loop.ub k1_t1_loop.st = 2 := by decide
theorem trips2 : Scf.trips k1_t2_loop.lb k1_t2_loop.ub k1_t2_loop.st = 200 := by decide
theorem trips3 : Scf.trips k1_t3_loop.lb k1_t3_loop.ub k1_t3_loop.st = 2 := by decide
theorem trips4 : Scf.trips k1_t4_loop.lb k1_t4_loop.ub k1_t4_loop.st = 200 := by decide

omit [FloatOps F] in
/-- What the copy of chunk `t` reads off the index array. -/
theorem chunk_eq (xv : Vec F S819200 .i32) (L : grid1.Coords) (off : Fin 1 → ℕ) (t : ℕ) (ht : t < 2) (hoff : off = ![51200 * (L 1).val + 25600 * t])
    (inb : ∀ a, off a + S25600.size a ≤ S819200.size a) :
    ((xW : Memref sig .scVector .hbm S819200 .i32).slice (Rect.unit (s := S819200) off S25600.size inb) (fun _ => rfl)).view.read (Elt F) xv = chunk xv L t := by
  funext j
  rw [View.read_apply]
  refine (cast_eq _ _).trans ?_
  unfold chunk
  show xv _ = xv _
  congr 1
  refine funext fun (a : Fin 1) => ?_
  obtain rfl : a = 0 := Subsingleton.elim _ _
  apply Fin.ext
  have h1 : (L 1).val < 16 := (L 1).isLt
  have h2 : (j 0).val < 25600 := (j 0).isLt
  subst hoff
  show 51200 * (L 1).val + 25600 * t + 1 * (j 0).val = (51200 * (L 1).val + 25600 * t + (j 0).val) % 819200
  rw [Nat.mod_eq_of_lt (by omega)]; omega

/-- One trip's eight steps, as the program computes them, are `trip`. -/
theorem trip_min (fI : Vec F S25600 .i32) (fT : Vec F S100000 .f32) (a : FVec F S16 .f32) (j : ℕ)
    (o0 : Fin 1 → ℕ) (i0 : ∀ a, o0 a + S16.size a ≤ S25600.size a)
    (h0 : ∀ b x, ((![(sI : Memref sig .scVector .vmem S25600 .i32).view.readAt (Elt F) (Rect.unit (s := S25600) o0 S16.size i0).toLoadRect fI] : Fin 1 → IVec S16 32) b x).toNat < S100000.size b)
    (e0 : o0 = ![128 * j + 0])
    (o1 : Fin 1 → ℕ) (i1 : ∀ a, o1 a + S16.size a ≤ S25600.size a)
    (h1 : ∀ b x, ((![(sI : Memref sig .scVector .vmem S25600 .i32).view.readAt (Elt F) (Rect.unit (s := S25600) o1 S16.size i1).toLoadRect fI] : Fin 1 → IVec S16 32) b x).toNat < S100000.size b)
    (e1 : o1 = ![128 * j + 16])
    (o2 : Fin 1 → ℕ) (i2 : ∀ a, o2 a + S16.size a ≤ S25600.size a)
    (h2 : ∀ b x, ((![(sI : Memref sig .scVector .vmem S25600 .i32).view.readAt (Elt F) (Rect.unit (s := S25600) o2 S16.size i2).toLoadRect fI] : Fin 1 → IVec S16 32) b x).toNat < S100000.size b)
    (e2 : o2 = ![128 * j + 32])
    (o3 : Fin 1 → ℕ) (i3 : ∀ a, o3 a + S16.size a ≤ S25600.size a)
    (h3 : ∀ b x, ((![(sI : Memref sig .scVector .vmem S25600 .i32).view.readAt (Elt F) (Rect.unit (s := S25600) o3 S16.size i3).toLoadRect fI] : Fin 1 → IVec S16 32) b x).toNat < S100000.size b)
    (e3 : o3 = ![128 * j + 48])
    (o4 : Fin 1 → ℕ) (i4 : ∀ a, o4 a + S16.size a ≤ S25600.size a)
    (h4 : ∀ b x, ((![(sI : Memref sig .scVector .vmem S25600 .i32).view.readAt (Elt F) (Rect.unit (s := S25600) o4 S16.size i4).toLoadRect fI] : Fin 1 → IVec S16 32) b x).toNat < S100000.size b)
    (e4 : o4 = ![128 * j + 64])
    (o5 : Fin 1 → ℕ) (i5 : ∀ a, o5 a + S16.size a ≤ S25600.size a)
    (h5 : ∀ b x, ((![(sI : Memref sig .scVector .vmem S25600 .i32).view.readAt (Elt F) (Rect.unit (s := S25600) o5 S16.size i5).toLoadRect fI] : Fin 1 → IVec S16 32) b x).toNat < S100000.size b)
    (e5 : o5 = ![128 * j + 80])
    (o6 : Fin 1 → ℕ) (i6 : ∀ a, o6 a + S16.size a ≤ S25600.size a)
    (h6 : ∀ b x, ((![(sI : Memref sig .scVector .vmem S25600 .i32).view.readAt (Elt F) (Rect.unit (s := S25600) o6 S16.size i6).toLoadRect fI] : Fin 1 → IVec S16 32) b x).toNat < S100000.size b)
    (e6 : o6 = ![128 * j + 96])
    (o7 : Fin 1 → ℕ) (i7 : ∀ a, o7 a + S16.size a ≤ S25600.size a)
    (h7 : ∀ b x, ((![(sI : Memref sig .scVector .vmem S25600 .i32).view.readAt (Elt F) (Rect.unit (s := S25600) o7 S16.size i7).toLoadRect fI] : Fin 1 → IVec S16 32) b x).toNat < S100000.size b)
    (e7 : o7 = ![128 * j + 112])
    : minimumf (minimumf (minimumf (minimumf (minimumf (minimumf (minimumf (minimumf (a)
      (loadIdx (((sT : Memref sig .scVector .vmem S100000 .f32).access (.whole S100000)).read (Elt F) fT)
      ![(sI : Memref sig .scVector .vmem S25600 .i32).view.readAt (Elt F) (Rect.unit (s := S25600) o0 S16.size i0).toLoadRect fI] h0))
      (loadIdx (((sT : Memref sig .scVector .vmem S100000 .f32).access (.whole S100000)).read (Elt F) fT)
      ![(sI : Memref sig .scVector .vmem S25600 .i32).view.readAt (Elt F) (Rect.unit (s := S25600) o1 S16.size i1).toLoadRect fI] h1))
      (loadIdx (((sT : Memref sig .scVector .vmem S100000 .f32).access (.whole S100000)).read (Elt F) fT)
      ![(sI : Memref sig .scVector .vmem S25600 .i32).view.readAt (Elt F) (Rect.unit (s := S25600) o2 S16.size i2).toLoadRect fI] h2))
      (loadIdx (((sT : Memref sig .scVector .vmem S100000 .f32).access (.whole S100000)).read (Elt F) fT)
      ![(sI : Memref sig .scVector .vmem S25600 .i32).view.readAt (Elt F) (Rect.unit (s := S25600) o3 S16.size i3).toLoadRect fI] h3))
      (loadIdx (((sT : Memref sig .scVector .vmem S100000 .f32).access (.whole S100000)).read (Elt F) fT)
      ![(sI : Memref sig .scVector .vmem S25600 .i32).view.readAt (Elt F) (Rect.unit (s := S25600) o4 S16.size i4).toLoadRect fI] h4))
      (loadIdx (((sT : Memref sig .scVector .vmem S100000 .f32).access (.whole S100000)).read (Elt F) fT)
      ![(sI : Memref sig .scVector .vmem S25600 .i32).view.readAt (Elt F) (Rect.unit (s := S25600) o5 S16.size i5).toLoadRect fI] h5))
      (loadIdx (((sT : Memref sig .scVector .vmem S100000 .f32).access (.whole S100000)).read (Elt F) fT)
      ![(sI : Memref sig .scVector .vmem S25600 .i32).view.readAt (Elt F) (Rect.unit (s := S25600) o6 S16.size i6).toLoadRect fI] h6))
      (loadIdx (((sT : Memref sig .scVector .vmem S100000 .f32).access (.whole S100000)).read (Elt F) fT)
      ![(sI : Memref sig .scVector .vmem S25600 .i32).view.readAt (Elt F) (Rect.unit (s := S25600) o7 S16.size i7).toLoadRect fI] h7)
      = trip (FloatOps.minimumf (F := F) (φ := .f32)) fI fT j a := by
  rw [step_min, step_min, step_min, step_min, step_min, step_min, step_min, step_min]
  subst e0 e1 e2 e3 e4 e5 e6 e7
  rfl

/-- One trip's eight steps, as the program computes them, are `trip`. -/
theorem trip_max (fI : Vec F S25600 .i32) (fT : Vec F S100000 .f32) (a : FVec F S16 .f32) (j : ℕ)
    (o0 : Fin 1 → ℕ) (i0 : ∀ a, o0 a + S16.size a ≤ S25600.size a)
    (h0 : ∀ b x, ((![(sI : Memref sig .scVector .vmem S25600 .i32).view.readAt (Elt F) (Rect.unit (s := S25600) o0 S16.size i0).toLoadRect fI] : Fin 1 → IVec S16 32) b x).toNat < S100000.size b)
    (e0 : o0 = ![128 * j + 0])
    (o1 : Fin 1 → ℕ) (i1 : ∀ a, o1 a + S16.size a ≤ S25600.size a)
    (h1 : ∀ b x, ((![(sI : Memref sig .scVector .vmem S25600 .i32).view.readAt (Elt F) (Rect.unit (s := S25600) o1 S16.size i1).toLoadRect fI] : Fin 1 → IVec S16 32) b x).toNat < S100000.size b)
    (e1 : o1 = ![128 * j + 16])
    (o2 : Fin 1 → ℕ) (i2 : ∀ a, o2 a + S16.size a ≤ S25600.size a)
    (h2 : ∀ b x, ((![(sI : Memref sig .scVector .vmem S25600 .i32).view.readAt (Elt F) (Rect.unit (s := S25600) o2 S16.size i2).toLoadRect fI] : Fin 1 → IVec S16 32) b x).toNat < S100000.size b)
    (e2 : o2 = ![128 * j + 32])
    (o3 : Fin 1 → ℕ) (i3 : ∀ a, o3 a + S16.size a ≤ S25600.size a)
    (h3 : ∀ b x, ((![(sI : Memref sig .scVector .vmem S25600 .i32).view.readAt (Elt F) (Rect.unit (s := S25600) o3 S16.size i3).toLoadRect fI] : Fin 1 → IVec S16 32) b x).toNat < S100000.size b)
    (e3 : o3 = ![128 * j + 48])
    (o4 : Fin 1 → ℕ) (i4 : ∀ a, o4 a + S16.size a ≤ S25600.size a)
    (h4 : ∀ b x, ((![(sI : Memref sig .scVector .vmem S25600 .i32).view.readAt (Elt F) (Rect.unit (s := S25600) o4 S16.size i4).toLoadRect fI] : Fin 1 → IVec S16 32) b x).toNat < S100000.size b)
    (e4 : o4 = ![128 * j + 64])
    (o5 : Fin 1 → ℕ) (i5 : ∀ a, o5 a + S16.size a ≤ S25600.size a)
    (h5 : ∀ b x, ((![(sI : Memref sig .scVector .vmem S25600 .i32).view.readAt (Elt F) (Rect.unit (s := S25600) o5 S16.size i5).toLoadRect fI] : Fin 1 → IVec S16 32) b x).toNat < S100000.size b)
    (e5 : o5 = ![128 * j + 80])
    (o6 : Fin 1 → ℕ) (i6 : ∀ a, o6 a + S16.size a ≤ S25600.size a)
    (h6 : ∀ b x, ((![(sI : Memref sig .scVector .vmem S25600 .i32).view.readAt (Elt F) (Rect.unit (s := S25600) o6 S16.size i6).toLoadRect fI] : Fin 1 → IVec S16 32) b x).toNat < S100000.size b)
    (e6 : o6 = ![128 * j + 96])
    (o7 : Fin 1 → ℕ) (i7 : ∀ a, o7 a + S16.size a ≤ S25600.size a)
    (h7 : ∀ b x, ((![(sI : Memref sig .scVector .vmem S25600 .i32).view.readAt (Elt F) (Rect.unit (s := S25600) o7 S16.size i7).toLoadRect fI] : Fin 1 → IVec S16 32) b x).toNat < S100000.size b)
    (e7 : o7 = ![128 * j + 112])
    : maximumf (maximumf (maximumf (maximumf (maximumf (maximumf (maximumf (maximumf (a)
      (loadIdx (((sT : Memref sig .scVector .vmem S100000 .f32).access (.whole S100000)).read (Elt F) fT)
      ![(sI : Memref sig .scVector .vmem S25600 .i32).view.readAt (Elt F) (Rect.unit (s := S25600) o0 S16.size i0).toLoadRect fI] h0))
      (loadIdx (((sT : Memref sig .scVector .vmem S100000 .f32).access (.whole S100000)).read (Elt F) fT)
      ![(sI : Memref sig .scVector .vmem S25600 .i32).view.readAt (Elt F) (Rect.unit (s := S25600) o1 S16.size i1).toLoadRect fI] h1))
      (loadIdx (((sT : Memref sig .scVector .vmem S100000 .f32).access (.whole S100000)).read (Elt F) fT)
      ![(sI : Memref sig .scVector .vmem S25600 .i32).view.readAt (Elt F) (Rect.unit (s := S25600) o2 S16.size i2).toLoadRect fI] h2))
      (loadIdx (((sT : Memref sig .scVector .vmem S100000 .f32).access (.whole S100000)).read (Elt F) fT)
      ![(sI : Memref sig .scVector .vmem S25600 .i32).view.readAt (Elt F) (Rect.unit (s := S25600) o3 S16.size i3).toLoadRect fI] h3))
      (loadIdx (((sT : Memref sig .scVector .vmem S100000 .f32).access (.whole S100000)).read (Elt F) fT)
      ![(sI : Memref sig .scVector .vmem S25600 .i32).view.readAt (Elt F) (Rect.unit (s := S25600) o4 S16.size i4).toLoadRect fI] h4))
      (loadIdx (((sT : Memref sig .scVector .vmem S100000 .f32).access (.whole S100000)).read (Elt F) fT)
      ![(sI : Memref sig .scVector .vmem S25600 .i32).view.readAt (Elt F) (Rect.unit (s := S25600) o5 S16.size i5).toLoadRect fI] h5))
      (loadIdx (((sT : Memref sig .scVector .vmem S100000 .f32).access (.whole S100000)).read (Elt F) fT)
      ![(sI : Memref sig .scVector .vmem S25600 .i32).view.readAt (Elt F) (Rect.unit (s := S25600) o6 S16.size i6).toLoadRect fI] h6))
      (loadIdx (((sT : Memref sig .scVector .vmem S100000 .f32).access (.whole S100000)).read (Elt F) fT)
      ![(sI : Memref sig .scVector .vmem S25600 .i32).view.readAt (Elt F) (Rect.unit (s := S25600) o7 S16.size i7).toLoadRect fI] h7)
      = trip (FloatOps.maximumf (F := F) (φ := .f32)) fI fT j a := by
  rw [step_max, step_max, step_max, step_max, step_max, step_max, step_max, step_max]
  subst e0 e1 e2 e3 e4 e5 e6 e7
  rfl

/-! ## What the tile leaves in its row of the result -/

/-- The grid point of a core and a subcore. -/
def mkL (c : Fin (grid1.bound 0)) (s : Fin (grid1.bound 1)) : grid1.Coords :=
  fun | 0 => c | 1 => s | ⟨_ + 2, h⟩ => absurd h (Nat.not_lt.2 (Nat.le_add_left _ _))

omit [FloatOps F] in
theorem mkL_self (L : grid1.Coords) : mkL (L 0) (L 1) = L := by
  funext a; match a with | 0 => rfl | 1 => rfl

/-- The 16 lanes tile `L` leaves: lane `l` is the fold, over the tile's 2 chunks × 200 trips × 8 steps in program order, of the minimum
    (core 0; from the +inf word) or the maximum (core 1; from the -inf word) of the table entries the index words at positions
    `51200 (L 1) + 25600 t + 128 j + 16 u + l` name. -/
def part (xv : Vec F S819200 .i32) (rmin rmax : Vec F S100000 .f32) (L : grid1.Coords) : Vec F S16 .f32 :=
  if (L 0).val = 0 then outer (FloatOps.minimumf (F := F) (φ := .f32)) xv rmin L 2 (broadcast S16 (Scalar.ofBits .f32 0x7F800000#32))
  else outer (FloatOps.maximumf (F := F) (φ := .f32)) xv rmax L 2 (broadcast S16 (Scalar.ofBits .f32 0xFF800000#32))

/-- The whole-array function the 32 rows are pieces of. -/
def P4 (xv : Vec F S819200 .i32) (rmin rmax : Vec F S100000 .f32) : Vec F S2x16x16 .f32 :=
  fun n => part xv rmin rmax (mkL (n 0) (n 1)) (ValueIdx.ix1 (n 2))

theorem sq_coord : ∀ x : S16.Idx, ((Shape.reshapeEquiv (s := S1x1x16) (s' := S16) squeezes_S1x1x16_S16.numel_eq x) 2).val = (x 0).val := by decide +kernel

omit [FloatOps F] in
/-- Where lane `x` of the tile's row sits in the result array. -/
theorem emb_outRow (L : grid1.Coords) (x : S16.Idx) : (outRow L).view.emb x = ValueIdx.ix3 (L 0) (L 1) (x 0) := by
  refine funext fun (a : Fin 3) => ?_
  apply Fin.ext
  show k1_off19 L a + 1 * ((Shape.reshapeEquiv (s := S1x1x16) (s' := S16) squeezes_S1x1x16_S16.numel_eq x) a).val = _
  rw [k1_off19_eq]
  match a with
  | 0 => have : ((Shape.reshapeEquiv (s := S1x1x16) (s' := S16) squeezes_S1x1x16_S16.numel_eq x) 0).val < 1 := (Shape.reshapeEquiv _ x 0).isLt
         show (L 0).val + 1 * _ = (L 0).val; omega
  | 1 => have : ((Shape.reshapeEquiv (s := S1x1x16) (s' := S16) squeezes_S1x1x16_S16.numel_eq x) 1).val < 1 := (Shape.reshapeEquiv _ x 1).isLt
         show (L 1).val + 1 * _ = (L 1).val; omega
  | 2 => show 0 + 1 * _ = (x 0).val; rw [sq_coord]; omega

omit [FloatOps F] in
theorem rowSet_mem (L : grid1.Coords) (n : S2x16x16.Idx) : n ∈ rowSet L ↔ (n 0).val = (L 0).val ∧ (n 1).val = (L 1).val := by
  constructor
  · intro h
    obtain ⟨x, -, rfl⟩ := Finset.mem_map.mp h
    rw [emb_outRow]; exact ⟨rfl, rfl⟩
  · rintro ⟨h0, h1⟩
    refine Finset.mem_map.mpr ⟨ValueIdx.ix1 (n 2), Finset.mem_univ _, ?_⟩
    rw [emb_outRow]
    refine funext fun (a : Fin 3) => ?_
    match a with
    | 0 => exact Fin.ext h0.symm
    | 1 => exact Fin.ext h1.symm
    | 2 => rfl

omit [FloatOps F] in
theorem unit0_emb (inb : ∀ a, (![0] : Fin 1 → ℕ) a + S16.size a ≤ S16.size a) (x : S16.Idx) : (Rect.unit (s := S16) ![0] S16.size inb).emb x = x := by
  refine funext fun (a : Fin 1) => ?_
  obtain rfl : a = 0 := Subsingleton.elim _ _
  apply Fin.ext
  show 0 + 1 * (x 0).val = (x 0).val
  omega

omit [FloatOps F] in
theorem whole_emb (x : S16.Idx) : (Rect.whole S16).emb x = x := by
  refine funext fun (a : Fin 1) => ?_
  obtain rfl : a = 0 := Subsingleton.elim _ _
  apply Fin.ext
  show 0 + 1 * (x 0).val = (x 0).val
  omega

omit [FloatOps F] in
/-- The accumulator scratch, stored whole, reads back what was stored. -/
theorem acc_read (fA : Vec F S16 .f32) (acc : S16.Idx → F .f32) (inb : ∀ a, (![0] : Fin 1 → ℕ) a + S16.size a ≤ S16.size a) :
    (sA : Memref sig .scVector .vmem S16 .f32).view.read (Elt F) ((sA : Memref sig .scVector .vmem S16 .f32).view.writes (Elt F) fA [⟨Rect.unit (s := S16) ![0] S16.size inb, acc⟩]) = acc := by
  funext x
  have := View.read_writes_cons_emb (v := (sA : Memref sig .scVector .vmem S16 .f32).view) (Val := Elt F) fA (Rect.unit (s := S16) ![0] S16.size inb) acc [] x
  rwa [unit0_emb] at this

omit [FloatOps F] in
/-- The tile's row of the result after the copy of the accumulator scratch, as a piece of `P4`. -/
theorem row_final (d : Dev nD) (L : grid1.Coords) (fo : Vec F S2x16x16 .f32) (w : S16.Idx → F .f32)
    (g : Vec F S2x16x16 .f32) (hw : ∀ x : S16.Idx, w x = g (ValueIdx.ix3 (L 0) (L 1) (x 0))) :
    ((outRow L).view.loc (thr d L) ↦[(outRow L).view.set]{fullShare} (outRow L).view.writes (Elt F) fo [⟨Rect.whole S16, w⟩] : sProp 𝕄)
      = ((SparseCore.T d).loc main_v4 ↦[rowSet L]{fullShare} g) := by
  refine pointsTo_congr fun i hi => ?_
  obtain ⟨x, -, rfl⟩ := Finset.mem_map.mp hi
  have h := View.read_writes_cons_emb (v := (outRow L).view) (Val := Elt F) fo (Rect.whole S16) w [] x
  rw [whole_emb, View.read_apply] at h
  rw [emb_outRow] at h ⊢
  exact ((cast_eq _ _).symm.trans h).trans (hw x)

theorem P4_row (xv : Vec F S819200 .i32) (rmin rmax : Vec F S100000 .f32) (L : grid1.Coords) (x : S16.Idx) :
    P4 xv rmin rmax (ValueIdx.ix3 (L 0) (L 1) (x 0)) = part xv rmin rmax L x := by
  show part xv rmin rmax (mkL (L 0) (L 1)) (ValueIdx.ix1 (x 0)) = _
  rw [mkL_self]
  exact congrArg (part xv rmin rmax L) (ValueIdx.eq_ix1 x).symm

theorem part_min (xv : Vec F S819200 .i32) (rmin rmax : Vec F S100000 .f32) (L : grid1.Coords) (h0 : (L 0).val = 0) :
    part xv rmin rmax L = outer (FloatOps.minimumf (F := F) (φ := .f32)) xv rmin L 2 (broadcast S16 (Scalar.ofBits .f32 0x7F800000#32)) := by
  unfold part; rw [if_pos h0]

theorem part_max (xv : Vec F S819200 .i32) (rmin rmax : Vec F S100000 .f32) (L : grid1.Coords) (h0 : (L 0).val ≠ 0) :
    part xv rmin rmax L = outer (FloatOps.maximumf (F := F) (φ := .f32)) xv rmax L 2 (broadcast S16 (Scalar.ofBits .f32 0xFF800000#32)) := by
  unfold part; rw [if_neg h0]

set_option maxHeartbeats 4000000 in
theorem body_min (d : Dev nD) (L : grid1.Coords) (h0 : (L 0).val = 0) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  have k1_h1 : k1_cond1 L = 1#1 := (cond1_iff L).mpr h0
  have k1_h2 : ¬ k1_cond2 L = 1#1 := fun h => (cond2_iff L).mp h h0

  unfold cc1_k
  rw [(K (F := F)).scopedBufs_V facts d ((L 0).castLE hcore1) ((L 1).castLE hsub1), SparseCore.Cfg.scopedSems0_V (Val := Elt F) d ((L 0).castLE hcore1) ((L 1).castLE hsub1), ownSems0_V, ownBufs_V]
  iintro ⟨#Hlv, Hx, Hmn, Hmx, ⟨%fo, Ho⟩, ⟨⟨%fT, HT⟩, ⟨%fI, HI⟩, ⟨%fA, HA⟩, Hbufs⟩, ⟨Hs0, Hs1, Hs2, Hs3, Hs4, Hsems⟩, HO⟩
  ihave Hmw := ((K (F := F)).mayWaits_none (thr := thr d L) hO) $$ Hlv
  ihave Hx := (Entails.of_eq (pts_x (F := F) d L _ _).symm) $$ Hx
  ihave Hmn := (Entails.of_eq (pts_mn (F := F) d L _ _).symm) $$ Hmn
  ihave Hmx := (Entails.of_eq (pts_mx (F := F) d L _ _).symm) $$ Hmx
  ihave Ho := (Entails.of_eq (pts_o (F := F) d L _).symm) $$ Ho
  ihave HT := (Entails.of_eq (pts_sT (F := F) d L _).symm) $$ HT
  ihave HI := (Entails.of_eq (pts_sI (F := F) d L _).symm) $$ HI
  ihave HA := (Entails.of_eq (pts_sA (F := F) d L _).symm) $$ HA
  sl_exec
  have hT : (View.write (Elt F) sT.view fT (body_min.sl.dma0 rmin) Finset.univ : Vec F S100000 .f32) = rmin := by
    unfold body_min.sl.dma0; exact View.write_whole_univ _ _ _
  ihave HT := (Entails.of_eq (congrArg (fun f => ((sT).view.loc (thr d L) ↦{fullShare} f : sProp 𝕄)) hT)) $$ HT
  sl_for (invO d L cc1_scoped1.sem q₁ (FloatOps.minimumf (F := F) (φ := .f32)) xv rmin body_min.sl.v7 O (insert (SemLoc.dma ⟨6, by decide⟩, default) W)) $$ [Hmw Hx HI HT Hs1 HO]
  case region =>
    intro t acc
    unfold invO
    iintro ⟨#Hmw, Hx, ⟨%fI', HI⟩, HT, Hs1, ⟨%W', %hW', HO⟩, %hacc⟩
    sl_exec
    have hch : (View.write (Elt F) sI.view fI' (body_min.sl.dma0_1 L xv k1_h1 t) Finset.univ : Vec F S25600 .i32) = chunk xv L t.val := by
      unfold body_min.sl.dma0_1
      exact (View.write_whole_univ _ _ _).trans (chunk_eq xv L _ t.val (Nat.lt_of_lt_of_le t.isLt k1_t1_abs.2.1) (k1_off1_eq L t) _)
    have hI : ∀ j, (chunk xv L t.val j).toNat < 100000 := fun j => hx _
    ihave HI := (Entails.of_eq (congrArg (fun f => ((sI).view.loc (thr d L) ↦{fullShare} f : sProp 𝕄)) hch)) $$ HI
    ihave HT := (Entails.of_eq (pts_sT_access (F := F) d L _).symm) $$ HT
    sl_for (invI d L (FloatOps.minimumf (F := F) (φ := .f32)) (chunk xv L t.val) rmin acc) $$ [HI HT]
    case region =>
      intro j a
      unfold invI
      iintro ⟨HI, HT, %ha⟩
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      sl_step
      isplitl [HI]; · iexact HI
      isplitl [HT]; · iexact HT
      ipureintro
      rw [inner_succ, ← ha]
      exact trip_min (chunk xv L t.val) rmin a j.val _ _ _ (k1_off2_eq j) _ _ _ (k1_off3_eq j) _ _ _ (k1_off4_eq j) _ _ _ (k1_off5_eq j) _ _ _ (k1_off6_eq j) _ _ _ (k1_off7_eq j) _ _ _ (k1_off8_eq j) _ _ _ (k1_off9_eq j)
    · unfold invI
      isplitl [HI]; · iexact HI
      isplitl [HT]; · iexact HT
      ipureintro; rfl
    iintro %acc' HIv
    unfold invI
    icases HIv with ⟨HI, HT, %hacc'⟩
    sl_exec
    sl_step
    ihave HT := (Entails.of_eq (pts_sT_access (F := F) d L _)) $$ HT
    isplitr; · iexact Hmw
    isplitl [Hx]; · iexact Hx
    isplitl [HI]; · iexists _; iexact HI
    isplitl [HT]; · iexact HT
    isplitl [Hs1]; · iexact Hs1
    isplitl [HO]
    · iexists (insert (SemLoc.dma ⟨7, by decide⟩, default) W'); isplitr
      · ipureintro; intro p hp
        rcases Finset.mem_insert.mp hp with hp | hp
        · exact .inr (hp ▸ rfl)
        · exact hW' p hp
      · iexact HO
    ipureintro
    rw [outer_succ, ← hacc, hacc', trips2]
  · unfold invO
    isplitl [Hmw]; · iexact Hmw
    isplitl [Hx]; · iexact Hx
    isplitl [HI]; · iexists _; iexact HI
    isplitl [HT]; · iexact HT
    isplitl [Hs1]; · iexact Hs1
    isplitl [HO]
    · iexists _; isplitr
      · ipureintro; exact fun p hp => .inl hp
      · iexact HO
    ipureintro; rfl
  iintro %accF HIv
  unfold invO
  icases HIv with ⟨-, Hx, ⟨%fI2, HI⟩, HT, Hs1, ⟨%W2, %hW2, HO⟩, %haccF⟩
  sl_exec
  sl_step
  isplitl [Hx]; · iexact Hx
  isplitl [Hmn]; · iexact Hmn
  isplitl [Hmx]; · iexact Hmx
  isplitl [Ho]
  · have hr : body_min.sl.dma2 d L fA accF = accF := by unfold body_min.sl.dma2 body_min.sl.HA_1; exact acc_read _ _ _
    have hw : ∀ x : S16.Idx, body_min.sl.dma2 d L fA accF x = P4 xv rmin rmax (ValueIdx.ix3 (L 0) (L 1) (x 0)) := by
      intro x
      rw [P4_row, part_min xv rmin rmax L h0, hr, haccF, trips1]; rfl
    iapply (Entails.of_eq (row_final (F := F) d L fo _ (P4 xv rmin rmax) hw)); iexact Ho
  isplitl [HT HI HA Hbufs]
  · isplitl [HT]; · iexists _; iexact HT
    isplitl [HI]; · iexists _; iexact HI
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma ⟨10, by decide⟩, default) W2); isplitr
  · ipureintro; intro p hp
    rcases Finset.mem_insert.mp hp with hp | hp
    · exact .inr (hp ▸ rfl)
    · rcases hW2 p hp with h | h
      · rcases Finset.mem_insert.mp h with h | h
        · exact .inr (h ▸ rfl)
        · exact .inl h
      · exact .inr h
  · iexact HO

set_option maxHeartbeats 4000000 in
theorem body_max (d : Dev nD) (L : grid1.Coords) (h0 : (L 0).val ≠ 0) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  have k1_h1 : ¬ k1_cond1 L = 1#1 := fun h => h0 ((cond1_iff L).mp h)
  have k1_h2 : k1_cond2 L = 1#1 := (cond2_iff L).mpr h0

  unfold cc1_k
  rw [(K (F := F)).scopedBufs_V facts d ((L 0).castLE hcore1) ((L 1).castLE hsub1), SparseCore.Cfg.scopedSems0_V (Val := Elt F) d ((L 0).castLE hcore1) ((L 1).castLE hsub1), ownSems0_V, ownBufs_V]
  iintro ⟨#Hlv, Hx, Hmn, Hmx, ⟨%fo, Ho⟩, ⟨⟨%fT, HT⟩, ⟨%fI, HI⟩, ⟨%fA, HA⟩, Hbufs⟩, ⟨Hs0, Hs1, Hs2, Hs3, Hs4, Hsems⟩, HO⟩
  ihave Hmw := ((K (F := F)).mayWaits_none (thr := thr d L) hO) $$ Hlv
  ihave Hx := (Entails.of_eq (pts_x (F := F) d L _ _).symm) $$ Hx
  ihave Hmn := (Entails.of_eq (pts_mn (F := F) d L _ _).symm) $$ Hmn
  ihave Hmx := (Entails.of_eq (pts_mx (F := F) d L _ _).symm) $$ Hmx
  ihave Ho := (Entails.of_eq (pts_o (F := F) d L _).symm) $$ Ho
  ihave HT := (Entails.of_eq (pts_sT (F := F) d L _).symm) $$ HT
  ihave HI := (Entails.of_eq (pts_sI (F := F) d L _).symm) $$ HI
  ihave HA := (Entails.of_eq (pts_sA (F := F) d L _).symm) $$ HA
  sl_exec
  have hT : (View.write (Elt F) sT.view fT (body_max.sl.dma0 rmax) Finset.univ : Vec F S100000 .f32) = rmax := by
    unfold body_max.sl.dma0; exact View.write_whole_univ _ _ _
  ihave HT := (Entails.of_eq (congrArg (fun f => ((sT).view.loc (thr d L) ↦{fullShare} f : sProp 𝕄)) hT)) $$ HT
  sl_for (invO d L cc1_scoped3.sem q₁ (FloatOps.maximumf (F := F) (φ := .f32)) xv rmax body_max.sl.v7 O (insert (SemLoc.dma ⟨8, by decide⟩, default) W)) $$ [Hmw Hx HI HT Hs3 HO]
  case region =>
    intro t acc
    unfold invO
    iintro ⟨#Hmw, Hx, ⟨%fI', HI⟩, HT, Hs3, ⟨%W', %hW', HO⟩, %hacc⟩
    sl_exec
    have hch : (View.write (Elt F) sI.view fI' (body_max.sl.dma0_1 L xv k1_h2 t) Finset.univ : Vec F S25600 .i32) = chunk xv L t.val := by
      unfold body_max.sl.dma0_1
      exact (View.write_whole_univ _ _ _).trans (chunk_eq xv L _ t.val (Nat.lt_of_lt_of_le t.isLt k1_t3_abs.2.1) (k1_off10_eq L t) _)
    have hI : ∀ j, (chunk xv L t.val j).toNat < 100000 := fun j => hx _
    ihave HI := (Entails.of_eq (congrArg (fun f => ((sI).view.loc (thr d L) ↦{fullShare} f : sProp 𝕄)) hch)) $$ HI
    ihave HT := (Entails.of_eq (pts_sT_access (F := F) d L _).symm) $$ HT
    sl_for (invI d L (FloatOps.maximumf (F := F) (φ := .f32)) (chunk xv L t.val) rmax acc) $$ [HI HT]
    case region =>
      intro j a
      unfold invI
      iintro ⟨HI, HT, %ha⟩
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      sl_step
      isplitl [HI]; · iexact HI
      isplitl [HT]; · iexact HT
      ipureintro
      rw [inner_succ, ← ha]
      exact trip_max (chunk xv L t.val) rmax a j.val _ _ _ (k1_off11_eq j) _ _ _ (k1_off12_eq j) _ _ _ (k1_off13_eq j) _ _ _ (k1_off14_eq j) _ _ _ (k1_off15_eq j) _ _ _ (k1_off16_eq j) _ _ _ (k1_off17_eq j) _ _ _ (k1_off18_eq j)
    · unfold invI
      isplitl [HI]; · iexact HI
      isplitl [HT]; · iexact HT
      ipureintro; rfl
    iintro %acc' HIv
    unfold invI
    icases HIv with ⟨HI, HT, %hacc'⟩
    sl_exec
    sl_step
    ihave HT := (Entails.of_eq (pts_sT_access (F := F) d L _)) $$ HT
    isplitr; · iexact Hmw
    isplitl [Hx]; · iexact Hx
    isplitl [HI]; · iexists _; iexact HI
    isplitl [HT]; · iexact HT
    isplitl [Hs3]; · iexact Hs3
    isplitl [HO]
    · iexists (insert (SemLoc.dma ⟨9, by decide⟩, default) W'); isplitr
      · ipureintro; intro p hp
        rcases Finset.mem_insert.mp hp with hp | hp
        · exact .inr (hp ▸ rfl)
        · exact hW' p hp
      · iexact HO
    ipureintro
    rw [outer_succ, ← hacc, hacc', trips4]
  · unfold invO
    isplitl [Hmw]; · iexact Hmw
    isplitl [Hx]; · iexact Hx
    isplitl [HI]; · iexists _; iexact HI
    isplitl [HT]; · iexact HT
    isplitl [Hs3]; · iexact Hs3
    isplitl [HO]
    · iexists _; isplitr
      · ipureintro; exact fun p hp => .inl hp
      · iexact HO
    ipureintro; rfl
  iintro %accF HIv
  unfold invO
  icases HIv with ⟨-, Hx, ⟨%fI2, HI⟩, HT, Hs3, ⟨%W2, %hW2, HO⟩, %haccF⟩
  sl_exec
  sl_step
  isplitl [Hx]; · iexact Hx
  isplitl [Hmn]; · iexact Hmn
  isplitl [Hmx]; · iexact Hmx
  isplitl [Ho]
  · have hr : body_max.sl.dma2 d L fA accF = accF := by unfold body_max.sl.dma2 body_max.sl.HA_1; exact acc_read _ _ _
    have hw : ∀ x : S16.Idx, body_max.sl.dma2 d L fA accF x = P4 xv rmin rmax (ValueIdx.ix3 (L 0) (L 1) (x 0)) := by
      intro x
      rw [P4_row, part_max xv rmin rmax L h0, hr, haccF, trips3]; rfl
    iapply (Entails.of_eq (row_final (F := F) d L fo _ (P4 xv rmin rmax) hw)); iexact Ho
  isplitl [HT HI HA Hbufs]
  · isplitl [HT]; · iexists _; iexact HT
    isplitl [HI]; · iexists _; iexact HI
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma ⟨10, by decide⟩, default) W2); isplitr
  · ipureintro; intro p hp
    rcases Finset.mem_insert.mp hp with hp | hp
    · exact .inr (hp ▸ rfl)
    · rcases hW2 p hp with h | h
      · rcases Finset.mem_insert.mp h with h | h
        · exact .inr (h ▸ rfl)
        · exact .inl h
      · exact .inr h
  · iexact HO

set_option maxHeartbeats 4000000 in
theorem body (d : Dev nD) (L : grid1.Coords) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  by_cases h0 : (L 0).val = 0
  · exact body_min d L h0 q₁ q₂ q₃ xv rmin rmax hx O W hO
  · exact body_max d L h0 q₁ q₂ q₃ xv rmin rmax hx O W hO

end Cert.KernelIdeal.Hand.MinMax
end
-- ==== Proof.RunI.lean ====
/-
  The program's run, assembled: the two pipelines' region records, the two SparseCore calls' hand-overs and tile
  bodies put into the run of @main, with every intermediate array named as a function of the launch memory — the
  index words flattened, the table's row extrema, the partial extrema the first call leaves, the score table, the
  gathered scores.
-/
import proofs.«211894_g61933428415975_cont_9to1c4b_619_7_alg».proof.Proof.MainI
import proofs.«211894_g61933428415975_cont_9to1c4b_619_7_alg».proof.Proof.Region0I
import proofs.«211894_g61933428415975_cont_9to1c4b_619_7_alg».proof.Proof.Region2I
import proofs.«211894_g61933428415975_cont_9to1c4b_619_7_alg».proof.Proof.SplitI
import proofs.«211894_g61933428415975_cont_9to1c4b_619_7_alg».proof.Proof.TileGatherI
import proofs.«211894_g61933428415975_cont_9to1c4b_619_7_alg».proof.Proof.TileMinMaxI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The pieces instantiated: the two regions, the two calls' arrays, the run -/

section Glue

variable (m : (ℓ : Loc nD τ sig) → Buf (Elt F) ℓ) (ρ : Dev nD → PrngReg)

/-- What the TensorCore owes before each SparseCore call. -/
abbrev O0 : Dev nD → CellTallies nD τ sig (HIx 2) := fun d => (K (F := F)).Otc d 0
abbrev O1 : Dev nD → CellTallies nD τ sig (HIx 2) := fun d => (K (F := F)).Otc d 1

/-- The buffers after the row-extrema pipeline. -/
abbrev W2r : Dev nD → Valuation τ sig (Elt F) := Reg0.Wout (O0 (F := F)) (8 * 0) (W1 m)
/-- The partial extrema the first call leaves. -/
abbrev p4r : (d : Dev nD) → Buf (Elt F) ((SparseCore.T (τ := τ) d).loc main_v4) :=
  fun d => MinMax.P4 (xvC (W2r m) d) (rminC (W2r m) d) (rmaxC (W2r m) d)
/-- The buffers after the table pipeline. -/
abbrev W6r : Dev nD → Valuation τ sig (Elt F) := Reg2.Wout (W5 (W2r m) (p4r m)) (O1 (F := F)) (8 * 1)
/-- The gathered scores the second call leaves. -/
abbrev g3r : (d : Dev nD) → Buf (Elt F) ((SparseCore.T (τ := τ) d).loc main_v8) :=
  fun d => Gather.G3 (xvC (W2r m) d) (tvC (W6r m) d)

/-- The row-extrema pipeline's record between the contents it is entered from and the ones it leaves. -/
def r0 : RegAt (F := F) 0 (O0 (F := F)) (8 * 0) (W1 m) (W2r m) :=
  ⟨Reg0.pdats (Reg0.VW (W1 m)) (O0 (F := F)) (8 * 0), Reg0.reg (O0 (F := F)) (8 * 0) (W1 m) (fun c g => Otc_none c 0 g),
    fun _ => rfl, fun _ => rfl⟩

/-- The table pipeline's record. -/
def r2 : RegAt (F := F) 1 (O1 (F := F)) (8 * 1) (W5 (W2r m) (p4r m)) (W6r m) :=
  ⟨Reg2.pdats (Reg2.Vof (W5 (W2r m) (p4r m))) (O1 (F := F)) (8 * 1),
    Reg2.reg (W5 (W2r m) (p4r m)) (O1 (F := F)) (8 * 1) (fun c g => Otc_none c 1 g), fun _ => rfl, fun _ => rfl⟩

end Glue

/-! ## What each step leaves at each buffer -/

section Chain

variable (m : (ℓ : Loc nD τ sig) → Buf (Elt F) ℓ)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

theorem W1_ne (d : Dev nD) {b : Ref sig .tc} (h : b ≠ main_v0) : W1 m d (Proc.devRef .tc b) = m ((SparseCore.T (τ := τ) d).loc b) := by
  unfold W1; exact (StableHlo.reshape_result_ne _ _ _ _ _ _ _ h).trans rfl
theorem W1_v0 (d : Dev nD) :
    W1 m d rv0 = shapeCast S819200 (m ((SparseCore.T (τ := τ) d).loc main_arg0)) Facts₀.shapeCasts_S4096x200_S819200 := by
  unfold W1; exact (StableHlo.reshape_result _ _ _ _ _ _ _).trans rfl

theorem W3_ne (d : Dev nD) {b : Ref sig .tc} (h2 : b ≠ main_v2) (h3 : b ≠ main_v3) : W3 W2 d (Proc.devRef .tc b) = W2 d (Proc.devRef .tc b) := by
  unfold W3; exact (StableHlo.reshape_result_ne _ _ _ _ _ _ _ h3).trans (StableHlo.reshape_result_ne _ _ _ _ _ _ _ h2)
theorem W3_v2 (d : Dev nD) :
    W3 W2 d rv2 = shapeCast S100000 (W2 d (Proc.devRef .tc main_v1_0)) Facts₀.shapeCasts_S100x1x1000_S100000 := by
  unfold W3
  exact (StableHlo.reshape_result_ne _ _ _ _ _ _ _ (show main_v2 ≠ main_v3 by decide)).trans ((StableHlo.reshape_result _ _ _ _ _ _ _).trans rfl)
theorem W3_v3 (d : Dev nD) :
    W3 W2 d rv3 = shapeCast S100000 (W2 d (Proc.devRef .tc main_v1_1)) Facts₀.shapeCasts_S100x1x1000_S100000 := by
  unfold W3
  refine (StableHlo.reshape_result _ _ _ _ _ _ _).trans ?_
  rw [StableHlo.reshape_result_ne _ _ _ _ _ _ _ (show main_v1_1 ≠ main_v2 by decide)]
  rfl

theorem W4_ne (d : Dev nD) {b : Ref sig .tc} (h : b ≠ main_v4) : W4 W2 p4 d (Proc.devRef .tc b) = W3 W2 d (Proc.devRef .tc b) := by
  unfold W4; exact Function.update_of_ne (StableHlo.devRef_ne_of_ne h) _ _
theorem W4_v4 (d : Dev nD) : W4 W2 p4 d rv4 = p4 d := by
  unfold W4; exact Function.update_self _ _ _

theorem W5_ne (d : Dev nD) {b : Ref sig .tc} (h : b ≠ main_v5) : W5 W2 p4 d (Proc.devRef .tc b) = W4 W2 p4 d (Proc.devRef .tc b) := by
  unfold W5; exact StableHlo.reshape_result_ne _ _ _ _ _ _ _ h
theorem W5_v5 (d : Dev nD) :
    W5 W2 p4 d (Proc.devRef .tc main_v5) = shapeCast S1x1 (W4 W2 p4 d (Proc.devRef .tc main_arg3)) Facts₀.shapeCasts_S1_S1x1 := by
  unfold W5; exact (StableHlo.reshape_result _ _ _ _ _ _ _).trans rfl

theorem W7_ne (d : Dev nD) {b : Ref sig .tc} (h : b ≠ main_v7) : W7 W6 d (Proc.devRef .tc b) = W6 d (Proc.devRef .tc b) := by
  unfold W7; exact StableHlo.reshape_result_ne _ _ _ _ _ _ _ h
theorem W7_v7 (d : Dev nD) :
    W7 W6 d rv7 = shapeCast S100000 (W6 d (Proc.devRef .tc main_v6)) Facts₀.shapeCasts_S100x1x1000_S100000 := by
  unfold W7; exact (StableHlo.reshape_result _ _ _ _ _ _ _).trans rfl

theorem W8_ne (d : Dev nD) {b : Ref sig .tc} (h : b ≠ main_v8) : W8 W6 g3 d (Proc.devRef .tc b) = W7 W6 d (Proc.devRef .tc b) := by
  unfold W8; exact Function.update_of_ne (StableHlo.devRef_ne_of_ne h) _ _
theorem W8_v8 (d : Dev nD) : W8 W6 g3 d rv8 = g3 d := by
  unfold W8; exact Function.update_self _ _ _

theorem W9_ne (d : Dev nD) {b : Ref sig .tc} (h : b ≠ main_v9) : W9 W6 g3 d (Proc.devRef .tc b) = W8 W6 g3 d (Proc.devRef .tc b) := by
  unfold W9; exact StableHlo.reshape_result_ne _ _ _ _ _ _ _ h
theorem W9_v9' (d : Dev nD) :
    W9 W6 g3 d (Proc.devRef .tc main_v9) = shapeCast S4096x200x1 (W8 W6 g3 d rv8) Facts₀.shapeCasts_S819200_S4096x200x1 := by
  unfold W9; exact (StableHlo.reshape_result _ _ _ _ _ _ _).trans rfl

end Chain

/-! ## The arrays the calls read and write, as functions of the launch memory -/

section Facts

variable (m : (ℓ : Loc nD τ sig) → Buf (Elt F) ℓ) (ρ : Dev nD → PrngReg)

/-- The row-extrema pipeline leaves the table as launched, -/
theorem W2r_arg1 (d : Dev nD) : W2r m d (Proc.devRef .tc main_arg1) = m ((SparseCore.T (τ := τ) d).loc main_arg1) :=
  (Reg0.Wout_arg1 (O0 (F := F)) (8 * 0) (W1 m) d).trans (W1_ne m d (by decide))
/-- and every buffer but the flattened index words and its own two results as launched. -/
theorem W2r_other (d : Dev nD) (b : Ref sig .tc) (h0 : b ≠ main_v0) (ha : b ≠ main_arg1) (h1 : b ≠ main_v1_0) (h2 : b ≠ main_v1_1) :
    W2r m d (Proc.devRef .tc b) = m ((SparseCore.T (τ := τ) d).loc b) :=
  (Reg0.Wout_other (O0 (F := F)) (8 * 0) (W1 m) d b ha h1 h2).trans (W1_ne m d h0)

/-- The index words the calls read: the index argument flattened. -/
theorem xvC_eq (d : Dev nD) :
    xvC (W2r m) d = shapeCast S819200 (m ((SparseCore.T (τ := τ) d).loc main_arg0)) Facts₀.shapeCasts_S4096x200_S819200 :=
  (W3_ne (W2r m) d (b := main_v0) (by decide) (by decide)).trans
    ((Reg0.Wout_other (O0 (F := F)) (8 * 0) (W1 m) d main_v0 (by decide) (by decide) (by decide)).trans (W1_v0 m d))

/-- The row minima and maxima the first call reads: the table's, flattened. -/
theorem rminC_eq (d : Dev nD) :
    rminC (W2r m) d = shapeCast S100000 (Reg0.rowMin (m ((SparseCore.T (τ := τ) d).loc main_arg1))) Facts₀.shapeCasts_S100x1x1000_S100000 :=
  (W3_v2 (W2r m) d).trans (congrArg (fun x => shapeCast S100000 x Facts₀.shapeCasts_S100x1x1000_S100000)
    ((Reg0.Wout_v1_0 (O0 (F := F)) (8 * 0) (W1 m) d).trans (congrArg Reg0.rowMin (W1_ne m d (by decide)))))
theorem rmaxC_eq (d : Dev nD) :
    rmaxC (W2r m) d = shapeCast S100000 (Reg0.rowMax (m ((SparseCore.T (τ := τ) d).loc main_arg1))) Facts₀.shapeCasts_S100x1x1000_S100000 :=
  (W3_v3 (W2r m) d).trans (congrArg (fun x => shapeCast S100000 x Facts₀.shapeCasts_S100x1x1000_S100000)
    ((Reg0.Wout_v1_1 (O0 (F := F)) (8 * 0) (W1 m) d).trans (congrArg Reg0.rowMax (W1_ne m d (by decide)))))

/-- Up to the table pipeline a buffer no step writes holds what the row-extrema pipeline left. -/
theorem W5r_of_W2 (d : Dev nD) (b : Ref sig .tc) (h2 : b ≠ main_v2) (h3 : b ≠ main_v3) (h4 : b ≠ main_v4) (h5 : b ≠ main_v5) :
    W5 (W2r m) (p4r m) d (Proc.devRef .tc b) = W2r m d (Proc.devRef .tc b) :=
  (W5_ne (W2r m) (p4r m) d h5).trans ((W4_ne (W2r m) (p4r m) d h4).trans (W3_ne (W2r m) d h2 h3))

/-- The index words are the same at both calls. -/
theorem hx7 : ∀ d, W7 (W6r m) d rv0 = W3 (W2r m) d rv0 := fun d =>
  (W7_ne (W6r m) d (b := main_v0) (by decide)).trans
    ((Reg2.Wout_of_ne (W5 (W2r m) (p4r m)) (O1 (F := F)) (8 * 1) d main_v0 (by decide)).trans
      ((W5_ne (W2r m) (p4r m) d (b := main_v0) (by decide)).trans (W4_ne (W2r m) (p4r m) d (b := main_v0) (by decide))))

/-- The score table the second call reads: the table pipeline's output array, flattened. -/
theorem tvC_eq (d : Dev nD) :
    tvC (W6r m) d = shapeCast S100000 (Reg2.table (m ((SparseCore.T (τ := τ) d).loc main_arg1)) (p4r m d)
        (m ((SparseCore.T (τ := τ) d).loc main_arg2))
        (shapeCast S1x1 (m ((SparseCore.T (τ := τ) d).loc main_arg3)) Facts₀.shapeCasts_S1_S1x1)) Facts₀.shapeCasts_S100x1x1000_S100000 := by
  refine (W7_v7 (W6r m) d).trans (congrArg (fun x => shapeCast S100000 x Facts₀.shapeCasts_S100x1x1000_S100000) ?_)
  refine (Reg2.Wout_v6 (W5 (W2r m) (p4r m)) (O1 (F := F)) (8 * 1) d).trans ?_
  have e1 : W5 (W2r m) (p4r m) d (Proc.devRef .tc main_arg1) = m ((SparseCore.T (τ := τ) d).loc main_arg1) :=
    (W5r_of_W2 m d main_arg1 (by decide) (by decide) (by decide) (by decide)).trans (W2r_arg1 m d)
  have e2 : W5 (W2r m) (p4r m) d (Proc.devRef .tc main_v4) = p4r m d :=
    (W5_ne (W2r m) (p4r m) d (b := main_v4) (by decide)).trans (W4_v4 (W2r m) (p4r m) d)
  have e3 : W5 (W2r m) (p4r m) d (Proc.devRef .tc main_arg2) = m ((SparseCore.T (τ := τ) d).loc main_arg2) :=
    (W5r_of_W2 m d main_arg2 (by decide) (by decide) (by decide) (by decide)).trans
      (W2r_other m d main_arg2 (by decide) (by decide) (by decide) (by decide))
  have e4 : W5 (W2r m) (p4r m) d (Proc.devRef .tc main_v5)
      = shapeCast S1x1 (m ((SparseCore.T (τ := τ) d).loc main_arg3)) Facts₀.shapeCasts_S1_S1x1 :=
    (W5_v5 (W2r m) (p4r m) d).trans (congrArg (fun x => shapeCast S1x1 x Facts₀.shapeCasts_S1_S1x1)
      ((W4_ne (W2r m) (p4r m) d (b := main_arg3) (by decide)).trans ((W3_ne (W2r m) d (b := main_arg3) (by decide) (by decide)).trans
        (W2r_other m d main_arg3 (by decide) (by decide) (by decide) (by decide)))))
  show Reg2.table (W5 (W2r m) (p4r m) d (Proc.devRef .tc main_arg1)) (W5 (W2r m) (p4r m) d (Proc.devRef .tc main_v4))
      (W5 (W2r m) (p4r m) d (Proc.devRef .tc main_arg2)) (W5 (W2r m) (p4r m) d (Proc.devRef .tc main_v5)) = _
  rw [e1, e2, e3, e4]

/-- Index words in range stay in range through the flattening. -/
theorem xvC_ok (hx : ∀ d i, (m ((SparseCore.T (τ := τ) d).loc main_arg0) i).toNat < 100000) :
    ∀ d n, (xvC (W2r m) d n).toNat < 100000 := fun d n => by
  rw [xvC_eq]; unfold shapeCast; exact hx d _

/-- The two tile bodies at these arrays. -/
theorem body1_ok (hx : ∀ d i, (m ((SparseCore.T (τ := τ) d).loc main_arg0) i).toNat < 100000) :
    Body1 (F := F) (xvC (W2r m)) (rminC (W2r m)) (rmaxC (W2r m)) (p4r m) := fun d L q₁ q₂ q₃ O W hO =>
  MinMax.body d L q₁ q₂ q₃ (xvC (W2r m) d) (rminC (W2r m) d) (rmaxC (W2r m) d) (xvC_ok m hx d) O W hO

theorem body3_ok (hx : ∀ d i, (m ((SparseCore.T (τ := τ) d).loc main_arg0) i).toNat < 100000) :
    Body3 (F := F) (xvC (W2r m)) (tvC (W6r m)) (g3r m) := fun d L q₁ q₂ O W hO =>
  Gather.body d L q₁ q₂ (xvC (W2r m) d) (tvC (W6r m) d) (xvC_ok m hx d) O W hO

/-- THE RUN: from any launch memory whose index words are in range, every weakly fair execution of the program
    terminates, and every final memory holds the last contents at every unscoped buffer of every TensorCore. -/
theorem run (hx : ∀ d i, (m ((SparseCore.T (τ := τ) d).loc main_arg0) i).toNat < 100000) :
    θ_run (Cert.KernelIdeal.defs (F := F)) (Cert.KernelIdeal.threads (F := F)) ⟨m, fun _ => 0, ρ⟩ (QC (F := F) (W6r m) (g3r m)) :=
  run_main m ρ (W2r m) (W6r m) (p4r m) (g3r m) (r0 m) (r2 m)
    (fun d => call0_hand (xvC (W2r m)) (rminC (W2r m)) (rmaxC (W2r m)) (p4r m) (tvC (W6r m)) (g3r m) d)
    (fun d => call1_hand (xvC (W2r m)) (rminC (W2r m)) (rmaxC (W2r m)) (p4r m) (tvC (W6r m)) (g3r m) d)
    (hx7 m) (body1_ok m hx) (body3_ok m hx)
    (vecSplit0 (xvC (W2r m)) (rminC (W2r m)) (rmaxC (W2r m)) (p4r m) (tvC (W6r m)) (g3r m))
    (vecSplit1 (xvC (W2r m)) (rminC (W2r m)) (rmaxC (W2r m)) (p4r m) (tvC (W6r m)) (g3r m))

end Facts

/-! ## The final contents: the arguments as launched, the result as one function of them -/

section Final

variable (m : (ℓ : Loc nD τ sig) → Buf (Elt F) ℓ)

/-- From the table pipeline's exit to the end, a buffer no later step writes holds what the pipeline left. -/
theorem W9r_of_W6 (d : Dev nD) (b : Ref sig .tc) (h7 : b ≠ main_v7) (h8 : b ≠ main_v8) (h9 : b ≠ main_v9) :
    W9 (W6r m) (g3r m) d (Proc.devRef .tc b) = W6r m d (Proc.devRef .tc b) :=
  (W9_ne (W6r m) (g3r m) d h9).trans ((W8_ne (W6r m) (g3r m) d h8).trans (W7_ne (W6r m) d h7))

/-- A buffer no step writes ends as launched. -/
theorem W9_kept (d : Dev nD) (b : Ref sig .tc) (ha : b ≠ main_arg1) (h0 : b ≠ main_v0) (h10 : b ≠ main_v1_0) (h11 : b ≠ main_v1_1)
    (h2 : b ≠ main_v2) (h3 : b ≠ main_v3) (h4 : b ≠ main_v4) (h5 : b ≠ main_v5) (h6 : b ≠ main_v6) (h7 : b ≠ main_v7)
    (h8 : b ≠ main_v8) (h9 : b ≠ main_v9) :
    W9 (W6r m) (g3r m) d (Proc.devRef .tc b) = m ((SparseCore.T (τ := τ) d).loc b) :=
  (W9r_of_W6 m d b h7 h8 h9).trans ((Reg2.Wout_of_ne (W5 (W2r m) (p4r m)) (O1 (F := F)) (8 * 1) d b h6).trans
    ((W5r_of_W2 m d b h2 h3 h4 h5).trans (W2r_other m d b h0 ha h10 h11)))

theorem W9_arg0 (d : Dev nD) : W9 (W6r m) (g3r m) d (Proc.devRef .tc main_arg0) = m ((SparseCore.T (τ := τ) d).loc main_arg0) :=
  W9_kept m d main_arg0 (by decide) (by decide) (by decide) (by decide) (by decide) (by decide) (by decide) (by decide) (by decide) (by decide) (by decide) (by decide)
theorem W9_arg1 (d : Dev nD) : W9 (W6r m) (g3r m) d (Proc.devRef .tc main_arg1) = m ((SparseCore.T (τ := τ) d).loc main_arg1) :=
  (W9r_of_W6 m d main_arg1 (by decide) (by decide) (by decide)).trans
    ((Reg2.Wout_of_ne (W5 (W2r m) (p4r m)) (O1 (F := F)) (8 * 1) d main_arg1 (by decide)).trans
      ((W5r_of_W2 m d main_arg1 (by decide) (by decide) (by decide) (by decide)).trans (W2r_arg1 m d)))
theorem W9_arg2 (d : Dev nD) : W9 (W6r m) (g3r m) d (Proc.devRef .tc main_arg2) = m ((SparseCore.T (τ := τ) d).loc main_arg2) :=
  W9_kept m d main_arg2 (by decide) (by decide) (by decide) (by decide) (by decide) (by decide) (by decide) (by decide) (by decide) (by decide) (by decide) (by decide)
theorem W9_arg3 (d : Dev nD) : W9 (W6r m) (g3r m) d (Proc.devRef .tc main_arg3) = m ((SparseCore.T (τ := τ) d).loc main_arg3) :=
  W9_kept m d main_arg3 (by decide) (by decide) (by decide) (by decide) (by decide) (by decide) (by decide) (by decide) (by decide) (by decide) (by decide) (by decide)

/-- The partial extrema, from the launch memory. -/
theorem p4r_eq (d : Dev nD) :
    p4r m d = MinMax.P4 (shapeCast S819200 (m ((SparseCore.T (τ := τ) d).loc main_arg0)) Facts₀.shapeCasts_S4096x200_S819200)
      (shapeCast S100000 (Reg0.rowMin (m ((SparseCore.T (τ := τ) d).loc main_arg1))) Facts₀.shapeCasts_S100x1x1000_S100000)
      (shapeCast S100000 (Reg0.rowMax (m ((SparseCore.T (τ := τ) d).loc main_arg1))) Facts₀.shapeCasts_S100x1x1000_S100000) := by
  show MinMax.P4 (xvC (W2r m) d) (rminC (W2r m) d) (rmaxC (W2r m) d) = _
  rw [xvC_eq, rminC_eq, rmaxC_eq]

/-- The gathered scores, from the launch memory and the partial extrema. -/
theorem g3r_eq (d : Dev nD) :
    g3r m d = Gather.G3 (d := d) (shapeCast S819200 (m ((SparseCore.T (τ := τ) d).loc main_arg0)) Facts₀.shapeCasts_S4096x200_S819200)
      (shapeCast S100000 (Reg2.table (m ((SparseCore.T (τ := τ) d).loc main_arg1)) (p4r m d)
        (m ((SparseCore.T (τ := τ) d).loc main_arg2))
        (shapeCast S1x1 (m ((SparseCore.T (τ := τ) d).loc main_arg3)) Facts₀.shapeCasts_S1_S1x1)) Facts₀.shapeCasts_S100x1x1000_S100000) := by
  show Gather.G3 (xvC (W2r m) d) (tvC (W6r m) d) = _
  rw [xvC_eq, tvC_eq]

/-- THE RESULT: the gathered scores, reshaped. -/
theorem W9_v9 (d : Dev nD) :
    W9 (W6r m) (g3r m) d (Proc.devRef .tc main_v9) = shapeCast S4096x200x1 (g3r m d) Facts₀.shapeCasts_S819200_S4096x200x1 :=
  (W9_v9' (W6r m) (g3r m) d).trans (congrArg (fun x => shapeCast S4096x200x1 x Facts₀.shapeCasts_S819200_S4096x200x1) (W8_v8 (W6r m) (g3r m) d))

end Final

end Cert.KernelIdeal.Hand

end
-- ==== Proof.SetupB.lean ====
/-
  The program as the launch theorem for SparseCore programs sees it, and the ghost state its proof runs over.
  The program has two SparseCore calls (each a vector-subcore kernel on 2 × 16 tiles) and two TensorCore
  pipelines. The ghost state has three components side by side: the rounds of the four handshake semaphores,
  the rounds of the pipelines' staging semaphores, and the counters of the tiles' own transfers, each of which
  is issued and waited for by one tile on a semaphore of its own, so that no schedule is needed for them.
-/
import proofs.«211894_g61933428415975_cont_9to1c4b_619_7_alg».proof.Defs
import proofs.«211894_g61933428415975_cont_9to1c4b_619_7_alg».proof.Proof.Gen.Kernel
import proofs.«211894_g61933428415975_cont_9to1c4b_619_7_alg».proof.Proof.Gen.Kernel.Launch
import proofs.«211894_g61933428415975_cont_9to1c4b_619_7_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The machine's algebra at this ghost state. -/
abbrev MM (F : FTy → Type) : Type := MT nD τ sig (HIx 2) (Elt F) ℕ UU ℕ

/-- The handshakes' rounds: the left component. -/
abbrev EH : Emb UH (MM F) := embL
/-- The pipelines' staging cells' rounds: the left of the right component. -/
def EP : Emb UP (MM F) := (Emb.inl : Emb UP (UP × Counters)).trans embR

instance EP_landsIn : (EP : Emb UP (MM F)).LandsIn (upEmb : UEmb _ (MM F)) := by unfold EP; infer_instance

end Cert.Kernel.Hand

end
-- ==== Proof.LaunchElemB.lean ====
/-
  The launch element: the ghost state the proof starts from is the handshake semaphores' rounds, the rounds of
  the two pipelines' staging semaphores, and the unit of the tiles' transfer counters. The handshakes' part goes
  to the launch theorem as it is; the staging cells' part funds, per device and per pipeline, the cells' launch
  state and the duty tokens of every transfer the pipeline's loop will issue; the tiles' kernels consume nothing
  of the launch's.
-/
import proofs.«211894_g61933428415975_cont_9to1c4b_619_7_alg».proof.Proof.SetupB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

abbrev adm : (p : Fin 2) → (pcfgs (F := F) p).Adm := fun p => (cfgs p).toPCfg_adm

/-- The launch element. -/
def u₀ : UU := (initOf (K (F := F)).hsCells (K (F := F)).hsToks, (initOf (Pipeline.cells cfgs cellOf_inj) (Pipeline.launchToks cfgs cellOf_inj), 1))

/-- What the launch deals the TensorCore of a device for the two pipelines: each one's staging cells' launch state
    and its duty tokens. -/
def G (d : Dev nD) : sProp 𝕄 :=
  bigSep Finset.univ fun p : Fin 2 => iprop(Pipeline.cellsGhost cfgs (EP (F := F)) p d ∗ Pipeline.toksInit cfgs (EP (F := F)) p d)

theorem bigSep_emp' {I : Type} (s : Finset I) : (bigSep s fun _ => iprop(emp)) = (iprop(emp) : sProp 𝕄) := bigSep_emp_const s

/-- Owning through the composed injections is owning through the staging cells' embedding. -/
theorem own_EP (x : UP) : (BI.own (((Emb.inl : Emb UP (UP × Counters)).trans (embR : Emb (UP × Counters) 𝕄)) x) : sProp 𝕄) ⊢ BI.own (EP (F := F) x) := .rfl

/-- The element splits into the handshakes' part and the staging cells' part (the counters' unit is dropped);
    the latter funds every pipeline's ghost state on every device. -/
theorem hu₀_core : (ownU (u₀ (F := F)) : sProp 𝕄)
    ⊢ |={Set.univ}=> iprop(BI.own (EH (F := F) (initOf (K (F := F)).hsCells (K (F := F)).hsToks)) ∗ bigSep Finset.univ (G (F := F))) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (own_EP _) $$ HP
  imod (Pipeline.fund_ghost cfgs (EP (F := F)) cellOf_inj) $$ HP' with ⟨Hc, Ht⟩
  imodintro
  isplitl [HH]; · iexact HH
  unfold G
  simp only [bigSep_sep']
  isplitl [Hc]
  · iexact Hc
  · iexact Ht

end Cert.Kernel.Hand

end
-- ==== Proof.RegionStepB.lean ====
/-
  Entering a TensorCore pipeline from inside @main of the SparseCore program: the custom call of the program's
  signature is the pipeline's entry lifted, so a region's record — its pipeline's layout, its body's obligation, and
  the thread state it is entered from and leaves — runs it, from the region boundary and that pipeline's staging
  cells' ghost state, to the boundary and the record's exit state.
-/
import proofs.«211894_g61933428415975_cont_9to1c4b_619_7_alg».proof.Proof.LaunchElemB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

set_option backward.isDefEq.respectTransparency.types false in
/-- One region's step on device `d`, under any continuation's post. -/
theorem region_step {p : Fin 2}
    (pd : (p : Fin 2) → (c : Dev nD) → Pipeline.Dat τ (Elt F) (HIx 2) ℕ UU ℕ (Pipeline.pin (pcfgs (F := F)) adm p) c)
    (R : Pipeline.RegionSeg (pcfgs (F := F)) adm pd none (defs₀ (F := F)) 𝒱₀ (K (F := F)).L (K (F := F)).lev p) (d : Dev nD) (Φ : PUnit → sProp 𝕄) :
    iprop((iprop(boundary (T d) ∗ R.post d) -∗ Φ ⟨⟩)
        ∗ boundary (T d) ∗ R.pre d ∗ levAts (K (F := F)).L (K (F := F)).lev
        ∗ Pipeline.cellsGhost cfgs (EP (F := F)) p d ∗ Pipeline.toksInit cfgs (EP (F := F)) p d)
      ⊢ wp frame (wpE ((K (F := F)).defs (D (F := F))) 𝒱 (T d) none) Set.univ
          (Prog.lift (.customCall (SparseCore.inner (Pipeline.entry p)) ())) Φ := by
  iintro ⟨Hk, Hb, Hpre, Hl, Hc, Ht⟩
  iapply ((K (F := F)).wp_liftProg (D (F := F)) 𝒱 (T d) Set.univ none (.op (.customCall (Pipeline.entry p) ()) .ret) Φ)
  iapply (Pipeline.RegionSeg.wp (pcfgs (F := F)) adm pd none cellOf_inj (EP (F := F)) (defs₀ (F := F)) 𝒱₀ (K (F := F)).L (K (F := F)).lev R d none (fun _ h => nomatch h) .ret Φ)
  isplitl [Hk]
  · iintro H
    rw [wp_ret]
    imodintro
    iapply Hk; iexact H
  isplitl [Hb]; · iexact Hb
  isplitl [Hpre]; · iexact Hpre
  isplitl [Hl]; · iexact Hl
  isplitl [Hc]; · iexact Hc
  iexact Ht

end Cert.Kernel.Hand

end
-- ==== Proof.PayB.lean ====
/-
  What the handshakes carry. The TensorCore hands each SparseCore of a call a read share of the arrays its tiles
  read and the part of the call's result array its tiles write; the sequencer hands each tile its share and its
  part; the tile hands its part back holding the values its body computed, and the sequencer hands the parts back
  together. Call 0 (per-tile minima and maxima): the index words, the two arrays of row extrema, and row
  (core, tile) of the 2 × 16 × 16 result. Call 1 (the gather): the index words, the score table, and the tile's two
  chunks of the result.
-/
import proofs.«211894_g61933428415975_cont_9to1c4b_619_7_alg».proof.Proof.SetupB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MM F

/-- The grid point of tile `s` of SparseCore `c`, in each call's grid. -/
def coords1 (c : Fin (grid1.bound 0)) (s : Fin (grid1.bound 1)) : grid1.Coords :=
  fun | 0 => c | 1 => s | ⟨_ + 2, h⟩ => absurd h (Nat.not_lt.2 (Nat.le_add_left _ _))
def coords3 (c : Fin (grid3.bound 0)) (s : Fin (grid3.bound 1)) : grid3.Coords :=
  fun | 0 => c | 1 => s | ⟨_ + 2, h⟩ => absurd h (Nat.not_lt.2 (Nat.le_add_left _ _))

/-- Row (core, tile) of the minima / maxima array, spelt as the kernel slices it. -/
abbrev rowSet (L : grid1.Coords) : Finset S2x16x16.Idx :=
  (((Memref.whole main_v4_scv : Memref sig .scVector .hbm S2x16x16 .f32).slice (Rect.unit (s := S2x16x16) (k1_off19 L) S1x1x16.size (k1_off19_inb L)) (fun _ => rfl)).squeeze S16 squeezes_S1x1x16_S16).view.set

/-- Chunk `t` of a tile's part of the gathered array, spelt as the kernel slices it. -/
abbrev chunkSet (L : grid3.Coords) (t : Fin k3_t1_loop.trips) : Finset S819200.Idx :=
  ((Memref.whole main_v8_scv : Memref sig .scVector .hbm S819200 .f32).slice (Rect.unit (s := S819200) (k3_off1 L t) S12800.size (k3_off1_inb L t)) (fun _ => rfl)).view.set

/-- The read share of SparseCore `c` of two, and of its tile `i` of sixteen. -/
abbrev shC (c : Fin 2) : PosShare TreeShare := shareTok fullShare 2 c
abbrev shT (c : Fin 2) (i : Fin 16) : PosShare TreeShare := shareTok (shC c) 16 i

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0, the arrays read, at a share. -/
def rd0 (d : Dev nD) (q : PosShare TreeShare) : sProp 𝕄 :=
  iprop(((SparseCore.T d).loc main_v0 ↦{q} xv d) ∗ ((SparseCore.T d).loc main_v2 ↦{q} rmin d) ∗ ((SparseCore.T d).loc main_v3 ↦{q} rmax d))
/-- Call 1, the arrays read, at a share. -/
def rd1 (d : Dev nD) (q : PosShare TreeShare) : sProp 𝕄 :=
  iprop(((SparseCore.T d).loc main_v0 ↦{q} xv d) ∗ ((SparseCore.T d).loc main_v7 ↦{q} tv d))

def go0 (d : Dev nD) (c : Fin 2) (i : Fin 16) : sProp 𝕄 :=
  iprop(rd0 xv rmin rmax d (shT c i) ∗ ∃ f, (SparseCore.T d).loc main_v4 ↦[rowSet (coords1 c i)]{fullShare} f)
def td0 (d : Dev nD) (c : Fin 2) (i : Fin 16) : sProp 𝕄 :=
  iprop(rd0 xv rmin rmax d (shT c i) ∗ (SparseCore.T d).loc main_v4 ↦[rowSet (coords1 c i)]{fullShare} p4 d)
def st0 (d : Dev nD) (c : Fin 2) : sProp 𝕄 :=
  iprop(rd0 xv rmin rmax d (shC c) ∗ bigSep Finset.univ fun i : Fin 16 => iprop(∃ f, (SparseCore.T d).loc main_v4 ↦[rowSet (coords1 c i)]{fullShare} f))
def dn0 (d : Dev nD) (c : Fin 2) : sProp 𝕄 :=
  iprop(rd0 xv rmin rmax d (shC c) ∗ bigSep Finset.univ fun i : Fin 16 => (SparseCore.T d).loc main_v4 ↦[rowSet (coords1 c i)]{fullShare} p4 d)

def go1 (d : Dev nD) (c : Fin 2) (i : Fin 16) : sProp 𝕄 :=
  iprop(rd1 xv tv d (shT c i) ∗ bigSep Finset.univ fun t : Fin k3_t1_loop.trips => iprop(∃ f, (SparseCore.T d).loc main_v8 ↦[chunkSet (coords3 c i) t]{fullShare} f))
def td1 (d : Dev nD) (c : Fin 2) (i : Fin 16) : sProp 𝕄 :=
  iprop(rd1 xv tv d (shT c i) ∗ bigSep Finset.univ fun t : Fin k3_t1_loop.trips => (SparseCore.T d).loc main_v8 ↦[chunkSet (coords3 c i) t]{fullShare} g3 d)
def st1 (d : Dev nD) (c : Fin 2) : sProp 𝕄 :=
  iprop(rd1 xv tv d (shC c) ∗ bigSep Finset.univ fun i : Fin 16 => bigSep Finset.univ fun t : Fin k3_t1_loop.trips => iprop(∃ f, (SparseCore.T d).loc main_v8 ↦[chunkSet (coords3 c i) t]{fullShare} f))
def dn1 (d : Dev nD) (c : Fin 2) : sProp 𝕄 :=
  iprop(rd1 xv tv d (shC c) ∗ bigSep Finset.univ fun i : Fin 16 => bigSep Finset.univ fun t : Fin k3_t1_loop.trips => (SparseCore.T d).loc main_v8 ↦[chunkSet (coords3 c i) t]{fullShare} g3 d)

/-- The payloads of the two calls; no kernel's proof consumes anything of the launch's. -/
def P : (K (F := F)).Pay (nD := nD) (Val := Elt F) (Name := ℕ) (U := UU) where
  st := fun q => match q with
    | ⟨0, _⟩ => fun d c => st0 xv rmin rmax d c
    | ⟨1, _⟩ => fun d c => st1 xv tv d c
  dn := fun q => match q with
    | ⟨0, _⟩ => fun d c => dn0 xv rmin rmax p4 d c
    | ⟨1, _⟩ => fun d c => dn1 xv tv g3 d c
  go := fun q => match q with
    | ⟨0, _⟩ => fun d c i => go0 xv rmin rmax d c i
    | ⟨1, _⟩ => fun d c i => go1 xv tv d c i
  td := fun q => match q with
    | ⟨0, _⟩ => fun d c i => td0 xv rmin rmax p4 d c i
    | ⟨1, _⟩ => fun d c i => td1 xv tv g3 d c i
  x := fun _ _ => iprop(emp)

instance P_storable : (P (F := F) xv rmin rmax p4 tv g3).IsStorable where
  st q d c := by
    match q with
    | ⟨0, _⟩ => unfold P st0 rd0; infer_instance
    | ⟨1, _⟩ => unfold P st1 rd1; infer_instance
  dn q d c := by
    match q with
    | ⟨0, _⟩ => unfold P dn0 rd0; infer_instance
    | ⟨1, _⟩ => unfold P dn1 rd1; infer_instance
  go q d c i := by
    match q with
    | ⟨0, _⟩ => unfold P go0 rd0; infer_instance
    | ⟨1, _⟩ => unfold P go1 rd1; infer_instance
  td q d c i := by
    match q with
    | ⟨0, _⟩ => unfold P td0 rd0; infer_instance
    | ⟨1, _⟩ => unfold P td1 rd1; infer_instance

end Contents

end Cert.Kernel.Hand

end
-- ==== Proof.ObligB.lean ====
/-
  The launch theorem's obligations for the two vector-subcore kernels: each tile's task, from what its go signal
  carries to what its taskDone signal carries, is the kernel's body run at the tile's grid point; and a
  SparseCore's operands split into its sixteen tiles' and the tiles' results gather into the SparseCore's.
  The bodies themselves are hypotheses here (one statement per kernel, at a symbolic grid point); the shares of
  the arrays read split sixteen ways and rejoin; the parts written are disjoint by construction.
-/
import proofs.«211894_g61933428415975_cont_9to1c4b_619_7_alg».proof.Proof.PayB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MM F

abbrev thr1 (d : Dev nD) (L : grid1.Coords) : Thread nD τ := V d ((L 0).castLE hcore1) ((L 1).castLE hsub1)
abbrev thr3 (d : Dev nD) (L : grid3.Coords) : Thread nD τ := V d ((L 0).castLE hcore3) ((L 1).castLE hsub3)

/-- The kernels' functions at a tile, on the whole arrays and the tile's scratch, as the body table calls them. -/
abbrev prog1 (L : grid1.Coords) := cc1_k (F := F) L (Memref.whole main_v0_scv) (Memref.isWhole_whole _) (Memref.whole main_v2_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2 cc1_scoped3 cc1_scoped4
abbrev prog3 (L : grid3.Coords) := cc3_k (F := F) L (Memref.whole main_v0_scv) (Memref.isWhole_whole _) (Memref.whole main_v7_scv) (Memref.isWhole_whole _) (Memref.whole main_v8_scv) (Memref.isWhole_whole _) (Memref.whole cc3_scratch0) (Memref.isWhole_whole _) (Memref.whole cc3_scratch1) (Memref.isWhole_whole _) (Memref.whole cc3_scratch2) (Memref.isWhole_whole _) cc3_scoped0 cc3_scoped1 cc3_scoped2

theorem defs₀_vector1 (c : Fin τ.nSC) (s : Fin τ.nSub) :
    defs₀ (F := F) (.scVector c s) 1 () = SparseCore.onTile hcore1 hsub1 (fun c s => prog1 (F := F) (coords1 c s)) ⟨⟩ c s := rfl
theorem defs₀_vector3 (c : Fin τ.nSC) (s : Fin τ.nSub) :
    defs₀ (F := F) (.scVector c s) 3 () = SparseCore.onTile hcore3 hsub3 (fun c s => prog3 (F := F) (coords3 c s)) ⟨⟩ c s := rfl

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- The body of the minima / maxima kernel at a tile, as a hypothesis. -/
def Body1 : Prop :=
  ∀ (d : Dev nD) (L : grid1.Coords) (q₁ q₂ q₃ : PosShare TreeShare) (O : CellTallies nD τ sig (HIx 2)) (W : Waits sig (HIx 2)), (∀ g, O g none = 0) →
    iprop(levAts (K (F := F)).L (K (F := F)).lev ∗ ((SparseCore.T d).loc main_v0 ↦{q₁} xv d) ∗ ((SparseCore.T d).loc main_v2 ↦{q₂} rmin d) ∗ ((SparseCore.T d).loc main_v3 ↦{q₃} rmax d)
        ∗ (∃ f, (SparseCore.T d).loc main_v4 ↦[rowSet L]{fullShare} f) ∗ scopedBufs (thr1 d L) ∗ scopedSems0 (thr1 d L) ∗ owes (thr1 d L) O W)
      ⊢ (wp frame (wpE (defs₀ (F := F)) 𝒱₀ (thr1 d L) none) Set.univ (prog1 (F := F) L)
          fun _ => iprop(((SparseCore.T d).loc main_v0 ↦{q₁} xv d) ∗ ((SparseCore.T d).loc main_v2 ↦{q₂} rmin d) ∗ ((SparseCore.T d).loc main_v3 ↦{q₃} rmax d)
            ∗ ((SparseCore.T d).loc main_v4 ↦[rowSet L]{fullShare} p4 d) ∗ scopedBufs (thr1 d L) ∗ scopedSems0 (thr1 d L) ∗ ∃ W', ⌜∀ p ∈ W', p ∈ W ∨ p.2 = none⌝ ∗ owes (thr1 d L) O W') : sProp 𝕄)

/-- The body of the gather kernel at a tile, as a hypothesis. -/
def Body3 : Prop :=
  ∀ (d : Dev nD) (L : grid3.Coords) (q₁ q₂ : PosShare TreeShare) (O : CellTallies nD τ sig (HIx 2)) (W : Waits sig (HIx 2)), (∀ g, O g none = 0) →
    iprop(levAts (K (F := F)).L (K (F := F)).lev ∗ ((SparseCore.T d).loc main_v0 ↦{q₁} xv d) ∗ ((SparseCore.T d).loc main_v7 ↦{q₂} tv d)
        ∗ (bigSep Finset.univ fun t : Fin k3_t1_loop.trips => iprop(∃ f, (SparseCore.T d).loc main_v8 ↦[chunkSet L t]{fullShare} f))
        ∗ scopedBufs (thr3 d L) ∗ scopedSems0 (thr3 d L) ∗ owes (thr3 d L) O W)
      ⊢ (wp frame (wpE (defs₀ (F := F)) 𝒱₀ (thr3 d L) none) Set.univ (prog3 (F := F) L)
          fun _ => iprop(((SparseCore.T d).loc main_v0 ↦{q₁} xv d) ∗ ((SparseCore.T d).loc main_v7 ↦{q₂} tv d)
            ∗ (bigSep Finset.univ fun t : Fin k3_t1_loop.trips => (SparseCore.T d).loc main_v8 ↦[chunkSet L t]{fullShare} g3 d)
            ∗ scopedBufs (thr3 d L) ∗ scopedSems0 (thr3 d L) ∗ ∃ W', ⌜∀ p ∈ W', p ∈ W ∨ p.2 = none⌝ ∗ owes (thr3 d L) O W') : sProp 𝕄)

local notation "PP" => P (F := F) xv rmin rmax p4 tv g3

theorem tileObl0 (h1 : Body1 (F := F) xv rmin rmax p4) : (K (F := F)).TileObl (D (F := F)) 𝒱 PP v₀ 0 := by
  intro d c i O W hO _ _
  simp only [show (PP).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  refine BI.Entails.trans ?_ ((h1 d (coords1 ⟨_, hc.1⟩ ⟨_, hc.2⟩) (shT c i) (shT c i) (shT c i) O W hO).trans (wp_mono frame _ _ fun _ => ?_))
  · show iprop(_ ∗ emp ∗ go0 xv rmin rmax d c i ∗ _ ∗ _ ∗ _) ⊢ _
    unfold go0 rd0
    iintro ⟨Hl, -, ⟨⟨Hx, H2, H3⟩, Ho⟩, Hb, Hs, HO⟩
    isplitl [Hl]; · iexact Hl
    isplitl [Hx]; · iexact Hx
    isplitl [H2]; · iexact H2
    isplitl [H3]; · iexact H3
    isplitl [Ho]; · iexact Ho
    isplitl [Hb]; · iexact Hb
    isplitl [Hs]; · iexact Hs
    iexact HO
  · show _ ⊢ iprop(td0 xv rmin rmax p4 d c i ∗ _ ∗ _ ∗ _)
    unfold td0 rd0
    iintro ⟨Hx, H2, H3, Ho, Hb, Hs, %W', %hW', HO⟩
    isplitl [Hx H2 H3 Ho]
    · isplitl [Hx H2 H3]
      · isplitl [Hx]; · iexact Hx
        isplitl [H2]; · iexact H2
        iexact H3
      · iexact Ho
    isplitl [Hb]; · iexact Hb
    isplitl [Hs]; · iexact Hs
    iexists W'; isplitr
    · ipureintro; exact fun p hp => (hW' p hp).imp_right Or.inl
    · iexact HO

theorem tileObl1 (h3 : Body3 (F := F) xv tv g3) : (K (F := F)).TileObl (D (F := F)) 𝒱 PP v₀ 1 := by
  intro d c i O W hO _ _
  simp only [show (PP).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  refine BI.Entails.trans ?_ ((h3 d (coords3 ⟨_, hc.1⟩ ⟨_, hc.2⟩) (shT c i) (shT c i) O W hO).trans (wp_mono frame _ _ fun _ => ?_))
  · show iprop(_ ∗ emp ∗ go1 xv tv d c i ∗ _ ∗ _ ∗ _) ⊢ _
    unfold go1 rd1
    iintro ⟨Hl, -, ⟨⟨Hx, H2⟩, Ho⟩, Hb, Hs, HO⟩
    isplitl [Hl]; · iexact Hl
    isplitl [Hx]; · iexact Hx
    isplitl [H2]; · iexact H2
    isplitl [Ho]; · iexact Ho
    isplitl [Hb]; · iexact Hb
    isplitl [Hs]; · iexact Hs
    iexact HO
  · show _ ⊢ iprop(td1 xv tv g3 d c i ∗ _ ∗ _ ∗ _)
    unfold td1 rd1
    iintro ⟨Hx, H2, Ho, Hb, Hs, %W', %hW', HO⟩
    isplitl [Hx H2 Ho]
    · isplitl [Hx H2]
      · isplitl [Hx]; · iexact Hx
        iexact H2
      · iexact Ho
    isplitl [Hb]; · iexact Hb
    isplitl [Hs]; · iexact Hs
    iexists W'; isplitr
    · ipureintro; exact fun p hp => (hW' p hp).imp_right Or.inl
    · iexact HO

end Contents

end Cert.Kernel.Hand

end
-- ==== Proof.MainB.lean ====
/-
  @main on the TensorCore, step by step: six reshapes, two pipelines and two SparseCore calls. The TensorCore's
  unscoped buffers are held whole at a valuation that each step moves on: a reshape to its result; a pipeline to its
  region's exit contents; a SparseCore call to the call's result array at the function its tiles' bodies compute.
-/
import proofs.«211894_g61933428415975_cont_9to1c4b_619_7_alg».proof.Proof.RegionStepB
import proofs.«211894_g61933428415975_cont_9to1c4b_619_7_alg».proof.Proof.ObligB
import Idealize.ShloMosaic.Lib.Pipeline.Frame

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split)
open Idealize.ShloMosaic.Tactic

variable {F : FTy → Type} [FloatOps F] [∀ e, Nonempty (Elt F e)]

local notation "𝕄" => MM F
/-- The TensorCore's unscoped buffers. -/
abbrev UC : Finset (DevRef τ sig) := Pipeline.ucRefs τ sig

/-! ## The host operations and the references they touch -/

abbrev op0 : HloOp τ sig (Elt F) := StableHlo.reshape main_arg0 main_v0 rfl Facts₀.shapeCasts_S4096x200_S819200
abbrev op2 : HloOp τ sig (Elt F) := StableHlo.reshape main_v1_0 main_v2 rfl Facts₀.shapeCasts_S100x1x1000_S100000
abbrev op3 : HloOp τ sig (Elt F) := StableHlo.reshape main_v1_1 main_v3 rfl Facts₀.shapeCasts_S100x1x1000_S100000
abbrev op5 : HloOp τ sig (Elt F) := StableHlo.reshape main_arg3 main_v5 rfl Facts₀.shapeCasts_S1_S1x1
abbrev op7 : HloOp τ sig (Elt F) := StableHlo.reshape main_v6 main_v7 rfl Facts₀.shapeCasts_S100x1x1000_S100000
abbrev op9 : HloOp τ sig (Elt F) := StableHlo.reshape main_v8 main_v9 rfl Facts₀.shapeCasts_S819200_S4096x200x1

abbrev rv0 : DevRef τ sig := Proc.devRef .tc (main_v0 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)
abbrev rv7 : DevRef τ sig := Proc.devRef .tc (main_v7 : Ref sig .tc)
abbrev rv8 : DevRef τ sig := Proc.devRef .tc (main_v8 : Ref sig .tc)

theorem op_sub (op : HloOp τ sig (Elt F)) (h : op.bufs ⊆ StableHlo.tcRefs τ sig) : op.bufs ⊆ UC := Pipeline.sub_ucRefs op h

/-- A host operation with no continuation of its own: from the boundary and the buffers at `W` to the boundary and
    the buffers at the operation's result. -/
theorem hlo_step (d : Dev nD) (op : HloOp τ sig (Elt F)) (hS : op.bufs ⊆ UC) (hf : op.fresh = ∅) (W : Valuation τ sig (Elt F)) (Φ : PUnit → sProp 𝕄) :
    iprop(boundary (T d) ∗ (held (T d) UC W : sProp 𝕄) ∗ (iprop(boundary (T d) ∗ (held (T d) UC (op.result W) : sProp 𝕄)) -∗ Φ ⟨⟩))
      ⊢ wp frame (wpE ((K (F := F)).defs (D (F := F))) 𝒱 (T d) none) Set.univ (hlo rfl op (fun _ => .ret ⟨⟩)) Φ := by
  iintro ⟨Hb, Hh, Hk⟩
  iapply (wp_hlo_within 𝒱 (T d) none Set.univ (op := op) (S := UC) hS (V := W) hf) $$ [Hb Hh]
  · isplitl [Hb]; · iexact Hb
    iexact Hh
  iintro H
  rw [wp_ret]; imodintro
  iapply Hk; iexact H

/-! ## A region's record at its entry and exit contents -/

/-- What rides beside the buffers through a region: the generator register at some state, and the TensorCore's debts
    (the start signals of the calls to come) with its recorded waits below a level. -/
abbrev Rown (O : Dev nD → CellTallies nD τ sig (HIx 2)) (bnd : ℕ) (c : Dev nD) : sProp 𝕄 :=
  iprop((∃ r, prngReg c r) ∗ ∃ Wt, ⌜(K (F := F)).WBelow (T c) Wt bnd⌝ ∗ owes (T c) (O c) Wt)

/-- A region's record whose entry state is the buffers at `W` and whose exit state is the buffers at `Wo`. -/
structure RegAt (p : Fin 2) (O : Dev nD → CellTallies nD τ sig (HIx 2)) (bnd : ℕ) (W Wo : Dev nD → Valuation τ sig (Elt F)) where
  pd : (p : Fin 2) → (c : Dev nD) → Pipeline.Dat τ (Elt F) (HIx 2) ℕ UU ℕ (Pipeline.pin (pcfgs (F := F)) adm p) c
  R : Pipeline.RegionSeg (pcfgs (F := F)) adm pd none (defs₀ (F := F)) 𝒱₀ (K (F := F)).L (K (F := F)).lev p
  hpre : ∀ c, R.pre c = iprop((held (T c) UC (W c) : sProp 𝕄) ∗ Rown (F := F) O bnd c)
  hpost : ∀ c, R.post c = iprop((held (T c) UC (Wo c) : sProp 𝕄) ∗ Rown (F := F) O bnd c)

theorem reg_step {p : Fin 2} {O : Dev nD → CellTallies nD τ sig (HIx 2)} {bnd : ℕ} {W Wo : Dev nD → Valuation τ sig (Elt F)}
    (r : RegAt (F := F) p O bnd W Wo) (d : Dev nD) (Φ : PUnit → sProp 𝕄) :
    iprop(boundary (T d) ∗ (held (T d) UC (W d) : sProp 𝕄) ∗ Rown (F := F) O bnd d ∗ levAts (K (F := F)).L (K (F := F)).lev
        ∗ Pipeline.cellsGhost cfgs (EP (F := F)) p d ∗ Pipeline.toksInit cfgs (EP (F := F)) p d
        ∗ (iprop(boundary (T d) ∗ (held (T d) UC (Wo d) : sProp 𝕄) ∗ Rown (F := F) O bnd d) -∗ Φ ⟨⟩))
      ⊢ wp frame (wpE ((K (F := F)).defs (D (F := F))) 𝒱 (T d) none) Set.univ
          (Prog.lift (.customCall (SparseCore.inner (Pipeline.entry p)) ())) Φ := by
  iintro ⟨Hb, Hh, HR, Hl, Hc, Ht, Hk⟩
  iapply (region_step r.pd r.R d Φ)
  rw [r.hpre, r.hpost]
  isplitl [Hk]
  · iintro ⟨Hb, Hh, HR⟩
    iapply Hk
    isplitl [Hb]; · iexact Hb
    isplitl [Hh]; · iexact Hh
    iexact HR
  isplitl [Hb]; · iexact Hb
  isplitl [Hh HR]
  · isplitl [Hh]; · iexact Hh
    iexact HR
  isplitl [Hl]; · iexact Hl
  isplitl [Hc]; · iexact Hc
  iexact Ht

/-- The TensorCore owes nothing at the index of a kernel's own waits. -/
theorem Otc_none (d : Dev nD) (n : ℕ) (g : GSem nD τ sig) : (K (F := F)).Otc d n g none = 0 := by
  by_contra h
  have := (K (F := F)).lev_of_Otc_pos (d := d) (n := n) (g := g) (ι := none) (Nat.pos_of_ne_zero h)
  rw [SparseCore.Cfg.lev_none] at this; omega

/-! ## The TensorCore's handshake state, its debts apart -/

/-- The TensorCore's handshake state before call `n` beside what it owes: its position on its `done` cell, the rounds
    reached, and the later calls' tokens and credit. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_unfold (d : Dev nD) (n : ℕ) :
    ((K (F := F)).tcSt (EH (F := F)) d n : sProp 𝕄)
      = iprop((∃ W, ⌜(K (F := F)).WBelow (T d) W (8 * n)⌝ ∗ owes (T d) ((K (F := F)).Otc d n) W) ∗ tcRest (F := F) d n) := rfl

/-! ## The buffers a SparseCore call hands over -/

abbrev S4 : Finset (DevRef τ sig) := {rv0, rv2, rv3, rv4}
abbrev S3 : Finset (DevRef τ sig) := {rv0, rv7, rv8}
theorem S4_sub : S4 ⊆ UC := by decide
theorem S3_sub : S3 ⊆ UC := by decide

theorem held_S4 (d : Dev nD) (W : Valuation τ sig (Elt F)) :
    (held (T d) S4 W : sProp 𝕄) = iprop(((SparseCore.T (τ := τ) d).loc main_v0 ↦{fullShare} W rv0) ∗ ((SparseCore.T (τ := τ) d).loc main_v2 ↦{fullShare} W rv2)
      ∗ ((SparseCore.T (τ := τ) d).loc main_v3 ↦{fullShare} W rv3) ∗ ((SparseCore.T (τ := τ) d).loc main_v4 ↦{fullShare} W rv4)) := by
  unfold held S4
  rw [SparseCore.bigSep_insert' (by decide), SparseCore.bigSep_insert' (by decide), SparseCore.bigSep_insert' (by decide), bigSep_singleton]

theorem held_S3 (d : Dev nD) (W : Valuation τ sig (Elt F)) :
    (held (T d) S3 W : sProp 𝕄) = iprop(((SparseCore.T (τ := τ) d).loc main_v0 ↦{fullShare} W rv0) ∗ ((SparseCore.T (τ := τ) d).loc main_v7 ↦{fullShare} W rv7)
      ∗ ((SparseCore.T (τ := τ) d).loc main_v8 ↦{fullShare} W rv8)) := by
  unfold held S3
  rw [SparseCore.bigSep_insert' (by decide), SparseCore.bigSep_insert' (by decide), bigSep_singleton]

/-- Buffers outside a set are unchanged by an update inside it. -/
theorem held_update_out (d : Dev nD) (S' : Finset (DevRef τ sig)) (W : Valuation τ sig (Elt F)) (b : DevRef τ sig) (hb : b ∉ S') (f) :
    (held (T d) S' (Function.update W b f) : sProp 𝕄) = held (T d) S' W :=
  bigSep_congr fun b' hb' => by
    have hne : b' ≠ b := fun e => hb (by rw [← e]; exact hb')
    rw [Function.update_of_ne hne]

/-! ## The contents at each step, and @main -/

section Run

variable (m : (ℓ : Loc nD τ sig) → Buf (Elt F) ℓ) (ρ : Dev nD → PrngReg)
-- the two regions' exit contents, and the two calls' result arrays
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

abbrev W0 (d : Dev nD) : Valuation τ sig (Elt F) := fun b => m (d, b)
def W1 (d : Dev nD) : Valuation τ sig (Elt F) := (op0 (F := F)).result (W0 m d)
def W3 (d : Dev nD) : Valuation τ sig (Elt F) := (op3 (F := F)).result ((op2 (F := F)).result (W2 d))
def W4 (d : Dev nD) : Valuation τ sig (Elt F) := Function.update (W3 W2 d) rv4 (p4 d)
def W5 (d : Dev nD) : Valuation τ sig (Elt F) := (op5 (F := F)).result (W4 W2 p4 d)
def W7 (d : Dev nD) : Valuation τ sig (Elt F) := (op7 (F := F)).result (W6 d)
def W8 (d : Dev nD) : Valuation τ sig (Elt F) := Function.update (W7 W6 d) rv8 (g3 d)
def W9 (d : Dev nD) : Valuation τ sig (Elt F) := (op9 (F := F)).result (W8 W6 g3 d)

/-- The arrays the calls read: the index words, the row extrema, the score table. -/
abbrev xvC (d : Dev nD) : Buf (Elt F) ((SparseCore.T (τ := τ) d).loc main_v0) := W3 W2 d rv0
abbrev rminC (d : Dev nD) : Buf (Elt F) ((SparseCore.T (τ := τ) d).loc main_v2) := W3 W2 d rv2
abbrev rmaxC (d : Dev nD) : Buf (Elt F) ((SparseCore.T (τ := τ) d).loc main_v3) := W3 W2 d rv3
abbrev tvC (d : Dev nD) : Buf (Elt F) ((SparseCore.T (τ := τ) d).loc main_v7) := W7 W6 d rv7

local notation "PP" => P (F := F) (xvC W2) (rminC W2) (rmaxC W2) p4 (tvC W6) g3

/-- The TensorCore's side of call 0: the four arrays go out to the two SparseCores and come back, the result array at `p4`. -/
def Hand0 : Prop := ∀ d : Dev nD,
  iprop(((SparseCore.T (τ := τ) d).loc main_v0 ↦{fullShare} xvC W2 d) ∗ ((SparseCore.T (τ := τ) d).loc main_v2 ↦{fullShare} rminC W2 d) ∗ ((SparseCore.T (τ := τ) d).loc main_v3 ↦{fullShare} rmaxC W2 d)
      ∗ (∃ f, (SparseCore.T (τ := τ) d).loc main_v4 ↦{fullShare} f))
    ⊢ (iprop((bigSep Finset.univ fun c : Fin ((K (F := F)).nCore 0) => (PP).st 0 d c)
        ∗ ((bigSep Finset.univ fun c : Fin ((K (F := F)).nCore 0) => (PP).dn 0 d c)
            -∗ iprop(((SparseCore.T (τ := τ) d).loc main_v0 ↦{fullShare} xvC W2 d) ∗ ((SparseCore.T (τ := τ) d).loc main_v2 ↦{fullShare} rminC W2 d) ∗ ((SparseCore.T (τ := τ) d).loc main_v3 ↦{fullShare} rmaxC W2 d)
              ∗ ((SparseCore.T (τ := τ) d).loc main_v4 ↦{fullShare} p4 d)))) : sProp 𝕄)

/-- The TensorCore's side of call 1. -/
def Hand1 : Prop := ∀ d : Dev nD,
  iprop(((SparseCore.T (τ := τ) d).loc main_v0 ↦{fullShare} xvC W2 d) ∗ ((SparseCore.T (τ := τ) d).loc main_v7 ↦{fullShare} tvC W6 d) ∗ (∃ f, (SparseCore.T (τ := τ) d).loc main_v8 ↦{fullShare} f))
    ⊢ (iprop((bigSep Finset.univ fun c : Fin ((K (F := F)).nCore 1) => (PP).st 1 d c)
        ∗ ((bigSep Finset.univ fun c : Fin ((K (F := F)).nCore 1) => (PP).dn 1 d c)
            -∗ iprop(((SparseCore.T (τ := τ) d).loc main_v0 ↦{fullShare} xvC W2 d) ∗ ((SparseCore.T (τ := τ) d).loc main_v7 ↦{fullShare} tvC W6 d) ∗ ((SparseCore.T (τ := τ) d).loc main_v8 ↦{fullShare} g3 d)))) : sProp 𝕄)

/-- SparseCore call 0 from the TensorCore: the buffers at `W3` before, at `W4` after. -/
theorem call0_step (h0 : Hand0 (F := F) W2 W6 p4 g3) (κ : GSem nD τ sig → ℕ) (d : Dev nD) (Φ : PUnit → sProp 𝕄) :
    iprop((K (F := F)).ctx (EH (F := F)) PP κ ∗ (K (F := F)).tcSt (EH (F := F)) d 0 ∗ (held (T d) UC (W3 W2 d) : sProp 𝕄)
        ∗ (iprop((K (F := F)).tcSt (EH (F := F)) d 1 ∗ (held (T d) UC (W4 W2 p4 d) : sProp 𝕄)) -∗ Φ ⟨⟩))
      ⊢ wp frame (wpE ((K (F := F)).defs (D (F := F))) 𝒱 (T d) none) Set.univ ((K (F := F)).run d 0) Φ := by
  rw [held_sub_split (T d) S4_sub (W3 W2 d), held_sub_split (T d) S4_sub (W4 W2 p4 d), held_S4, held_S4]
  unfold W4
  rw [held_update_out d (UC \ S4) (W3 W2 d) rv4 (by decide) (p4 d),
    Function.update_of_ne (show rv0 ≠ rv4 by decide), Function.update_of_ne (show rv2 ≠ rv4 by decide), Function.update_of_ne (show rv3 ≠ rv4 by decide), Function.update_self]
  iintro ⟨#Hctx, Hst, ⟨⟨Hx, H2, H3, H4⟩, Hrest⟩, Hk⟩
  ihave Hh := (h0 d) $$ [Hx H2 H3 H4]
  · isplitl [Hx]; · iexact Hx
    isplitl [H2]; · iexact H2
    isplitl [H3]; · iexact H3
    iexists _; iexact H4
  icases Hh with ⟨Hsts, Hback⟩
  iapply ((K (F := F)).wp_run (D (F := F)) 𝒱 (EH := EH (F := F)) (P := PP) κ d 0) $$ [Hst Hsts Hback Hrest Hk]
  isplitr; · iexact Hctx
  isplitl [Hst]; · iexact Hst
  isplitl [Hsts]; · iexact Hsts
  iintro ⟨Hst, Hdn⟩
  ihave Hb := Hback $$ Hdn
  icases Hb with ⟨Hx, H2, H3, H4⟩
  iapply Hk
  isplitl [Hst]; · iexact Hst
  isplitl [Hx H2 H3 H4]
  · isplitl [Hx]; · iexact Hx
    isplitl [H2]; · iexact H2
    isplitl [H3]; · iexact H3
    iexact H4
  iexact Hrest

end Run

section Run2

variable (m : (ℓ : Loc nD τ sig) → Buf (Elt F) ℓ) (ρ : Dev nD → PrngReg)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

local notation "PP" => P (F := F) (xvC W2) (rminC W2) (rmaxC W2) p4 (tvC W6) g3

/-- SparseCore call 1 from the TensorCore: the buffers at `W7` before, at `W8` after; the index words it reads are
    the ones call 0 read (`hx7`: nothing in between writes them). -/
theorem call1_step (h1 : Hand1 (F := F) W2 W6 p4 g3) (hx7 : ∀ d, W7 W6 d rv0 = W3 W2 d rv0) (κ : GSem nD τ sig → ℕ) (d : Dev nD) (Φ : PUnit → sProp 𝕄) :
    iprop((K (F := F)).ctx (EH (F := F)) PP κ ∗ (K (F := F)).tcSt (EH (F := F)) d 1 ∗ (held (T d) UC (W7 W6 d) : sProp 𝕄)
        ∗ (iprop((K (F := F)).tcSt (EH (F := F)) d 2 ∗ (held (T d) UC (W8 W6 g3 d) : sProp 𝕄)) -∗ Φ ⟨⟩))
      ⊢ wp frame (wpE ((K (F := F)).defs (D (F := F))) 𝒱 (T d) none) Set.univ ((K (F := F)).run d 1) Φ := by
  rw [held_sub_split (T d) S3_sub (W7 W6 d), held_sub_split (T d) S3_sub (W8 W6 g3 d), held_S3, held_S3]
  unfold W8
  rw [held_update_out d (UC \ S3) (W7 W6 d) rv8 (by decide) (g3 d),
    Function.update_of_ne (show rv0 ≠ rv8 by decide), Function.update_of_ne (show rv7 ≠ rv8 by decide), Function.update_self, hx7 d]
  iintro ⟨#Hctx, Hst, ⟨⟨Hx, H7, H8⟩, Hrest⟩, Hk⟩
  ihave Hh := (h1 d) $$ [Hx H7 H8]
  · isplitl [Hx]; · iexact Hx
    isplitl [H7]; · iexact H7
    iexists _; iexact H8
  icases Hh with ⟨Hsts, Hback⟩
  iapply ((K (F := F)).wp_run (D (F := F)) 𝒱 (EH := EH (F := F)) (P := PP) κ d 1) $$ [Hst Hsts Hback Hrest Hk]
  isplitr; · iexact Hctx
  isplitl [Hst]; · iexact Hst
  isplitl [Hsts]; · iexact Hsts
  iintro ⟨Hst, Hdn⟩
  ihave Hb := Hback $$ Hdn
  icases Hb with ⟨Hx, H7, H8⟩
  iapply Hk
  isplitl [Hst]; · iexact Hst
  isplitl [Hx H7 H8]
  · isplitl [Hx]; · iexact Hx
    isplitl [H7]; · iexact H7
    iexact H8
  iexact Hrest

theorem G_split (d : Dev nD) :
    (G (F := F) d : sProp 𝕄) = iprop((Pipeline.cellsGhost cfgs (EP (F := F)) 0 d ∗ Pipeline.toksInit cfgs (EP (F := F)) 0 d)
      ∗ (Pipeline.cellsGhost cfgs (EP (F := F)) 1 d ∗ Pipeline.toksInit cfgs (EP (F := F)) 1 d)) := by
  unfold G
  rw [show (Finset.univ : Finset (Fin 2)) = {0, 1} by decide, SparseCore.bigSep_insert' (by decide), bigSep_singleton]

/-- What @main leaves the claim: every unscoped buffer at the last contents. -/
abbrev FIN (d : Dev nD) : sProp 𝕄 := held (T d) UC (W9 W6 g3 d)

theorem op0_sub : (op0 (F := F)).bufs ⊆ UC := show ({Proc.devRef .tc (main_arg0 : Ref sig .tc), Proc.devRef .tc (main_v0 : Ref sig .tc)} : Finset (DevRef τ sig)) ⊆ UC by decide
theorem op2_sub : (op2 (F := F)).bufs ⊆ UC := show ({Proc.devRef .tc (main_v1_0 : Ref sig .tc), Proc.devRef .tc (main_v2 : Ref sig .tc)} : Finset (DevRef τ sig)) ⊆ UC by decide
theorem op3_sub : (op3 (F := F)).bufs ⊆ UC := show ({Proc.devRef .tc (main_v1_1 : Ref sig .tc), Proc.devRef .tc (main_v3 : Ref sig .tc)} : Finset (DevRef τ sig)) ⊆ UC by decide
theorem op5_sub : (op5 (F := F)).bufs ⊆ UC := show ({Proc.devRef .tc (main_arg3 : Ref sig .tc), Proc.devRef .tc (main_v5 : Ref sig .tc)} : Finset (DevRef τ sig)) ⊆ UC by decide
theorem op7_sub : (op7 (F := F)).bufs ⊆ UC := show ({Proc.devRef .tc (main_v6 : Ref sig .tc), Proc.devRef .tc (main_v7 : Ref sig .tc)} : Finset (DevRef τ sig)) ⊆ UC by decide
theorem op9_sub : (op9 (F := F)).bufs ⊆ UC := show ({Proc.devRef .tc (main_v8 : Ref sig .tc), Proc.devRef .tc (main_v9 : Ref sig .tc)} : Finset (DevRef τ sig)) ⊆ UC by decide

set_option maxHeartbeats 2000000 in
/-- The launch's unscoped buffers are the TensorCore's buffers held at the launch contents. -/
theorem unscoped_held (d : Dev nD) :
    (unscopedBufs d (fun b => m ((SparseCore.T (τ := τ) d).loc b)) : sProp 𝕄) = held (SparseCore.T d) UC (W0 m d) :=
  Pipeline.unscopedBufs_held (Ix := HIx 2) (Name := ℕ) (U := UU) (Lvl := ℕ) d (W0 m d)

/-- @main on device `d`'s TensorCore. -/
theorem hmain (r0 : RegAt (F := F) 0 (fun d => (K (F := F)).Otc d 0) (8 * 0) (W1 m) W2)
    (r2 : RegAt (F := F) 1 (fun d => (K (F := F)).Otc d 1) (8 * 1) (W5 W2 p4) W6)
    (h0 : Hand0 (F := F) W2 W6 p4 g3) (h1 : Hand1 (F := F) W2 W6 p4 g3) (hx7 : ∀ d, W7 W6 d rv0 = W3 W2 d rv0)
    (κ : GSem nD τ sig → ℕ) (d : Dev nD) :
    iprop((K (F := F)).ctx (EH (F := F)) PP κ ∗ (K (F := F)).tcSt (EH (F := F)) d 0 ∗ (K (F := F)).tcRes m ρ d ∗ G (F := F) d)
      ⊢ wp frame (wpE ((K (F := F)).defs (D (F := F))) 𝒱 (T d) none) Set.univ (main (F := F) d)
          fun _ => iprop((K (F := F)).tcSt (EH (F := F)) d 2 ∗ FIN (F := F) W6 g3 d) := by
  unfold SparseCore.Cfg.tcRes
  rw [unscoped_held m d, G_split]
  simp only [main, wp_bind, wp_pure]
  iintro ⟨#Hctx, Hst, ⟨Hb, Hheld, -, Hp⟩, ⟨⟨Hc0, Ht0⟩, ⟨Hc1, Ht1⟩⟩⟩
  -- the index array flattened
  iapply (hlo_step d op0 op0_sub rfl (W0 m d) _)
  isplitl [Hb]; · iexact Hb
  isplitl [Hheld]; · iexact Hheld
  iintro ⟨Hb, Hheld⟩
  -- pipeline 0
  ihave Hst' := (Entails.of_eq (tcSt_unfold (F := F) d 0)) $$ Hst
  icases Hst' with ⟨HO, Hrest⟩
  iapply (reg_step r0 d _)
  isplitl [Hb]; · iexact Hb
  isplitl [Hheld]; · iexact Hheld
  isplitl [Hp HO]
  · isplitl [Hp]; · iexists _; iexact Hp
    iexact HO
  isplitr; · iapply (SparseCore.Cfg.ctx_levAts κ); iexact Hctx
  isplitl [Hc0]; · iexact Hc0
  isplitl [Ht0]; · iexact Ht0
  iintro ⟨Hb, Hheld, Hp, HO⟩
  ihave Hst := (Entails.of_eq (tcSt_unfold (F := F) d 0).symm) $$ [HO Hrest]
  · isplitl [HO]; · iexact HO
    iexact Hrest
  -- the row extrema flattened
  iapply (hlo_step d op2 op2_sub rfl (W2 d) _)
  isplitl [Hb]; · iexact Hb
  isplitl [Hheld]; · iexact Hheld
  iintro ⟨Hb, Hheld⟩
  iapply (hlo_step d op3 op3_sub rfl _ _)
  isplitl [Hb]; · iexact Hb
  isplitl [Hheld]; · iexact Hheld
  iintro ⟨Hb, Hheld⟩
  -- call 0
  iapply (call0_step W2 W6 p4 g3 h0 κ d _)
  isplitr; · iexact Hctx
  isplitl [Hst]; · iexact Hst
  isplitl [Hheld]; · iexact Hheld
  iintro ⟨Hst, Hheld⟩
  -- the bias reshaped
  iapply (hlo_step d op5 op5_sub rfl (W4 W2 p4 d) _)
  isplitl [Hb]; · iexact Hb
  isplitl [Hheld]; · iexact Hheld
  iintro ⟨Hb, Hheld⟩
  -- pipeline 1
  ihave Hst' := (Entails.of_eq (tcSt_unfold (F := F) d 1)) $$ Hst
  icases Hst' with ⟨HO, Hrest⟩
  iapply (reg_step r2 d _)
  isplitl [Hb]; · iexact Hb
  isplitl [Hheld]; · iexact Hheld
  isplitl [Hp HO]
  · isplitl [Hp]; · iexact Hp
    iexact HO
  isplitr; · iapply (SparseCore.Cfg.ctx_levAts κ); iexact Hctx
  isplitl [Hc1]; · iexact Hc1
  isplitl [Ht1]; · iexact Ht1
  iintro ⟨Hb, Hheld, Hp, HO⟩
  ihave Hst := (Entails.of_eq (tcSt_unfold (F := F) d 1).symm) $$ [HO Hrest]
  · isplitl [HO]; · iexact HO
    iexact Hrest
  -- the score table flattened
  iapply (hlo_step d op7 op7_sub rfl (W6 d) _)
  isplitl [Hb]; · iexact Hb
  isplitl [Hheld]; · iexact Hheld
  iintro ⟨Hb, Hheld⟩
  -- call 1
  iapply (call1_step W2 W6 p4 g3 h1 hx7 κ d _)
  isplitr; · iexact Hctx
  isplitl [Hst]; · iexact Hst
  isplitl [Hheld]; · iexact Hheld
  iintro ⟨Hst, Hheld⟩
  -- the result reshaped
  iapply (hlo_step d op9 op9_sub rfl (W8 W6 g3 d) _)
  isplitl [Hb]; · iexact Hb
  isplitl [Hheld]; · iexact Hheld
  iintro ⟨Hb, Hheld⟩
  imodintro
  isplitl [Hst]; · iexact Hst
  iexact Hheld

end Run2

section Final

variable (m : (ℓ : Loc nD τ sig) → Buf (Elt F) ℓ) (ρ : Dev nD → PrngReg)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

local notation "PP" => P (F := F) (xvC W2) (rminC W2) (rmaxC W2) p4 (tvC W6) g3

/-- The launch element deals the handshakes' rounds, each device's pipelines' ghost state, and nothing to the kernels. -/
theorem hu₀ : (ownU (u₀ (F := F)) : sProp 𝕄)
    ⊢ |={Set.univ}=> iprop(BI.own (EH (F := F) (initOf (K (F := F)).hsCells (K (F := F)).hsToks)) ∗ bigSep Finset.univ (G (F := F))
        ∗ bigSep Finset.univ fun thr : Thread nD τ => bigSep Finset.univ fun q : Fin 2 => (PP).x q thr) := by
  iintro Hu
  imod (hu₀_core (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-- What the final memory holds, read off @main's last state. -/
def fq (d : Dev nD) (s' : Phys nD τ sig (Elt F)) : Prop := ∀ b ∈ UC, s'.mem.mem ((SparseCore.T (τ := τ) d).1, b) = W9 W6 g3 d b

theorem hfin (d : Dev nD) (s' : Phys nD τ sig (Elt F)) : iprop(FIN (F := F) W6 g3 d ∗ SI s') ⊢ (⌜fq (F := F) W6 g3 d s'⌝ : sProp 𝕄) := by
  unfold fq
  exact (pointsTo_read_all UC (fun b => ((SparseCore.T (τ := τ) d).1, b)) (W9 W6 g3 d) s').trans sep_elim_left

/-- The run's post: on every device every unscoped TensorCore buffer ends at the last contents. -/
def QC : PUnit × MemSt nD τ sig (Elt F) → Prop := fun r => ∀ d : Dev nD, ∀ b ∈ UC, r.2.mem ((SparseCore.T (τ := τ) d).1, b) = W9 W6 g3 d b

/-- The program's run, from the two tile bodies, the two regions' records and the hand-overs. -/
theorem run_main (r0 : RegAt (F := F) 0 (fun d => (K (F := F)).Otc d 0) (8 * 0) (W1 m) W2)
    (r2 : RegAt (F := F) 1 (fun d => (K (F := F)).Otc d 1) (8 * 1) (W5 W2 p4) W6)
    (h0 : Hand0 (F := F) W2 W6 p4 g3) (h1 : Hand1 (F := F) W2 W6 p4 g3) (hx7 : ∀ d, W7 W6 d rv0 = W3 W2 d rv0)
    (hb1 : Body1 (F := F) (xvC W2) (rminC W2) (rmaxC W2) p4) (hb3 : Body3 (F := F) (xvC W2) (tvC W6) g3)
    (hs0 : (K (F := F)).VecSplit' PP 0) (hs1 : (K (F := F)).VecSplit' PP 1) :
    θ_run (Cert.Kernel.defs (F := F)) (Cert.Kernel.threads (F := F)) ⟨m, fun _ => 0, ρ⟩ (QC (F := F) W6 g3) :=
  SparseCore.Cfg.θ_run_sc (K := K (F := F)) (D := D (F := F)) (𝒱 := 𝒱) (EH := EH (F := F)) (P := PP) facts v₀
    (fun q hq => match q with | 0 => nomatch hq | 1 => nomatch hq)
    (fun q _ => match q with
      | 0 => tileObl0 (xvC W2) (rminC W2) (rmaxC W2) p4 (tvC W6) g3 hb1
      | 1 => tileObl1 (xvC W2) (rminC W2) (rmaxC W2) p4 (tvC W6) g3 hb3)
    (fun q _ => match q with
      | 0 => SparseCore.Cfg.VecSplit.of_plain hs0
      | 1 => SparseCore.Cfg.VecSplit.of_plain hs1)
    m ρ main (G (F := F)) (FIN (F := F) W6 g3) (u₀ (F := F)) (sep_elim_left.trans (hu₀ W2 W6 p4 g3))
    (hmain m ρ W2 W6 p4 g3 r0 r2 h0 h1 hx7) (fq (F := F) W6 g3) (hfin W6 g3) (QC (F := F) W6 g3) (fun _ h => h)

end Final

end Cert.Kernel.Hand

end
-- ==== Proof.Region0B.lean ====
/-
  REGION 0 of @main: the TensorCore pipeline of the row minimum / row maximum kernel, as a region record over the
  ghost state of a program that also launches SparseCore kernels. Per grid point the body loads a block of 1000 table
  rows and stores, into two output windows, the fold of `minimumf` (from +inf) and of `maximumf` (from -inf) along
  each row. The record is stated at a parameter `V`, the TensorCore's buffer contents when the region is entered, and
  at a parameter `O`, what the TensorCore owes then (units at the indices of calls still to come, none at index
  `none`): the region's own waits are at index `none`, level 0, below everything owed.
-/
import proofs.«211894_g61933428415975_cont_9to1c4b_619_7_alg».proof.Proof.SetupB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand.Reg0

open Cert.Kernel Cert.Kernel.Gen Cert.Kernel.Hand

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

-- the TensorCore's buffer contents when the region is entered
variable (V : (c : Dev nD) → (b : Ref sig .tc) → Buf (Elt F) ((c : Thread nD τ).loc b))
-- what the TensorCore owes during the region: constant, nothing at index `none`
variable (O : Dev nD → CellTallies nD τ sig (HIx 2)) (bnd : ℕ)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place. -/
theorem before0_0_of {c : Dev nD} (dat : Dat τ (Elt F) (HIx 2) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it computes -/

abbrev rIn : Rect S1000x128 := Rect.unit (s := S1000x128) ![0, 0] S1000x128.size inb_S1000x128_S1000x128_0_0
abbrev rOut : Rect S1x1x1000 := Rect.unit (s := S1x1x1000) ![0, 0, 0] S1x1x1000.size inb_S1x1x1000_S1x1x1000_0_0_0

/-- The row minima of a loaded block, reshaped as the output window's block: the program's own lines. -/
def payMin (v0 : Vec F S1000x128 .f32) : FVec F S1x1x1000 .f32 :=
  have v1 : FVec F S1000 .f32 := multiReduction .minimumf [1] S1000 v0 0x7F800000#32 reduces_S1000x128_S1000 (.inl rfl) rfl
  have v2 : FVec F S1x1x1000 .f32 := shapeCast S1x1x1000 v1 shapeCasts_S1000_S1x1x1000
  v2

/-- The row maxima of a loaded block, reshaped as the output window's block. -/
def payMax (v0 : Vec F S1000x128 .f32) : FVec F S1x1x1000 .f32 :=
  have v4 : FVec F S1000 .f32 := multiReduction .maximumf [1] S1000 v0 0xFF800000#32 reduces_S1000x128_S1000 (.inl rfl) rfl
  have v5 : FVec F S1x1x1000 .f32 := shapeCast S1x1x1000 v4 shapeCasts_S1000_S1x1x1000
  v5

/-- Window 1's staging buffer after the body, from the input block: its one store as a piece. -/
def out0_1 (x0 : Vec F S1000x128 .f32) : Vec F S1x1x1000 .f32 :=
  View.canon [⟨rOut, payMin (View.ld x0 rIn)⟩]

/-- Window 2's staging buffer after the body. -/
def out0_2 (x0 : Vec F S1000x128 .f32) : Vec F S1x1x1000 .f32 :=
  View.canon [⟨rOut, payMax (View.ld x0 rIn)⟩]

/-- The one store tiles the buffer, so it covers it. -/
theorem cover0 (p0 : Vec F S1x1x1000 .f32) (y : S1x1x1000.Idx) :
    ∃ pc ∈ ([⟨rOut, p0⟩] : List (View.Piece (Elt F) S1x1x1000 .f32)), y ∈ pc.1.set :=
  View.cover_of_tiled [⟨rOut, p0⟩] S1x1x1000.size (by rfl) y

/-! ## The body's triple -/

set_option maxHeartbeats 1000000 in
/-- The kernel body on whole staging memrefs, the input's at read contents `x0` and the outputs' at anything, runs to
    the continuation holding the input's as it was and the outputs' at the row minima and the row maxima of `x0`. -/
theorem sound_kernel0 (c : Dev nD) (E : Set ℕ) (i : grid0.Coords)
    (arg1 : Memref sig .tc .vmem S1000x128 .f32) (harg1 : arg1.IsWhole)
    (arg2 : Memref sig .tc .vmem S1x1x1000 .f32) (harg2 : arg2.IsWhole)
    (arg3 : Memref sig .tc .vmem S1x1x1000 .f32) (harg3 : arg3.IsWhole)
    (x0 : Vec F S1000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__rowminmax_body i arg1 harg1 arg2 harg2 arg3 harg3) K := by
  unfold cc0__rowminmax_body
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- What rides through the region untouched: the core's scoped buffers that are no staging buffer of this pipeline,
    each at some contents, and its generator register at some state. -/
def Φ0 (c : Dev nD) : sProp 𝕄 :=
  iprop(Pipeline.scopedRest (Ix := HIx 2) (Name := ℕ) (U := UU) (Lvl := ℕ) (Val := Elt F) spec0 c ∗ ∃ r, prngReg c r)

/-- The proof data of pipeline 0 on core `c`: the arrays as the region finds them (`V`); after the body at point `t`
    the input's buffer at its block and the outputs' at the row minima and the row maxima of that block; the invariant
    the scoped rest and the generator register; full shares; the core owes `O c` throughout, and every pair its waits
    have recorded sits at level at most `bnd`. -/
def dat0 (c : Dev nD) : Dat τ (Elt F) (HIx 2) ℕ UU ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Φ0 c
  q _ := fullShare
  owed _ := O c
  recorded _ := {p | (K (F := F)).lev (T c, p.1) p.2 ≤ bnd}

theorem A_eq0 (c : Dev nD) (w : Fin cfg0.W) : (dat0 V O bnd c).A w = V c (Pipeline.arrRef spec0 w) := by
  dsimp only [dat0]

theorem after0_0 (c : Dev nD) (t : Fin cfg0.N) : (dat0 V O bnd c).after 0 t = iblk0 V c 0 t := by dsimp only [dat0]
theorem after0_1 (c : Dev nD) (t : Fin cfg0.N) : (dat0 V O bnd c).after 1 t = out0_1 (iblk0 V c 0 t) := by dsimp only [dat0]
theorem after0_2 (c : Dev nD) (t : Fin cfg0.N) : (dat0 V O bnd c).after 2 t = out0_2 (iblk0 V c 0 t) := by dsimp only [dat0]

/-- The input's current staging buffer holds its block at every point, fetched there or not. -/
theorem before0_0 (c : Dev nD) (t : Fin cfg0.N) (d) : (dat0 V O bnd c).before 0 t d = iblk0 V c 0 t :=
  before0_0_of V (dat0 V O bnd c) (A_eq0 V O bnd c 0) (after0_0 V O bnd c) t d

/-! ## The body obligation, at a generic point -/

/-- What the body is called with at point `t`, the windows one by one, -/
def bodyPre0 (c : Dev nD) (t : Fin cfg0.N) : sProp 𝕄 :=
  iprop((dat0 V O bnd c).Φ t.castSucc ∗ (dat0 V O bnd c).owesAt none t.castSucc
    ∗ (∃ d, owns (c : Thread nD τ) (st0_0 t) fullShare ((dat0 V O bnd c).before 0 t d))
    ∗ (∃ d, owns (c : Thread nD τ) (st0_1 t) fullShare ((dat0 V O bnd c).before 1 t d))
    ∗ (∃ d, owns (c : Thread nD τ) (st0_2 t) fullShare ((dat0 V O bnd c).before 2 t d)))

/-- and what it returns. -/
def bodyPost0 (c : Dev nD) (t : Fin cfg0.N) : sProp 𝕄 :=
  iprop((dat0 V O bnd c).Φ t.succ ∗ (dat0 V O bnd c).owesAt none t.succ
    ∗ owns (c : Thread nD τ) (st0_0 t) fullShare ((dat0 V O bnd c).after 0 t)
    ∗ owns (c : Thread nD τ) (st0_1 t) fullShare ((dat0 V O bnd c).after 1 t)
    ∗ owns (c : Thread nD τ) (st0_2 t) fullShare ((dat0 V O bnd c).after 2 t))

/-- The body at any point: the input's memref holds its block, so `sound_kernel0` applies; the invariant and the core's
    `owes` pass through unread. -/
theorem sound_body0 (c : Dev nD) (t : Fin cfg0.N) :
    bodyPre0 V O bnd c t ⊢ wp frame (wpE (defs₀ (F := F)) Variants.none c none) Set.univ (bodyAt0 t) (fun _ => bodyPost0 V O bnd c t) := by
  unfold bodyPre0 bodyPost0 bodyAt0
  simp only [before0_0]
  rw [show (dat0 V O bnd c).Φ t.succ = (dat0 V O bnd c).Φ t.castSucc from rfl,
    show (dat0 V O bnd c).owesAt none t.succ = (dat0 V O bnd c).owesAt none t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V O bnd c) (defs₀ (F := F)) Variants.none none Set.univ := fun t => by
  rw [bigSep_W0, bigSep_W0]
  exact sound_body0 V O bnd c t

/-! ## The two output arrays in closed form

Block `g` of the table is its rows `1000 g … 1000 g + 999`; entry `(g, 0, j)` of an output array is the fold, along
row `j` of that block, of `minimumf` from +inf (of `maximumf` from -inf). -/

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1000 g … 1000 g + 999` of the table, as one block. -/
def tblBlock (emb : S100000x128.Idx → Elt F .f32) (g : Fin 100) : Vec F S1000x128 .f32 :=
  fun y => emb (ValueIdx.ix2 (n0 := 100000) (n1 := 128)
    ⟨1000 * g.val + (y 0).val, by have h0 : (y 0).val < 1000 := (y 0).isLt; have hg := g.isLt; omega⟩ ⟨(y 1).val, (y 1).isLt⟩)

/-- The array of row minima: entry `(g, 0, j)` is the minimum of row `1000 g + j` of the table. -/
def rowMin (emb : S100000x128.Idx → Elt F .f32) : S100x1x1000.Idx → Elt F .f32 :=
  fun i => payMin (tblBlock emb ⟨(i 0).val, (i 0).isLt⟩) (ValueIdx.ix3 (n0 := 1) (n1 := 1) (n2 := 1000) 0 0 ⟨(i 2).val, (i 2).isLt⟩)

/-- The array of row maxima. -/
def rowMax (emb : S100000x128.Idx → Elt F .f32) : S100x1x1000.Idx → Elt F .f32 :=
  fun i => payMax (tblBlock emb ⟨(i 0).val, (i 0).isLt⟩) (ValueIdx.ix3 (n0 := 1) (n1 := 1) (n2 := 1000) 0 0 ⟨(i 2).val, (i 2).isLt⟩)

/-- An index of a `[1, 1, 1000]` block is determined by its last coordinate. -/
theorem ix3_last (j : S1x1x1000.Idx) (n : Fin 1000) (h : n.val = (j 2).val) :
    ValueIdx.ix3 (n0 := 1) (n1 := 1) (n2 := 1000) 0 0 n = j := by
  funext a
  match a with
  | ⟨0, _⟩ => exact Fin.ext (by have h0 : (j 0).val < 1 := (j 0).isLt; show 0 = (j 0).val; omega)
  | ⟨1, _⟩ => exact Fin.ext (by have h1 : (j 1).val < 1 := (j 1).isLt; show 0 = (j 1).val; omega)
  | ⟨2, _⟩ => exact Fin.ext h

/-- The row minima of block `g`, at `j`, are the array of row minima at any index with first coordinate `g` and last
    coordinate `j`'s. -/
theorem payMin_eq_rowMin (G : S100000x128.Idx → Elt F .f32) (x0 : Vec F S1000x128 .f32) (g : Fin 100) (j : S1x1x1000.Idx)
    (i : S100x1x1000.Idx) (hi0 : (i 0).val = g.val) (hi2 : (i 2).val = (j 2).val) (hx : x0 = tblBlock G g) :
    payMin x0 j = rowMin G i := by
  subst hx
  unfold rowMin
  rw [show (⟨(i 0).val, (i 0).isLt⟩ : Fin 100) = g from Fin.ext hi0, ix3_last j ⟨(i 2).val, (i 2).isLt⟩ hi2]

theorem payMax_eq_rowMax (G : S100000x128.Idx → Elt F .f32) (x0 : Vec F S1000x128 .f32) (g : Fin 100) (j : S1x1x1000.Idx)
    (i : S100x1x1000.Idx) (hi0 : (i 0).val = g.val) (hi2 : (i 2).val = (j 2).val) (hx : x0 = tblBlock G g) :
    payMax x0 j = rowMax G i := by
  subst hx
  unfold rowMax
  rw [show (⟨(i 0).val, (i 0).isLt⟩ : Fin 100) = g from Fin.ext hi0, ix3_last j ⟨(i 2).val, (i 2).isLt⟩ hi2]

/-- The printed index maps, decided over the grid: every window's block index along its first axis is the point, and 0
    along the others. -/
theorem idx_facts0 : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem lt_N0 (t : Fin cfg0.N) : t.val < 100 := Nat.lt_of_lt_of_eq t.isLt N_0

/-- The input window's block at point `t` is block `t` of the table as the region finds it. -/
theorem iblk0_eq (c : Dev nD) (t : Fin cfg0.N) : iblk0 V c 0 t = tblBlock (V c main_arg1) ⟨t.val, lt_N0 t⟩ := by
  obtain ⟨e0, e1, -⟩ := idx_facts0 t
  funext y
  show V c main_arg1 (((cfg0.win 0).blk t).view.emb y) = V c main_arg1 _
  refine congrArg (V c main_arg1) ?_
  funext a; apply Fin.ext
  match a with
  | ⟨0, _⟩ => show win0_0.index t (0 : Fin 2) * 1000 + 1 * (y 0).val = 1000 * t.val + (y 0).val; omega
  | ⟨1, _⟩ => show win0_0.index t (1 : Fin 2) * 128 + 1 * (y 1).val = (y 1).val; omega

-- from here on the closed forms are read through the lemmas above only
attribute [local irreducible] rowMin rowMax tblBlock payMin payMax

/-- What point `t` writes back to output window 1's array is block `t` of the array of row minima. -/
theorem flushed1_eq (c : Dev nD) (t : Fin cfg0.N) :
    (dat0 V O bnd c).flushed 1 t = ((cfg0.win 1).blk t).view.read (Elt F) (rowMin (V c main_arg1)) := by
  show (cfg0.win 1).cut (grid0.coords t) ((dat0 V O bnd c).after 1 t) = _
  rw [after0_1]
  unfold out0_1
  rw [View.canon_unit_zero hz3]
  simp only [View.ld_unit_zero (S := S1000x128) hz2]
  obtain ⟨-, -, e0, e1, e2, -⟩ := idx_facts0 t
  funext j
  rw [View.read_apply]
  refine payMin_eq_rowMin (V c main_arg1) _ ⟨t.val, lt_N0 t⟩ ((cfg0.win 1).xinj (grid0.coords t) j) _ ?_ ?_ (iblk0_eq V c t)
  · have h0 : (j 0).val < 1 := (j 0).isLt
    show win0_1.index t (0 : Fin 3) * 1 + 1 * (j 0).val = t.val; omega
  · show win0_1.index t (2 : Fin 3) * 1000 + 1 * (j 2).val = (j 2).val; omega

theorem flushed2_eq (c : Dev nD) (t : Fin cfg0.N) :
    (dat0 V O bnd c).flushed 2 t = ((cfg0.win 2).blk t).view.read (Elt F) (rowMax (V c main_arg1)) := by
  show (cfg0.win 2).cut (grid0.coords t) ((dat0 V O bnd c).after 2 t) = _
  rw [after0_2]
  unfold out0_2
  rw [View.canon_unit_zero hz3]
  simp only [View.ld_unit_zero (S := S1000x128) hz2]
  obtain ⟨-, -, -, -, -, e0, e1, e2⟩ := idx_facts0 t
  funext j
  rw [View.read_apply]
  refine payMax_eq_rowMax (V c main_arg1) _ ⟨t.val, lt_N0 t⟩ ((cfg0.win 2).xinj (grid0.coords t) j) _ ?_ ?_ (iblk0_eq V c t)
  · have h0 : (j 0).val < 1 := (j 0).isLt
    show win0_2.index t (0 : Fin 3) * 1 + 1 * (j 0).val = t.val; omega
  · show win0_2.index t (2 : Fin 3) * 1000 + 1 * (j 2).val = (j 2).val; omega

/-- An index of an output array is in point `t`'s block iff each coordinate is in the block's range on its axis. -/
theorem mem_blk1 (t : Fin cfg0.N) (i : S100x1x1000.Idx) :
    i ∈ ((cfg0.win 1).blk t).view.set ↔ ∀ a : Fin 3, win0_1.index t a * S1x1x1000.size a ≤ (i a).val ∧ (i a).val < win0_1.index t a * S1x1x1000.size a + S1x1x1000.size a := by
  show i ∈ ((View.whole main_v1_0).slice (win0_1.rect t)).set ↔ _
  rw [View.set_slice_whole, Rect.mem_set_unit]
  exact Iff.rfl
theorem mem_blk2 (t : Fin cfg0.N) (i : S100x1x1000.Idx) :
    i ∈ ((cfg0.win 2).blk t).view.set ↔ ∀ a : Fin 3, win0_2.index t a * S1x1x1000.size a ≤ (i a).val ∧ (i a).val < win0_2.index t a * S1x1x1000.size a + S1x1x1000.size a := by
  show i ∈ ((View.whole main_v1_1).slice (win0_2.rect t)).set ↔ _
  rw [View.set_slice_whole, Rect.mem_set_unit]
  exact Iff.rfl

/-- Every index of an output array is in the block of the point its first coordinate names. -/
theorem cover1 (i : S100x1x1000.Idx) : ∃ t : Fin cfg0.N, (cfg0.win 1).flush t = true ∧ i ∈ ((cfg0.win 1).blk t).view.set := by
  have hi0 : (i 0).val < 100 := (i 0).isLt
  have hi1 : (i 1).val < 1 := (i 1).isLt
  have hi2 : (i 2).val < 1000 := (i 2).isLt
  let t : Fin cfg0.N := ⟨(i 0).val, Nat.lt_of_lt_of_eq hi0 N_0.symm⟩
  obtain ⟨-, -, e0, e1, e2, -⟩ := idx_facts0 t
  have et : t.val = (i 0).val := rfl
  refine ⟨t, flush0_1 t, ?_⟩
  rw [mem_blk1]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 1000 ≤ (i 2).val ∧ (i 2).val < win0_1.index t (2 : Fin 3) * 1000 + 1000; omega

theorem cover2 (i : S100x1x1000.Idx) : ∃ t : Fin cfg0.N, (cfg0.win 2).flush t = true ∧ i ∈ ((cfg0.win 2).blk t).view.set := by
  have hi0 : (i 0).val < 100 := (i 0).isLt
  have hi1 : (i 1).val < 1 := (i 1).isLt
  have hi2 : (i 2).val < 1000 := (i 2).isLt
  let t : Fin cfg0.N := ⟨(i 0).val, Nat.lt_of_lt_of_eq hi0 N_0.symm⟩
  obtain ⟨-, -, -, -, -, e0, e1, e2⟩ := idx_facts0 t
  have et : t.val = (i 0).val := rfl
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1000 ≤ (i 2).val ∧ (i 2).val < win0_2.index t (2 : Fin 3) * 1000 + 1000; omega

/-- The arrays after the region: the table as entered, the row minima, the row maxima. -/
theorem final0 (c : Dev nD) : (dat0 V O bnd c).arrAt 0 cfg0.N = V c main_arg1 :=
  ((dat0 V O bnd c).arrAt_in 0 rfl _).trans (A_eq0 V O bnd c 0)
theorem final1 (c : Dev nD) : (dat0 V O bnd c).arrAt 1 cfg0.N = rowMin (V c main_arg1) :=
  (dat0 V O bnd c).arrAt_eq_of_cover 1 (rowMin (V c main_arg1)) (fun t _ => flushed1_eq V O bnd c t) cover1
theorem final2 (c : Dev nD) : (dat0 V O bnd c).arrAt 2 cfg0.N = rowMax (V c main_arg1) :=
  (dat0 V O bnd c).arrAt_eq_of_cover 2 (rowMax (V c main_arg1)) (fun t _ => flushed2_eq V O bnd c t) cover2

/-! ## The proof data family -/

/-- The prefetched tables' admissible contents: no pipeline has a table. -/
abbrev adm : (p : Fin 2) → (pcfgs (F := F) p).Adm := fun p => (cfgs p).toPCfg_adm

/-- Every pipeline's proof data as this region sees it: pipeline 0's is `dat0`; pipeline 1 is not entered here,
    and its data say nothing. A literal `match`, so that the pinned configuration at a numeral reduces to the printed one. -/
def pdats : (p : Fin 2) → (c : Dev nD) → Dat τ (Elt F) (HIx 2) ℕ UU ℕ (Pipeline.pin (pcfgs (F := F)) adm p) c
  | ⟨0, _⟩ => fun c => dat0 V O bnd c
  | ⟨1, _⟩ => fun c =>
    { A := fun w => V c (Pipeline.arrRef spec2 w)
      after := fun _ _ _ => Classical.arbitrary _
      Φ := fun _ => iprop(emp)
      q := fun _ => fullShare
      owed := fun _ => O c }

/-! ## The region -/

section Region

-- the core's buffer contents at the region's entry, every buffer of the device
variable (W : Dev nD → Valuation τ sig (Elt F))

/-- The same read at the TensorCore's references (what the proof data take). -/
abbrev VW : (c : Dev nD) → (b : Ref sig .tc) → Buf (Elt F) ((c : Thread nD τ).loc b) := fun c b => W c b

/-- At the region's exit: its arrays at what the pipeline leaves (the input as entered, each output's write-backs
    folded), every other buffer as entered. -/
def Wout (c : Dev nD) : Valuation τ sig (Elt F) :=
  Pipeline.withArrays spec0 c (W c) fun w => (dat0 (VW W) O bnd c).arrAt w cfg0.N
theorem Wout_arr (c : Dev nD) (w : Fin cfg0.W) :
    Wout O bnd W c (Proc.devRef .tc (Pipeline.arrRef spec0 w)) = (dat0 (VW W) O bnd c).arrAt w cfg0.N := by
  unfold Wout; exact Pipeline.withArrays_arr spec0 launch0.win.arr_inj c _ _ w
theorem Wout_of_ne (c : Dev nD) (b : Ref sig .tc) (hb : ∀ w, Pipeline.arrRef spec0 w ≠ b) :
    Wout O bnd W c (Proc.devRef .tc b) = W c (Proc.devRef .tc b) := by
  unfold Wout; exact Pipeline.withArrays_of_ne spec0 c _ _ b hb
abbrev VWout : (c : Dev nD) → (b : Ref sig .tc) → Buf (Elt F) ((c : Thread nD τ).loc b) := fun c b => Wout O bnd W c b
theorem hF0 (c : Dev nD) (w : Fin cfg0.W) : (dat0 (VW W) O bnd c).arrAt w cfg0.N = VWout O bnd W c (Pipeline.arrRef spec0 w) :=
  (Wout_arr O bnd W c w).symm
theorem hrest0 (c : Dev nD) : ∀ b, b ∉ Finset.univ.image (Pipeline.arrRef spec0) → VWout O bnd W c b = VW W c b :=
  fun b hb => Wout_of_ne O bnd W c b fun w e => hb (Finset.mem_image.mpr ⟨w, Finset.mem_univ _, e⟩)

/-- What rides beside the buffers: the generator register at some state, and the core's `owes` at `O c` with every
    recorded pair at level at most `bnd`. -/
abbrev Rown (c : Dev nD) : sProp 𝕄 :=
  iprop((∃ r, prngReg c r) ∗ ∃ Wt, ⌜(K (F := F)).WBelow (T c) Wt bnd⌝ ∗ owes (T c) (O c) Wt)

set_option backward.isDefEq.respectTransparency.types false in
/-- REGION 0 over the thread state: entered from every unscoped buffer at `W`, left at `Wout`. Its arrays split out of
    the unscoped buffers and put back at the exit contents; the generator register into the invariant and out; the
    core owes `O c` throughout, nothing at index `none`, so that the pipeline's waits (index `none`, level 0) sit below
    everything owed; the pairs those waits record are at level 0. -/
def reg (hO : ∀ c g, O c g none = 0) :
    Pipeline.RegionSeg (pcfgs (F := F)) adm (pdats (VW W) O bnd) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VW W) O bnd c).loose
  hwaits c := Pipeline.cellsWaits_intro (Pipeline.pin (pcfgs (F := F)) adm) (pdats (VW W) O bnd) none 0 c
    (R := levAts (K (F := F)).L (K (F := F)).lev) fun w s t => (K (F := F)).mayWait_none _ (hO c)
  pre c := iprop(StableHlo.held (c : Thread nD τ) (Pipeline.ucRefs τ sig) (W c) ∗ Rown O bnd c)
  post c := iprop(StableHlo.held (c : Thread nD τ) (Pipeline.ucRefs τ sig) (Wout O bnd W c) ∗ Rown O bnd c)
  X c := iprop(∃ r, prngReg c r)
  Y c := iprop(∃ r, prngReg c r)
  Z c := Pipeline.unscopedRest (Ix := HIx 2) (Name := ℕ) (U := UU) (Lvl := ℕ) spec0 c (VW W c)
  hentry c := by
    rw [Pipeline.ownSems0_none]
    have hsplit := Pipeline.arrays_of_unscopedBufs (p := 0) (pcfgs (F := F)) adm (pdats (VW W) O bnd) launch0.win launch0.arr_whole c
      ((pdats (VW W) O bnd 0 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, %hWt, HO⟩; iexists Wt; isplitr; · ipureintro; exact fun p hp => Or.inl (hWt p hp)
      iexact HO
    isplitl [Hp]; · iexact Hp
    iexact Hrest
  hin c := by
    rw [show (pdats (VW W) O bnd 0 c).Φ 0 = Φ0 c from rfl]; unfold Φ0
    iintro ⟨Hp, -, Hr⟩
    isplitl [Hr]; · iexact Hr
    iexact Hp
  hout c := by
    rw [Pipeline.ownSems0_none, show (pdats (VW W) O bnd 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats (VW W) O bnd) ((pdats (VW W) O bnd 0 c).share_full fun _ => rfl)
      (VW W c) (VWout O bnd W c) ((pdats (VW W) O bnd 0 c).arrAt · cfg0.N) (hF0 O bnd W c) (hrest0 O bnd W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, %hWt, HO⟩; iexists Wt; isplitr
    · ipureintro
      intro p hp
      rcases hWt hp with h | ⟨w, s, rfl⟩
      · exact h
      · exact Nat.zero_le _
    iexact HO

end Region

/-! ## The exit contents, buffer by buffer -/

section Exit

variable (W : Dev nD → Valuation τ sig (Elt F))

/-- The table is as entered. -/
theorem Wout_arg1 (c : Dev nD) : Wout O bnd W c (Proc.devRef .tc main_arg1) = W c (Proc.devRef .tc main_arg1) :=
  (Wout_arr O bnd W c 0).trans (final0 (VW W) O bnd c)
/-- The first result holds the row minima of the table, -/
theorem Wout_v1_0 (c : Dev nD) : Wout O bnd W c (Proc.devRef .tc main_v1_0) = rowMin (W c (Proc.devRef .tc main_arg1)) :=
  (Wout_arr O bnd W c 1).trans (final1 (VW W) O bnd c)
/-- the second its row maxima, -/
theorem Wout_v1_1 (c : Dev nD) : Wout O bnd W c (Proc.devRef .tc main_v1_1) = rowMax (W c (Proc.devRef .tc main_arg1)) :=
  (Wout_arr O bnd W c 2).trans (final2 (VW W) O bnd c)
/-- and every other buffer of the TensorCore is as entered. -/
theorem Wout_other (c : Dev nD) (b : Ref sig .tc) (h0 : b ≠ main_arg1) (h1 : b ≠ main_v1_0) (h2 : b ≠ main_v1_1) :
    Wout O bnd W c (Proc.devRef .tc b) = W c (Proc.devRef .tc b) :=
  Wout_of_ne O bnd W c b fun w => by
    match w with
    | ⟨0, _⟩ => exact h0.symm
    | ⟨1, _⟩ => exact h1.symm
    | ⟨2, _⟩ => exact h2.symm

end Exit

end Cert.Kernel.Hand.Reg0

end
-- ==== Proof.Region2B.lean ====
/-
  The table kernel — the program's second TensorCore pipeline — as one region of the program's run on the TensorCore.

  Per block of 1000 table rows the kernel's body reads the 2 × 16 × 16 partial extrema, takes the least entry of the
  first slab and the greatest of the second, caps them at zero, forms the quantisation step and the zero point,
  fake-quantises the 1000 × 128 block, multiplies each row by the weight row, sums it and adds the bias: one score per
  table row. This module states what the body leaves in the output block as a pure function of the four input blocks,
  proves the body's triple, assembles the pipeline's proof data and the region record over the thread state "every
  unscoped buffer at a valuation, the generator register, the core's debts", and reads the output array after the
  region as one function of the argument arrays.
-/
import proofs.«211894_g61933428415975_cont_9to1c4b_619_7_alg».proof.Proof.SetupB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand.Reg2

open Cert.Kernel Cert.Kernel.Gen Cert.Kernel.Hand
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! # The table kernel (the second TensorCore pipeline), as a region of the program

Per block of 1000 table rows the body reads the 2 × 16 × 16 partial extrema, forms the quantisation step and the zero
point, fake-quantises the block, multiplies by the weight row, sums each row and adds the bias. The output block holds
one score per row. -/

section Region

variable (V : (c : Dev nD) → (b : Ref sig .tc) → Buf (Elt F) ((c : Thread nD τ).loc b))
variable (O : Dev nD → CellTallies nD τ sig (HIx 2)) (bnd : ℕ)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: a window whose block
    index does not move is fetched once, and what the body leaves in its buffer is the block again. -/
theorem before2_0_of {c : Dev nD} (dat : Dat τ (Elt F) (HIx 2) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 2) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 2) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 2) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev rH : Rect S1000x128 := Rect.unit (s := S1000x128) ![0, 0] S1000x128.size inb_S1000x128_S1000x128_0_0
abbrev rP : Rect S2x16x16 := Rect.unit (s := S2x16x16) ![0, 0, 0] S2x16x16.size inb_S2x16x16_S2x16x16_0_0_0
abbrev rW : Rect S1x128 := Rect.unit (s := S1x128) ![0, 0] S1x128.size inb_S1x128_S1x128_0_0
abbrev rB : Rect S1x1 := Rect.unit (s := S1x1) ![0, 0] S1x1.size inb_S1x1_S1x1_0_0
abbrev rO : Rect S1x1x1000 := Rect.unit (s := S1x1x1000) ![0, 0, 0] S1x1x1000.size inb_S1x1x1000_S1x1x1000_0_0_0

/-! ## The body's arithmetic, as pure functions of what it loads -/

/-- The least entry of the first 16 × 16 slab of the partials, capped above by zero. -/
def qlo (p : Vec F S2x16x16 .f32) : F .f32 :=
  have v1 : FVec F S2x16x16 .f32 := shapeCast S2x16x16 p shapeCasts_S2x16x16_S2x16x16
  have v2 : FVec F S1x16x16 .f32 := extractStridedSlice S1x16x16 ![0, 0, 0] v1 slices_S2x16x16_o0_0_0_S1x16x16
  have v3 : FVec F S16x16 .f32 := shapeCast S16x16 v2 shapeCasts_S1x16x16_S16x16
  have v4 : FVec F S1x16x16 .f32 := shapeCast S1x16x16 v3 shapeCasts_S16x16_S1x16x16
  have v5 : FVec F S1 .f32 := multiReduction .minimumf [1, 2] S1 v4 0x7F800000#32 reduces_S1x16x16_S1 (.inl rfl) rfl
  have v6 : FVec F S1x1x1 .f32 := shapeCast S1x1x1 v5 shapeCasts_S1_S1x1x1
  have v7 : F .f32 := extractAt ![0, 0, 0] v6 inpos_S1x1x1_p0_0_0
  have cst_2 : F .f32 := Scalar.ofBits .f32 0x00000000#32
  Scalar.minimumf v7 cst_2

/-- The greatest entry of the second slab, capped below by zero. -/
def qhi (p : Vec F S2x16x16 .f32) : F .f32 :=
  have v1 : FVec F S2x16x16 .f32 := shapeCast S2x16x16 p shapeCasts_S2x16x16_S2x16x16
  have v9 : FVec F S1x16x16 .f32 := extractStridedSlice S1x16x16 ![1, 0, 0] v1 slices_S2x16x16_o1_0_0_S1x16x16
  have v10 : FVec F S16x16 .f32 := shapeCast S16x16 v9 shapeCasts_S1x16x16_S16x16
  have v11 : FVec F S1x16x16 .f32 := shapeCast S1x16x16 v10 shapeCasts_S16x16_S1x16x16
  have v12 : FVec F S1 .f32 := multiReduction .maximumf [1, 2] S1 v11 0xFF800000#32 reduces_S1x16x16_S1 (.inl rfl) rfl
  have v13 : FVec F S1x1x1 .f32 := shapeCast S1x1x1 v12 shapeCasts_S1_S1x1x1
  have v14 : F .f32 := extractAt ![0, 0, 0] v13 inpos_S1x1x1_p0_0_0
  have cst_4 : F .f32 := Scalar.ofBits .f32 0x00000000#32
  Scalar.maximumf v14 cst_4

/-- The quantisation step: the range over 255, at least the least step. -/
def qstep (p : Vec F S2x16x16 .f32) : F .f32 :=
  have v16 : F .f32 := Scalar.subf (qhi p) (qlo p)
  have cst_5 : F .f32 := Scalar.ofBits .f32 0x437F0000#32
  have v17 : F .f32 := Scalar.divf v16 cst_5
  have cst_6 : F .f32 := Scalar.ofBits .f32 0x34000000#32
  Scalar.maximumf v17 cst_6

/-- The zero point: -128 less the rounded quotient of the capped least entry by the step, clipped to [-128, 127]. -/
def qzero (p : Vec F S2x16x16 .f32) : F .f32 :=
  have v19 : F .f32 := Scalar.divf (qlo p) (qstep p)
  have v20 : F .f32 := Scalar.roundeven v19
  have cst_7 : F .f32 := Scalar.ofBits .f32 0xC3000000#32
  have v21 : F .f32 := Scalar.subf cst_7 v20
  have cst_8 : F .f32 := Scalar.ofBits .f32 0xC3000000#32
  have cst_9 : F .f32 := Scalar.ofBits .f32 0x42FE0000#32
  have v22 : F .f32 := Scalar.maximumf cst_8 v21
  Scalar.minimumf cst_9 v22

/-- The block fake-quantised entry by entry. -/
def quant (p : Vec F S2x16x16 .f32) (h : Vec F S1000x128 .f32) : FVec F S1000x128 .f32 :=
  have v25 : FVec F S1000x128 .f32 := broadcast S1000x128 (qstep p)
  have v26 : FVec F S1000x128 .f32 := divf h v25
  have v27 : FVec F S1000x128 .f32 := roundeven v26
  have v28 : FVec F S1000x128 .f32 := broadcast S1000x128 (qzero p)
  have v29 : FVec F S1000x128 .f32 := addf v27 v28
  have cst_12 : F .f32 := Scalar.ofBits .f32 0xC3000000#32
  have cst_13 : F .f32 := Scalar.ofBits .f32 0x42FE0000#32
  have v30 : FVec F S1000x128 .f32 := broadcast S1000x128 cst_12
  have v31 : FVec F S1000x128 .f32 := maximumf v30 v29
  have v32 : FVec F S1000x128 .f32 := broadcast S1000x128 cst_13
  have v33 : FVec F S1000x128 .f32 := minimumf v32 v31
  have v34 : FVec F S1000x128 .f32 := broadcast S1000x128 (qzero p)
  have v35 : FVec F S1000x128 .f32 := subf v33 v34
  have v36 : FVec F S1000x128 .f32 := broadcast S1000x128 (qstep p)
  mulf v35 v36

/-- The score of each row of the block: the fake-quantised row against the weight row, summed, plus the bias. -/
def score (h : Vec F S1000x128 .f32) (p : Vec F S2x16x16 .f32) (W : Vec F S1x128 .f32) (b : Vec F S1x1 .f32) : FVec F S1000 .f32 :=
  have v39 : FVec F S128 .f32 := shapeCast S128 W shapeCasts_S1x128_S128
  have v40 : FVec F S1x128 .f32 := shapeCast S1x128 v39 shapeCasts_S128_S1x128
  have v41 : FVec F S1000x128 .f32 := broadcastTo S1000x128 v40 broadcasts_S1x128_S1000x128
  have v42 : FVec F S1000x128 .f32 := mulf (quant p h) v41
  have v43 : FVec F S1000 .f32 := multiReduction .add [1] S1000 v42 0x00000000#32 reduces_S1000x128_S1000 (.inl rfl) rfl
  have v45 : F .f32 := extractAt ![0, 0] b inpos_S1x1_p0_0
  have v46 : FVec F S1000 .f32 := broadcast S1000 v45
  addf v43 v46

/-- What the body stores: the scores as a 1 × 1 × 1000 block. -/
def pay2 (h : Vec F S1000x128 .f32) (p : Vec F S2x16x16 .f32) (W : Vec F S1x128 .f32) (b : Vec F S1x1 .f32) : FVec F S1x1x1000 .f32 :=
  shapeCast S1x1x1000 (score h p W b) shapeCasts_S1000_S1x1x1000

/-- The output window's staging buffer after the body, from the input windows' blocks: its one store. -/
def out2_4 (x0 : Vec F S1000x128 .f32) (x1 : Vec F S2x16x16 .f32) (x2 : Vec F S1x128 .f32) (x3 : Vec F S1x1 .f32) : Vec F S1x1x1000 .f32 :=
  View.canon [⟨rO, pay2 (View.ld x0 rH) (View.ld x1 rP) (View.ld x2 rW) (View.ld x3 rB)⟩]

/-- The store covers the buffer. -/
theorem cover2_4 (p0 : Vec F S1x1x1000 .f32) (y : S1x1x1000.Idx) :
    ∃ pc ∈ ([⟨rO, p0⟩] : List (View.Piece (Elt F) S1x1x1000 .f32)), y ∈ pc.1.set :=
  View.cover_of_tiled [⟨rO, p0⟩] S1x1x1000.size (by rfl) y

/-! ## The body's triple -/

set_option maxHeartbeats 4000000 in
/-- The body on whole staging memrefs, the inputs' at read contents and the output's at anything, runs to the
    continuation holding the inputs' as they were and the output's at `out2_4` of the inputs'. -/
theorem sound_kernel2 (c : Dev nD) (E : Set ℕ) (i : grid2.Coords)
    (arg1 : Memref sig .tc .vmem S1000x128 .f32) (harg1 : arg1.IsWhole) (arg2 : Memref sig .tc .vmem S2x16x16 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1x1000 .f32) (harg5 : arg5.IsWhole)
    (x0 : Vec F S1000x128 .f32) (x1 : Vec F S2x16x16 .f32) (x2 : Vec F S1x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__table_body i arg1 harg1 arg2 harg2 arg3 harg3 arg4 harg4 arg5 harg5) K := by
  unfold cc2__table_body k2_part1
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The region's invariant: the core's scoped buffers that are no staging buffer of this pipeline, each at some
    contents, and its generator register at some state — what the body neither reads nor describes. -/
def Φ2 (c : Dev nD) : sProp 𝕄 :=
  iprop(Pipeline.scopedRest (Ix := HIx 2) (Name := ℕ) (U := UU) (Lvl := ℕ) (Val := Elt F) spec2 c ∗ ∃ r, prngReg c r)

/-- The bound on the pairs the core's waits have recorded: every pair at level at most `bnd`. -/
def rec2 (c : Dev nD) : Set (SemLoc sig × HIx 2) := {p | (K (F := F)).lev (T c, p.1) p.2 ≤ bnd}

/-- The proof data of the table pipeline on core `c`: the arrays as the region finds them; after the body at point `t`
    each input's buffer at its block and the output's at `out2_4` of the input blocks; the invariant `Φ2`; the core
    owes `O c` throughout; full shares. -/
def dat2 (c : Dev nD) : Dat τ (Elt F) (HIx 2) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Φ2 c
  q _ := fullShare
  owed _ := O c
  recorded _ := rec2 (F := F) bnd c

theorem A_eq2 (c : Dev nD) (w : Fin cfg2.W) : (dat2 V O bnd c).A w = V c (Pipeline.arrRef spec2 w) := by
  dsimp only [dat2]

theorem after2_0 (c : Dev nD) (t : Fin cfg2.N) : (dat2 V O bnd c).after 0 t = iblk2 V c 0 t := by dsimp only [dat2]
theorem after2_1 (c : Dev nD) (t : Fin cfg2.N) : (dat2 V O bnd c).after 1 t = iblk2 V c 1 t := by dsimp only [dat2]
theorem after2_2 (c : Dev nD) (t : Fin cfg2.N) : (dat2 V O bnd c).after 2 t = iblk2 V c 2 t := by dsimp only [dat2]
theorem after2_3 (c : Dev nD) (t : Fin cfg2.N) : (dat2 V O bnd c).after 3 t = iblk2 V c 3 t := by dsimp only [dat2]
theorem after2_4 (c : Dev nD) (t : Fin cfg2.N) :
    (dat2 V O bnd c).after 4 t = out2_4 (iblk2 V c 0 t) (iblk2 V c 1 t) (iblk2 V c 2 t) (iblk2 V c 3 t) := by dsimp only [dat2]

theorem before2_0 (c : Dev nD) (t : Fin cfg2.N) (d) : (dat2 V O bnd c).before 0 t d = iblk2 V c 0 t :=
  before2_0_of V (dat2 V O bnd c) (A_eq2 V O bnd c 0) (after2_0 V O bnd c) t d
theorem before2_1 (c : Dev nD) (t : Fin cfg2.N) (d) : (dat2 V O bnd c).before 1 t d = iblk2 V c 1 t :=
  before2_1_of V (dat2 V O bnd c) (A_eq2 V O bnd c 1) (after2_1 V O bnd c) t d
theorem before2_2 (c : Dev nD) (t : Fin cfg2.N) (d) : (dat2 V O bnd c).before 2 t d = iblk2 V c 2 t :=
  before2_2_of V (dat2 V O bnd c) (A_eq2 V O bnd c 2) (after2_2 V O bnd c) t d
theorem before2_3 (c : Dev nD) (t : Fin cfg2.N) (d) : (dat2 V O bnd c).before 3 t d = iblk2 V c 3 t :=
  before2_3_of V (dat2 V O bnd c) (A_eq2 V O bnd c 3) (after2_3 V O bnd c) t d

/-! ## The body obligation, at a generic point -/

/-- What the body is called with at point `t`, -/
def bodyPre2 (c : Dev nD) (t : Fin cfg2.N) : sProp 𝕄 :=
  iprop((dat2 V O bnd c).Φ t.castSucc ∗ (dat2 V O bnd c).owesAt none t.castSucc
    ∗ (∃ d, owns (c : Thread nD τ) (st2_0 t) fullShare ((dat2 V O bnd c).before 0 t d))
    ∗ (∃ d, owns (c : Thread nD τ) (st2_1 t) fullShare ((dat2 V O bnd c).before 1 t d))
    ∗ (∃ d, owns (c : Thread nD τ) (st2_2 t) fullShare ((dat2 V O bnd c).before 2 t d))
    ∗ (∃ d, owns (c : Thread nD τ) (st2_3 t) fullShare ((dat2 V O bnd c).before 3 t d))
    ∗ (∃ d, owns (c : Thread nD τ) (st2_4 t) fullShare ((dat2 V O bnd c).before 4 t d)))

/-- and what it returns. -/
def bodyPost2 (c : Dev nD) (t : Fin cfg2.N) : sProp 𝕄 :=
  iprop((dat2 V O bnd c).Φ t.succ ∗ (dat2 V O bnd c).owesAt none t.succ
    ∗ owns (c : Thread nD τ) (st2_0 t) fullShare ((dat2 V O bnd c).after 0 t)
    ∗ owns (c : Thread nD τ) (st2_1 t) fullShare ((dat2 V O bnd c).after 1 t)
    ∗ owns (c : Thread nD τ) (st2_2 t) fullShare ((dat2 V O bnd c).after 2 t)
    ∗ owns (c : Thread nD τ) (st2_3 t) fullShare ((dat2 V O bnd c).after 3 t)
    ∗ owns (c : Thread nD τ) (st2_4 t) fullShare ((dat2 V O bnd c).after 4 t))

/-- The body at any point: the inputs' memrefs hold their blocks, so `sound_kernel2` applies; the invariant and the
    core's `owes` pass through unread. -/
theorem sound_body2 (c : Dev nD) (t : Fin cfg2.N) :
    bodyPre2 V O bnd c t ⊢ wp frame (wpE (defs₀ (F := F)) Variants.none c none) Set.univ (bodyAt2 t) (fun _ => bodyPost2 V O bnd c t) := by
  unfold bodyPre2 bodyPost2 bodyAt2
  simp only [before2_0, before2_1, before2_2, before2_3]
  rw [show (dat2 V O bnd c).Φ t.succ = (dat2 V O bnd c).Φ t.castSucc from rfl,
    show (dat2 V O bnd c).owesAt none t.succ = (dat2 V O bnd c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V O bnd c) (defs₀ (F := F)) Variants.none none Set.univ := fun t => by
  rw [bigSep_W2, bigSep_W2]
  exact sound_body2 V O bnd c t

/-! ## The proof data family -/

/-- Data for the row-extrema pipeline, which this region never enters: its arrays and blocks as this region finds them. -/
def dat0 (c : Dev nD) : Dat τ (Elt F) (HIx 2) ℕ UU ℕ cfg0 c where
  A w := V c (Pipeline.arrRef spec0 w)
  after w t := match w with
    | ⟨0, _⟩ => ((cfg0.win 0).blk t).view.read (Elt F) (V c (Pipeline.arrRef spec0 0))
    | ⟨1, _⟩ => ((cfg0.win 1).blk t).view.read (Elt F) (V c (Pipeline.arrRef spec0 1))
    | ⟨2, _⟩ => ((cfg0.win 2).blk t).view.read (Elt F) (V c (Pipeline.arrRef spec0 2))
  Φ _ := iprop(emp)
  q _ := fullShare
  owed _ := O c

/-- The prefetched tables' admissible contents: no pipeline has a table. -/
abbrev adm : (p : Fin 2) → (pcfgs (F := F) p).Adm := fun p => (cfgs p).toPCfg_adm

/-- Every pipeline's proof data: a literal match on the pipeline. -/
def pdats : (p : Fin 2) → (c : Dev nD) → Dat τ (Elt F) (HIx 2) ℕ UU ℕ (Pipeline.pin (pcfgs (F := F)) adm p) c
  | ⟨0, _⟩ => fun c => dat0 V O c
  | ⟨1, _⟩ => fun c => dat2 V O bnd c

end Region

/-! ## The output array after the region, as one function of the argument arrays -/

section Closed

variable [∀ e, Nonempty (Elt F e)]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1000 g` … `1000 g + 999` of the table: the block the body reads at grid point `g`. -/
def rowsOf (emb : Vec F S100000x128 .f32) (g : Fin 100) : Vec F S1000x128 .f32 :=
  fun y => emb (ValueIdx.ix2
    (⟨1000 * g.val + (y 0).val, by have hg := g.isLt; have h : (y 0).val < 1000 := (y 0).isLt; omega⟩ : Fin 100000)
    ((y 1 : Fin 128)))

/-- The output array after the region as a whole-array function: entry `(g, 0, j)` is the body's score of table row
    `1000 g + j`. -/
def table (emb : Vec F S100000x128 .f32) (p : Vec F S2x16x16 .f32) (W : Vec F S1x128 .f32) (b : Vec F S1x1 .f32) :
    Vec F S100x1x1000 .f32 :=
  fun i => pay2 (rowsOf emb (i 0 : Fin 100)) p W b (ValueIdx.ix3 (0 : Fin 1) (0 : Fin 1) (i 2 : Fin 1000))

/-- An entry of the array read through a block's coordinates. -/
theorem table_blk (emb : Vec F S100000x128 .f32) (p : Vec F S2x16x16 .f32) (W : Vec F S1x128 .f32) (b : Vec F S1x1 .f32)
    (g : Fin 100) (j : S1x1x1000.Idx) (i : S100x1x1000.Idx) (hi0 : (i 0).val = g.val) (hi2 : (i 2).val = (j 2).val) :
    table emb p W b i = pay2 (rowsOf emb g) p W b j := by
  unfold table
  have e0 : (i 0 : Fin 100) = g := Fin.ext hi0
  have ej : ValueIdx.ix3 (0 : Fin 1) (0 : Fin 1) (i 2 : Fin 1000) = j := by
    funext a
    match a with
    | ⟨0, _⟩ => exact Fin.ext (by have h : (j 0).val < 1 := (j 0).isLt; show 0 = (j 0).val; omega)
    | ⟨1, _⟩ => exact Fin.ext (by have h : (j 1).val < 1 := (j 1).isLt; show 0 = (j 1).val; omega)
    | ⟨2, _⟩ => exact Fin.ext hi2
  rw [e0]
  exact congrArg (pay2 (rowsOf emb g) p W b) ej

variable (V : (c : Dev nD) → (b : Ref sig .tc) → Buf (Elt F) ((c : Thread nD τ).loc b))
variable (O : Dev nD → CellTallies nD τ sig (HIx 2)) (bnd : ℕ)

/-- The printed index maps, decided over the grid: the table block and the output block move with the point, the
    partials, the weight row and the bias stay. -/
theorem idx_facts2 : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

/-- The table window's block at point `t` is rows `1000 t` … of the table. -/
theorem iblk2_0_eq (c : Dev nD) (t : Fin cfg2.N) :
    iblk2 V c 0 t = rowsOf (V c main_arg1) (⟨t.val, t.isLt.trans_eq N_2⟩ : Fin 100) := by
  obtain ⟨e0, e1, -⟩ := idx_facts2 t
  funext y
  show V c main_arg1 (((cfg2.win 0).blk t).view.emb y) = V c main_arg1 _
  congr 1
  funext a; apply Fin.ext
  match a with
  | ⟨0, _⟩ => show win2_0.index t (0 : Fin 2) * 1000 + 1 * (y 0).val = 1000 * t.val + (y 0).val; rw [e0]; omega
  | ⟨1, _⟩ => show win2_0.index t (1 : Fin 2) * 128 + 1 * (y 1).val = (y 1).val; rw [e1]; omega

/-- The partials', the weight row's and the bias's window hold their whole arrays at every point. -/
theorem iblk2_1_eq (c : Dev nD) (t : Fin cfg2.N) : iblk2 V c 1 t = V c main_v4 := by
  obtain ⟨-, -, e0, e1, e2, -⟩ := idx_facts2 t
  funext y
  show V c main_v4 (((cfg2.win 1).blk t).view.emb y) = V c main_v4 y
  congr 1
  funext a; apply Fin.ext
  match a with
  | ⟨0, _⟩ => show win2_1.index t (0 : Fin 3) * 2 + 1 * (y 0).val = (y 0).val; rw [e0]; omega
  | ⟨1, _⟩ => show win2_1.index t (1 : Fin 3) * 16 + 1 * (y 1).val = (y 1).val; rw [e1]; omega
  | ⟨2, _⟩ => show win2_1.index t (2 : Fin 3) * 16 + 1 * (y 2).val = (y 2).val; rw [e2]; omega

theorem iblk2_2_eq (c : Dev nD) (t : Fin cfg2.N) : iblk2 V c 2 t = V c main_arg2 := by
  obtain ⟨-, -, -, -, -, e0, e1, -⟩ := idx_facts2 t
  funext y
  show V c main_arg2 (((cfg2.win 2).blk t).view.emb y) = V c main_arg2 y
  congr 1
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

theorem iblk2_3_eq (c : Dev nD) (t : Fin cfg2.N) : iblk2 V c 3 t = V c main_v5 := by
  obtain ⟨-, -, -, -, -, -, -, e0, e1, -⟩ := idx_facts2 t
  funext y
  show V c main_v5 (((cfg2.win 3).blk t).view.emb y) = V c main_v5 y
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 1 + 1 * (y 1).val = (y 1).val; rw [e1]; omega

/-- What point `t` writes back is block `t` of `table` of the arrays as the region finds them. -/
theorem flushed2_eq (c : Dev nD) (t : Fin cfg2.N) :
    (dat2 V O bnd c).flushed 4 t
      = ((cfg2.win 4).blk t).view.read (Elt F) (table (V c main_arg1) (V c main_v4) (V c main_arg2) (V c main_v5)) := by
  show (cfg2.win 4).cut (grid2.coords t) ((dat2 V O bnd c).after 4 t) = _
  rw [after2_4]
  unfold out2_4
  rw [View.canon_unit_zero hz3]
  simp only [View.ld_unit_zero (S := S1000x128) hz2, View.ld_unit_zero (S := S2x16x16) hz3, View.ld_unit_zero (S := S1x128) hz2,
    View.ld_unit_zero (S := S1x1) hz2]
  rw [iblk2_0_eq, iblk2_1_eq, iblk2_2_eq, iblk2_3_eq]
  obtain ⟨-, -, -, -, -, -, -, -, -, e0, e1, e2⟩ := idx_facts2 t
  funext j
  show pay2 _ _ _ _ j = table _ _ _ _ (((cfg2.win 4).blk t).view.emb j)
  refine (table_blk _ _ _ _ _ j _ ?_ ?_).symm
  · show win2_4.index t (0 : Fin 3) * 1 + 1 * (j 0).val = t.val
    have h : (j 0).val < 1 := (j 0).isLt
    rw [e0]; omega
  · show win2_4.index t (2 : Fin 3) * 1000 + 1 * (j 2).val = (j 2).val
    rw [e2]; omega

/-- An index of the output array is in point `t`'s block iff each coordinate is in the block's range on its axis. -/
theorem mem_blk2 (t : Fin cfg2.N) (i : S100x1x1000.Idx) :
    i ∈ ((cfg2.win 4).blk t).view.set ↔ ∀ a : Fin 3, win2_4.index t a * S1x1x1000.size a ≤ (i a).val ∧ (i a).val < win2_4.index t a * S1x1x1000.size a + S1x1x1000.size a := by
  show i ∈ ((View.whole main_v6).slice (win2_4.rect t)).set ↔ _
  rw [View.set_slice_whole, Rect.mem_set_unit]
  exact Iff.rfl

/-- Every entry `(g, 0, j)` of the output array is in point `g`'s block. -/
theorem cover2 (i : S100x1x1000.Idx) : ∃ t : Fin cfg2.N, (cfg2.win 4).flush t = true ∧ i ∈ ((cfg2.win 4).blk t).view.set := by
  have hi0 : (i 0).val < 100 := (i 0).isLt
  have hi1 : (i 1).val < 1 := (i 1).isLt
  have hi2 : (i 2).val < 1000 := (i 2).isLt
  let t : Fin cfg2.N := ⟨(i 0).val, hi0.trans_eq N_2.symm⟩
  obtain ⟨-, -, -, -, -, -, -, -, -, e0, e1, e2⟩ := idx_facts2 t
  refine ⟨t, flush2_4 t, ?_⟩
  rw [mem_blk2]
  intro a
  match a with
  | ⟨0, _⟩ => show win2_4.index t (0 : Fin 3) * 1 ≤ (i 0).val ∧ (i 0).val < win2_4.index t (0 : Fin 3) * 1 + 1; rw [e0]; show (i 0).val * 1 ≤ (i 0).val ∧ (i 0).val < (i 0).val * 1 + 1; omega
  | ⟨1, _⟩ => show win2_4.index t (1 : Fin 3) * 1 ≤ (i 1).val ∧ (i 1).val < win2_4.index t (1 : Fin 3) * 1 + 1; rw [e1]; omega
  | ⟨2, _⟩ => show win2_4.index t (2 : Fin 3) * 1000 ≤ (i 2).val ∧ (i 2).val < win2_4.index t (2 : Fin 3) * 1000 + 1000; rw [e2]; omega

/-- The output array after the region. -/
theorem final2 (c : Dev nD) :
    (dat2 V O bnd c).arrAt 4 cfg2.N = table (V c main_arg1) (V c main_v4) (V c main_arg2) (V c main_v5) :=
  (dat2 V O bnd c).arrAt_eq_of_cover 4 _ (fun t _ => flushed2_eq V O bnd c t) cover2

end Closed

/-! ## The region as a segment of the program -/

section Segment

variable (Wv : Dev nD → Valuation τ sig (Elt F)) (O : Dev nD → CellTallies nD τ sig (HIx 2)) (bnd : ℕ)

/-- The buffer contents at the region's entry, read at the TensorCore's references. -/
abbrev Vof (Wv : Dev nD → Valuation τ sig (Elt F)) : (c : Dev nD) → (b : Ref sig .tc) → Buf (Elt F) ((c : Thread nD τ).loc b) :=
  fun c b => Wv c b

/-- The buffer contents at the region's exit: the pipeline's arrays at what its write-backs leave, every other
    buffer as entered. -/
def Wout (c : Dev nD) : Valuation τ sig (Elt F) :=
  Pipeline.withArrays spec2 c (Wv c) fun w => (dat2 (Vof Wv) O bnd c).arrAt w cfg2.N

theorem Wout_arr (c : Dev nD) (w : Fin cfg2.W) :
    Wout Wv O bnd c (Proc.devRef .tc (Pipeline.arrRef spec2 w)) = (dat2 (Vof Wv) O bnd c).arrAt w cfg2.N := by
  unfold Wout; exact Pipeline.withArrays_arr spec2 launch2.win.arr_inj c _ _ w

theorem Wout_of_not_arr (c : Dev nD) (b : Ref sig .tc) (hb : ∀ w, Pipeline.arrRef spec2 w ≠ b) :
    Wout Wv O bnd c (Proc.devRef .tc b) = Wv c (Proc.devRef .tc b) := by
  unfold Wout; exact Pipeline.withArrays_of_ne spec2 c _ _ b hb

theorem hF2 (c : Dev nD) (w : Fin cfg2.W) :
    (dat2 (Vof Wv) O bnd c).arrAt w cfg2.N = Vof (Wout Wv O bnd) c (Pipeline.arrRef spec2 w) :=
  (Wout_arr Wv O bnd c w).symm

theorem hrest2 (c : Dev nD) : ∀ b, b ∉ Finset.univ.image (Pipeline.arrRef spec2) → Vof (Wout Wv O bnd) c b = Vof Wv c b :=
  fun b hb => Wout_of_not_arr Wv O bnd c b fun w e => hb (Finset.mem_image.mpr ⟨w, Finset.mem_univ _, e⟩)

/-- The output array after the region is `table` of the arrays the region found. -/
theorem Wout_v6 [∀ e, Nonempty (Elt F e)] (c : Dev nD) :
    Wout Wv O bnd c (Proc.devRef .tc main_v6)
      = table (Vof Wv c main_arg1) (Vof Wv c main_v4) (Vof Wv c main_arg2) (Vof Wv c main_v5) :=
  (Wout_arr Wv O bnd c 4).trans (final2 (Vof Wv) O bnd c)

/-- Every other buffer of the TensorCore is as the region found it: an input window's array is never written, and no
    other buffer is the pipeline's. -/
theorem Wout_of_ne (c : Dev nD) (b : Ref sig .tc) (hb : b ≠ main_v6) :
    Wout Wv O bnd c (Proc.devRef .tc b) = Wv c (Proc.devRef .tc b) := by
  by_cases h : ∃ w, Pipeline.arrRef spec2 w = b
  · obtain ⟨w, rfl⟩ := h
    match w with
    | ⟨0, _⟩ => exact (Wout_arr Wv O bnd c 0).trans (((dat2 (Vof Wv) O bnd c).arrAt_in 0 rfl _).trans (A_eq2 (Vof Wv) O bnd c 0))
    | ⟨1, _⟩ => exact (Wout_arr Wv O bnd c 1).trans (((dat2 (Vof Wv) O bnd c).arrAt_in 1 rfl _).trans (A_eq2 (Vof Wv) O bnd c 1))
    | ⟨2, _⟩ => exact (Wout_arr Wv O bnd c 2).trans (((dat2 (Vof Wv) O bnd c).arrAt_in 2 rfl _).trans (A_eq2 (Vof Wv) O bnd c 2))
    | ⟨3, _⟩ => exact (Wout_arr Wv O bnd c 3).trans (((dat2 (Vof Wv) O bnd c).arrAt_in 3 rfl _).trans (A_eq2 (Vof Wv) O bnd c 3))
    | ⟨4, _⟩ => exact absurd rfl hb
  · exact Wout_of_not_arr Wv O bnd c b fun w e => h ⟨w, e⟩

/-- What rides beside the buffers: the generator register at some state, and the core owing `O c` with every recorded
    pair at level at most `bnd`. -/
abbrev Rr (c : Dev nD) : sProp 𝕄 :=
  iprop((∃ r, prngReg c r) ∗ ∃ W, ⌜(K (F := F)).WBelow (T c) W bnd⌝ ∗ owes (T c) (O c) W)

set_option backward.isDefEq.respectTransparency.types false in
/-- The table pipeline as a region: entered from every unscoped buffer at `Wv`, left at `Wout`. Its arrays split out
    of the unscoped buffers and put back at the exit contents; the generator register into the invariant and out; the
    core owes `O c`, all at a call's index (`hO`), so its waits at the kernel's own index sit below everything owed. -/
def reg (hO : ∀ c g, O c g none = 0) :
    Pipeline.RegionSeg (pcfgs (F := F)) adm (pdats (Vof Wv) O bnd) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (Vof Wv) O bnd c).loose
  hwaits c := Pipeline.cellsWaits_of_cut (Pipeline.pin (pcfgs (F := F)) adm) (pdats (Vof Wv) O bnd) none 1 c 0 (O c) (fun _ => rfl)
    (fun _ _ => Finset.mem_univ _) (fun _ _ => le_of_eq rfl)
    (fun g i h => by
      cases i with
      | none => rw [hO] at h; exact absurd h (Nat.lt_irrefl 0)
      | some q => exact ⟨Finset.mem_univ _, (K (F := F)).lev_some_pos g q⟩)
  pre c := iprop(StableHlo.held (c : Thread nD τ) (Pipeline.ucRefs τ sig) (Wv c) ∗ Rr O bnd c)
  post c := iprop(StableHlo.held (c : Thread nD τ) (Pipeline.ucRefs τ sig) (Wout Wv O bnd c) ∗ Rr O bnd c)
  X c := iprop(∃ r, prngReg c r)
  Y c := iprop(∃ r, prngReg c r)
  Z c := Pipeline.unscopedRest (Ix := HIx 2) (Name := ℕ) (U := UU) (Lvl := ℕ) spec2 c (Vof Wv c)
  hentry c := by
    rw [Pipeline.ownSems0_none]
    have hsplit := Pipeline.arrays_of_unscopedBufs (p := 1) (pcfgs (F := F)) adm (pdats (Vof Wv) O bnd) launch2.win launch2.arr_whole c
      ((pdats (Vof Wv) O bnd 1 c).share_full fun _ => rfl) (Vof Wv c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl [Hp]; · iexact Hp
    iexact Hrest
  hin c := by
    rw [show (pdats (Vof Wv) O bnd 1 c).Φ 0 = Φ2 c from rfl]; unfold Φ2
    iintro ⟨Hp, -, Hr⟩
    isplitl [Hr]; · iexact Hr
    iexact Hp
  hout c := by
    rw [Pipeline.ownSems0_none, show (pdats (Vof Wv) O bnd 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 2) (Name := ℕ) (U := UU) (Lvl := ℕ)
      launch2.win launch2.arr_whole c (pdats (Vof Wv) O bnd) ((pdats (Vof Wv) O bnd 1 c).share_full fun _ => rfl)
      (Vof Wv c) (Vof (Wout Wv O bnd) c) ((pdats (Vof Wv) O bnd 1 c).arrAt · cfg2.N) (hF2 Wv O bnd c) (hrest2 Wv O bnd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

end Segment

end Cert.Kernel.Hand.Reg2

end
-- ==== Proof.SplitVecB.lean ====
/-
  The splits of the launch: separation-logic bookkeeping over points-to assertions; no program is run.

  A read share splits into a remainder and one token per receiver, and rejoins. The TensorCore gives each of the
  two SparseCores of a call a token of the full share of the arrays the call reads, and the rows (or chunks) of the
  result array its sixteen tiles write; each SparseCore's sequencer gives each tile a token of its token, and the
  tile's row (or chunks). Handing back rejoins the tokens with the remainders kept aside, and the parts of the
  result array, all now held at one whole-array function, into the whole array.
-/
import proofs.«211894_g61933428415975_cont_9to1c4b_619_7_alg».proof.Proof.PayB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MM F

/-! ## Read shares: a remainder and one token per receiver -/

section Shares

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (tv : (d : Dev nD) → Buf (Elt F) ((SparseCore.T d).loc main_v7))

/-- The arrays call 0 reads, at a share: the remainder after `n` tokens, and the `n` tokens. -/
theorem rd0_split (d : Dev nD) (q : PosShare TreeShare) (n : ℕ) :
    rd0 xv rmin rmax d q ⊢ (iprop(rd0 xv rmin rmax d (shareDrop q n) ∗ bigSep Finset.univ fun i : Fin n => rd0 xv rmin rmax d (shareTok q n i)) : sProp 𝕄) := by
  unfold rd0
  rw [bigSep_sep', bigSep_sep']
  iintro ⟨H0, H2, H3⟩
  ihave H0 := (pointsTo_toks_split (ℓ := (SparseCore.T d).loc main_v0) (S := Finset.univ) (f := xv d) q n) $$ H0
  ihave H2 := (pointsTo_toks_split (ℓ := (SparseCore.T d).loc main_v2) (S := Finset.univ) (f := rmin d) q n) $$ H2
  ihave H3 := (pointsTo_toks_split (ℓ := (SparseCore.T d).loc main_v3) (S := Finset.univ) (f := rmax d) q n) $$ H3
  icases H0 with ⟨D0, T0⟩
  icases H2 with ⟨D2, T2⟩
  icases H3 with ⟨D3, T3⟩
  isplitl [D0 D2 D3]
  · isplitl [D0]; · iexact D0
    isplitl [D2]; · iexact D2
    iexact D3
  · isplitl [T0]; · iexact T0
    isplitl [T2]; · iexact T2
    iexact T3

/-- and back. -/
theorem rd0_join (d : Dev nD) (q : PosShare TreeShare) (n : ℕ) :
    (iprop(rd0 xv rmin rmax d (shareDrop q n) ∗ bigSep Finset.univ fun i : Fin n => rd0 xv rmin rmax d (shareTok q n i)) : sProp 𝕄) ⊢ rd0 xv rmin rmax d q := by
  unfold rd0
  rw [bigSep_sep', bigSep_sep']
  iintro ⟨⟨D0, D2, D3⟩, T0, T2, T3⟩
  isplitl [D0 T0]
  · iapply (pointsTo_toks_join (ℓ := (SparseCore.T d).loc main_v0) (S := Finset.univ) (f := xv d) q n)
    isplitl [D0]; · iexact D0
    iexact T0
  isplitl [D2 T2]
  · iapply (pointsTo_toks_join (ℓ := (SparseCore.T d).loc main_v2) (S := Finset.univ) (f := rmin d) q n)
    isplitl [D2]; · iexact D2
    iexact T2
  · iapply (pointsTo_toks_join (ℓ := (SparseCore.T d).loc main_v3) (S := Finset.univ) (f := rmax d) q n)
    isplitl [D3]; · iexact D3
    iexact T3

/-- The arrays call 1 reads, at a share: the remainder after `n` tokens, and the `n` tokens. -/
theorem rd1_split (d : Dev nD) (q : PosShare TreeShare) (n : ℕ) :
    rd1 xv tv d q ⊢ (iprop(rd1 xv tv d (shareDrop q n) ∗ bigSep Finset.univ fun i : Fin n => rd1 xv tv d (shareTok q n i)) : sProp 𝕄) := by
  unfold rd1
  rw [bigSep_sep']
  iintro ⟨H0, H7⟩
  ihave H0 := (pointsTo_toks_split (ℓ := (SparseCore.T d).loc main_v0) (S := Finset.univ) (f := xv d) q n) $$ H0
  ihave H7 := (pointsTo_toks_split (ℓ := (SparseCore.T d).loc main_v7) (S := Finset.univ) (f := tv d) q n) $$ H7
  icases H0 with ⟨D0, T0⟩
  icases H7 with ⟨D7, T7⟩
  isplitl [D0 D7]
  · isplitl [D0]; · iexact D0
    iexact D7
  · isplitl [T0]; · iexact T0
    iexact T7

/-- and back. -/
theorem rd1_join (d : Dev nD) (q : PosShare TreeShare) (n : ℕ) :
    (iprop(rd1 xv tv d (shareDrop q n) ∗ bigSep Finset.univ fun i : Fin n => rd1 xv tv d (shareTok q n i)) : sProp 𝕄) ⊢ rd1 xv tv d q := by
  unfold rd1
  rw [bigSep_sep']
  iintro ⟨⟨D0, D7⟩, T0, T7⟩
  isplitl [D0 T0]
  · iapply (pointsTo_toks_join (ℓ := (SparseCore.T d).loc main_v0) (S := Finset.univ) (f := xv d) q n)
    isplitl [D0]; · iexact D0
    iexact T0
  · iapply (pointsTo_toks_join (ℓ := (SparseCore.T d).loc main_v7) (S := Finset.univ) (f := tv d) q n)
    isplitl [D7]; · iexact D7
    iexact T7

end Shares

/-! ## The sequencer's side: a SparseCore's share and parts to its sixteen tiles, and back -/

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0: the SparseCore's token splits into a remainder, kept until the tiles are done, and a token per tile; the
    rows are already per tile. -/
theorem vecSplit0 : (K (F := F)).VecSplit' (P (F := F) xv rmin rmax p4 tv g3) 0 := by
  intro d c
  change st0 xv rmin rmax d c ⊢ |={Set.univ}=> iprop(
      (bigSep Finset.univ fun i : Fin 16 => go0 xv rmin rmax d c i)
      ∗ ((bigSep Finset.univ fun i : Fin 16 => td0 xv rmin rmax p4 d c i) -∗ dn0 xv rmin rmax p4 d c))
  unfold st0 go0 td0 dn0
  rw [bigSep_sep', bigSep_sep']
  iintro ⟨Hr, Hw⟩
  ihave Hr := (rd0_split xv rmin rmax d (shC c) 16) $$ Hr
  icases Hr with ⟨Hd, Ht⟩
  imodintro
  isplitl [Ht Hw]
  · isplitl [Ht]; · iexact Ht
    iexact Hw
  iintro ⟨Ht, Hw⟩
  isplitl [Hd Ht]
  · iapply (rd0_join xv rmin rmax d (shC c) 16)
    isplitl [Hd]; · iexact Hd
    iexact Ht
  iexact Hw

/-- Call 1: the same, the parts being the tiles' chunks. -/
theorem vecSplit1 : (K (F := F)).VecSplit' (P (F := F) xv rmin rmax p4 tv g3) 1 := by
  intro d c
  change st1 xv tv d c ⊢ |={Set.univ}=> iprop(
      (bigSep Finset.univ fun i : Fin 16 => go1 xv tv d c i)
      ∗ ((bigSep Finset.univ fun i : Fin 16 => td1 xv tv g3 d c i) -∗ dn1 xv tv g3 d c))
  unfold st1 go1 td1 dn1
  rw [bigSep_sep', bigSep_sep']
  iintro ⟨Hr, Hw⟩
  ihave Hr := (rd1_split xv tv d (shC c) 16) $$ Hr
  icases Hr with ⟨Hd, Ht⟩
  imodintro
  isplitl [Ht Hw]
  · isplitl [Ht]; · iexact Ht
    iexact Hw
  iintro ⟨Ht, Hw⟩
  isplitl [Hd Ht]
  · iapply (rd1_join xv tv d (shC c) 16)
    isplitl [Hd]; · iexact Hd
    iexact Ht
  iexact Hw

end Contents

end Cert.Kernel.Hand

end
-- ==== Proof.SplitB.lean ====
/-
  The parts of the two result arrays, and the TensorCore's side of the two calls.

  The 2 × 16 × 16 array of minima and maxima is the disjoint union of its 32 rows (core, tile), each the unit
  rectangle at offsets (core, tile, 0) of sizes (1, 1, 16); the gathered array of 819200 words is the disjoint
  union of its 64 chunks of 12800 words, chunk t of tile i of core c being the one of number 4 i + 2 c + t. So a
  points-to on a whole result array is the separating conjunction of the points-tos on its parts, all at one
  function. The TensorCore splits the full share of the arrays a call reads into a remainder and a token per
  SparseCore, and the result array into its parts; handing back rejoins them.
-/
import proofs.«211894_g61933428415975_cont_9to1c4b_619_7_alg».proof.Proof.SplitVecB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks pointsTo_toks_split pointsTo_toks_join)

variable {F : FTy → Type}

local notation "𝕄" => MM F

/-! ## The rows of the array of minima and maxima -/

/-- A row, as the kernel slices it, is the unit rectangle at the printed offsets. -/
theorem rowSet_eq (L : grid1.Coords) : rowSet L = (Rect.unit (s := S2x16x16) (k1_off19 L) S1x1x16.size (k1_off19_inb L)).set := by
  show (((View.whole (main_v4_scv : Ref sig .scVector)).slice (Rect.unit (s := S2x16x16) (k1_off19 L) S1x1x16.size (k1_off19_inb L))).reshape S16 squeezes_S1x1x16_S16.numel_eq).set = _
  rw [View.set_reshape, View.set_slice_whole]

/-- Its elements: the first two coordinates are the grid point's. -/
theorem mem_rowSet (L : grid1.Coords) (x : S2x16x16.Idx) : x ∈ rowSet L ↔ (x 0).val = (L 0).val ∧ (x 1).val = (L 1).val := by
  rw [rowSet_eq, Rect.mem_set_unit, k1_off19_eq]
  constructor
  · intro h
    have h0 := h 0; have h1 := h 1
    change (L 0).val ≤ (x 0).val ∧ (x 0).val < (L 0).val + 1 at h0
    change (L 1).val ≤ (x 1).val ∧ (x 1).val < (L 1).val + 1 at h1
    omega
  · intro ⟨e0, e1⟩ a
    match a with
    | 0 => show (L 0).val ≤ (x 0).val ∧ (x 0).val < (L 0).val + 1; omega
    | 1 => show (L 1).val ≤ (x 1).val ∧ (x 1).val < (L 1).val + 1; omega
    | 2 =>
      have h2 : (x 2).val < 16 := (x 2).isLt
      show 0 ≤ (x 2).val ∧ (x 2).val < 0 + 16; omega

theorem mem_rowSet' (c : Fin 2) (i : Fin 16) (x : S2x16x16.Idx) : x ∈ rowSet (coords1 c i) ↔ (x 0).val = c.val ∧ (x 1).val = i.val :=
  mem_rowSet (coords1 c i) x

theorem rows_disjoint : ∀ a ∈ (Finset.univ : Finset (Fin 2 × Fin 16)), ∀ b ∈ (Finset.univ : Finset (Fin 2 × Fin 16)), a ≠ b →
    Disjoint (rowSet (coords1 a.1 a.2)) (rowSet (coords1 b.1 b.2)) := by
  intro a _ b _ hab
  rw [Finset.disjoint_left]
  intro x ha hb
  rw [mem_rowSet'] at ha hb
  exact hab (Prod.ext (Fin.ext (ha.1.symm.trans hb.1)) (Fin.ext (ha.2.symm.trans hb.2)))

theorem rows_cover : (Finset.univ : Finset (Fin 2 × Fin 16)).biUnion (fun a => rowSet (coords1 a.1 a.2)) = Finset.univ := by
  ext x
  simp only [Finset.mem_biUnion, Finset.mem_univ, true_and, iff_true]
  exact ⟨((x 0 : Fin 2), (x 1 : Fin 16)), (mem_rowSet' _ _ x).2 ⟨rfl, rfl⟩⟩

/-! ## The chunks of the gathered array -/

/-- Each tile's loop over its chunks makes two trips. -/
theorem trips3 : k3_t1_loop.trips = 2 := by decide

/-- A chunk, as the kernel slices it, is the unit rectangle at the printed offset. -/
theorem chunkSet_eq (L : grid3.Coords) (t : Fin k3_t1_loop.trips) :
    chunkSet L t = (Rect.unit (s := S819200) (k3_off1 L t) S12800.size (k3_off1_inb L t)).set := by
  show ((View.whole (main_v8_scv : Ref sig .scVector)).slice (Rect.unit (s := S819200) (k3_off1 L t) S12800.size (k3_off1_inb L t))).set = _
  rw [View.set_slice_whole]

/-- Its elements: the 12800 words from 12800 times the chunk's number. -/
theorem mem_chunkSet (L : grid3.Coords) (t : Fin k3_t1_loop.trips) (x : S819200.Idx) :
    x ∈ chunkSet L t ↔ 12800 * (4 * (L 1).val + 2 * (L 0).val + t.val) ≤ (x 0).val ∧ (x 0).val < 12800 * (4 * (L 1).val + 2 * (L 0).val + t.val) + 12800 := by
  rw [chunkSet_eq, Rect.mem_set_unit, k3_off1_eq]
  constructor
  · intro h
    have h0 := h 0
    change 51200 * (L 1).val + 25600 * (L 0).val + 12800 * t.val ≤ (x 0).val ∧ (x 0).val < 51200 * (L 1).val + 25600 * (L 0).val + 12800 * t.val + 12800 at h0
    omega
  · intro h a
    match a with
    | 0 =>
      show 51200 * (L 1).val + 25600 * (L 0).val + 12800 * t.val ≤ (x 0).val ∧ (x 0).val < 51200 * (L 1).val + 25600 * (L 0).val + 12800 * t.val + 12800
      omega

theorem mem_chunkSet' (c : Fin 2) (i : Fin 16) (t : Fin k3_t1_loop.trips) (x : S819200.Idx) :
    x ∈ chunkSet (coords3 c i) t ↔ 12800 * (4 * i.val + 2 * c.val + t.val) ≤ (x 0).val ∧ (x 0).val < 12800 * (4 * i.val + 2 * c.val + t.val) + 12800 :=
  mem_chunkSet (coords3 c i) t x

theorem chunks_disjoint : ∀ a ∈ (Finset.univ : Finset (Fin 2 × Fin 16 × Fin k3_t1_loop.trips)), ∀ b ∈ (Finset.univ : Finset (Fin 2 × Fin 16 × Fin k3_t1_loop.trips)), a ≠ b →
    Disjoint (chunkSet (coords3 a.1 a.2.1) a.2.2) (chunkSet (coords3 b.1 b.2.1) b.2.2) := by
  intro a _ b _ hab
  rw [Finset.disjoint_left]
  intro x ha hb
  rw [mem_chunkSet'] at ha hb
  have hta : a.2.2.val < 2 := lt_of_lt_of_eq a.2.2.isLt trips3
  have htb : b.2.2.val < 2 := lt_of_lt_of_eq b.2.2.isLt trips3
  have hca : a.1.val < 2 := a.1.isLt
  have hcb : b.1.val < 2 := b.1.isLt
  refine hab (Prod.ext (Fin.ext ?_) (Prod.ext (Fin.ext ?_) (Fin.ext ?_))) <;> omega

theorem chunks_cover : (Finset.univ : Finset (Fin 2 × Fin 16 × Fin k3_t1_loop.trips)).biUnion (fun a => chunkSet (coords3 a.1 a.2.1) a.2.2) = Finset.univ := by
  ext x
  simp only [Finset.mem_biUnion, Finset.mem_univ, true_and, iff_true]
  have hx : (x 0).val < 819200 := (x 0).isLt
  refine ⟨(⟨(x 0).val / 12800 % 4 / 2, by omega⟩, ⟨(x 0).val / 12800 / 4, by omega⟩, ⟨(x 0).val / 12800 % 2, by rw [trips3]; omega⟩), (mem_chunkSet' _ _ _ x).2 ?_⟩
  show 12800 * (4 * ((x 0).val / 12800 / 4) + 2 * ((x 0).val / 12800 % 4 / 2) + (x 0).val / 12800 % 2) ≤ (x 0).val
    ∧ (x 0).val < 12800 * (4 * ((x 0).val / 12800 / 4) + 2 * ((x 0).val / 12800 % 4 / 2) + (x 0).val / 12800 % 2) + 12800
  omega

/-! ## A whole result array is its parts -/

/-- A separating conjunction over triples, one index after another. -/
theorem bigSep_univ3 {A B C : Type} [Fintype A] [Fintype B] [Fintype C] [DecidableEq A] [DecidableEq B] [DecidableEq C]
    (Φ : A × B × C → sProp 𝕄) :
    bigSep Finset.univ Φ = bigSep Finset.univ fun a => bigSep Finset.univ fun b => bigSep Finset.univ fun c => Φ (a, b, c) := by
  rw [← Finset.univ_product_univ, SparseCore.bigSep_product]
  refine bigSep_congr fun a _ => ?_
  rw [← Finset.univ_product_univ, SparseCore.bigSep_product]

theorem v4_rows (d : Dev nD) (f : Buf (Elt F) ((SparseCore.T d).loc main_v4)) :
    ((SparseCore.T d).loc main_v4 ↦{fullShare} f : sProp 𝕄)
      = bigSep Finset.univ fun c : Fin 2 => bigSep Finset.univ fun i : Fin 16 => (SparseCore.T d).loc main_v4 ↦[rowSet (coords1 c i)]{fullShare} f := by
  rw [← SparseCore.bigSep_product Finset.univ Finset.univ (fun a : Fin 2 × Fin 16 => ((SparseCore.T d).loc main_v4 ↦[rowSet (coords1 a.1 a.2)]{fullShare} f : sProp 𝕄)),
    Finset.univ_product_univ,
    ← pointsTo_biUnion Finset.univ (ℓ := (SparseCore.T d).loc main_v4) (fun a : Fin 2 × Fin 16 => rowSet (coords1 a.1 a.2)) rows_disjoint, rows_cover]
  try rfl

theorem v8_chunks (d : Dev nD) (f : Buf (Elt F) ((SparseCore.T d).loc main_v8)) :
    ((SparseCore.T d).loc main_v8 ↦{fullShare} f : sProp 𝕄)
      = bigSep Finset.univ fun c : Fin 2 => bigSep Finset.univ fun i : Fin 16 => bigSep Finset.univ fun t : Fin k3_t1_loop.trips =>
          (SparseCore.T d).loc main_v8 ↦[chunkSet (coords3 c i) t]{fullShare} f := by
  rw [← bigSep_univ3 (fun a : Fin 2 × Fin 16 × Fin k3_t1_loop.trips => ((SparseCore.T d).loc main_v8 ↦[chunkSet (coords3 a.1 a.2.1) a.2.2]{fullShare} f : sProp 𝕄)),
    ← pointsTo_biUnion Finset.univ (ℓ := (SparseCore.T d).loc main_v8) (fun a : Fin 2 × Fin 16 × Fin k3_t1_loop.trips => chunkSet (coords3 a.1 a.2.1) a.2.2) chunks_disjoint, chunks_cover]
  try rfl

/-! ## The TensorCore's side: the full share and the whole result array to the two SparseCores, and back -/

section Contents

variable (xv : (d : Dev nD) → Buf (Elt F) ((SparseCore.T d).loc main_v0))
  (rmin : (d : Dev nD) → Buf (Elt F) ((SparseCore.T d).loc main_v2)) (rmax : (d : Dev nD) → Buf (Elt F) ((SparseCore.T d).loc main_v3))
  (p4 : (d : Dev nD) → Buf (Elt F) ((SparseCore.T d).loc main_v4))
  (tv : (d : Dev nD) → Buf (Elt F) ((SparseCore.T d).loc main_v7)) (g3 : (d : Dev nD) → Buf (Elt F) ((SparseCore.T d).loc main_v8))

/-- Call 0: the full share of the arrays read splits into a remainder, kept until both SparseCores are done, and a
    token per SparseCore; the result array splits into its 32 rows, and comes back whole at the one function. -/
theorem call0_hand (d : Dev nD) :
    iprop(((SparseCore.T d).loc main_v0 ↦{fullShare} xv d) ∗ ((SparseCore.T d).loc main_v2 ↦{fullShare} rmin d) ∗ ((SparseCore.T d).loc main_v3 ↦{fullShare} rmax d)
        ∗ (∃ f, (SparseCore.T d).loc main_v4 ↦{fullShare} f))
      ⊢ (iprop((bigSep Finset.univ fun c : Fin ((K (F := F)).nCore 0) => (P (F := F) xv rmin rmax p4 tv g3).st 0 d c)
          ∗ ((bigSep Finset.univ fun c : Fin ((K (F := F)).nCore 0) => (P (F := F) xv rmin rmax p4 tv g3).dn 0 d c)
            -∗ iprop(((SparseCore.T d).loc main_v0 ↦{fullShare} xv d) ∗ ((SparseCore.T d).loc main_v2 ↦{fullShare} rmin d) ∗ ((SparseCore.T d).loc main_v3 ↦{fullShare} rmax d)
              ∗ ((SparseCore.T d).loc main_v4 ↦{fullShare} p4 d)))) : sProp 𝕄) := by
  change _ ⊢ iprop((bigSep Finset.univ fun c : Fin 2 => st0 xv rmin rmax d c)
      ∗ ((bigSep Finset.univ fun c : Fin 2 => dn0 xv rmin rmax p4 d c) -∗ _))
  unfold st0 dn0
  rw [bigSep_sep', bigSep_sep', v4_rows d (p4 d)]
  iintro ⟨H0, H2, H3, %f, H4⟩
  ihave H4 := (Entails.of_eq (v4_rows d f)) $$ H4
  have hex : ∀ I : Finset S2x16x16.Idx, ((SparseCore.T d).loc main_v4 ↦[I]{fullShare} f : sProp 𝕄) ⊢ iprop(∃ f, (SparseCore.T d).loc main_v4 ↦[I]{fullShare} f) :=
    fun I => exists_intro (Φ := fun f => ((SparseCore.T d).loc main_v4 ↦[I]{fullShare} f : sProp 𝕄)) f
  have hmono : (bigSep Finset.univ fun c : Fin 2 => bigSep Finset.univ fun i : Fin 16 => ((SparseCore.T d).loc main_v4 ↦[rowSet (coords1 c i)]{fullShare} f : sProp 𝕄))
      ⊢ bigSep Finset.univ fun c : Fin 2 => bigSep Finset.univ fun i : Fin 16 => iprop(∃ f, (SparseCore.T d).loc main_v4 ↦[rowSet (coords1 c i)]{fullShare} f) :=
    bigSep_mono fun c _ => bigSep_mono fun i _ => hex (rowSet (coords1 c i))
  ihave Hr := (rd0_split xv rmin rmax d fullShare 2) $$ [H0 H2 H3]
  · unfold rd0
    isplitl [H0]; · iexact H0
    isplitl [H2]; · iexact H2
    iexact H3
  icases Hr with ⟨Hd, Ht⟩
  isplitl [Ht H4]
  · isplitl [Ht]; · iexact Ht
    iapply hmono
    iexact H4
  iintro ⟨Ht, H4⟩
  ihave Hr := (rd0_join xv rmin rmax d fullShare 2) $$ [Hd Ht]
  · isplitl [Hd]; · iexact Hd
    iexact Ht
  unfold rd0
  icases Hr with ⟨H0, H2, H3⟩
  isplitl [H0]; · iexact H0
  isplitl [H2]; · iexact H2
  isplitl [H3]; · iexact H3
  iexact H4

/-- Call 1: the same, the result array splitting into its 64 chunks. -/
theorem call1_hand (d : Dev nD) :
    iprop(((SparseCore.T d).loc main_v0 ↦{fullShare} xv d) ∗ ((SparseCore.T d).loc main_v7 ↦{fullShare} tv d)
        ∗ (∃ f, (SparseCore.T d).loc main_v8 ↦{fullShare} f))
      ⊢ (iprop((bigSep Finset.univ fun c : Fin ((K (F := F)).nCore 1) => (P (F := F) xv rmin rmax p4 tv g3).st 1 d c)
          ∗ ((bigSep Finset.univ fun c : Fin ((K (F := F)).nCore 1) => (P (F := F) xv rmin rmax p4 tv g3).dn 1 d c)
            -∗ iprop(((SparseCore.T d).loc main_v0 ↦{fullShare} xv d) ∗ ((SparseCore.T d).loc main_v7 ↦{fullShare} tv d)
              ∗ ((SparseCore.T d).loc main_v8 ↦{fullShare} g3 d)))) : sProp 𝕄) := by
  change _ ⊢ iprop((bigSep Finset.univ fun c : Fin 2 => st1 xv tv d c)
      ∗ ((bigSep Finset.univ fun c : Fin 2 => dn1 xv tv g3 d c) -∗ _))
  unfold st1 dn1
  rw [bigSep_sep', bigSep_sep', v8_chunks d (g3 d)]
  iintro ⟨H0, H7, %f, H8⟩
  ihave H8 := (Entails.of_eq (v8_chunks d f)) $$ H8
  have hex : ∀ I : Finset S819200.Idx, ((SparseCore.T d).loc main_v8 ↦[I]{fullShare} f : sProp 𝕄) ⊢ iprop(∃ f, (SparseCore.T d).loc main_v8 ↦[I]{fullShare} f) :=
    fun I => exists_intro (Φ := fun f => ((SparseCore.T d).loc main_v8 ↦[I]{fullShare} f : sProp 𝕄)) f
  have hmono : (bigSep Finset.univ fun c : Fin 2 => bigSep Finset.univ fun i : Fin 16 => bigSep Finset.univ fun t : Fin k3_t1_loop.trips =>
        ((SparseCore.T d).loc main_v8 ↦[chunkSet (coords3 c i) t]{fullShare} f : sProp 𝕄))
      ⊢ bigSep Finset.univ fun c : Fin 2 => bigSep Finset.univ fun i : Fin 16 => bigSep Finset.univ fun t : Fin k3_t1_loop.trips =>
        iprop(∃ f, (SparseCore.T d).loc main_v8 ↦[chunkSet (coords3 c i) t]{fullShare} f) :=
    bigSep_mono fun c _ => bigSep_mono fun i _ => bigSep_mono fun t _ => hex (chunkSet (coords3 c i) t)
  ihave Hr := (rd1_split xv tv d fullShare 2) $$ [H0 H7]
  · unfold rd1
    isplitl [H0]; · iexact H0
    iexact H7
  icases Hr with ⟨Hd, Ht⟩
  isplitl [Ht H8]
  · isplitl [Ht]; · iexact Ht
    iapply hmono
    iexact H8
  iintro ⟨Ht, H8⟩
  ihave Hr := (rd1_join xv tv d fullShare 2) $$ [Hd Ht]
  · isplitl [Hd]; · iexact Hd
    iexact Ht
  unfold rd1
  icases Hr with ⟨H0, H7⟩
  isplitl [H0]; · iexact H0
  isplitl [H7]; · iexact H7
  iexact H8

end Contents

end Cert.Kernel.Hand

end
-- ==== Proof.TileGatherB.lean ====
/-
  One tile's body of the second SparseCore kernel (the gather), at a symbolic grid point.

  The tile copies the whole table into its table scratch. Then, for each of its two chunks of 12800 index words: it
  copies the chunk's index words into its index scratch; in 100 trips of eight steps it reads sixteen index words,
  reads the table scratch at the rows they name and stores the sixteen values into its out scratch at the same
  offset; and it copies the out scratch to the chunk of the output. Each copy is issued and waited for by the tile on
  a semaphore of its own.

  The value is carried in the loops' invariants: before inner trip `j` the first `128 j` entries of the out scratch
  are the table entries the chunk's first `128 j` index words name; before outer trip `k` the chunks below `k` of the
  output hold the gathered array `G3`. Index words are below the table's extent (`hx`), so each range check passes
  and a word names the row of its own value.
-/
import proofs.«211894_g61933428415975_cont_9to1c4b_619_7_alg».proof.Proof.SetupB
import proofs.«211894_g61933428415975_cont_9to1c4b_619_7_alg».proof.Proof.Spec

noncomputable section

namespace Cert.Kernel.Hand.Gather

open Cert.Kernel Cert.Kernel.Gen Cert.Kernel.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

variable [FloatOps F]

/-- The tile at grid point `L` of device `d`. -/
abbrev thr (d : Dev nD) (L : grid3.Coords) : Thread nD τ := V d ((L 0).castLE hcore3) ((L 1).castLE hsub3)

abbrev cV (L : grid3.Coords) : Fin τ.nSC := (L 0).castLE hcore3
abbrev jV (L : grid3.Coords) : Fin τ.nSub := (L 1).castLE hsub3

/-- The gathered array: entry `n` is the table entry the `n`-th index word names. -/
def G3 {d : Dev nD} (xv : Buf (Elt F) ((SparseCore.T (τ := τ) d).loc main_v0)) (tv : Buf (Elt F) ((SparseCore.T (τ := τ) d).loc main_v7)) :
    Buf (Elt F) ((SparseCore.T (τ := τ) d).loc main_v8) :=
  fun n => tv (ValueIdx.ix1 (Cert.Spec.row (xv n)))

/-- The part of the output that chunk `t` of tile `L` covers, spelt as the program slices it. -/
abbrev chunkSet (L : grid3.Coords) (t : Fin k3_t1_loop.trips) : Finset S819200.Idx :=
  ((Memref.whole main_v8_scv : Memref sig .scVector .hbm S819200 .f32).slice
    (Rect.unit (s := S819200) (k3_off1 L t) S12800.size (k3_off1_inb L t)) (fun _ => rfl)).view.set

-- the kernel's memrefs, spelt as the program names them
local notation "xW" => (Memref.whole Cert.Kernel.main_v0_scv : Memref Cert.Kernel.sig Kind.scVector Space.hbm Cert.Kernel.S819200 EltTy.i32)
local notation "tW" => (Memref.whole Cert.Kernel.main_v7_scv : Memref Cert.Kernel.sig Kind.scVector Space.hbm Cert.Kernel.S100000 EltTy.f32)
local notation "oW" => (Memref.whole Cert.Kernel.main_v8_scv : Memref Cert.Kernel.sig Kind.scVector Space.hbm Cert.Kernel.S819200 EltTy.f32)
local notation "s5" => (Memref.whole Cert.Kernel.cc3_scratch0 : Memref Cert.Kernel.sig Kind.scVector Space.vmem Cert.Kernel.S100000 EltTy.f32)
local notation "s6" => (Memref.whole Cert.Kernel.cc3_scratch1 : Memref Cert.Kernel.sig Kind.scVector Space.vmem Cert.Kernel.S12800 EltTy.i32)
local notation "s7" => (Memref.whole Cert.Kernel.cc3_scratch2 : Memref Cert.Kernel.sig Kind.scVector Space.vmem Cert.Kernel.S12800 EltTy.f32)

/-- Chunk `t` of the index array and of the output, as the tile slices them. -/
abbrev xChunk (L : grid3.Coords) (t : Fin k3_t1_loop.trips) : Memref sig .scVector .hbm S12800 .i32 :=
  (xW).slice (Rect.unit (s := S819200) (k3_off1 L t) S12800.size (k3_off1_inb L t)) (fun _ => rfl)
abbrev oChunk (L : grid3.Coords) (t : Fin k3_t1_loop.trips) : Memref sig .scVector .hbm S12800 .f32 :=
  (oW).slice (Rect.unit (s := S819200) (k3_off1 L t) S12800.size (k3_off1_inb L t)) (fun _ => rfl)

section Tile

variable (d : Dev nD) (L : grid3.Coords)

abbrev c0cell : GSem nD τ sig := (thr d L, .dma cc3_scoped0.sem)
abbrev c1cell : GSem nD τ sig := (thr d L, .dma cc3_scoped1.sem)
abbrev c2cell : GSem nD τ sig := (thr d L, .dma cc3_scoped2.sem)

omit [FloatOps F] in
theorem ownSems0_V :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc3_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc3_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc3_scoped2.sem : SemLoc sig).isScoped .scVector = true; decide⟩⟩⟩)]

omit [FloatOps F] in
/-- The three scratch buffers are among the tile's own: they are them, at some contents, and the rest. -/
theorem ownBufs_V :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

/-! The arrays as the tile's memrefs address them are the device's arrays. -/
omit [FloatOps F] in
theorem pts_x (q : PosShare TreeShare) (f : Buf (Elt F) ((SparseCore.T d).loc main_v0)) :
    ((xW).view.loc (thr d L) ↦{q} f : sProp 𝕄) = (SparseCore.T d).loc main_v0 ↦{q} f := by
  simp only [Memref.view_whole, View.set_whole]
omit [FloatOps F] in
theorem pts_t (q : PosShare TreeShare) (f : Buf (Elt F) ((SparseCore.T d).loc main_v7)) :
    ((tW).view.loc (thr d L) ↦{q} f : sProp 𝕄) = (SparseCore.T d).loc main_v7 ↦{q} f := by
  simp only [Memref.view_whole, View.set_whole]
omit [FloatOps F] in
theorem pts_o (t : Fin k3_t1_loop.trips) (f : Buf (Elt F) ((SparseCore.T d).loc main_v8)) :
    ((oChunk L t).view.loc (thr d L) ↦[(oChunk L t).view.set]{fullShare} f : sProp 𝕄)
      = (SparseCore.T d).loc main_v8 ↦[chunkSet L t]{fullShare} f := rfl
omit [FloatOps F] in
theorem pts_s5 (f : Buf (Elt F) ((thr d L).loc cc3_scratch0)) :
    ((s5).view.loc (thr d L) ↦{fullShare} f : sProp 𝕄) = (thr d L).loc cc3_scratch0 ↦{fullShare} f := rfl
omit [FloatOps F] in
theorem pts_s6 (f : Buf (Elt F) ((thr d L).loc cc3_scratch1)) :
    ((s6).view.loc (thr d L) ↦{fullShare} f : sProp 𝕄) = (thr d L).loc cc3_scratch1 ↦{fullShare} f := rfl
omit [FloatOps F] in
theorem pts_s7 (f : Buf (Elt F) ((thr d L).loc cc3_scratch2)) :
    ((s7).view.loc (thr d L) ↦{fullShare} f : sProp 𝕄) = (thr d L).loc cc3_scratch2 ↦{fullShare} f := rfl

/-- What the index words name, read through a tile's index scratch holding `f6`. -/
abbrev gath (tv : Buf (Elt F) ((SparseCore.T (τ := τ) d).loc main_v7)) (f6 : Buf (Elt F) ((thr d L).loc cc3_scratch1)) :
    Buf (Elt F) ((thr d L).loc cc3_scratch2) :=
  fun y => tv (ValueIdx.ix1 (Cert.Spec.row (f6 y)))

/-- Before inner trip `j`: the table scratch holds the table, the index scratch the chunk's index words, and the first
    `128 * j` entries of the out scratch are the table entries those words name. -/
def invI (tv : Buf (Elt F) ((SparseCore.T (τ := τ) d).loc main_v7)) (f6 : Buf (Elt F) ((thr d L).loc cc3_scratch1)) (j : Nat) (_ : BitVec 32) : sProp 𝕄 :=
  iprop(((s5).view.loc (thr d L) ↦{fullShare} tv)
    ∗ ((s6).view.loc (thr d L) ↦{fullShare} f6)
    ∗ ∃ f7, ((s7).view.loc (thr d L) ↦{fullShare} f7) ∗ ⌜∀ y : S12800.Idx, (y 0).val < 128 * j → f7 y = gath d L tv f6 y⌝)

/-- Before outer trip `k`: the chunks below `k` hold the gathered array. -/
def invO (q₁ : PosShare TreeShare) (xv : Buf (Elt F) ((SparseCore.T (τ := τ) d).loc main_v0)) (tv : Buf (Elt F) ((SparseCore.T (τ := τ) d).loc main_v7))
    (O : CellTallies nD τ sig (HIx 2)) (W : Waits sig (HIx 2)) (k : Nat) (_ : BitVec 32) : sProp 𝕄 :=
  iprop(Transfers.MayWaits (thr d L) (none : HIx 2) O
    ∗ ((xW).view.loc (thr d L) ↦{q₁} xv)
    ∗ ((s5).view.loc (thr d L) ↦{fullShare} tv)
    ∗ (∃ f, (s6).view.loc (thr d L) ↦{fullShare} f)
    ∗ (∃ f, (s7).view.loc (thr d L) ↦{fullShare} f)
    ∗ (bigSep Finset.univ fun t : Fin k3_t1_loop.trips =>
        iprop(∃ f, ((SparseCore.T d).loc main_v8 ↦[chunkSet L t]{fullShare} f) ∗ ⌜t.val < k → ∀ i ∈ chunkSet L t, f i = G3 xv tv i⌝))
    ∗ semVal (c1cell d L) 0 ∗ semVal (c2cell d L) 0
    ∗ ∃ W', ⌜∀ p ∈ W', p ∈ W ∨ p.2 = none⌝ ∗ owes (thr d L) O W')

omit [FloatOps F] in
/-- Sixteen index words, each below the table's extent, pass the kernel's range check. -/
theorem chk_of_lt (v : IVec S16 32) (h : ∀ x, (v x).toNat < 100000) :
    ∀ a x, ((![v] : Fin 1 → IVec S16 32) a x).toNat < S100000.size a := by
  intro a x
  obtain rfl : a = 0 := Subsingleton.elim _ _
  exact h x

omit [FloatOps F] in
theorem s6_lands (f6 : Buf (Elt F) ((thr d L).loc cc3_scratch1)) (w) :
    View.write (Elt F) (s6).view f6 w Finset.univ = w := View.write_whole_univ _ _ _
omit [FloatOps F] in
theorem s5_lands (f5 : Buf (Elt F) ((thr d L).loc cc3_scratch0)) (w) :
    View.write (Elt F) (s5).view f5 w Finset.univ = w := View.write_whole_univ _ _ _

omit [FloatOps F] in
/-- The index scratch after chunk `t`'s fetch holds the chunk's index words. -/
theorem read_x (xv : Buf (Elt F) ((SparseCore.T (τ := τ) d).loc main_v0)) (t : Fin k3_t1_loop.trips) (y : S12800.Idx) :
    (xChunk L t).view.read (Elt F) xv y = xv ((xChunk L t).view.emb y) :=
  (View.read_apply _ _).trans (cast_eq _ _)

omit [FloatOps F] in
theorem read_x_lt (xv : Buf (Elt F) ((SparseCore.T (τ := τ) d).loc main_v0)) (hx : ∀ n, (xv n).toNat < 100000)
    (t : Fin k3_t1_loop.trips) (y : S12800.Idx) : ((xChunk L t).view.read (Elt F) xv y).toNat < 100000 := by
  rw [read_x]; exact hx _

omit [FloatOps F] in
/-- A unit rectangle of sixteen entries of the scratch from entry `c` on. -/
theorem mem_piece {off : Fin 1 → Nat} {inb : ∀ a, off a + S16.size a ≤ S12800.size a} {c : Nat} (e : off = ![c]) (y : S12800.Idx) :
    y ∈ (Rect.unit (s := S12800) off S16.size inb).set ↔ c ≤ (y 0).val ∧ (y 0).val < c + 16 := by
  subst e
  rw [Rect.mem_set_unit]
  constructor
  · intro h; simpa using h 0
  · intro h a; obtain rfl : a = 0 := Subsingleton.elim _ _; simpa using h

omit [FloatOps F] in
/-- One gathered block of sixteen: the table entries that sixteen index words of the index scratch name. -/
theorem piece_eq (tv : Buf (Elt F) ((SparseCore.T (τ := τ) d).loc main_v7)) (F6 : Buf (Elt F) ((thr d L).loc cc3_scratch1))
    (off : Fin 1 → Nat) (inb : ∀ a, off a + S16.size a ≤ S12800.size a)
    (h : ∀ a x, ((![View.readAt (Elt F) (s6).view (Rect.unit (s := S12800) off S16.size inb).toLoadRect F6] : Fin 1 → IVec S16 32) a x).toNat < S100000.size a)
    (x : (Rect.unit (s := S12800) off S16.size inb).shape.Idx) :
    loadIdx (View.readAt (Elt F) (s5).view (LoadRect.whole S100000) tv)
        ![View.readAt (Elt F) (s6).view (Rect.unit (s := S12800) off S16.size inb).toLoadRect F6] h x
      = gath d L tv F6 ((Rect.unit (s := S12800) off S16.size inb).emb x) := by
  show tv ((LoadRect.whole S100000).idx (idxAt _ h x)) = tv (ValueIdx.ix1 _)
  rw [LoadRect.idx_whole]
  congr 1
  funext a
  obtain rfl : a = 0 := Subsingleton.elim _ _
  apply Fin.ext
  exact (Nat.mod_eq_of_lt (h 0 x)).symm

omit [FloatOps F] in
/-- One inner trip's eight stores extend the gathered prefix of the out scratch by 128 entries. -/
theorem trip_val (G : S12800.Idx → F .f32) (g7 : Buf (Elt F) ((thr d L).loc cc3_scratch2)) (j : ℕ) (Ls : List (View.Piece (Elt F) S12800 .f32))
    (hL : ∀ p ∈ Ls, ∀ x, p.2 x = G (p.1.emb x))
    (hin : ∀ p ∈ Ls, ∀ y ∈ p.1.set, 128 * j ≤ (y 0).val)
    (hcov : ∀ y : S12800.Idx, 128 * j ≤ (y 0).val → (y 0).val < 128 * (j + 1) → ∃ p ∈ Ls, y ∈ p.1.set)
    (h7 : ∀ y : S12800.Idx, (y 0).val < 128 * j → g7 y = G y) :
    ∀ y : S12800.Idx, (y 0).val < 128 * (j + 1) → (s7).view.writes (Elt F) g7 Ls y = G y := by
  intro y hy
  by_cases h : (y 0).val < 128 * j
  · have := View.read_writes_apply_of_forall_not_mem (s7).view g7 y Ls (fun p hp hm => absurd (hin p hp y hm) (by omega))
    exact this.trans (h7 y h)
  · exact View.read_writes_apply_of_pieces (s7).view g7 G Ls hL y (hcov y (by omega) hy)

omit [FloatOps F] in
/-- The eight stores of inner trip `j` land at entries `128 j + 16 r`, `r = 0 … 7`, of the out scratch. -/
theorem offs (j : Fin k3_t2_loop.trips) :
    k3_off3 j 0#32 = ![128 * j.val + 16 * 0] ∧ k3_off4 j 1#32 = ![128 * j.val + 16 * 0 + 16] ∧ k3_off5 j 2#32 = ![128 * j.val + 16 * 0 + 32]
      ∧ k3_off6 j 3#32 = ![128 * j.val + 16 * 0 + 48] ∧ k3_off7 j 4#32 = ![128 * j.val + 16 * 0 + 64] ∧ k3_off8 j 5#32 = ![128 * j.val + 16 * 0 + 80]
      ∧ k3_off9 j 6#32 = ![128 * j.val + 16 * 0 + 96] ∧ k3_off10 j = ![128 * j.val + 112] :=
  ⟨k3_off3_eq j ⟨0, by decide⟩, k3_off4_eq j ⟨0, by decide⟩, k3_off5_eq j ⟨0, by decide⟩, k3_off6_eq j ⟨0, by decide⟩,
    k3_off7_eq j ⟨0, by decide⟩, k3_off8_eq j ⟨0, by decide⟩, k3_off9_eq j ⟨0, by decide⟩, k3_off10_eq j⟩

omit [FloatOps F] in
theorem trips2 : k3_t2_loop.trips = 100 := by decide

omit [FloatOps F] in
/-- What the copy-out of the out scratch leaves in chunk `t` of the output: the gathered array there. -/
theorem chunk_val (xv : Buf (Elt F) ((SparseCore.T (τ := τ) d).loc main_v0)) (tv : Buf (Elt F) ((SparseCore.T (τ := τ) d).loc main_v7))
    (t : Fin k3_t1_loop.trips) (fo : Buf (Elt F) ((SparseCore.T (τ := τ) d).loc main_v8)) (w : S12800.Idx → F .f32)
    (hw : ∀ y : S12800.Idx, w y = gath d L tv ((xChunk L t).view.read (Elt F) xv) y) :
    ∀ i ∈ chunkSet L t, (oChunk L t).view.writes (Elt F) fo [⟨Rect.whole S12800, w⟩] i = G3 xv tv i := by
  intro i hi
  obtain ⟨y, -, rfl⟩ := Finset.mem_map.mp hi
  have h1 := View.read_writes_cons_emb (oChunk L t).view fo (Rect.whole S12800) w [] y
  rw [Rect.emb_whole_apply, View.read_apply, cast_eq] at h1
  rw [h1, hw y]
  show tv _ = tv _
  rw [read_x]
  rfl

omit [FloatOps F] in
/-- A proof-mode entailment, as the library's big-conjunction lemmas ask for it. -/
theorem unent {P Q : sProp 𝕄} (h : P ⊢ Q) : Idealize.SL.BI.Entails P Q := h

omit [FloatOps F] in
/-- Chunk `t` of tile `L` is the 12800 entries of the output from entry `25600 (2 L₁ + L₀) + 12800 t` on. -/
theorem chunkSet_mem (t : Fin k3_t1_loop.trips) (n : S819200.Idx) :
    n ∈ chunkSet L t ↔ 25600 * (2 * (L 1).val + (L 0).val) + 12800 * t.val ≤ (n 0).val
      ∧ (n 0).val < 25600 * (2 * (L 1).val + (L 0).val) + 12800 * t.val + 12800 := by
  have e : chunkSet L t = (Rect.unit (s := S819200) (k3_off1 L t) S12800.size (k3_off1_inb L t)).set := View.set_slice_whole _ _
  rw [e, Rect.mem_set_unit, k3_off1_eq]
  constructor
  · intro h
    have h0 := h 0
    simp only [Matrix.cons_val_zero] at h0
    have : S12800.size 0 = 12800 := rfl
    omega
  · intro h a
    obtain rfl : a = 0 := Subsingleton.elim _ _
    simp only [Matrix.cons_val_zero]
    have : S12800.size 0 = 12800 := rfl
    omega

set_option maxHeartbeats 4000000 in
theorem body (q₁ q₂ : PosShare TreeShare) (xv : Buf (Elt F) ((SparseCore.T d).loc main_v0)) (tv : Buf (Elt F) ((SparseCore.T d).loc main_v7))
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v7 ↦{q₂} tv)
        ∗ (bigSep Finset.univ fun t : Fin k3_t1_loop.trips => iprop(∃ f, (SparseCore.T d).loc main_v8 ↦[chunkSet L t]{fullShare} f))
        ∗ scopedBufs (thr d L) ∗ scopedSems0 (thr d L) ∗ owes (thr d L) O W) : sProp 𝕄)
      ⊢ wp frame (wpE (defs₀ (F := F)) 𝒱₀ (thr d L) none) Set.univ
          (cc3_k L xW (Memref.isWhole_whole _) tW (Memref.isWhole_whole _) oW (Memref.isWhole_whole _)
            s5 (Memref.isWhole_whole _) s6 (Memref.isWhole_whole _) s7 (Memref.isWhole_whole _) cc3_scoped0 cc3_scoped1 cc3_scoped2)
          fun _ => iprop(((SparseCore.T d).loc main_v0 ↦{q₁} xv) ∗ ((SparseCore.T d).loc main_v7 ↦{q₂} tv)
            ∗ (bigSep Finset.univ fun t : Fin k3_t1_loop.trips => (SparseCore.T d).loc main_v8 ↦[chunkSet L t]{fullShare} G3 xv tv)
            ∗ scopedBufs (thr d L) ∗ scopedSems0 (thr d L) ∗ ∃ W', ⌜∀ p ∈ W', p ∈ W ∨ p.2 = none⌝ ∗ owes (thr d L) O W') := by

  rw [(K (F := F)).scopedBufs_V (facts (F := F)) d (cV L) (jV L), SparseCore.Cfg.scopedSems0_V (Val := Elt F) d (cV L) (jV L), ownSems0_V, ownBufs_V]
  iintro ⟨#Hlv, Hx, Ht, Ho, ⟨⟨%f5, H5⟩, ⟨%f6, H6⟩, ⟨%f7, H7⟩, Hbufs⟩, ⟨Hsem0, Hsem1, Hsem2, Hsems⟩, HO⟩
  ihave Hmw := ((K (F := F)).mayWaits_none (thr := thr d L) hO) $$ Hlv
  ihave Hx' := (Entails.of_eq (pts_x (F := F) d L _ _).symm) $$ Hx
  ihave Ht' := (Entails.of_eq (pts_t (F := F) d L _ _).symm) $$ Ht
  ihave H5' := (Entails.of_eq (pts_s5 (F := F) d L _).symm) $$ H5
  ihave H6' := (Entails.of_eq (pts_s6 (F := F) d L _).symm) $$ H6
  ihave H7' := (Entails.of_eq (pts_s7 (F := F) d L _).symm) $$ H7
  sl_unfold [cc3_k]
  sl_exec

  sl_for (invO d L q₁ xv tv O W) $$ [Hmw Hx' H5' H6' H7' Ho Hsem1 Hsem2 HO]
  case region =>
    intro k _
    unfold invO
    iintro ⟨#Hmw, Hx, H5, ⟨%f6, H6⟩, ⟨%f7, H7⟩, Ho, Hsem1, Hsem2, %W', %hW', HO⟩
    ihave Ho' := (Entails.of_eq (SparseCore.bigSep_erase' (Finset.mem_univ k))) $$ Ho
    icases Ho' with ⟨⟨%fo, Hok, -⟩, Horest⟩
    ihave Hok' := (Entails.of_eq (pts_o (F := F) d L k _).symm) $$ Hok
    sl_exec
    sl_for (invI d L tv ((xChunk L k).view.read (Elt F) xv)) $$ [H5 H6 H7]
    case region =>
      intro j _
      unfold invI
      iintro ⟨H5, H6, %g7, H7, %h7⟩
      sl_respell [k3_part1, SparseCore.vectorLoadIdx]
      sl_exec (disch := exact chk_of_lt _ (fun x => read_x_lt d L xv hx k _))
      sl_step
      isplitl [H5]; · iexact H5
      isplitl [H6]; · iexact H6
      iexists _; isplitl [H7]; · iexact H7
      ipureintro
      obtain ⟨e3, e4, e5, e6, e7, e8, e9, e10⟩ := offs j
      refine trip_val d L (gath d L tv _) g7 j.val _ ?hL ?hin ?hcov h7
      case hL =>
        intro p hp x
        simp only [List.mem_cons, List.not_mem_nil, or_false] at hp
        rcases hp with rfl | rfl | rfl | rfl | rfl | rfl | rfl | rfl <;> exact piece_eq d L tv _ _ _ _ x
      case hin =>
        intro p hp y hy
        simp only [List.mem_cons, List.not_mem_nil, or_false] at hp
        rcases hp with rfl | rfl | rfl | rfl | rfl | rfl | rfl | rfl
        · have hy' : y ∈ (Rect.unit (s := S12800) (k3_off10 j) S16.size (k3_off10_inb j)).set := hy
          have := (mem_piece e10 y).mp hy'; omega
        · have hy' : y ∈ (Rect.unit (s := S12800) (k3_off9 j 6#32) S16.size (k3_off9_inb j ⟨0, by decide⟩)).set := hy
          have := (mem_piece e9 y).mp hy'; omega
        · have hy' : y ∈ (Rect.unit (s := S12800) (k3_off8 j 5#32) S16.size (k3_off8_inb j ⟨0, by decide⟩)).set := hy
          have := (mem_piece e8 y).mp hy'; omega
        · have hy' : y ∈ (Rect.unit (s := S12800) (k3_off7 j 4#32) S16.size (k3_off7_inb j ⟨0, by decide⟩)).set := hy
          have := (mem_piece e7 y).mp hy'; omega
        · have hy' : y ∈ (Rect.unit (s := S12800) (k3_off6 j 3#32) S16.size (k3_off6_inb j ⟨0, by decide⟩)).set := hy
          have := (mem_piece e6 y).mp hy'; omega
        · have hy' : y ∈ (Rect.unit (s := S12800) (k3_off5 j 2#32) S16.size (k3_off5_inb j ⟨0, by decide⟩)).set := hy
          have := (mem_piece e5 y).mp hy'; omega
        · have hy' : y ∈ (Rect.unit (s := S12800) (k3_off4 j 1#32) S16.size (k3_off4_inb j ⟨0, by decide⟩)).set := hy
          have := (mem_piece e4 y).mp hy'; omega
        · have hy' : y ∈ (Rect.unit (s := S12800) (k3_off3 j 0#32) S16.size (k3_off3_inb j ⟨0, by decide⟩)).set := hy
          have := (mem_piece e3 y).mp hy'; omega
      case hcov =>
        intro y h1 h2
        rcases (by omega : (y 0).val < 128 * j.val + 16 ∨ (128 * j.val + 16 ≤ (y 0).val ∧ (y 0).val < 128 * j.val + 32)
            ∨ (128 * j.val + 32 ≤ (y 0).val ∧ (y 0).val < 128 * j.val + 48) ∨ (128 * j.val + 48 ≤ (y 0).val ∧ (y 0).val < 128 * j.val + 64)
            ∨ (128 * j.val + 64 ≤ (y 0).val ∧ (y 0).val < 128 * j.val + 80) ∨ (128 * j.val + 80 ≤ (y 0).val ∧ (y 0).val < 128 * j.val + 96)
            ∨ (128 * j.val + 96 ≤ (y 0).val ∧ (y 0).val < 128 * j.val + 112) ∨ 128 * j.val + 112 ≤ (y 0).val) with h | h | h | h | h | h | h | h
        · exact ⟨_, .tail _ (.tail _ (.tail _ (.tail _ (.tail _ (.tail _ (.tail _ (.head _))))))), (mem_piece (inb := k3_off3_inb j ⟨0, by decide⟩) e3 y).mpr ⟨by omega, by omega⟩⟩
        · exact ⟨_, .tail _ (.tail _ (.tail _ (.tail _ (.tail _ (.tail _ (.head _)))))), (mem_piece (inb := k3_off4_inb j ⟨0, by decide⟩) e4 y).mpr ⟨by omega, by omega⟩⟩
        · exact ⟨_, .tail _ (.tail _ (.tail _ (.tail _ (.tail _ (.head _))))), (mem_piece (inb := k3_off5_inb j ⟨0, by decide⟩) e5 y).mpr ⟨by omega, by omega⟩⟩
        · exact ⟨_, .tail _ (.tail _ (.tail _ (.tail _ (.head _)))), (mem_piece (inb := k3_off6_inb j ⟨0, by decide⟩) e6 y).mpr ⟨by omega, by omega⟩⟩
        · exact ⟨_, .tail _ (.tail _ (.tail _ (.head _))), (mem_piece (inb := k3_off7_inb j ⟨0, by decide⟩) e7 y).mpr ⟨by omega, by omega⟩⟩
        · exact ⟨_, .tail _ (.tail _ (.head _)), (mem_piece (inb := k3_off8_inb j ⟨0, by decide⟩) e8 y).mpr ⟨by omega, by omega⟩⟩
        · exact ⟨_, .tail _ (.head _), (mem_piece (inb := k3_off9_inb j ⟨0, by decide⟩) e9 y).mpr ⟨by omega, by omega⟩⟩
        · exact ⟨_, .head _, (mem_piece (inb := k3_off10_inb j) e10 y).mpr ⟨by omega, by omega⟩⟩
    · unfold invI
      rw [s6_lands]
      sl_unfold_run_names
      isplitl [H5]; · iexact H5
      isplitl [H6]; · iexact H6
      iexists _; isplitl [H7]; · iexact H7
      ipureintro; intro y hy; omega
    iintro %_ HI
    unfold invI
    icases HI with ⟨H5, H6, %g7, H7, %h7⟩
    sl_exec
    sl_step
    have ht2 : Scf.trips k3_t2_loop.lb k3_t2_loop.ub k3_t2_loop.st = 100 := trips2
    isplitr; · iexact Hmw
    isplitl [Hx]; · iexact Hx
    isplitl [H5]; · iexact H5
    isplitl [H6]; · iexists _; iexact H6
    isplitl [H7]; · iexists _; iexact H7
    isplitl [Hok' Horest]
    · irw [SparseCore.bigSep_erase' (Finset.mem_univ k)]
      isplitl [Hok']
      · iexists _; isplitl [Hok']
        · iapply (Entails.of_eq (pts_o (F := F) d L k _)); iexact Hok'
        · ipureintro; intro _
          sl_unfold_run_names
          exact chunk_val d L xv tv k fo _ (fun y => h7 y (by rw [ht2]; exact (y 0).isLt))
      · iapply (SparseCore.ent (bigSep_mono ?hmono)) $$ Horest
        case hmono =>
          intro t ht
          refine unent ?_
          iintro ⟨%f, H, %hf⟩
          iexists f; isplitl [H]; · iexact H
          ipureintro; intro hlt
          have hne : t.val ≠ k.val := Fin.val_ne_of_ne (Finset.ne_of_mem_erase ht)
          exact hf (by omega)
    isplitl [Hsem1]; · iexact Hsem1
    isplitl [Hsem2]; · iexact Hsem2
    iexists _; isplitr
    rotate_left
    · iexact HO
    · ipureintro; intro p hp
      rcases Finset.mem_insert.mp hp with hp | hp
      · exact .inr (by subst hp; rfl)
      rcases Finset.mem_insert.mp hp with hp | hp
      · exact .inr (by subst hp; rfl)
      · exact hW' p hp
  · unfold invO
    rw [s5_lands]
    sl_unfold_run_names
    isplitr; · iexact Hmw
    isplitl [Hx']; · iexact Hx'
    isplitl [H5']; · iexact H5'
    isplitl [H6']; · iexists _; iexact H6'
    isplitl [H7']; · iexists _; iexact H7'
    isplitl [Ho]
    · iapply (SparseCore.ent (bigSep_mono ?hmono0)) $$ Ho
      case hmono0 =>
        intro t _
        refine unent ?_
        iintro ⟨%f, H⟩
        iexists f; isplitl [H]; · iexact H
        ipureintro; intro h; exact absurd h (Nat.not_lt_zero _)
    isplitl [Hsem1]; · iexact Hsem1
    isplitl [Hsem2]; · iexact Hsem2
    iexists _; isplitr
    rotate_left
    · iexact HO
    · ipureintro; intro p hp
      rcases Finset.mem_insert.mp hp with hp | hp
      · exact .inr (by subst hp; rfl)
      · exact .inl hp
  iintro %_ HI
  unfold invO
  icases HI with ⟨-, Hx, H5, ⟨%g6, H6⟩, ⟨%g7, H7⟩, Ho, Hsem1, Hsem2, %W', %hW', HO⟩
  sl_exec
  sl_step
  isplitl [Hx]; · iapply (Entails.of_eq (pts_x (F := F) d L _ _)); iexact Hx
  isplitl [Ht']; · iapply (Entails.of_eq (pts_t (F := F) d L _ _)); iexact Ht'
  isplitl [Ho]
  · iapply (SparseCore.ent (bigSep_mono ?hfin)) $$ Ho
    case hfin =>
      intro t _
      refine unent ?_
      iintro ⟨%f, H, %hf⟩
      ihave H' := (Entails.of_eq (pointsTo_congr (hf t.isLt))) $$ H
      iexact H'
  ihave H5 := (Entails.of_eq (pts_s5 (F := F) d L _)) $$ H5
  ihave H6 := (Entails.of_eq (pts_s6 (F := F) d L _)) $$ H6
  ihave H7 := (Entails.of_eq (pts_s7 (F := F) d L _)) $$ H7
  isplitl [H5 H6 H7 Hbufs]
  · isplitl [H5]; · iexists _; iexact H5
    isplitl [H6]; · iexists _; iexact H6
    isplitl [H7]; · iexists _; iexact H7
    iexact Hbufs
  isplitl [Hsem0 Hsem1 Hsem2 Hsems]
  · isplitl [Hsem0]; · iexact Hsem0
    isplitl [Hsem1]; · iexact Hsem1
    isplitl [Hsem2]; · iexact Hsem2
    iexact Hsems
  iexists W'; isplitr
  · ipureintro; exact hW'
  · iexact HO

end Tile
end Cert.Kernel.Hand.Gather
end
-- ==== Proof.TileMinMaxB.lean ====
/-
  The body of one tile of the first SparseCore kernel: the per-tile minimum (core 0) or maximum (core 1) of the table
  entries the tile's 51200 index words name, as a weakest-precondition statement at a symbolic grid point.

  The tile copies the table (row minima on core 0, row maxima on core 1) into its scratch, then for each of its two
  chunks copies 25600 index words into its index scratch and folds, 16 lanes at a time, the gathered table entries
  into a carried vector; the carried vector is stored and copied to the tile's row of the result. The loops go by
  invariants over a symbolic trip: the carried vector is a function (`inner`, `outer`) of what the scratches hold.
  What the tile leaves in its row is `part`, and `P4` is the whole-array function the 32 rows are pieces of.
-/
import proofs.«211894_g61933428415975_cont_9to1c4b_619_7_alg».proof.Proof.SetupB
import proofs.«211894_g61933428415975_cont_9to1c4b_619_7_alg».proof.Proof.Spec

noncomputable section

namespace Cert.Kernel.Hand.MinMax

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev thr (d : Dev nD) (L : grid1.Coords) : Thread nD τ := V d ((L 0).castLE hcore1) ((L 1).castLE hsub1)

/-- A semaphore of the tile, as a cell of the machine. -/
abbrev cell (d : Dev nD) (L : grid1.Coords) (sm : DmaSem sig) : GSem nD τ sig := (thr d L, .dma sm)

abbrev xW : Memref sig .scVector .hbm S819200 .i32 := Memref.whole main_v0_scv
abbrev mnW : Memref sig .scVector .hbm S100000 .f32 := Memref.whole main_v2_scv
abbrev mxW : Memref sig .scVector .hbm S100000 .f32 := Memref.whole main_v3_scv
abbrev oW : Memref sig .scVector .hbm S2x16x16 .f32 := Memref.whole main_v4_scv
abbrev sT : Memref sig .scVector .vmem S100000 .f32 := Memref.whole cc1_scratch0
abbrev sI : Memref sig .scVector .vmem S25600 .i32 := Memref.whole cc1_scratch1
abbrev sA : Memref sig .scVector .vmem S16 .f32 := Memref.whole cc1_scratch2

abbrev outRow (L : grid1.Coords) : Memref sig .scVector .hbm S16 .f32 :=
  ((oW : Memref sig .scVector .hbm S2x16x16 .f32).slice (Rect.unit (s := S2x16x16) (k1_off19 L) S1x1x16.size (k1_off19_inb L)) (fun _ => rfl)).squeeze S16 squeezes_S1x1x16_S16
abbrev rowSet (L : grid1.Coords) : Finset S2x16x16.Idx := (outRow L).view.set

omit [FloatOps F] in
theorem pts_x (d : Dev nD) (L : grid1.Coords) (q : PosShare TreeShare) (f : Buf (Elt F) ((SparseCore.T d).loc main_v0)) :
    ((xW).view.loc (thr d L) ↦{q} f : sProp 𝕄) = (SparseCore.T d).loc main_v0 ↦{q} f := rfl
omit [FloatOps F] in
theorem pts_mn (d : Dev nD) (L : grid1.Coords) (q : PosShare TreeShare) (f : Buf (Elt F) ((SparseCore.T d).loc main_v2)) :
    ((mnW).view.loc (thr d L) ↦{q} f : sProp 𝕄) = (SparseCore.T d).loc main_v2 ↦{q} f := rfl
omit [FloatOps F] in
theorem pts_mx (d : Dev nD) (L : grid1.Coords) (q : PosShare TreeShare) (f : Buf (Elt F) ((SparseCore.T d).loc main_v3)) :
    ((mxW).view.loc (thr d L) ↦{q} f : sProp 𝕄) = (SparseCore.T d).loc main_v3 ↦{q} f := rfl
omit [FloatOps F] in
theorem pts_o (d : Dev nD) (L : grid1.Coords) (f : Buf (Elt F) ((SparseCore.T d).loc main_v4)) :
    ((outRow L).view.loc (thr d L) ↦[(outRow L).view.set]{fullShare} f : sProp 𝕄) = (SparseCore.T d).loc main_v4 ↦[rowSet L]{fullShare} f := rfl

omit [FloatOps F] in
theorem sem_ne {a b : Fin 21} (h : a ≠ b) (d : Dev nD) (L : grid1.Coords) : cell d L a ≠ cell d L b :=
  fun e => h (SemLoc.dma.inj (Prod.mk.inj e).2)

omit [FloatOps F] in
theorem mem_own (d : Dev nD) (L : grid1.Coords) (sm : DmaSem sig) (h : (SemLoc.dma sm : SemLoc sig).isScoped .scVector = true) :
    cell d L sm ∈ ownCells (thr d L) := (mem_ownCells (g := cell d L sm)).mpr ⟨rfl, h⟩

omit [FloatOps F] in
/-- The tile's own semaphores: the five this kernel uses, each at zero, and the rest. -/
theorem ownSems0_V (d : Dev nD) (L : grid1.Coords) :
    (ownSems0 (thr d L) : sProp 𝕄)
      = iprop(semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0
          ∗ bigSep (((((ownCells (thr d L)).erase (cell d L cc1_scoped0.sem)).erase (cell d L cc1_scoped1.sem)).erase (cell d L cc1_scoped2.sem)).erase
              (cell d L cc1_scoped3.sem) |>.erase (cell d L cc1_scoped4.sem)) fun g => semVal g 0) := by
  unfold SparseCore.Cfg.ownSems0
  rw [SparseCore.bigSep_erase' (mem_own d L cc1_scoped0.sem (by decide)),
    SparseCore.bigSep_erase' (Finset.mem_erase.mpr ⟨sem_ne (by decide) d L, mem_own d L cc1_scoped1.sem (by decide)⟩),
    SparseCore.bigSep_erase' (Finset.mem_erase.mpr ⟨sem_ne (by decide) d L, Finset.mem_erase.mpr ⟨sem_ne (by decide) d L, mem_own d L cc1_scoped2.sem (by decide)⟩⟩),
    SparseCore.bigSep_erase' (Finset.mem_erase.mpr ⟨sem_ne (by decide) d L, Finset.mem_erase.mpr ⟨sem_ne (by decide) d L,
      Finset.mem_erase.mpr ⟨sem_ne (by decide) d L, mem_own d L cc1_scoped3.sem (by decide)⟩⟩⟩),
    SparseCore.bigSep_erase' (Finset.mem_erase.mpr ⟨sem_ne (by decide) d L, Finset.mem_erase.mpr ⟨sem_ne (by decide) d L,
      Finset.mem_erase.mpr ⟨sem_ne (by decide) d L, Finset.mem_erase.mpr ⟨sem_ne (by decide) d L, mem_own d L cc1_scoped4.sem (by decide)⟩⟩⟩⟩)]

abbrev pV (L : grid1.Coords) : Proc τ := Proc.scVector ((L 0).castLE hcore1) ((L 1).castLE hsub1)

omit [FloatOps F] in
theorem ref_ne {a b : Ref sig .scVector} (h : a ≠ b) (L : grid1.Coords) : (pV L).devRef a ≠ (pV L).devRef b :=
  fun e => h (Proc.devRef_injective _ e)
omit [FloatOps F] in
theorem mem_ownR (L : grid1.Coords) (b : Ref sig .scVector) (h : ((pV L).devRef b).owner = .proc (pV L)) : (pV L).devRef b ∈ ownRefs (τ := τ) (sig := sig) (pV L) :=
  SparseCore.Cfg.mem_ownRefs_of_owner h

omit [FloatOps F] in
/-- The tile's own buffers: the three scratches of this kernel, each at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (pV L)).erase ((pV L).devRef cc1_scratch0)).erase ((pV L).devRef cc1_scratch1)).erase ((pV L).devRef cc1_scratch2))
              fun b => iprop(∃ f, ((d, b) : Loc nD τ sig) ↦{fullShare} f)) := by
  unfold SparseCore.Cfg.ownBufs
  refine (SparseCore.bigSep_erase' (mem_ownR L cc1_scratch0 rfl)).trans ?_
  rw [SparseCore.bigSep_erase' (Finset.mem_erase.mpr ⟨ref_ne (by decide) L, mem_ownR L cc1_scratch1 rfl⟩),
    SparseCore.bigSep_erase' (Finset.mem_erase.mpr ⟨ref_ne (by decide) L, Finset.mem_erase.mpr ⟨ref_ne (by decide) L, mem_ownR L cc1_scratch2 rfl⟩⟩)]

theorem cond1_iff : ∀ L : grid1.Coords, k1_cond1 L = 1#1 ↔ (L 0).val = 0 := by decide +kernel
theorem cond2_iff : ∀ L : grid1.Coords, k1_cond2 L = 1#1 ↔ (L 0).val ≠ 0 := by decide +kernel

omit [FloatOps F] in
theorem pts_sT (d : Dev nD) (L : grid1.Coords) (f : Buf (Elt F) ((thr d L).loc cc1_scratch0)) :
    ((sT).view.loc (thr d L) ↦{fullShare} f : sProp 𝕄) = (thr d L).loc cc1_scratch0 ↦{fullShare} f := rfl
omit [FloatOps F] in
theorem pts_sI (d : Dev nD) (L : grid1.Coords) (f : Buf (Elt F) ((thr d L).loc cc1_scratch1)) :
    ((sI).view.loc (thr d L) ↦{fullShare} f : sProp 𝕄) = (thr d L).loc cc1_scratch1 ↦{fullShare} f := rfl
omit [FloatOps F] in
theorem pts_sA (d : Dev nD) (L : grid1.Coords) (f : Buf (Elt F) ((thr d L).loc cc1_scratch2)) :
    ((sA).view.loc (thr d L) ↦{fullShare} f : sProp 𝕄) = (thr d L).loc cc1_scratch2 ↦{fullShare} f := rfl

omit [FloatOps F] in
theorem pts_sT_access (d : Dev nD) (L : grid1.Coords) (f : Buf (Elt F) ((thr d L).loc cc1_scratch0)) :
    ((((sT).access (.whole S100000)).loc (thr d L)) ↦{fullShare} f : sProp 𝕄) = ((sT).view.loc (thr d L) ↦{fullShare} f) := rfl

omit [FloatOps F] in
/-- Every word loaded from an index scratch whose words are all in range is in range. -/
theorem chk_of (fI : Vec F S25600 .i32) (hI : ∀ j, (fI j).toNat < 100000) (off : Fin 1 → ℕ) (inb : ∀ a, off a + S16.size a ≤ S25600.size a) :
    ∀ a x, ((![(sI : Memref sig .scVector .vmem S25600 .i32).view.readAt (Elt F) (Rect.unit (s := S25600) off S16.size inb).toLoadRect fI] : Fin 1 → IVec S16 32) a x).toNat < S100000.size a := by
  intro a x
  obtain rfl : a = 0 := Subsingleton.elim _ _
  exact hI _

/-! ## What a tile computes, as a function of what its scratches hold -/

section Value

variable (op : F .f32 → F .f32 → F .f32)

/-- The table entry an index word names (a word in range names itself). -/
def gat (fT : Vec F S100000 .f32) (w : BitVec 32) : F .f32 := fT (ValueIdx.ix1 (Cert.Spec.row w))

/-- Word `p` of the index scratch (positions are taken modulo its length). -/
def wd (fI : Vec F S25600 .i32) (p : ℕ) : BitVec 32 := fI (ValueIdx.ix1 ⟨p % 25600, Nat.mod_lt _ (by norm_num)⟩)

/-- One step at position `p`: lane `l` takes `op` with the table entry that word `p + l` of the index scratch names. -/
def step (fI : Vec F S25600 .i32) (fT : Vec F S100000 .f32) (p : ℕ) (a : FVec F S16 .f32) : FVec F S16 .f32 :=
  fun l => op (a l) (gat fT (wd fI (p + (l 0).val)))

/-- One trip of the inner loop: eight steps, at positions `128 j + 16 u`. -/
def trip (fI : Vec F S25600 .i32) (fT : Vec F S100000 .f32) (j : ℕ) (a : FVec F S16 .f32) : FVec F S16 .f32 :=
  step op fI fT (128 * j + 112) (step op fI fT (128 * j + 96) (step op fI fT (128 * j + 80) (step op fI fT (128 * j + 64)
    (step op fI fT (128 * j + 48) (step op fI fT (128 * j + 32) (step op fI fT (128 * j + 16) (step op fI fT (128 * j) a)))))))

/-- The first `j` trips of the inner loop. -/
def inner (fI : Vec F S25600 .i32) (fT : Vec F S100000 .f32) : ℕ → FVec F S16 .f32 → FVec F S16 .f32
  | 0, a => a
  | j + 1, a => trip op fI fT j (inner fI fT j a)

/-- Chunk `t` of tile `L`'s index words: the 25600 words of `xv` from position `51200 (L 1) + 25600 t` on. -/
def chunk (xv : Vec F S819200 .i32) (L : grid1.Coords) (t : ℕ) : Vec F S25600 .i32 :=
  fun j => xv (ValueIdx.ix1 ⟨(51200 * (L 1).val + 25600 * t + (j 0).val) % 819200, Nat.mod_lt _ (by norm_num)⟩)

/-- The first `t` chunks. -/
def outer (xv : Vec F S819200 .i32) (fT : Vec F S100000 .f32) (L : grid1.Coords) : ℕ → FVec F S16 .f32 → FVec F S16 .f32
  | 0, a => a
  | t + 1, a => inner op (chunk xv L t) fT 200 (outer xv fT L t a)

end Value

/-! ## The loops' invariants -/

/-- Before trip `j` of the inner loop: the two scratches as the chunk's copy left them, the carried vector the first `j` trips' value. -/
def invI (d : Dev nD) (L : grid1.Coords) (op : F .f32 → F .f32 → F .f32) (fI : Vec F S25600 .i32) (fT : Vec F S100000 .f32) (a0 : FVec F S16 .f32)
    (j : ℕ) (acc : FVec F S16 .f32) : sProp 𝕄 :=
  iprop(((sI).view.loc (thr d L) ↦{fullShare} fI) ∗ (((sT).access (.whole S100000)).loc (thr d L) ↦{fullShare} fT) ∗ ⌜acc = inner op fI fT j a0⌝)

/-- Before chunk `t`: the index array, the index scratch at some contents, the table scratch, the chunk copy's semaphore at zero,
    what the tile owes, and the carried vector the first `t` chunks' value. -/
def invO (d : Dev nD) (L : grid1.Coords) (sm : DmaSem sig) (q₁ : PosShare TreeShare) (op : F .f32 → F .f32 → F .f32) (xv : Vec F S819200 .i32) (fT : Vec F S100000 .f32)
    (a0 : FVec F S16 .f32) (O : CellTallies nD τ sig (HIx 2)) (W : Waits sig (HIx 2)) (t : ℕ) (acc : FVec F S16 .f32) : sProp 𝕄 :=
  iprop(Transfers.MayWaits (thr d L) (none : HIx 2) O
    ∗ ((xW).view.loc (thr d L) ↦{q₁} xv)
    ∗ (∃ fI, (sI).view.loc (thr d L) ↦{fullShare} fI)
    ∗ ((sT).view.loc (thr d L) ↦{fullShare} fT)
    ∗ semVal (cell d L sm) 0
    ∗ (∃ W', ⌜∀ p ∈ W', p ∈ W ∨ p.2 = none⌝ ∗ owes (thr d L) O W')
    ∗ ⌜acc = outer op xv fT L t a0⌝)

/-! ## The values the program's operations produce, read through the functions above -/

omit [FloatOps F] in
/-- An indexed load of the table scratch reads, lane by lane, the entry the lane's word names. -/
theorem loadIdx_eq (fT : Vec F S100000 .f32) (v : IVec S16 32) (h : ∀ a x, ((![v] : Fin 1 → IVec S16 32) a x).toNat < S100000.size a) (l : S16.Idx) :
    loadIdx (((sT : Memref sig .scVector .vmem S100000 .f32).access (.whole S100000)).read (Elt F) fT) ![v] h l = gat fT (v l) := by
  unfold loadIdx gat
  rw [View.read_apply]
  refine (cast_eq _ _).trans (congrArg fT ?_)
  refine funext fun (a : Fin 1) => ?_
  obtain rfl : a = 0 := Subsingleton.elim _ _
  apply Fin.ext
  have this : (v l).toNat < 100000 := h 0 l
  show 0 + 1 * (v l).toNat = (v l).toNat % 100000
  rw [Nat.mod_eq_of_lt this]; omega

omit [FloatOps F] in
/-- Sixteen words loaded from position `off` of the index scratch are its words `off + l`. -/
theorem readAt_eq (fI : Vec F S25600 .i32) (off : Fin 1 → ℕ) (inb : ∀ a, off a + S16.size a ≤ S25600.size a) (l : S16.Idx) :
    (sI : Memref sig .scVector .vmem S25600 .i32).view.readAt (Elt F) (Rect.unit (s := S25600) off S16.size inb).toLoadRect fI l = wd fI (off 0 + (l 0).val) := by
  unfold wd
  rw [View.readAt_apply]
  show fI _ = fI _
  congr 1
  refine funext fun (a : Fin 1) => ?_
  obtain rfl : a = 0 := Subsingleton.elim _ _
  apply Fin.ext
  have h1 : off 0 + 16 ≤ 25600 := inb 0
  have h2 : (l 0).val < 16 := (l 0).isLt
  show off 0 + 1 * (l 0).val = (off 0 + (l 0).val) % 25600
  rw [Nat.mod_eq_of_lt (by omega)]; omega

/-- One unrolled step of the minimum: the carried vector against the gathered one. -/
theorem step_min (fI : Vec F S25600 .i32) (fT : Vec F S100000 .f32) (a : FVec F S16 .f32) (off : Fin 1 → ℕ) (inb : ∀ a, off a + S16.size a ≤ S25600.size a)
    (h : ∀ b x, ((![(sI : Memref sig .scVector .vmem S25600 .i32).view.readAt (Elt F) (Rect.unit (s := S25600) off S16.size inb).toLoadRect fI] : Fin 1 → IVec S16 32) b x).toNat < S100000.size b) :
    minimumf a (loadIdx (((sT : Memref sig .scVector .vmem S100000 .f32).access (.whole S100000)).read (Elt F) fT)
      ![(sI : Memref sig .scVector .vmem S25600 .i32).view.readAt (Elt F) (Rect.unit (s := S25600) off S16.size inb).toLoadRect fI] h)
      = step (FloatOps.minimumf (F := F) (φ := .f32)) fI fT (off 0) a := by
  funext l
  show FloatOps.minimumf (a l) _ = FloatOps.minimumf (a l) _
  rw [loadIdx_eq, readAt_eq]

/-- One unrolled step of the maximum. -/
theorem step_max (fI : Vec F S25600 .i32) (fT : Vec F S100000 .f32) (a : FVec F S16 .f32) (off : Fin 1 → ℕ) (inb : ∀ a, off a + S16.size a ≤ S25600.size a)
    (h : ∀ b x, ((![(sI : Memref sig .scVector .vmem S25600 .i32).view.readAt (Elt F) (Rect.unit (s := S25600) off S16.size inb).toLoadRect fI] : Fin 1 → IVec S16 32) b x).toNat < S100000.size b) :
    maximumf a (loadIdx (((sT : Memref sig .scVector .vmem S100000 .f32).access (.whole S100000)).read (Elt F) fT)
      ![(sI : Memref sig .scVector .vmem S25600 .i32).view.readAt (Elt F) (Rect.unit (s := S25600) off S16.size inb).toLoadRect fI] h)
      = step (FloatOps.maximumf (F := F) (φ := .f32)) fI fT (off 0) a := by
  funext l
  show FloatOps.maximumf (a l) _ = FloatOps.maximumf (a l) _
  rw [loadIdx_eq, readAt_eq]

omit [FloatOps F] in
theorem inner_succ (op : F .f32 → F .f32 → F .f32) (fI : Vec F S25600 .i32) (fT : Vec F S100000 .f32) (j : ℕ) (a : FVec F S16 .f32) :
    inner op fI fT (j + 1) a = trip op fI fT j (inner op fI fT j a) := rfl
omit [FloatOps F] in
theorem outer_succ (op : F .f32 → F .f32 → F .f32) (xv : Vec F S819200 .i32) (fT : Vec F S100000 .f32) (L : grid1.Coords) (t : ℕ) (a : FVec F S16 .f32) :
    outer op xv fT L (t + 1) a = inner op (chunk xv L t) fT 200 (outer op xv fT L t a) := rfl

theorem trips1 : Scf.trips k1_t1_loop.lb k1_t1_loop.ub k1_t1_loop.st = 2 := by decide
theorem trips2 : Scf.trips k1_t2_loop.lb k1_t2_loop.ub k1_t2_loop.st = 200 := by decide
theorem trips3 : Scf.trips k1_t3_loop.lb k1_t3_loop.ub k1_t3_loop.st = 2 := by decide
theorem trips4 : Scf.trips k1_t4_loop.lb k1_t4_loop.ub k1_t4_loop.st = 200 := by decide

omit [FloatOps F] in
/-- What the copy of chunk `t` reads off the index array. -/
theorem chunk_eq (xv : Vec F S819200 .i32) (L : grid1.Coords) (off : Fin 1 → ℕ) (t : ℕ) (ht : t < 2) (hoff : off = ![51200 * (L 1).val + 25600 * t])
    (inb : ∀ a, off a + S25600.size a ≤ S819200.size a) :
    ((xW : Memref sig .scVector .hbm S819200 .i32).slice (Rect.unit (s := S819200) off S25600.size inb) (fun _ => rfl)).view.read (Elt F) xv = chunk xv L t := by
  funext j
  rw [View.read_apply]
  refine (cast_eq _ _).trans ?_
  unfold chunk
  show xv _ = xv _
  congr 1
  refine funext fun (a : Fin 1) => ?_
  obtain rfl : a = 0 := Subsingleton.elim _ _
  apply Fin.ext
  have h1 : (L 1).val < 16 := (L 1).isLt
  have h2 : (j 0).val < 25600 := (j 0).isLt
  subst hoff
  show 51200 * (L 1).val + 25600 * t + 1 * (j 0).val = (51200 * (L 1).val + 25600 * t + (j 0).val) % 819200
  rw [Nat.mod_eq_of_lt (by omega)]; omega

/-- One trip's eight steps, as the program computes them, are `trip`. -/
theorem trip_min (fI : Vec F S25600 .i32) (fT : Vec F S100000 .f32) (a : FVec F S16 .f32) (j : ℕ)
    (o0 : Fin 1 → ℕ) (i0 : ∀ a, o0 a + S16.size a ≤ S25600.size a)
    (h0 : ∀ b x, ((![(sI : Memref sig .scVector .vmem S25600 .i32).view.readAt (Elt F) (Rect.unit (s := S25600) o0 S16.size i0).toLoadRect fI] : Fin 1 → IVec S16 32) b x).toNat < S100000.size b)
    (e0 : o0 = ![128 * j + 0])
    (o1 : Fin 1 → ℕ) (i1 : ∀ a, o1 a + S16.size a ≤ S25600.size a)
    (h1 : ∀ b x, ((![(sI : Memref sig .scVector .vmem S25600 .i32).view.readAt (Elt F) (Rect.unit (s := S25600) o1 S16.size i1).toLoadRect fI] : Fin 1 → IVec S16 32) b x).toNat < S100000.size b)
    (e1 : o1 = ![128 * j + 16])
    (o2 : Fin 1 → ℕ) (i2 : ∀ a, o2 a + S16.size a ≤ S25600.size a)
    (h2 : ∀ b x, ((![(sI : Memref sig .scVector .vmem S25600 .i32).view.readAt (Elt F) (Rect.unit (s := S25600) o2 S16.size i2).toLoadRect fI] : Fin 1 → IVec S16 32) b x).toNat < S100000.size b)
    (e2 : o2 = ![128 * j + 32])
    (o3 : Fin 1 → ℕ) (i3 : ∀ a, o3 a + S16.size a ≤ S25600.size a)
    (h3 : ∀ b x, ((![(sI : Memref sig .scVector .vmem S25600 .i32).view.readAt (Elt F) (Rect.unit (s := S25600) o3 S16.size i3).toLoadRect fI] : Fin 1 → IVec S16 32) b x).toNat < S100000.size b)
    (e3 : o3 = ![128 * j + 48])
    (o4 : Fin 1 → ℕ) (i4 : ∀ a, o4 a + S16.size a ≤ S25600.size a)
    (h4 : ∀ b x, ((![(sI : Memref sig .scVector .vmem S25600 .i32).view.readAt (Elt F) (Rect.unit (s := S25600) o4 S16.size i4).toLoadRect fI] : Fin 1 → IVec S16 32) b x).toNat < S100000.size b)
    (e4 : o4 = ![128 * j + 64])
    (o5 : Fin 1 → ℕ) (i5 : ∀ a, o5 a + S16.size a ≤ S25600.size a)
    (h5 : ∀ b x, ((![(sI : Memref sig .scVector .vmem S25600 .i32).view.readAt (Elt F) (Rect.unit (s := S25600) o5 S16.size i5).toLoadRect fI] : Fin 1 → IVec S16 32) b x).toNat < S100000.size b)
    (e5 : o5 = ![128 * j + 80])
    (o6 : Fin 1 → ℕ) (i6 : ∀ a, o6 a + S16.size a ≤ S25600.size a)
    (h6 : ∀ b x, ((![(sI : Memref sig .scVector .vmem S25600 .i32).view.readAt (Elt F) (Rect.unit (s := S25600) o6 S16.size i6).toLoadRect fI] : Fin 1 → IVec S16 32) b x).toNat < S100000.size b)
    (e6 : o6 = ![128 * j + 96])
    (o7 : Fin 1 → ℕ) (i7 : ∀ a, o7 a + S16.size a ≤ S25600.size a)
    (h7 : ∀ b x, ((![(sI : Memref sig .scVector .vmem S25600 .i32).view.readAt (Elt F) (Rect.unit (s := S25600) o7 S16.size i7).toLoadRect fI] : Fin 1 → IVec S16 32) b x).toNat < S100000.size b)
    (e7 : o7 = ![128 * j + 112])
    : minimumf (minimumf (minimumf (minimumf (minimumf (minimumf (minimumf (minimumf (a)
      (loadIdx (((sT : Memref sig .scVector .vmem S100000 .f32).access (.whole S100000)).read (Elt F) fT)
      ![(sI : Memref sig .scVector .vmem S25600 .i32).view.readAt (Elt F) (Rect.unit (s := S25600) o0 S16.size i0).toLoadRect fI] h0))
      (loadIdx (((sT : Memref sig .scVector .vmem S100000 .f32).access (.whole S100000)).read (Elt F) fT)
      ![(sI : Memref sig .scVector .vmem S25600 .i32).view.readAt (Elt F) (Rect.unit (s := S25600) o1 S16.size i1).toLoadRect fI] h1))
      (loadIdx (((sT : Memref sig .scVector .vmem S100000 .f32).access (.whole S100000)).read (Elt F) fT)
      ![(sI : Memref sig .scVector .vmem S25600 .i32).view.readAt (Elt F) (Rect.unit (s := S25600) o2 S16.size i2).toLoadRect fI] h2))
      (loadIdx (((sT : Memref sig .scVector .vmem S100000 .f32).access (.whole S100000)).read (Elt F) fT)
      ![(sI : Memref sig .scVector .vmem S25600 .i32).view.readAt (Elt F) (Rect.unit (s := S25600) o3 S16.size i3).toLoadRect fI] h3))
      (loadIdx (((sT : Memref sig .scVector .vmem S100000 .f32).access (.whole S100000)).read (Elt F) fT)
      ![(sI : Memref sig .scVector .vmem S25600 .i32).view.readAt (Elt F) (Rect.unit (s := S25600) o4 S16.size i4).toLoadRect fI] h4))
      (loadIdx (((sT : Memref sig .scVector .vmem S100000 .f32).access (.whole S100000)).read (Elt F) fT)
      ![(sI : Memref sig .scVector .vmem S25600 .i32).view.readAt (Elt F) (Rect.unit (s := S25600) o5 S16.size i5).toLoadRect fI] h5))
      (loadIdx (((sT : Memref sig .scVector .vmem S100000 .f32).access (.whole S100000)).read (Elt F) fT)
      ![(sI : Memref sig .scVector .vmem S25600 .i32).view.readAt (Elt F) (Rect.unit (s := S25600) o6 S16.size i6).toLoadRect fI] h6))
      (loadIdx (((sT : Memref sig .scVector .vmem S100000 .f32).access (.whole S100000)).read (Elt F) fT)
      ![(sI : Memref sig .scVector .vmem S25600 .i32).view.readAt (Elt F) (Rect.unit (s := S25600) o7 S16.size i7).toLoadRect fI] h7)
      = trip (FloatOps.minimumf (F := F) (φ := .f32)) fI fT j a := by
  rw [step_min, step_min, step_min, step_min, step_min, step_min, step_min, step_min]
  subst e0 e1 e2 e3 e4 e5 e6 e7
  rfl

/-- One trip's eight steps, as the program computes them, are `trip`. -/
theorem trip_max (fI : Vec F S25600 .i32) (fT : Vec F S100000 .f32) (a : FVec F S16 .f32) (j : ℕ)
    (o0 : Fin 1 → ℕ) (i0 : ∀ a, o0 a + S16.size a ≤ S25600.size a)
    (h0 : ∀ b x, ((![(sI : Memref sig .scVector .vmem S25600 .i32).view.readAt (Elt F) (Rect.unit (s := S25600) o0 S16.size i0).toLoadRect fI] : Fin 1 → IVec S16 32) b x).toNat < S100000.size b)
    (e0 : o0 = ![128 * j + 0])
    (o1 : Fin 1 → ℕ) (i1 : ∀ a, o1 a + S16.size a ≤ S25600.size a)
    (h1 : ∀ b x, ((![(sI : Memref sig .scVector .vmem S25600 .i32).view.readAt (Elt F) (Rect.unit (s := S25600) o1 S16.size i1).toLoadRect fI] : Fin 1 → IVec S16 32) b x).toNat < S100000.size b)
    (e1 : o1 = ![128 * j + 16])
    (o2 : Fin 1 → ℕ) (i2 : ∀ a, o2 a + S16.size a ≤ S25600.size a)
    (h2 : ∀ b x, ((![(sI : Memref sig .scVector .vmem S25600 .i32).view.readAt (Elt F) (Rect.unit (s := S25600) o2 S16.size i2).toLoadRect fI] : Fin 1 → IVec S16 32) b x).toNat < S100000.size b)
    (e2 : o2 = ![128 * j + 32])
    (o3 : Fin 1 → ℕ) (i3 : ∀ a, o3 a + S16.size a ≤ S25600.size a)
    (h3 : ∀ b x, ((![(sI : Memref sig .scVector .vmem S25600 .i32).view.readAt (Elt F) (Rect.unit (s := S25600) o3 S16.size i3).toLoadRect fI] : Fin 1 → IVec S16 32) b x).toNat < S100000.size b)
    (e3 : o3 = ![128 * j + 48])
    (o4 : Fin 1 → ℕ) (i4 : ∀ a, o4 a + S16.size a ≤ S25600.size a)
    (h4 : ∀ b x, ((![(sI : Memref sig .scVector .vmem S25600 .i32).view.readAt (Elt F) (Rect.unit (s := S25600) o4 S16.size i4).toLoadRect fI] : Fin 1 → IVec S16 32) b x).toNat < S100000.size b)
    (e4 : o4 = ![128 * j + 64])
    (o5 : Fin 1 → ℕ) (i5 : ∀ a, o5 a + S16.size a ≤ S25600.size a)
    (h5 : ∀ b x, ((![(sI : Memref sig .scVector .vmem S25600 .i32).view.readAt (Elt F) (Rect.unit (s := S25600) o5 S16.size i5).toLoadRect fI] : Fin 1 → IVec S16 32) b x).toNat < S100000.size b)
    (e5 : o5 = ![128 * j + 80])
    (o6 : Fin 1 → ℕ) (i6 : ∀ a, o6 a + S16.size a ≤ S25600.size a)
    (h6 : ∀ b x, ((![(sI : Memref sig .scVector .vmem S25600 .i32).view.readAt (Elt F) (Rect.unit (s := S25600) o6 S16.size i6).toLoadRect fI] : Fin 1 → IVec S16 32) b x).toNat < S100000.size b)
    (e6 : o6 = ![128 * j + 96])
    (o7 : Fin 1 → ℕ) (i7 : ∀ a, o7 a + S16.size a ≤ S25600.size a)
    (h7 : ∀ b x, ((![(sI : Memref sig .scVector .vmem S25600 .i32).view.readAt (Elt F) (Rect.unit (s := S25600) o7 S16.size i7).toLoadRect fI] : Fin 1 → IVec S16 32) b x).toNat < S100000.size b)
    (e7 : o7 = ![128 * j + 112])
    : maximumf (maximumf (maximumf (maximumf (maximumf (maximumf (maximumf (maximumf (a)
      (loadIdx (((sT : Memref sig .scVector .vmem S100000 .f32).access (.whole S100000)).read (Elt F) fT)
      ![(sI : Memref sig .scVector .vmem S25600 .i32).view.readAt (Elt F) (Rect.unit (s := S25600) o0 S16.size i0).toLoadRect fI] h0))
      (loadIdx (((sT : Memref sig .scVector .vmem S100000 .f32).access (.whole S100000)).read (Elt F) fT)
      ![(sI : Memref sig .scVector .vmem S25600 .i32).view.readAt (Elt F) (Rect.unit (s := S25600) o1 S16.size i1).toLoadRect fI] h1))
      (loadIdx (((sT : Memref sig .scVector .vmem S100000 .f32).access (.whole S100000)).read (Elt F) fT)
      ![(sI : Memref sig .scVector .vmem S25600 .i32).view.readAt (Elt F) (Rect.unit (s := S25600) o2 S16.size i2).toLoadRect fI] h2))
      (loadIdx (((sT : Memref sig .scVector .vmem S100000 .f32).access (.whole S100000)).read (Elt F) fT)
      ![(sI : Memref sig .scVector .vmem S25600 .i32).view.readAt (Elt F) (Rect.unit (s := S25600) o3 S16.size i3).toLoadRect fI] h3))
      (loadIdx (((sT : Memref sig .scVector .vmem S100000 .f32).access (.whole S100000)).read (Elt F) fT)
      ![(sI : Memref sig .scVector .vmem S25600 .i32).view.readAt (Elt F) (Rect.unit (s := S25600) o4 S16.size i4).toLoadRect fI] h4))
      (loadIdx (((sT : Memref sig .scVector .vmem S100000 .f32).access (.whole S100000)).read (Elt F) fT)
      ![(sI : Memref sig .scVector .vmem S25600 .i32).view.readAt (Elt F) (Rect.unit (s := S25600) o5 S16.size i5).toLoadRect fI] h5))
      (loadIdx (((sT : Memref sig .scVector .vmem S100000 .f32).access (.whole S100000)).read (Elt F) fT)
      ![(sI : Memref sig .scVector .vmem S25600 .i32).view.readAt (Elt F) (Rect.unit (s := S25600) o6 S16.size i6).toLoadRect fI] h6))
      (loadIdx (((sT : Memref sig .scVector .vmem S100000 .f32).access (.whole S100000)).read (Elt F) fT)
      ![(sI : Memref sig .scVector .vmem S25600 .i32).view.readAt (Elt F) (Rect.unit (s := S25600) o7 S16.size i7).toLoadRect fI] h7)
      = trip (FloatOps.maximumf (F := F) (φ := .f32)) fI fT j a := by
  rw [step_max, step_max, step_max, step_max, step_max, step_max, step_max, step_max]
  subst e0 e1 e2 e3 e4 e5 e6 e7
  rfl

/-! ## What the tile leaves in its row of the result -/

/-- The grid point of a core and a subcore. -/
def mkL (c : Fin (grid1.bound 0)) (s : Fin (grid1.bound 1)) : grid1.Coords :=
  fun | 0 => c | 1 => s | ⟨_ + 2, h⟩ => absurd h (Nat.not_lt.2 (Nat.le_add_left _ _))

omit [FloatOps F] in
theorem mkL_self (L : grid1.Coords) : mkL (L 0) (L 1) = L := by
  funext a; match a with | 0 => rfl | 1 => rfl

/-- The 16 lanes tile `L` leaves: lane `l` is the fold, over the tile's 2 chunks × 200 trips × 8 steps in program order, of the minimum
    (core 0; from the +inf word) or the maximum (core 1; from the -inf word) of the table entries the index words at positions
    `51200 (L 1) + 25600 t + 128 j + 16 u + l` name. -/
def part (xv : Vec F S819200 .i32) (rmin rmax : Vec F S100000 .f32) (L : grid1.Coords) : Vec F S16 .f32 :=
  if (L 0).val = 0 then outer (FloatOps.minimumf (F := F) (φ := .f32)) xv rmin L 2 (broadcast S16 (Scalar.ofBits .f32 0x7F800000#32))
  else outer (FloatOps.maximumf (F := F) (φ := .f32)) xv rmax L 2 (broadcast S16 (Scalar.ofBits .f32 0xFF800000#32))

/-- The whole-array function the 32 rows are pieces of. -/
def P4 (xv : Vec F S819200 .i32) (rmin rmax : Vec F S100000 .f32) : Vec F S2x16x16 .f32 :=
  fun n => part xv rmin rmax (mkL (n 0) (n 1)) (ValueIdx.ix1 (n 2))

theorem sq_coord : ∀ x : S16.Idx, ((Shape.reshapeEquiv (s := S1x1x16) (s' := S16) squeezes_S1x1x16_S16.numel_eq x) 2).val = (x 0).val := by decide +kernel

omit [FloatOps F] in
/-- Where lane `x` of the tile's row sits in the result array. -/
theorem emb_outRow (L : grid1.Coords) (x : S16.Idx) : (outRow L).view.emb x = ValueIdx.ix3 (L 0) (L 1) (x 0) := by
  refine funext fun (a : Fin 3) => ?_
  apply Fin.ext
  show k1_off19 L a + 1 * ((Shape.reshapeEquiv (s := S1x1x16) (s' := S16) squeezes_S1x1x16_S16.numel_eq x) a).val = _
  rw [k1_off19_eq]
  match a with
  | 0 => have : ((Shape.reshapeEquiv (s := S1x1x16) (s' := S16) squeezes_S1x1x16_S16.numel_eq x) 0).val < 1 := (Shape.reshapeEquiv _ x 0).isLt
         show (L 0).val + 1 * _ = (L 0).val; omega
  | 1 => have : ((Shape.reshapeEquiv (s := S1x1x16) (s' := S16) squeezes_S1x1x16_S16.numel_eq x) 1).val < 1 := (Shape.reshapeEquiv _ x 1).isLt
         show (L 1).val + 1 * _ = (L 1).val; omega
  | 2 => show 0 + 1 * _ = (x 0).val; rw [sq_coord]; omega

omit [FloatOps F] in
theorem rowSet_mem (L : grid1.Coords) (n : S2x16x16.Idx) : n ∈ rowSet L ↔ (n 0).val = (L 0).val ∧ (n 1).val = (L 1).val := by
  constructor
  · intro h
    obtain ⟨x, -, rfl⟩ := Finset.mem_map.mp h
    rw [emb_outRow]; exact ⟨rfl, rfl⟩
  · rintro ⟨h0, h1⟩
    refine Finset.mem_map.mpr ⟨ValueIdx.ix1 (n 2), Finset.mem_univ _, ?_⟩
    rw [emb_outRow]
    refine funext fun (a : Fin 3) => ?_
    match a with
    | 0 => exact Fin.ext h0.symm
    | 1 => exact Fin.ext h1.symm
    | 2 => rfl

omit [FloatOps F] in
theorem unit0_emb (inb : ∀ a, (![0] : Fin 1 → ℕ) a + S16.size a ≤ S16.size a) (x : S16.Idx) : (Rect.unit (s := S16) ![0] S16.size inb).emb x = x := by
  refine funext fun (a : Fin 1) => ?_
  obtain rfl : a = 0 := Subsingleton.elim _ _
  apply Fin.ext
  show 0 + 1 * (x 0).val = (x 0).val
  omega

omit [FloatOps F] in
theorem whole_emb (x : S16.Idx) : (Rect.whole S16).emb x = x := by
  refine funext fun (a : Fin 1) => ?_
  obtain rfl : a = 0 := Subsingleton.elim _ _
  apply Fin.ext
  show 0 + 1 * (x 0).val = (x 0).val
  omega

omit [FloatOps F] in
/-- The accumulator scratch, stored whole, reads back what was stored. -/
theorem acc_read (fA : Vec F S16 .f32) (acc : S16.Idx → F .f32) (inb : ∀ a, (![0] : Fin 1 → ℕ) a + S16.size a ≤ S16.size a) :
    (sA : Memref sig .scVector .vmem S16 .f32).view.read (Elt F) ((sA : Memref sig .scVector .vmem S16 .f32).view.writes (Elt F) fA [⟨Rect.unit (s := S16) ![0] S16.size inb, acc⟩]) = acc := by
  funext x
  have := View.read_writes_cons_emb (v := (sA : Memref sig .scVector .vmem S16 .f32).view) (Val := Elt F) fA (Rect.unit (s := S16) ![0] S16.size inb) acc [] x
  rwa [unit0_emb] at this

omit [FloatOps F] in
/-- The tile's row of the result after the copy of the accumulator scratch, as a piece of `P4`. -/
theorem row_final (d : Dev nD) (L : grid1.Coords) (fo : Vec F S2x16x16 .f32) (w : S16.Idx → F .f32)
    (g : Vec F S2x16x16 .f32) (hw : ∀ x : S16.Idx, w x = g (ValueIdx.ix3 (L 0) (L 1) (x 0))) :
    ((outRow L).view.loc (thr d L) ↦[(outRow L).view.set]{fullShare} (outRow L).view.writes (Elt F) fo [⟨Rect.whole S16, w⟩] : sProp 𝕄)
      = ((SparseCore.T d).loc main_v4 ↦[rowSet L]{fullShare} g) := by
  refine pointsTo_congr fun i hi => ?_
  obtain ⟨x, -, rfl⟩ := Finset.mem_map.mp hi
  have h := View.read_writes_cons_emb (v := (outRow L).view) (Val := Elt F) fo (Rect.whole S16) w [] x
  rw [whole_emb, View.read_apply] at h
  rw [emb_outRow] at h ⊢
  exact ((cast_eq _ _).symm.trans h).trans (hw x)

theorem P4_row (xv : Vec F S819200 .i32) (rmin rmax : Vec F S100000 .f32) (L : grid1.Coords) (x : S16.Idx) :
    P4 xv rmin rmax (ValueIdx.ix3 (L 0) (L 1) (x 0)) = part xv rmin rmax L x := by
  show part xv rmin rmax (mkL (L 0) (L 1)) (ValueIdx.ix1 (x 0)) = _
  rw [mkL_self]
  exact congrArg (part xv rmin rmax L) (ValueIdx.eq_ix1 x).symm

theorem part_min (xv : Vec F S819200 .i32) (rmin rmax : Vec F S100000 .f32) (L : grid1.Coords) (h0 : (L 0).val = 0) :
    part xv rmin rmax L = outer (FloatOps.minimumf (F := F) (φ := .f32)) xv rmin L 2 (broadcast S16 (Scalar.ofBits .f32 0x7F800000#32)) := by
  unfold part; rw [if_pos h0]

theorem part_max (xv : Vec F S819200 .i32) (rmin rmax : Vec F S100000 .f32) (L : grid1.Coords) (h0 : (L 0).val ≠ 0) :
    part xv rmin rmax L = outer (FloatOps.maximumf (F := F) (φ := .f32)) xv rmax L 2 (broadcast S16 (Scalar.ofBits .f32 0xFF800000#32)) := by
  unfold part; rw [if_neg h0]

set_option maxHeartbeats 4000000 in
theorem body_min (d : Dev nD) (L : grid1.Coords) (h0 : (L 0).val = 0) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  have k1_h1 : k1_cond1 L = 1#1 := (cond1_iff L).mpr h0
  have k1_h2 : ¬ k1_cond2 L = 1#1 := fun h => (cond2_iff L).mp h h0

  unfold cc1_k
  rw [(K (F := F)).scopedBufs_V facts d ((L 0).castLE hcore1) ((L 1).castLE hsub1), SparseCore.Cfg.scopedSems0_V (Val := Elt F) d ((L 0).castLE hcore1) ((L 1).castLE hsub1), ownSems0_V, ownBufs_V]
  iintro ⟨#Hlv, Hx, Hmn, Hmx, ⟨%fo, Ho⟩, ⟨⟨%fT, HT⟩, ⟨%fI, HI⟩, ⟨%fA, HA⟩, Hbufs⟩, ⟨Hs0, Hs1, Hs2, Hs3, Hs4, Hsems⟩, HO⟩
  ihave Hmw := ((K (F := F)).mayWaits_none (thr := thr d L) hO) $$ Hlv
  ihave Hx := (Entails.of_eq (pts_x (F := F) d L _ _).symm) $$ Hx
  ihave Hmn := (Entails.of_eq (pts_mn (F := F) d L _ _).symm) $$ Hmn
  ihave Hmx := (Entails.of_eq (pts_mx (F := F) d L _ _).symm) $$ Hmx
  ihave Ho := (Entails.of_eq (pts_o (F := F) d L _).symm) $$ Ho
  ihave HT := (Entails.of_eq (pts_sT (F := F) d L _).symm) $$ HT
  ihave HI := (Entails.of_eq (pts_sI (F := F) d L _).symm) $$ HI
  ihave HA := (Entails.of_eq (pts_sA (F := F) d L _).symm) $$ HA
  sl_exec
  have hT : (View.write (Elt F) sT.view fT (body_min.sl.dma0 rmin) Finset.univ : Vec F S100000 .f32) = rmin := by
    unfold body_min.sl.dma0; exact View.write_whole_univ _ _ _
  ihave HT := (Entails.of_eq (congrArg (fun f => ((sT).view.loc (thr d L) ↦{fullShare} f : sProp 𝕄)) hT)) $$ HT
  sl_for (invO d L cc1_scoped1.sem q₁ (FloatOps.minimumf (F := F) (φ := .f32)) xv rmin body_min.sl.v7 O (insert (SemLoc.dma ⟨6, by decide⟩, default) W)) $$ [Hmw Hx HI HT Hs1 HO]
  case region =>
    intro t acc
    unfold invO
    iintro ⟨#Hmw, Hx, ⟨%fI', HI⟩, HT, Hs1, ⟨%W', %hW', HO⟩, %hacc⟩
    sl_exec
    have hch : (View.write (Elt F) sI.view fI' (body_min.sl.dma0_1 L xv k1_h1 t) Finset.univ : Vec F S25600 .i32) = chunk xv L t.val := by
      unfold body_min.sl.dma0_1
      exact (View.write_whole_univ _ _ _).trans (chunk_eq xv L _ t.val (Nat.lt_of_lt_of_le t.isLt k1_t1_abs.2.1) (k1_off1_eq L t) _)
    have hI : ∀ j, (chunk xv L t.val j).toNat < 100000 := fun j => hx _
    ihave HI := (Entails.of_eq (congrArg (fun f => ((sI).view.loc (thr d L) ↦{fullShare} f : sProp 𝕄)) hch)) $$ HI
    ihave HT := (Entails.of_eq (pts_sT_access (F := F) d L _).symm) $$ HT
    sl_for (invI d L (FloatOps.minimumf (F := F) (φ := .f32)) (chunk xv L t.val) rmin acc) $$ [HI HT]
    case region =>
      intro j a
      unfold invI
      iintro ⟨HI, HT, %ha⟩
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      sl_step
      isplitl [HI]; · iexact HI
      isplitl [HT]; · iexact HT
      ipureintro
      rw [inner_succ, ← ha]
      exact trip_min (chunk xv L t.val) rmin a j.val _ _ _ (k1_off2_eq j) _ _ _ (k1_off3_eq j) _ _ _ (k1_off4_eq j) _ _ _ (k1_off5_eq j) _ _ _ (k1_off6_eq j) _ _ _ (k1_off7_eq j) _ _ _ (k1_off8_eq j) _ _ _ (k1_off9_eq j)
    · unfold invI
      isplitl [HI]; · iexact HI
      isplitl [HT]; · iexact HT
      ipureintro; rfl
    iintro %acc' HIv
    unfold invI
    icases HIv with ⟨HI, HT, %hacc'⟩
    sl_exec
    sl_step
    ihave HT := (Entails.of_eq (pts_sT_access (F := F) d L _)) $$ HT
    isplitr; · iexact Hmw
    isplitl [Hx]; · iexact Hx
    isplitl [HI]; · iexists _; iexact HI
    isplitl [HT]; · iexact HT
    isplitl [Hs1]; · iexact Hs1
    isplitl [HO]
    · iexists (insert (SemLoc.dma ⟨7, by decide⟩, default) W'); isplitr
      · ipureintro; intro p hp
        rcases Finset.mem_insert.mp hp with hp | hp
        · exact .inr (hp ▸ rfl)
        · exact hW' p hp
      · iexact HO
    ipureintro
    rw [outer_succ, ← hacc, hacc', trips2]
  · unfold invO
    isplitl [Hmw]; · iexact Hmw
    isplitl [Hx]; · iexact Hx
    isplitl [HI]; · iexists _; iexact HI
    isplitl [HT]; · iexact HT
    isplitl [Hs1]; · iexact Hs1
    isplitl [HO]
    · iexists _; isplitr
      · ipureintro; exact fun p hp => .inl hp
      · iexact HO
    ipureintro; rfl
  iintro %accF HIv
  unfold invO
  icases HIv with ⟨-, Hx, ⟨%fI2, HI⟩, HT, Hs1, ⟨%W2, %hW2, HO⟩, %haccF⟩
  sl_exec
  sl_step
  isplitl [Hx]; · iexact Hx
  isplitl [Hmn]; · iexact Hmn
  isplitl [Hmx]; · iexact Hmx
  isplitl [Ho]
  · have hr : body_min.sl.dma2 d L fA accF = accF := by unfold body_min.sl.dma2 body_min.sl.HA_1; exact acc_read _ _ _
    have hw : ∀ x : S16.Idx, body_min.sl.dma2 d L fA accF x = P4 xv rmin rmax (ValueIdx.ix3 (L 0) (L 1) (x 0)) := by
      intro x
      rw [P4_row, part_min xv rmin rmax L h0, hr, haccF, trips1]; rfl
    iapply (Entails.of_eq (row_final (F := F) d L fo _ (P4 xv rmin rmax) hw)); iexact Ho
  isplitl [HT HI HA Hbufs]
  · isplitl [HT]; · iexists _; iexact HT
    isplitl [HI]; · iexists _; iexact HI
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma ⟨10, by decide⟩, default) W2); isplitr
  · ipureintro; intro p hp
    rcases Finset.mem_insert.mp hp with hp | hp
    · exact .inr (hp ▸ rfl)
    · rcases hW2 p hp with h | h
      · rcases Finset.mem_insert.mp h with h | h
        · exact .inr (h ▸ rfl)
        · exact .inl h
      · exact .inr h
  · iexact HO

set_option maxHeartbeats 4000000 in
theorem body_max (d : Dev nD) (L : grid1.Coords) (h0 : (L 0).val ≠ 0) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  have k1_h1 : ¬ k1_cond1 L = 1#1 := fun h => h0 ((cond1_iff L).mp h)
  have k1_h2 : k1_cond2 L = 1#1 := (cond2_iff L).mpr h0

  unfold cc1_k
  rw [(K (F := F)).scopedBufs_V facts d ((L 0).castLE hcore1) ((L 1).castLE hsub1), SparseCore.Cfg.scopedSems0_V (Val := Elt F) d ((L 0).castLE hcore1) ((L 1).castLE hsub1), ownSems0_V, ownBufs_V]
  iintro ⟨#Hlv, Hx, Hmn, Hmx, ⟨%fo, Ho⟩, ⟨⟨%fT, HT⟩, ⟨%fI, HI⟩, ⟨%fA, HA⟩, Hbufs⟩, ⟨Hs0, Hs1, Hs2, Hs3, Hs4, Hsems⟩, HO⟩
  ihave Hmw := ((K (F := F)).mayWaits_none (thr := thr d L) hO) $$ Hlv
  ihave Hx := (Entails.of_eq (pts_x (F := F) d L _ _).symm) $$ Hx
  ihave Hmn := (Entails.of_eq (pts_mn (F := F) d L _ _).symm) $$ Hmn
  ihave Hmx := (Entails.of_eq (pts_mx (F := F) d L _ _).symm) $$ Hmx
  ihave Ho := (Entails.of_eq (pts_o (F := F) d L _).symm) $$ Ho
  ihave HT := (Entails.of_eq (pts_sT (F := F) d L _).symm) $$ HT
  ihave HI := (Entails.of_eq (pts_sI (F := F) d L _).symm) $$ HI
  ihave HA := (Entails.of_eq (pts_sA (F := F) d L _).symm) $$ HA
  sl_exec
  have hT : (View.write (Elt F) sT.view fT (body_max.sl.dma0 rmax) Finset.univ : Vec F S100000 .f32) = rmax := by
    unfold body_max.sl.dma0; exact View.write_whole_univ _ _ _
  ihave HT := (Entails.of_eq (congrArg (fun f => ((sT).view.loc (thr d L) ↦{fullShare} f : sProp 𝕄)) hT)) $$ HT
  sl_for (invO d L cc1_scoped3.sem q₁ (FloatOps.maximumf (F := F) (φ := .f32)) xv rmax body_max.sl.v7 O (insert (SemLoc.dma ⟨8, by decide⟩, default) W)) $$ [Hmw Hx HI HT Hs3 HO]
  case region =>
    intro t acc
    unfold invO
    iintro ⟨#Hmw, Hx, ⟨%fI', HI⟩, HT, Hs3, ⟨%W', %hW', HO⟩, %hacc⟩
    sl_exec
    have hch : (View.write (Elt F) sI.view fI' (body_max.sl.dma0_1 L xv k1_h2 t) Finset.univ : Vec F S25600 .i32) = chunk xv L t.val := by
      unfold body_max.sl.dma0_1
      exact (View.write_whole_univ _ _ _).trans (chunk_eq xv L _ t.val (Nat.lt_of_lt_of_le t.isLt k1_t3_abs.2.1) (k1_off10_eq L t) _)
    have hI : ∀ j, (chunk xv L t.val j).toNat < 100000 := fun j => hx _
    ihave HI := (Entails.of_eq (congrArg (fun f => ((sI).view.loc (thr d L) ↦{fullShare} f : sProp 𝕄)) hch)) $$ HI
    ihave HT := (Entails.of_eq (pts_sT_access (F := F) d L _).symm) $$ HT
    sl_for (invI d L (FloatOps.maximumf (F := F) (φ := .f32)) (chunk xv L t.val) rmax acc) $$ [HI HT]
    case region =>
      intro j a
      unfold invI
      iintro ⟨HI, HT, %ha⟩
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      iapply (SparseCore.wp_vectorLoadIdx 𝒱₀ (thr d L) none Set.univ (base := sT) (S := Finset.univ) (q := fullShare) (Finset.subset_univ _)) $$ HT; iintro HT
      sl_exec (disch := exact fun _ => chk_of _ hI _ _)
      sl_step
      isplitl [HI]; · iexact HI
      isplitl [HT]; · iexact HT
      ipureintro
      rw [inner_succ, ← ha]
      exact trip_max (chunk xv L t.val) rmax a j.val _ _ _ (k1_off11_eq j) _ _ _ (k1_off12_eq j) _ _ _ (k1_off13_eq j) _ _ _ (k1_off14_eq j) _ _ _ (k1_off15_eq j) _ _ _ (k1_off16_eq j) _ _ _ (k1_off17_eq j) _ _ _ (k1_off18_eq j)
    · unfold invI
      isplitl [HI]; · iexact HI
      isplitl [HT]; · iexact HT
      ipureintro; rfl
    iintro %acc' HIv
    unfold invI
    icases HIv with ⟨HI, HT, %hacc'⟩
    sl_exec
    sl_step
    ihave HT := (Entails.of_eq (pts_sT_access (F := F) d L _)) $$ HT
    isplitr; · iexact Hmw
    isplitl [Hx]; · iexact Hx
    isplitl [HI]; · iexists _; iexact HI
    isplitl [HT]; · iexact HT
    isplitl [Hs3]; · iexact Hs3
    isplitl [HO]
    · iexists (insert (SemLoc.dma ⟨9, by decide⟩, default) W'); isplitr
      · ipureintro; intro p hp
        rcases Finset.mem_insert.mp hp with hp | hp
        · exact .inr (hp ▸ rfl)
        · exact hW' p hp
      · iexact HO
    ipureintro
    rw [outer_succ, ← hacc, hacc', trips4]
  · unfold invO
    isplitl [Hmw]; · iexact Hmw
    isplitl [Hx]; · iexact Hx
    isplitl [HI]; · iexists _; iexact HI
    isplitl [HT]; · iexact HT
    isplitl [Hs3]; · iexact Hs3
    isplitl [HO]
    · iexists _; isplitr
      · ipureintro; exact fun p hp => .inl hp
      · iexact HO
    ipureintro; rfl
  iintro %accF HIv
  unfold invO
  icases HIv with ⟨-, Hx, ⟨%fI2, HI⟩, HT, Hs3, ⟨%W2, %hW2, HO⟩, %haccF⟩
  sl_exec
  sl_step
  isplitl [Hx]; · iexact Hx
  isplitl [Hmn]; · iexact Hmn
  isplitl [Hmx]; · iexact Hmx
  isplitl [Ho]
  · have hr : body_max.sl.dma2 d L fA accF = accF := by unfold body_max.sl.dma2 body_max.sl.HA_1; exact acc_read _ _ _
    have hw : ∀ x : S16.Idx, body_max.sl.dma2 d L fA accF x = P4 xv rmin rmax (ValueIdx.ix3 (L 0) (L 1) (x 0)) := by
      intro x
      rw [P4_row, part_max xv rmin rmax L h0, hr, haccF, trips3]; rfl
    iapply (Entails.of_eq (row_final (F := F) d L fo _ (P4 xv rmin rmax) hw)); iexact Ho
  isplitl [HT HI HA Hbufs]
  · isplitl [HT]; · iexists _; iexact HT
    isplitl [HI]; · iexists _; iexact HI
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists (insert (SemLoc.dma ⟨10, by decide⟩, default) W2); isplitr
  · ipureintro; intro p hp
    rcases Finset.mem_insert.mp hp with hp | hp
    · exact .inr (hp ▸ rfl)
    · rcases hW2 p hp with h | h
      · rcases Finset.mem_insert.mp h with h | h
        · exact .inr (h ▸ rfl)
        · exact .inl h
      · exact .inr h
  · iexact HO

set_option maxHeartbeats 4000000 in
theorem body (d : Dev nD) (L : grid1.Coords) (q₁ q₂ q₃ : PosShare TreeShare) (xv : Vec F S819200 .i32) (rmin rmax : Vec F S100000 .f32)
    (hx : ∀ n, (xv n).toNat < 100000) (O : CellTallies nD τ sig (HIx 2)) (W : Waits sig (HIx 2)) (hO : ∀ g, O g none = 0) :
    (iprop(levAts (K (F := F)).L (K (F := F)).lev ∗ ((SparseCore.T d).loc main_v0 ↦{q₁} xv) ∗ ((SparseCore.T d).loc main_v2 ↦{q₂} rmin) ∗ ((SparseCore.T d).loc main_v3 ↦{q₃} rmax)
        ∗ (∃ f, (SparseCore.T d).loc main_v4 ↦[rowSet L]{fullShare} f) ∗ scopedBufs (thr d L) ∗ scopedSems0 (thr d L) ∗ owes (thr d L) O W) : sProp 𝕄)
      ⊢ wp frame (wpE (defs₀ (F := F)) 𝒱₀ (thr d L) none) Set.univ
          (cc1_k L xW (Memref.isWhole_whole _) mnW (Memref.isWhole_whole _) mxW (Memref.isWhole_whole _) oW (Memref.isWhole_whole _)
            sT (Memref.isWhole_whole _) sI (Memref.isWhole_whole _) sA (Memref.isWhole_whole _) cc1_scoped0 cc1_scoped1 cc1_scoped2 cc1_scoped3 cc1_scoped4)
          fun _ => iprop(((SparseCore.T d).loc main_v0 ↦{q₁} xv) ∗ ((SparseCore.T d).loc main_v2 ↦{q₂} rmin) ∗ ((SparseCore.T d).loc main_v3 ↦{q₃} rmax)
            ∗ ((SparseCore.T d).loc main_v4 ↦[rowSet L]{fullShare} P4 xv rmin rmax) ∗ scopedBufs (thr d L) ∗ scopedSems0 (thr d L)
            ∗ ∃ W', ⌜∀ p ∈ W', p ∈ W ∨ p.2 = none⌝ ∗ owes (thr d L) O W') := by
  by_cases h0 : (L 0).val = 0
  · exact body_min d L h0 q₁ q₂ q₃ xv rmin rmax hx O W hO
  · exact body_max d L h0 q₁ q₂ q₃ xv rmin rmax hx O W hO

end Cert.Kernel.Hand.MinMax
end
-- ==== Proof.RunB.lean ====
/-
  The program's run, assembled: the two pipelines' region records, the two SparseCore calls' hand-overs and tile
  bodies put into the run of @main, with every intermediate array named as a function of the launch memory — the
  index words flattened, the table's row extrema, the partial extrema the first call leaves, the score table, the
  gathered scores.
-/
import proofs.«211894_g61933428415975_cont_9to1c4b_619_7_alg».proof.Proof.MainB
import proofs.«211894_g61933428415975_cont_9to1c4b_619_7_alg».proof.Proof.Region0B
import proofs.«211894_g61933428415975_cont_9to1c4b_619_7_alg».proof.Proof.Region2B
import proofs.«211894_g61933428415975_cont_9to1c4b_619_7_alg».proof.Proof.SplitB
import proofs.«211894_g61933428415975_cont_9to1c4b_619_7_alg».proof.Proof.TileGatherB
import proofs.«211894_g61933428415975_cont_9to1c4b_619_7_alg».proof.Proof.TileMinMaxB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The pieces instantiated: the two regions, the two calls' arrays, the run -/

section Glue

variable (m : (ℓ : Loc nD τ sig) → Buf (Elt F) ℓ) (ρ : Dev nD → PrngReg)

/-- What the TensorCore owes before each SparseCore call. -/
abbrev O0 : Dev nD → CellTallies nD τ sig (HIx 2) := fun d => (K (F := F)).Otc d 0
abbrev O1 : Dev nD → CellTallies nD τ sig (HIx 2) := fun d => (K (F := F)).Otc d 1

/-- The buffers after the row-extrema pipeline. -/
abbrev W2r : Dev nD → Valuation τ sig (Elt F) := Reg0.Wout (O0 (F := F)) (8 * 0) (W1 m)
/-- The partial extrema the first call leaves. -/
abbrev p4r : (d : Dev nD) → Buf (Elt F) ((SparseCore.T (τ := τ) d).loc main_v4) :=
  fun d => MinMax.P4 (xvC (W2r m) d) (rminC (W2r m) d) (rmaxC (W2r m) d)
/-- The buffers after the table pipeline. -/
abbrev W6r : Dev nD → Valuation τ sig (Elt F) := Reg2.Wout (W5 (W2r m) (p4r m)) (O1 (F := F)) (8 * 1)
/-- The gathered scores the second call leaves. -/
abbrev g3r : (d : Dev nD) → Buf (Elt F) ((SparseCore.T (τ := τ) d).loc main_v8) :=
  fun d => Gather.G3 (xvC (W2r m) d) (tvC (W6r m) d)

/-- The row-extrema pipeline's record between the contents it is entered from and the ones it leaves. -/
def r0 : RegAt (F := F) 0 (O0 (F := F)) (8 * 0) (W1 m) (W2r m) :=
  ⟨Reg0.pdats (Reg0.VW (W1 m)) (O0 (F := F)) (8 * 0), Reg0.reg (O0 (F := F)) (8 * 0) (W1 m) (fun c g => Otc_none c 0 g),
    fun _ => rfl, fun _ => rfl⟩

/-- The table pipeline's record. -/
def r2 : RegAt (F := F) 1 (O1 (F := F)) (8 * 1) (W5 (W2r m) (p4r m)) (W6r m) :=
  ⟨Reg2.pdats (Reg2.Vof (W5 (W2r m) (p4r m))) (O1 (F := F)) (8 * 1),
    Reg2.reg (W5 (W2r m) (p4r m)) (O1 (F := F)) (8 * 1) (fun c g => Otc_none c 1 g), fun _ => rfl, fun _ => rfl⟩

end Glue

/-! ## What each step leaves at each buffer -/

section Chain

variable (m : (ℓ : Loc nD τ sig) → Buf (Elt F) ℓ)
variable (W2 W6 : Dev nD → Valuation τ sig (Elt F))
  (p4 : (d : Dev nD) → Buf (Elt F) ((SparseCore.T (τ := τ) d).loc main_v4)) (g3 : (d : Dev nD) → Buf (Elt F) ((SparseCore.T (τ := τ) d).loc main_v8))

theorem W1_ne (d : Dev nD) {b : Ref sig .tc} (h : b ≠ main_v0) : W1 m d (Proc.devRef .tc b) = m ((SparseCore.T (τ := τ) d).loc b) := by
  unfold W1; exact (StableHlo.reshape_result_ne _ _ _ _ _ _ _ h).trans rfl
theorem W1_v0 (d : Dev nD) :
    W1 m d rv0 = shapeCast S819200 (m ((SparseCore.T (τ := τ) d).loc main_arg0)) Facts₀.shapeCasts_S4096x200_S819200 := by
  unfold W1; exact (StableHlo.reshape_result _ _ _ _ _ _ _).trans rfl

theorem W3_ne (d : Dev nD) {b : Ref sig .tc} (h2 : b ≠ main_v2) (h3 : b ≠ main_v3) : W3 W2 d (Proc.devRef .tc b) = W2 d (Proc.devRef .tc b) := by
  unfold W3; exact (StableHlo.reshape_result_ne _ _ _ _ _ _ _ h3).trans (StableHlo.reshape_result_ne _ _ _ _ _ _ _ h2)
theorem W3_v2 (d : Dev nD) :
    W3 W2 d rv2 = shapeCast S100000 (W2 d (Proc.devRef .tc main_v1_0)) Facts₀.shapeCasts_S100x1x1000_S100000 := by
  unfold W3
  exact (StableHlo.reshape_result_ne _ _ _ _ _ _ _ (show main_v2 ≠ main_v3 by decide)).trans ((StableHlo.reshape_result _ _ _ _ _ _ _).trans rfl)
theorem W3_v3 (d : Dev nD) :
    W3 W2 d rv3 = shapeCast S100000 (W2 d (Proc.devRef .tc main_v1_1)) Facts₀.shapeCasts_S100x1x1000_S100000 := by
  unfold W3
  refine (StableHlo.reshape_result _ _ _ _ _ _ _).trans ?_
  rw [StableHlo.reshape_result_ne _ _ _ _ _ _ _ (show main_v1_1 ≠ main_v2 by decide)]
  rfl

theorem W4_ne (d : Dev nD) {b : Ref sig .tc} (h : b ≠ main_v4) : W4 W2 p4 d (Proc.devRef .tc b) = W3 W2 d (Proc.devRef .tc b) := by
  unfold W4; exact Function.update_of_ne (StableHlo.devRef_ne_of_ne h) _ _
theorem W4_v4 (d : Dev nD) : W4 W2 p4 d rv4 = p4 d := by
  unfold W4; exact Function.update_self _ _ _

theorem W5_ne (d : Dev nD) {b : Ref sig .tc} (h : b ≠ main_v5) : W5 W2 p4 d (Proc.devRef .tc b) = W4 W2 p4 d (Proc.devRef .tc b) := by
  unfold W5; exact StableHlo.reshape_result_ne _ _ _ _ _ _ _ h
theorem W5_v5 (d : Dev nD) :
    W5 W2 p4 d (Proc.devRef .tc main_v5) = shapeCast S1x1 (W4 W2 p4 d (Proc.devRef .tc main_arg3)) Facts₀.shapeCasts_S1_S1x1 := by
  unfold W5; exact (StableHlo.reshape_result _ _ _ _ _ _ _).trans rfl

theorem W7_ne (d : Dev nD) {b : Ref sig .tc} (h : b ≠ main_v7) : W7 W6 d (Proc.devRef .tc b) = W6 d (Proc.devRef .tc b) := by
  unfold W7; exact StableHlo.reshape_result_ne _ _ _ _ _ _ _ h
theorem W7_v7 (d : Dev nD) :
    W7 W6 d rv7 = shapeCast S100000 (W6 d (Proc.devRef .tc main_v6)) Facts₀.shapeCasts_S100x1x1000_S100000 := by
  unfold W7; exact (StableHlo.reshape_result _ _ _ _ _ _ _).trans rfl

theorem W8_ne (d : Dev nD) {b : Ref sig .tc} (h : b ≠ main_v8) : W8 W6 g3 d (Proc.devRef .tc b) = W7 W6 d (Proc.devRef .tc b) := by
  unfold W8; exact Function.update_of_ne (StableHlo.devRef_ne_of_ne h) _ _
theorem W8_v8 (d : Dev nD) : W8 W6 g3 d rv8 = g3 d := by
  unfold W8; exact Function.update_self _ _ _

theorem W9_ne (d : Dev nD) {b : Ref sig .tc} (h : b ≠ main_v9) : W9 W6 g3 d (Proc.devRef .tc b) = W8 W6 g3 d (Proc.devRef .tc b) := by
  unfold W9; exact StableHlo.reshape_result_ne _ _ _ _ _ _ _ h
theorem W9_v9' (d : Dev nD) :
    W9 W6 g3 d (Proc.devRef .tc main_v9) = shapeCast S4096x200x1 (W8 W6 g3 d rv8) Facts₀.shapeCasts_S819200_S4096x200x1 := by
  unfold W9; exact (StableHlo.reshape_result _ _ _ _ _ _ _).trans rfl

end Chain

/-! ## The arrays the calls read and write, as functions of the launch memory -/

section Facts

variable (m : (ℓ : Loc nD τ sig) → Buf (Elt F) ℓ) (ρ : Dev nD → PrngReg)

/-- The row-extrema pipeline leaves the table as launched, -/
theorem W2r_arg1 (d : Dev nD) : W2r m d (Proc.devRef .tc main_arg1) = m ((SparseCore.T (τ := τ) d).loc main_arg1) :=
  (Reg0.Wout_arg1 (O0 (F := F)) (8 * 0) (W1 m) d).trans (W1_ne m d (by decide))
/-- and every buffer but the flattened index words and its own two results as launched. -/
theorem W2r_other (d : Dev nD) (b : Ref sig .tc) (h0 : b ≠ main_v0) (ha : b ≠ main_arg1) (h1 : b ≠ main_v1_0) (h2 : b ≠ main_v1_1) :
    W2r m d (Proc.devRef .tc b) = m ((SparseCore.T (τ := τ) d).loc b) :=
  (Reg0.Wout_other (O0 (F := F)) (8 * 0) (W1 m) d b ha h1 h2).trans (W1_ne m d h0)

/-- The index words the calls read: the index argument flattened. -/
theorem xvC_eq (d : Dev nD) :
    xvC (W2r m) d = shapeCast S819200 (m ((SparseCore.T (τ := τ) d).loc main_arg0)) Facts₀.shapeCasts_S4096x200_S819200 :=
  (W3_ne (W2r m) d (b := main_v0) (by decide) (by decide)).trans
    ((Reg0.Wout_other (O0 (F := F)) (8 * 0) (W1 m) d main_v0 (by decide) (by decide) (by decide)).trans (W1_v0 m d))

/-- The row minima and maxima the first call reads: the table's, flattened. -/
theorem rminC_eq (d : Dev nD) :
    rminC (W2r m) d = shapeCast S100000 (Reg0.rowMin (m ((SparseCore.T (τ := τ) d).loc main_arg1))) Facts₀.shapeCasts_S100x1x1000_S100000 :=
  (W3_v2 (W2r m) d).trans (congrArg (fun x => shapeCast S100000 x Facts₀.shapeCasts_S100x1x1000_S100000)
    ((Reg0.Wout_v1_0 (O0 (F := F)) (8 * 0) (W1 m) d).trans (congrArg Reg0.rowMin (W1_ne m d (by decide)))))
theorem rmaxC_eq (d : Dev nD) :
    rmaxC (W2r m) d = shapeCast S100000 (Reg0.rowMax (m ((SparseCore.T (τ := τ) d).loc main_arg1))) Facts₀.shapeCasts_S100x1x1000_S100000 :=
  (W3_v3 (W2r m) d).trans (congrArg (fun x => shapeCast S100000 x Facts₀.shapeCasts_S100x1x1000_S100000)
    ((Reg0.Wout_v1_1 (O0 (F := F)) (8 * 0) (W1 m) d).trans (congrArg Reg0.rowMax (W1_ne m d (by decide)))))

/-- Up to the table pipeline a buffer no step writes holds what the row-extrema pipeline left. -/
theorem W5r_of_W2 (d : Dev nD) (b : Ref sig .tc) (h2 : b ≠ main_v2) (h3 : b ≠ main_v3) (h4 : b ≠ main_v4) (h5 : b ≠ main_v5) :
    W5 (W2r m) (p4r m) d (Proc.devRef .tc b) = W2r m d (Proc.devRef .tc b) :=
  (W5_ne (W2r m) (p4r m) d h5).trans ((W4_ne (W2r m) (p4r m) d h4).trans (W3_ne (W2r m) d h2 h3))

/-- The index words are the same at both calls. -/
theorem hx7 : ∀ d, W7 (W6r m) d rv0 = W3 (W2r m) d rv0 := fun d =>
  (W7_ne (W6r m) d (b := main_v0) (by decide)).trans
    ((Reg2.Wout_of_ne (W5 (W2r m) (p4r m)) (O1 (F := F)) (8 * 1) d main_v0 (by decide)).trans
      ((W5_ne (W2r m) (p4r m) d (b := main_v0) (by decide)).trans (W4_ne (W2r m) (p4r m) d (b := main_v0) (by decide))))

/-- The score table the second call reads: the table pipeline's output array, flattened. -/
theorem tvC_eq (d : Dev nD) :
    tvC (W6r m) d = shapeCast S100000 (Reg2.table (m ((SparseCore.T (τ := τ) d).loc main_arg1)) (p4r m d)
        (m ((SparseCore.T (τ := τ) d).loc main_arg2))
        (shapeCast S1x1 (m ((SparseCore.T (τ := τ) d).loc main_arg3)) Facts₀.shapeCasts_S1_S1x1)) Facts₀.shapeCasts_S100x1x1000_S100000 := by
  refine (W7_v7 (W6r m) d).trans (congrArg (fun x => shapeCast S100000 x Facts₀.shapeCasts_S100x1x1000_S100000) ?_)
  refine (Reg2.Wout_v6 (W5 (W2r m) (p4r m)) (O1 (F := F)) (8 * 1) d).trans ?_
  have e1 : W5 (W2r m) (p4r m) d (Proc.devRef .tc main_arg1) = m ((SparseCore.T (τ := τ) d).loc main_arg1) :=
    (W5r_of_W2 m d main_arg1 (by decide) (by decide) (by decide) (by decide)).trans (W2r_arg1 m d)
  have e2 : W5 (W2r m) (p4r m) d (Proc.devRef .tc main_v4) = p4r m d :=
    (W5_ne (W2r m) (p4r m) d (b := main_v4) (by decide)).trans (W4_v4 (W2r m) (p4r m) d)
  have e3 : W5 (W2r m) (p4r m) d (Proc.devRef .tc main_arg2) = m ((SparseCore.T (τ := τ) d).loc main_arg2) :=
    (W5r_of_W2 m d main_arg2 (by decide) (by decide) (by decide) (by decide)).trans
      (W2r_other m d main_arg2 (by decide) (by decide) (by decide) (by decide))
  have e4 : W5 (W2r m) (p4r m) d (Proc.devRef .tc main_v5)
      = shapeCast S1x1 (m ((SparseCore.T (τ := τ) d).loc main_arg3)) Facts₀.shapeCasts_S1_S1x1 :=
    (W5_v5 (W2r m) (p4r m) d).trans (congrArg (fun x => shapeCast S1x1 x Facts₀.shapeCasts_S1_S1x1)
      ((W4_ne (W2r m) (p4r m) d (b := main_arg3) (by decide)).trans ((W3_ne (W2r m) d (b := main_arg3) (by decide) (by decide)).trans
        (W2r_other m d main_arg3 (by decide) (by decide) (by decide) (by decide)))))
  show Reg2.table (W5 (W2r m) (p4r m) d (Proc.devRef .tc main_arg1)) (W5 (W2r m) (p4r m) d (Proc.devRef .tc main_v4))
      (W5 (W2r m) (p4r m) d (Proc.devRef .tc main_arg2)) (W5 (W2r m) (p4r m) d (Proc.devRef .tc main_v5)) = _
  rw [e1, e2, e3, e4]

/-- Index words in range stay in range through the flattening. -/
theorem xvC_ok (hx : ∀ d i, (m ((SparseCore.T (τ := τ) d).loc main_arg0) i).toNat < 100000) :
    ∀ d n, (xvC (W2r m) d n).toNat < 100000 := fun d n => by
  rw [xvC_eq]; unfold shapeCast; exact hx d _

/-- The two tile bodies at these arrays. -/
theorem body1_ok (hx : ∀ d i, (m ((SparseCore.T (τ := τ) d).loc main_arg0) i).toNat < 100000) :
    Body1 (F := F) (xvC (W2r m)) (rminC (W2r m)) (rmaxC (W2r m)) (p4r m) := fun d L q₁ q₂ q₃ O W hO =>
  MinMax.body d L q₁ q₂ q₃ (xvC (W2r m) d) (rminC (W2r m) d) (rmaxC (W2r m) d) (xvC_ok m hx d) O W hO

theorem body3_ok (hx : ∀ d i, (m ((SparseCore.T (τ := τ) d).loc main_arg0) i).toNat < 100000) :
    Body3 (F := F) (xvC (W2r m)) (tvC (W6r m)) (g3r m) := fun d L q₁ q₂ O W hO =>
  Gather.body d L q₁ q₂ (xvC (W2r m) d) (tvC (W6r m) d) (xvC_ok m hx d) O W hO

/-- THE RUN: from any launch memory whose index words are in range, every weakly fair execution of the program
    terminates, and every final memory holds the last contents at every unscoped buffer of every TensorCore. -/
theorem run (hx : ∀ d i, (m ((SparseCore.T (τ := τ) d).loc main_arg0) i).toNat < 100000) :
    θ_run (Cert.Kernel.defs (F := F)) (Cert.Kernel.threads (F := F)) ⟨m, fun _ => 0, ρ⟩ (QC (F := F) (W6r m) (g3r m)) :=
  run_main m ρ (W2r m) (W6r m) (p4r m) (g3r m) (r0 m) (r2 m)
    (fun d => call0_hand (xvC (W2r m)) (rminC (W2r m)) (rmaxC (W2r m)) (p4r m) (tvC (W6r m)) (g3r m) d)
    (fun d => call1_hand (xvC (W2r m)) (rminC (W2r m)) (rmaxC (W2r m)) (p4r m) (tvC (W6r m)) (g3r m) d)
    (hx7 m) (body1_ok m hx) (body3_ok m hx)
    (vecSplit0 (xvC (W2r m)) (rminC (W2r m)) (rmaxC (W2r m)) (p4r m) (tvC (W6r m)) (g3r m))
    (vecSplit1 (xvC (W2r m)) (rminC (W2r m)) (rmaxC (W2r m)) (p4r m) (tvC (W6r m)) (g3r m))

end Facts

/-! ## The final contents: the arguments as launched, the result as one function of them -/

section Final

variable (m : (ℓ : Loc nD τ sig) → Buf (Elt F) ℓ)

/-- From the table pipeline's exit to the end, a buffer no later step writes holds what the pipeline left. -/
theorem W9r_of_W6 (d : Dev nD) (b : Ref sig .tc) (h7 : b ≠ main_v7) (h8 : b ≠ main_v8) (h9 : b ≠ main_v9) :
    W9 (W6r m) (g3r m) d (Proc.devRef .tc b) = W6r m d (Proc.devRef .tc b) :=
  (W9_ne (W6r m) (g3r m) d h9).trans ((W8_ne (W6r m) (g3r m) d h8).trans (W7_ne (W6r m) d h7))

/-- A buffer no step writes ends as launched. -/
theorem W9_kept (d : Dev nD) (b : Ref sig .tc) (ha : b ≠ main_arg1) (h0 : b ≠ main_v0) (h10 : b ≠ main_v1_0) (h11 : b ≠ main_v1_1)
    (h2 : b ≠ main_v2) (h3 : b ≠ main_v3) (h4 : b ≠ main_v4) (h5 : b ≠ main_v5) (h6 : b ≠ main_v6) (h7 : b ≠ main_v7)
    (h8 : b ≠ main_v8) (h9 : b ≠ main_v9) :
    W9 (W6r m) (g3r m) d (Proc.devRef .tc b) = m ((SparseCore.T (τ := τ) d).loc b) :=
  (W9r_of_W6 m d b h7 h8 h9).trans ((Reg2.Wout_of_ne (W5 (W2r m) (p4r m)) (O1 (F := F)) (8 * 1) d b h6).trans
    ((W5r_of_W2 m d b h2 h3 h4 h5).trans (W2r_other m d b h0 ha h10 h11)))

theorem W9_arg0 (d : Dev nD) : W9 (W6r m) (g3r m) d (Proc.devRef .tc main_arg0) = m ((SparseCore.T (τ := τ) d).loc main_arg0) :=
  W9_kept m d main_arg0 (by decide) (by decide) (by decide) (by decide) (by decide) (by decide) (by decide) (by decide) (by decide) (by decide) (by decide) (by decide)
theorem W9_arg1 (d : Dev nD) : W9 (W6r m) (g3r m) d (Proc.devRef .tc main_arg1) = m ((SparseCore.T (τ := τ) d).loc main_arg1) :=
  (W9r_of_W6 m d main_arg1 (by decide) (by decide) (by decide)).trans
    ((Reg2.Wout_of_ne (W5 (W2r m) (p4r m)) (O1 (F := F)) (8 * 1) d main_arg1 (by decide)).trans
      ((W5r_of_W2 m d main_arg1 (by decide) (by decide) (by decide) (by decide)).trans (W2r_arg1 m d)))
theorem W9_arg2 (d : Dev nD) : W9 (W6r m) (g3r m) d (Proc.devRef .tc main_arg2) = m ((SparseCore.T (τ := τ) d).loc main_arg2) :=
  W9_kept m d main_arg2 (by decide) (by decide) (by decide) (by decide) (by decide) (by decide) (by decide) (by decide) (by decide) (by decide) (by decide) (by decide)
theorem W9_arg3 (d : Dev nD) : W9 (W6r m) (g3r m) d (Proc.devRef .tc main_arg3) = m ((SparseCore.T (τ := τ) d).loc main_arg3) :=
  W9_kept m d main_arg3 (by decide) (by decide) (by decide) (by decide) (by decide) (by decide) (by decide) (by decide) (by decide) (by decide) (by decide) (by decide)

/-- The partial extrema, from the launch memory. -/
theorem p4r_eq (d : Dev nD) :
    p4r m d = MinMax.P4 (shapeCast S819200 (m ((SparseCore.T (τ := τ) d).loc main_arg0)) Facts₀.shapeCasts_S4096x200_S819200)
      (shapeCast S100000 (Reg0.rowMin (m ((SparseCore.T (τ := τ) d).loc main_arg1))) Facts₀.shapeCasts_S100x1x1000_S100000)
      (shapeCast S100000 (Reg0.rowMax (m ((SparseCore.T (τ := τ) d).loc main_arg1))) Facts₀.shapeCasts_S100x1x1000_S100000) := by
  show MinMax.P4 (xvC (W2r m) d) (rminC (W2r m) d) (rmaxC (W2r m) d) = _
  rw [xvC_eq, rminC_eq, rmaxC_eq]

/-- The gathered scores, from the launch memory and the partial extrema. -/
theorem g3r_eq (d : Dev nD) :
    g3r m d = Gather.G3 (d := d) (shapeCast S819200 (m ((SparseCore.T (τ := τ) d).loc main_arg0)) Facts₀.shapeCasts_S4096x200_S819200)
      (shapeCast S100000 (Reg2.table (m ((SparseCore.T (τ := τ) d).loc main_arg1)) (p4r m d)
        (m ((SparseCore.T (τ := τ) d).loc main_arg2))
        (shapeCast S1x1 (m ((SparseCore.T (τ := τ) d).loc main_arg3)) Facts₀.shapeCasts_S1_S1x1)) Facts₀.shapeCasts_S100x1x1000_S100000) := by
  show Gather.G3 (xvC (W2r m) d) (tvC (W6r m) d) = _
  rw [xvC_eq, tvC_eq]

/-- THE RESULT: the gathered scores, reshaped. -/
theorem W9_v9 (d : Dev nD) :
    W9 (W6r m) (g3r m) d (Proc.devRef .tc main_v9) = shapeCast S4096x200x1 (g3r m d) Facts₀.shapeCasts_S819200_S4096x200x1 :=
  (W9_v9' (W6r m) (g3r m) d).trans (congrArg (fun x => shapeCast S4096x200x1 x Facts₀.shapeCasts_S819200_S4096x200x1) (W8_v8 (W6r m) (g3r m) d))

end Final

end Cert.Kernel.Hand

end
-- ==== Proof.Region0Value.lean ====
/-
  The closed forms of REGION 0's two outputs, read at the extended reals: entry `(g, 0, j)` of the array of row minima is
  the infimum over `k` of the table's entry `(1000 g + j, k)`, and of the array of row maxima the supremum. A fold of
  `min` from +inf over a finite family is its infimum (by the universal property of the fold), of `max` from -inf its
  supremum; the reduction's accumulator words are exactly +inf and -inf.
-/
import proofs.«211894_g61933428415975_cont_9to1c4b_619_7_alg».proof.Proof.Region0I
import Idealize.ShloMosaic.PureOps.Ideal.Laws

noncomputable section

namespace Cert.KernelIdeal.Hand.Reg0

open Cert.KernelIdeal Cert.KernelIdeal.Gen
open Idealize.ShloMosaic Idealize.ShloMosaic.ValueIdx

/-- The fold of `min` from the top element over a finite family is the family's infimum. -/
theorem fold_min_top {n : ℕ} (f : Fin n → EReal) : (Finset.univ : Finset (Fin n)).fold min ⊤ f = ⨅ k, f k :=
  le_antisymm (le_iInf fun k => (Finset.fold_min_le _).2 (Or.inr ⟨k, Finset.mem_univ k, le_rfl⟩))
    ((Finset.le_fold_min _).2 ⟨le_top, fun k _ => iInf_le f k⟩)

/-- The fold of `max` from the bottom element over a finite family is the family's supremum. -/
theorem fold_max_bot {n : ℕ} (f : Fin n → EReal) : (Finset.univ : Finset (Fin n)).fold max ⊥ f = ⨆ k, f k :=
  le_antisymm ((Finset.fold_max_le _).2 ⟨bot_le, fun k _ => le_iSup f k⟩)
    (iSup_le fun k => (Finset.le_fold_max _).2 (Or.inr ⟨k, Finset.mem_univ k, le_rfl⟩))

/-- The accumulator of the minimum is +inf, -/
theorem ofBits_posInf : Ideal.ofBits .f32 0x7F800000#32 = ⊤ := by simp [Ideal.ofBits, Ideal.ieee]
/-- that of the maximum -inf. -/
theorem ofBits_negInf : Ideal.ofBits .f32 0xFF800000#32 = ⊥ := by simp [Ideal.ofBits, Ideal.ieee]

/-- The block index over row `j` with column `k` inserted is `(j, k)`. -/
theorem lift_eq (j : Fin 1000) (k : Fin 128) :
    reduces_S1000x128_S1000.lift (ix1 (n := 1000) j) k = ix2 (n0 := 1000) (n1 := 128) j k := by
  funext c; apply Fin.ext
  show reduces_S1000x128_S1000.liftVal (ix1 (n := 1000) j) k.val c = (ix2 (n0 := 1000) (n1 := 128) j k c).val
  match c with
  | ⟨0, _⟩ => simp [Shape.Reduces.liftVal]
  | ⟨1, _⟩ => simp [Shape.Reduces.liftVal]

/-- The row minima of a block, reshaped `[1, 1, 1000]`, at `(0, 0, j)`: the infimum of the block's row `j`. -/
theorem payMin_apply (x : FVec Ideal S1000x128 .f32) (j : Fin 1000) :
    payMin (F := Ideal) x (ix3 (n0 := 1) (n1 := 1) (n2 := 1000) 0 0 j) = ⨅ k : Fin 128, x (ix2 (n0 := 1000) (n1 := 128) j k) := by
  unfold payMin
  refine (shapeCast_apply _ _ (ix3 (n0 := 1) (n1 := 1) (n2 := 1000) 0 0 j) (ix1 (n := 1000) j)
    (by rw [Shape.rowMajor_val_one, Shape.rowMajor_val_three]; show j.val = ((0 : ℕ) * 1 + 0) * 1000 + j.val; omega)).trans ?_
  refine (multiReduction_minimumf_eq_fold x _ reduces_S1000x128_S1000 (.inl rfl) rfl (ix1 (n := 1000) j)).trans ?_
  refine (Shape.Reduces.fold_filter_drop_single reduces_S1000x128_S1000 _ _ x (ix1 (n := 1000) j)).trans ?_
  show Finset.fold min (Ideal.ofBits .f32 0x7F800000#32) (x ∘ reduces_S1000x128_S1000.lift (ix1 (n := 1000) j)) (Finset.univ : Finset (Fin 128)) = _
  rw [ofBits_posInf]
  refine (fold_min_top (n := 128) _).trans ?_
  exact iInf_congr fun k => congrArg x (lift_eq j k)

/-- The row maxima likewise: the supremum of the block's row `j`. -/
theorem payMax_apply (x : FVec Ideal S1000x128 .f32) (j : Fin 1000) :
    payMax (F := Ideal) x (ix3 (n0 := 1) (n1 := 1) (n2 := 1000) 0 0 j) = ⨆ k : Fin 128, x (ix2 (n0 := 1000) (n1 := 128) j k) := by
  unfold payMax
  refine (shapeCast_apply _ _ (ix3 (n0 := 1) (n1 := 1) (n2 := 1000) 0 0 j) (ix1 (n := 1000) j)
    (by rw [Shape.rowMajor_val_one, Shape.rowMajor_val_three]; show j.val = ((0 : ℕ) * 1 + 0) * 1000 + j.val; omega)).trans ?_
  refine (multiReduction_maximumf_eq_fold x _ reduces_S1000x128_S1000 (.inl rfl) rfl (ix1 (n := 1000) j)).trans ?_
  refine (Shape.Reduces.fold_filter_drop_single reduces_S1000x128_S1000 _ _ x (ix1 (n := 1000) j)).trans ?_
  show Finset.fold max (Ideal.ofBits .f32 0xFF800000#32) (x ∘ reduces_S1000x128_S1000.lift (ix1 (n := 1000) j)) (Finset.univ : Finset (Fin 128)) = _
  rw [ofBits_negInf]
  refine (fold_max_bot (n := 128) _).trans ?_
  exact iSup_congr fun k => congrArg x (lift_eq j k)

/-- Row `j` of block `g` of the table is the table's row `1000 g + j`. -/
theorem tblBlock_apply (emb : S100000x128.Idx → Ideal .f32) (g : Fin 100) (j : Fin 1000) (k : Fin 128) :
    tblBlock (F := Ideal) emb g (ix2 (n0 := 1000) (n1 := 128) j k)
      = emb (ix2 (n0 := 100000) (n1 := 128) ⟨1000 * g.val + j.val, by have := g.isLt; have := j.isLt; omega⟩ k) := by
  unfold tblBlock
  refine congrArg emb ?_
  funext a
  match a with
  | ⟨0, _⟩ => rfl
  | ⟨1, _⟩ => rfl

/-- ENTRY `(g, 0, j)` OF THE ROW MINIMA: the infimum over the columns of the table's row `1000 g + j`. -/
theorem rowMin_apply (emb : S100000x128.Idx → Ideal .f32) (g : Fin 100) (j : Fin 1000) :
    rowMin (F := Ideal) emb (ix3 (n0 := 100) (n1 := 1) (n2 := 1000) g 0 j)
      = ⨅ k : Fin 128, emb (ix2 (n0 := 100000) (n1 := 128) ⟨1000 * g.val + j.val, by have := g.isLt; have := j.isLt; omega⟩ k) := by
  unfold rowMin
  show payMin (F := Ideal) (tblBlock (F := Ideal) emb g) (ix3 (n0 := 1) (n1 := 1) (n2 := 1000) 0 0 j) = _
  rw [payMin_apply]
  exact iInf_congr fun k => tblBlock_apply emb g j k

/-- ENTRY `(g, 0, j)` OF THE ROW MAXIMA: the supremum over the columns of the table's row `1000 g + j`. -/
theorem rowMax_apply (emb : S100000x128.Idx → Ideal .f32) (g : Fin 100) (j : Fin 1000) :
    rowMax (F := Ideal) emb (ix3 (n0 := 100) (n1 := 1) (n2 := 1000) g 0 j)
      = ⨆ k : Fin 128, emb (ix2 (n0 := 100000) (n1 := 128) ⟨1000 * g.val + j.val, by have := g.isLt; have := j.isLt; omega⟩ k) := by
  unfold rowMax
  show payMax (F := Ideal) (tblBlock (F := Ideal) emb g) (ix3 (n0 := 1) (n1 := 1) (n2 := 1000) 0 0 j) = _
  rw [payMax_apply]
  exact iSup_congr fun k => tblBlock_apply emb g j k

end Cert.KernelIdeal.Hand.Reg0

end
-- ==== Proof.Region2Value.lean ====
/-
  The table kernel's output array at the extended reals, entry by entry, against the shared specification: entry
  (g, 0, j) is the score of table row 1000 g + j — the fake-quantised row against the weight row, summed, plus the
  bias — with the quantisation step and the zero point taken from the least entry of the first slab of the partial
  extrema and the greatest entry of the second.
-/
import proofs.«211894_g61933428415975_cont_9to1c4b_619_7_alg».proof.Proof.Region2I
import proofs.«211894_g61933428415975_cont_9to1c4b_619_7_alg».proof.Proof.Spec
import Idealize.ShloMosaic.PureOps.Ideal.Laws
import Idealize.ShloMosaic.Lib.ValueLayout

set_option maxRecDepth 16384

noncomputable section

namespace Cert.KernelIdeal.Hand.Reg2

open Cert.KernelIdeal Cert.KernelIdeal.Gen Cert.KernelIdeal.Hand
open Idealize.ShloMosaic Idealize.ShloMosaic.ValueIdx
open scoped BigOperators

/-! ## Folds of `min` and `max` over a finite type -/

theorem fold_min_univ {ι : Type} [Fintype ι] (f : ι → EReal) : (Finset.univ : Finset ι).fold min ⊤ f = ⨅ i, f i :=
  eq_of_forall_le_iff fun c => by
    rw [Finset.le_fold_min, le_iInf_iff]
    exact ⟨fun h i => h.2 i (Finset.mem_univ i), fun h => ⟨le_top, fun i _ => h i⟩⟩

theorem fold_max_univ {ι : Type} [Fintype ι] (f : ι → EReal) : (Finset.univ : Finset ι).fold max ⊥ f = ⨆ i, f i :=
  eq_of_forall_ge_iff fun c => by
    rw [Finset.fold_max_le, iSup_le_iff]
    exact ⟨fun h i => h.2 i (Finset.mem_univ i), fun h => ⟨bot_le, fun i _ => h i⟩⟩

/-- The word of +∞ and the word of -∞. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-! ## The two extrema of the partials -/

variable (p : Vec Ideal S2x16x16 .f32)

/-- The least entry of the first slab. -/
abbrev LO : EReal := ⨅ (s : Fin 16) (l : Fin 16), p (ix3 (0 : Fin 2) s l)
/-- The greatest entry of the second slab. -/
abbrev HI : EReal := ⨆ (s : Fin 16) (l : Fin 16), p (ix3 (1 : Fin 2) s l)

/-- A slab of the partials, cut out and recast as the body does, read at an index. -/
theorem slab_apply (o : Fin 2) (hs : S2x16x16.Slices ![o.val, 0, 0] S1x16x16) (i : S1x16x16.Idx) :
    shapeCast S1x16x16 (shapeCast S16x16 (extractStridedSlice S1x16x16 ![o.val, 0, 0]
        (shapeCast S2x16x16 p shapeCasts_S2x16x16_S2x16x16) hs) shapeCasts_S1x16x16_S16x16) shapeCasts_S16x16_S1x16x16 i
      = p (ix3 o (i 1 : Fin 16) (i 2 : Fin 16)) := by
  rw [shapeCast_shapeCast, shapeCast_self]
  refine extractStridedSlice_apply _ p hs i _ fun a => ?_
  have h0 : (i 0).val < 1 := (i 0).isLt
  match a with
  | ⟨0, _⟩ => show o.val = o.val + (i 0).val; omega
  | ⟨1, _⟩ => show (i 1).val = 0 + (i 1).val; omega
  | ⟨2, _⟩ => show (i 2).val = 0 + (i 2).val; omega

/-- The infimum over a slab's indices, by rows and lanes. -/
theorem iInf_slab (o : Fin 2) (f : S1x16x16.Idx → EReal) (hf : ∀ i, f i = p (ix3 o (i 1 : Fin 16) (i 2 : Fin 16))) :
    (⨅ i, f i) = ⨅ (s : Fin 16) (l : Fin 16), p (ix3 o s l) := by
  apply le_antisymm
  · exact le_iInf fun s => le_iInf fun l => (iInf_le f (ix3 (0 : Fin 1) s l)).trans (le_of_eq (hf _))
  · exact le_iInf fun i => iInf_le_of_le (i 1 : Fin 16) (iInf_le_of_le (i 2 : Fin 16) (le_of_eq (hf i).symm))

/-- The supremum over a slab's indices, by rows and lanes. -/
theorem iSup_slab (o : Fin 2) (f : S1x16x16.Idx → EReal) (hf : ∀ i, f i = p (ix3 o (i 1 : Fin 16) (i 2 : Fin 16))) :
    (⨆ i, f i) = ⨆ (s : Fin 16) (l : Fin 16), p (ix3 o s l) := by
  apply le_antisymm
  · exact iSup_le fun i => le_iSup_of_le (i 1 : Fin 16) (le_iSup_of_le (i 2 : Fin 16) (le_of_eq (hf i)))
  · exact iSup_le fun s => iSup_le fun l => (le_of_eq (hf _).symm).trans (le_iSup f (ix3 (0 : Fin 1) s l))

/-- Every index of the one-entry vector is the same. -/
theorem S1_idx_eq (a b : S1.Idx) : a = b :=
  funext fun d => Fin.ext (by
    have h1 : (a d).val < 1 := by have := (a d).isLt; match d with | ⟨0, _⟩ => exact this
    have h2 : (b d).val < 1 := by have := (b d).isLt; match d with | ⟨0, _⟩ => exact this
    omega)

/-- The least entry of a 1 × 16 × 16 vector, as the body takes it: reduced over both long axes from the word of +∞,
    recast and extracted. -/
theorem min_total (v : FVec Ideal S1x16x16 .f32) :
    extractAt ![0, 0, 0] (shapeCast S1x1x1 (multiReduction .minimumf [1, 2] S1 v 0x7F800000#32 reduces_S1x16x16_S1 (.inl rfl) rfl)
        shapeCasts_S1_S1x1x1) inpos_S1x1x1_p0_0_0 = ⨅ i : S1x16x16.Idx, v i := by
  unfold extractAt
  rw [shapeCast_apply _ _ _ (ix1 (0 : Fin 1)) (by rw [Shape.rowMajor_val_one, Shape.rowMajor_val_three]; rfl)]
  refine (multiReduction_minimumf_eq_fold (F := Ideal) v _ reduces_S1x16x16_S1 _ _ _).trans ?_
  rw [Finset.filter_true_of_mem fun i _ => S1_idx_eq _ _]
  rw [show (FloatOps.ofBits .f32 0x7F800000#32 : Ideal .f32) = ⊤ from ofBits_posInf]
  exact fold_min_univ v

/-- The greatest entry, likewise from the word of -∞. -/
theorem max_total (v : FVec Ideal S1x16x16 .f32) :
    extractAt ![0, 0, 0] (shapeCast S1x1x1 (multiReduction .maximumf [1, 2] S1 v 0xFF800000#32 reduces_S1x16x16_S1 (.inl rfl) rfl)
        shapeCasts_S1_S1x1x1) inpos_S1x1x1_p0_0_0 = ⨆ i : S1x16x16.Idx, v i := by
  unfold extractAt
  rw [shapeCast_apply _ _ _ (ix1 (0 : Fin 1)) (by rw [Shape.rowMajor_val_one, Shape.rowMajor_val_three]; rfl)]
  refine (multiReduction_maximumf_eq_fold (F := Ideal) v _ reduces_S1x16x16_S1 _ _ _).trans ?_
  rw [Finset.filter_true_of_mem fun i _ => S1_idx_eq _ _]
  rw [show (FloatOps.ofBits .f32 0xFF800000#32 : Ideal .f32) = ⊥ from ofBits_negInf]
  exact fold_max_univ v

/-! ## The step and the zero point are the specification's -/

theorem qlo_eq : qlo (F := Ideal) p = min (LO p) Cert.Spec.c0 := by
  unfold qlo
  show min (extractAt ![0, 0, 0] (shapeCast S1x1x1 (multiReduction (F := Ideal) .minimumf [1, 2] S1 _ 0x7F800000#32 reduces_S1x16x16_S1 (.inl rfl) rfl)
      shapeCasts_S1_S1x1x1) inpos_S1x1x1_p0_0_0) (Ideal.ofBits .f32 0x00000000#32) = _
  rw [min_total]
  exact congrArg (min · Cert.Spec.c0) (iInf_slab p 0 _ fun i => slab_apply p 0 slices_S2x16x16_o0_0_0_S1x16x16 i)

theorem qhi_eq : qhi (F := Ideal) p = max (HI p) Cert.Spec.c0 := by
  unfold qhi
  show max (extractAt ![0, 0, 0] (shapeCast S1x1x1 (multiReduction (F := Ideal) .maximumf [1, 2] S1 _ 0xFF800000#32 reduces_S1x16x16_S1 (.inl rfl) rfl)
      shapeCasts_S1_S1x1x1) inpos_S1x1x1_p0_0_0) (Ideal.ofBits .f32 0x00000000#32) = _
  rw [max_total]
  exact congrArg (max · Cert.Spec.c0) (iSup_slab p 1 _ fun i => slab_apply p 1 slices_S2x16x16_o1_0_0_S1x16x16 i)

theorem qstep_eq : qstep (F := Ideal) p = Cert.Spec.scale (LO p) (HI p) := by
  unfold qstep Cert.Spec.scale
  rw [qlo_eq, qhi_eq]
  rfl

theorem qzero_eq : qzero (F := Ideal) p = Cert.Spec.zp (LO p) (HI p) := by
  unfold qzero Cert.Spec.zp
  rw [qlo_eq, qstep_eq]
  rfl

/-- An entry fake-quantised is the specification's. -/
theorem quant_apply (h : Vec Ideal S1000x128 .f32) (y : S1000x128.Idx) :
    quant (F := Ideal) p h y = Cert.Spec.fq (LO p) (HI p) (h y) := by
  unfold quant Cert.Spec.fq
  rw [qstep_eq, qzero_eq]
  rfl

/-! ## The scores -/

/-- The weight row, recast there and back and broadcast down the block, read at an entry. -/
theorem wrow_apply (W : Vec Ideal S1x128 .f32) (r : Fin 1000) (k : Fin 128) :
    broadcastTo S1000x128 (shapeCast S1x128 (shapeCast S128 W shapeCasts_S1x128_S128) shapeCasts_S128_S1x128)
        broadcasts_S1x128_S1000x128 (ix2 r k) = W (ix2 (0 : Fin 1) k) := by
  rw [shapeCast_shapeCast]
  exact broadcastTo_1b_ab_apply W _ r k

/-- The score of row `r` of a block: the fake-quantised row against the weight row, summed, plus the bias. -/
theorem score_apply (h : Vec Ideal S1000x128 .f32) (W : Vec Ideal S1x128 .f32) (b : Vec Ideal S1x1 .f32) (r : Fin 1000) :
    score (F := Ideal) h p W b (ix1 r)
      = (∑ k : Fin 128, Cert.Spec.fq (LO p) (HI p) (h (ix2 r k)) * W (ix2 (0 : Fin 1) k)) + b (ix2 (0 : Fin 1) (0 : Fin 1)) := by
  unfold score
  show (multiReduction (F := Ideal) .add [1] S1000 (mulf (quant p h) (broadcastTo S1000x128 _ broadcasts_S1x128_S1000x128)) 0x00000000#32
      reduces_S1000x128_S1000 (.inl rfl) rfl) (ix1 r) + extractAt ![0, 0] b inpos_S1x1_p0_0 = _
  congr 1
  · refine (Ideal.multiReduction_add_single _ 0x00000000#32 reduces_S1000x128_S1000 (.inl rfl) rfl (ix1 r)).trans ?_
    show ∑ k : Fin 128, _ = _
    refine Finset.sum_congr rfl fun k _ => ?_
    have hl : reduces_S1000x128_S1000.lift (ix1 r) k = ix2 r k :=
      funext fun a => Fin.ext (by match a with | ⟨0, _⟩ => rfl | ⟨1, _⟩ => rfl)
    rw [hl]
    show quant p h (ix2 r k) * broadcastTo S1000x128 _ broadcasts_S1x128_S1000x128 (ix2 r k) = _
    rw [quant_apply, wrow_apply]
  · unfold extractAt
    exact congrArg b (funext fun a => Fin.ext (by match a with | ⟨0, _⟩ => rfl | ⟨1, _⟩ => rfl))

/-- THE OUTPUT ARRAY, entry by entry: entry `(g, 0, j)` is the specification's score of table row `1000 g + j` at the
    two extrema of the partials. -/
theorem table_apply (emb : Vec Ideal S100000x128 .f32) (W : Vec Ideal S1x128 .f32) (b : Vec Ideal S1x1 .f32)
    (g : Fin 100) (j : Fin 1000) :
    table (F := Ideal) emb p W b (ix3 g (0 : Fin 1) j)
      = (∑ k : Fin 128, Cert.Spec.fq (LO p) (HI p)
            (emb (ix2 (⟨1000 * g.val + j.val, by have := g.isLt; have := j.isLt; omega⟩ : Fin 100000) k)) * W (ix2 (0 : Fin 1) k))
          + b (ix2 (0 : Fin 1) (0 : Fin 1)) := by
  unfold table pay2
  rw [shapeCast_apply _ _ _ (ix1 j) (by
    rw [Shape.rowMajor_val_one, Shape.rowMajor_val_three]; show j.val = (0 * 1 + 0) * 1000 + j.val; omega)]
  rw [score_apply]
  rfl

/-- The same read at a table row `r`: the row's entry of the output array is the specification's score of the row. -/
theorem table_row (emb : Vec Ideal S100000x128 .f32) (W : Vec Ideal S1x128 .f32) (b : Vec Ideal S1x1 .f32) (r : Fin 100000) :
    table (F := Ideal) emb p W b
        (ix3 (⟨r.val / 1000, by have := r.isLt; omega⟩ : Fin 100) (0 : Fin 1) (⟨r.val % 1000, Nat.mod_lt _ (by norm_num)⟩ : Fin 1000))
      = (∑ k : Fin 128, Cert.Spec.fq (LO p) (HI p) (emb (ix2 r k)) * W (ix2 (0 : Fin 1) k)) + b (ix2 (0 : Fin 1) (0 : Fin 1)) := by
  rw [table_apply]
  refine congrArg (· + b (ix2 (0 : Fin 1) (0 : Fin 1))) (Finset.sum_congr rfl fun k _ => ?_)
  have e : (⟨1000 * (r.val / 1000) + r.val % 1000, by have := r.isLt; omega⟩ : Fin 100000) = r :=
    Fin.ext (Nat.div_add_mod r.val 1000)
  show Cert.Spec.fq (LO p) (HI p) (emb (ix2 (⟨1000 * (r.val / 1000) + r.val % 1000, _⟩ : Fin 100000) k)) * _ = _
  rw [e]

end Cert.KernelIdeal.Hand.Reg2

end
-- ==== Proof.ValueBridge.lean ====
/-
  The value bridge at the extended reals: the kernel's result, as a chain of pure functions of the four arguments,
  is the specification's, entry by entry.

  The chain: the index words flattened; the table's row minima and row maxima, flattened; the partial extrema `p4`
  the reduction over the gathered rows leaves (a variable here, known only through four inequalities: its first slab
  lies between the infimum of the gathered row minima and each of them, its second slab between each gathered row
  maximum and their supremum); the score of every table row at the two extrema of `p4`, flattened; the gather of the
  scores at the index words, reshaped. The least entry of `p4`'s first slab is then the least gathered entry, the
  greatest of its second slab the greatest gathered entry, and a flattened index `n` is `200 p + q`, a table row `r` is
  `1000 (r / 1000) + r % 1000`.
-/
import proofs.«211894_g61933428415975_cont_9to1c4b_619_7_alg».proof.Proof.Region0Value
import proofs.«211894_g61933428415975_cont_9to1c4b_619_7_alg».proof.Proof.Region2Value
import proofs.«211894_g61933428415975_cont_9to1c4b_619_7_alg».proof.Proof.Spec

noncomputable section

namespace Cert.KernelIdeal.Hand.Bridge

open Cert.KernelIdeal Cert.KernelIdeal.Gen
open Idealize.ShloMosaic Idealize.ShloMosaic.ValueIdx
open scoped BigOperators

variable (x : S4096x200.Idx → BitVec 32) (emb : S100000x128.Idx → EReal) (W : S1x128.Idx → EReal) (b : S1.Idx → EReal)
  (p4 : S2x16x16.Idx → EReal)

/-! ## The chain -/

/-- The index words, flattened: word `n` is `x (n / 200, n % 200)`. -/
def xv : S819200.Idx → BitVec 32 := shapeCast S819200 x Facts₀.shapeCasts_S4096x200_S819200
/-- The table's row minima, flattened: entry `r` is the least entry of row `r`. -/
def rmin : S100000.Idx → EReal := shapeCast S100000 (Reg0.rowMin (F := Ideal) emb) Facts₀.shapeCasts_S100x1x1000_S100000
/-- The table's row maxima, flattened. -/
def rmax : S100000.Idx → EReal := shapeCast S100000 (Reg0.rowMax (F := Ideal) emb) Facts₀.shapeCasts_S100x1x1000_S100000
/-- The bias as a `1 × 1` array. -/
def b5 : S1x1.Idx → EReal := shapeCast S1x1 b Facts₀.shapeCasts_S1_S1x1
/-- The score of every table row at the two extrema of the partials. -/
def t6 : S100x1x1000.Idx → EReal := Reg2.table (F := Ideal) emb p4 W (b5 b)
/-- The scores, flattened: entry `r` is row `r`'s. -/
def tv : S100000.Idx → EReal := shapeCast S100000 (t6 emb W b p4) Facts₀.shapeCasts_S100x1x1000_S100000
/-- The scores gathered at the index words. -/
def g3 : S819200.Idx → EReal := fun n => tv emb W b p4 (ix1 (Cert.Spec.row (xv x n)))
/-- The result. -/
def out9 : S4096x200x1.Idx → EReal := shapeCast S4096x200x1 (g3 x emb W b p4) Facts₀.shapeCasts_S819200_S4096x200x1

/-! ## The reshapes read at an index -/

theorem lt_flat (p : Fin 4096) (q : Fin 200) : 200 * p.val + q.val < 819200 := by have := p.isLt; have := q.isLt; omega

/-- Flattened word `200 p + q` is `x (p, q)`. -/
theorem xv_apply (p : Fin 4096) (q : Fin 200) : xv x (ix1 (n := 819200) ⟨200 * p.val + q.val, lt_flat p q⟩) = x (ix2 (n0 := 4096) (n1 := 200) p q) := by
  unfold xv
  refine shapeCast_apply _ _ _ _ ?_
  rw [Shape.rowMajor_val_one, Shape.rowMajor_val_two]
  show p.val * 200 + q.val = 200 * p.val + q.val
  omega

/-- Every flattened index is `200 p + q`. -/
theorem flat_split (n : S819200.Idx) : ∃ (p : Fin 4096) (q : Fin 200), n = ix1 (n := 819200) ⟨200 * p.val + q.val, lt_flat p q⟩ := by
  have hn : (n 0).val < 819200 := (n 0).isLt
  refine ⟨⟨(n 0).val / 200, by omega⟩, ⟨(n 0).val % 200, by omega⟩, ?_⟩
  refine (eq_ix1 n).trans ?_
  refine congrArg (ix1 (n := 819200)) (Fin.ext ?_)
  show (n 0).val = 200 * ((n 0).val / 200) + (n 0).val % 200
  omega

/-- A table row is `1000 (r / 1000) + r % 1000`. -/
theorem row_split (r : Fin 100000) :
    (⟨1000 * (r.val / 1000) + r.val % 1000, by have := r.isLt; omega⟩ : Fin 100000) = r := Fin.ext (Nat.div_add_mod r.val 1000)

theorem flat3 (r : Fin 100000) :
    (S100x1x1000.rowMajor (ix3 (n0 := 100) (n1 := 1) (n2 := 1000) ⟨r.val / 1000, by have := r.isLt; omega⟩ 0 ⟨r.val % 1000, by omega⟩)).val
      = (S100000.rowMajor (ix1 (n := 100000) r)).val := by
  rw [Shape.rowMajor_val_one, Shape.rowMajor_val_three]
  show (r.val / 1000 * 1 + 0) * 1000 + r.val % 1000 = r.val
  omega

/-- Flattened row minimum `r` is the least entry of table row `r`. -/
theorem rmin_apply (r : Fin 100000) : rmin emb (ix1 (n := 100000) r) = ⨅ k : Fin 128, emb (ix2 (n0 := 100000) (n1 := 128) r k) := by
  unfold rmin
  refine (shapeCast_apply _ _ _ _ (flat3 r)).trans ?_
  rw [Reg0.rowMin_apply]
  exact iInf_congr fun k => congrArg (fun r' => emb (ix2 (n0 := 100000) (n1 := 128) r' k)) (row_split r)

/-- Flattened row maximum `r` is the greatest entry of table row `r`. -/
theorem rmax_apply (r : Fin 100000) : rmax emb (ix1 (n := 100000) r) = ⨆ k : Fin 128, emb (ix2 (n0 := 100000) (n1 := 128) r k) := by
  unfold rmax
  refine (shapeCast_apply _ _ _ _ (flat3 r)).trans ?_
  rw [Reg0.rowMax_apply]
  exact iSup_congr fun k => congrArg (fun r' => emb (ix2 (n0 := 100000) (n1 := 128) r' k)) (row_split r)

/-- The bias array's one entry is the bias. -/
theorem b5_apply : b5 b (ix2 (n0 := 1) (n1 := 1) 0 0) = b (ix1 (n := 1) 0) := by
  unfold b5
  refine shapeCast_apply _ _ _ _ ?_
  rw [Shape.rowMajor_val_one, Shape.rowMajor_val_two]
  rfl

/-- The result's entry `(p, q, 0)` is the gathered score `200 p + q`. -/
theorem out9_apply (p : Fin 4096) (q : Fin 200) :
    out9 x emb W b p4 (ix3 (n0 := 4096) (n1 := 200) (n2 := 1) p q 0) = g3 x emb W b p4 (ix1 (n := 819200) ⟨200 * p.val + q.val, lt_flat p q⟩) := by
  unfold out9
  refine shapeCast_apply _ _ _ _ ?_
  rw [Shape.rowMajor_val_one, Shape.rowMajor_val_three]
  show 200 * p.val + q.val = (p.val * 200 + q.val) * 1 + 0
  omega

/-! ## The extrema of the partials are the extrema of the gathered entries -/

/-- The infimum of the gathered row minima is the least gathered entry. -/
theorem iInf_rmin : (⨅ n : S819200.Idx, rmin emb (ix1 (Cert.Spec.row (xv x n)))) = Cert.Spec.lo x emb := by
  unfold Cert.Spec.lo
  apply le_antisymm
  · refine le_iInf fun p => le_iInf fun q => ?_
    refine (iInf_le _ (ix1 (n := 819200) ⟨200 * p.val + q.val, lt_flat p q⟩)).trans (le_of_eq ?_)
    rw [xv_apply, rmin_apply]
  · refine le_iInf fun n => ?_
    obtain ⟨p, q, rfl⟩ := flat_split n
    refine iInf_le_of_le p (iInf_le_of_le q (le_of_eq ?_))
    rw [xv_apply, rmin_apply]

/-- The supremum of the gathered row maxima is the greatest gathered entry. -/
theorem iSup_rmax : (⨆ n : S819200.Idx, rmax emb (ix1 (Cert.Spec.row (xv x n)))) = Cert.Spec.hi x emb := by
  unfold Cert.Spec.hi
  apply le_antisymm
  · refine iSup_le fun n => ?_
    obtain ⟨p, q, rfl⟩ := flat_split n
    refine le_iSup_of_le p (le_iSup_of_le q (le_of_eq ?_))
    rw [xv_apply, rmax_apply]
  · refine iSup_le fun p => iSup_le fun q => ?_
    refine (le_of_eq ?_).trans (le_iSup _ (ix1 (n := 819200) ⟨200 * p.val + q.val, lt_flat p q⟩))
    rw [xv_apply, rmax_apply]

section Extrema

variable (hminge : ∀ (s l : Fin 16), (⨅ n : S819200.Idx, rmin emb (ix1 (Cert.Spec.row (xv x n)))) ≤ p4 (ix3 (n0 := 2) (n1 := 16) (n2 := 16) 0 s l))
  (hminle : ∀ n : S819200.Idx, ∃ (s l : Fin 16), p4 (ix3 (n0 := 2) (n1 := 16) (n2 := 16) 0 s l) ≤ rmin emb (ix1 (Cert.Spec.row (xv x n))))
  (hmaxle : ∀ (s l : Fin 16), p4 (ix3 (n0 := 2) (n1 := 16) (n2 := 16) 1 s l) ≤ ⨆ n : S819200.Idx, rmax emb (ix1 (Cert.Spec.row (xv x n))))
  (hmaxge : ∀ n : S819200.Idx, ∃ (s l : Fin 16), rmax emb (ix1 (Cert.Spec.row (xv x n))) ≤ p4 (ix3 (n0 := 2) (n1 := 16) (n2 := 16) 1 s l))

include hminge hminle in
/-- The least entry of the partials' first slab is the least gathered entry. -/
theorem lo_eq : (⨅ (s : Fin 16) (l : Fin 16), p4 (ix3 (n0 := 2) (n1 := 16) (n2 := 16) 0 s l)) = Cert.Spec.lo x emb := by
  rw [← iInf_rmin]
  apply le_antisymm
  · refine le_iInf fun n => ?_
    obtain ⟨s, l, h⟩ := hminle n
    exact iInf_le_of_le s (iInf_le_of_le l h)
  · exact le_iInf fun s => le_iInf fun l => hminge s l

include hmaxle hmaxge in
/-- The greatest entry of the partials' second slab is the greatest gathered entry. -/
theorem hi_eq : (⨆ (s : Fin 16) (l : Fin 16), p4 (ix3 (n0 := 2) (n1 := 16) (n2 := 16) 1 s l)) = Cert.Spec.hi x emb := by
  rw [← iSup_rmax]
  apply le_antisymm
  · exact iSup_le fun s => iSup_le fun l => hmaxle s l
  · refine iSup_le fun n => ?_
    obtain ⟨s, l, h⟩ := hmaxge n
    exact le_iSup_of_le s (le_iSup_of_le l h)

/-! ## The result is the specification's -/

variable (htable : ∀ (g : Fin 100) (j : Fin 1000), t6 emb W b p4 (ix3 (n0 := 100) (n1 := 1) (n2 := 1000) g 0 j)
    = (∑ k : Fin 128, Cert.Spec.fq (⨅ (s : Fin 16) (l : Fin 16), p4 (ix3 (n0 := 2) (n1 := 16) (n2 := 16) 0 s l))
          (⨆ (s : Fin 16) (l : Fin 16), p4 (ix3 (n0 := 2) (n1 := 16) (n2 := 16) 1 s l))
          (emb (ix2 (n0 := 100000) (n1 := 128) ⟨1000 * g.val + j.val, by have := g.isLt; have := j.isLt; omega⟩ k)) * W (ix2 (n0 := 1) (n1 := 128) 0 k))
      + b5 b (ix2 (n0 := 1) (n1 := 1) 0 0))

include hminge hminle hmaxle hmaxge htable in
/-- Flattened score `r` is the specification's score of table row `r`. -/
theorem tv_apply (r : Fin 100000) : tv emb W b p4 (ix1 (n := 100000) r) = Cert.Spec.score x emb W b r := by
  unfold tv
  refine (shapeCast_apply _ _ _ _ (flat3 r)).trans ?_
  rw [htable, lo_eq x emb p4 hminge hminle, hi_eq x emb p4 hmaxle hmaxge, b5_apply]
  unfold Cert.Spec.score
  refine congrArg (· + b (ix1 (n := 1) 0)) (Finset.sum_congr rfl fun k _ => ?_)
  exact congrArg (fun r' => Cert.Spec.fq (Cert.Spec.lo x emb) (Cert.Spec.hi x emb) (emb (ix2 (n0 := 100000) (n1 := 128) r' k)) * W (ix2 (n0 := 1) (n1 := 128) 0 k)) (row_split r)

include hminge hminle hmaxle hmaxge htable in
/-- THE BRIDGE: the chain's result at `(p, q, 0)` is the specification's at `(p, q)`. -/
theorem bridge (p : Fin 4096) (q : Fin 200) :
    out9 x emb W b p4 (ix3 (n0 := 4096) (n1 := 200) (n2 := 1) p q 0) = Cert.Spec.out x emb W b p q := by
  rw [out9_apply]
  unfold g3
  rw [xv_apply, tv_apply x emb W b p4 hminge hminle hmaxle hmaxge htable]
  rfl

end Extrema

/-- The score table's closed form at the extended reals gives the table hypothesis. -/
theorem htable_of_table (g : Fin 100) (j : Fin 1000) : t6 emb W b p4 (ix3 (n0 := 100) (n1 := 1) (n2 := 1000) g 0 j)
    = (∑ k : Fin 128, Cert.Spec.fq (⨅ (s : Fin 16) (l : Fin 16), p4 (ix3 (n0 := 2) (n1 := 16) (n2 := 16) 0 s l))
          (⨆ (s : Fin 16) (l : Fin 16), p4 (ix3 (n0 := 2) (n1 := 16) (n2 := 16) 1 s l))
          (emb (ix2 (n0 := 100000) (n1 := 128) ⟨1000 * g.val + j.val, by have := g.isLt; have := j.isLt; omega⟩ k)) * W (ix2 (n0 := 1) (n1 := 128) 0 k))
      + b5 b (ix2 (n0 := 1) (n1 := 1) 0 0) :=
  Reg2.table_apply p4 emb W (b5 b) g j

/-- THE BRIDGE from the four inequalities on the partials alone. -/
theorem bridge_of_partials
    (hminge : ∀ (s l : Fin 16), (⨅ n : S819200.Idx, rmin emb (ix1 (Cert.Spec.row (xv x n)))) ≤ p4 (ix3 (n0 := 2) (n1 := 16) (n2 := 16) 0 s l))
    (hminle : ∀ n : S819200.Idx, ∃ (s l : Fin 16), p4 (ix3 (n0 := 2) (n1 := 16) (n2 := 16) 0 s l) ≤ rmin emb (ix1 (Cert.Spec.row (xv x n))))
    (hmaxle : ∀ (s l : Fin 16), p4 (ix3 (n0 := 2) (n1 := 16) (n2 := 16) 1 s l) ≤ ⨆ n : S819200.Idx, rmax emb (ix1 (Cert.Spec.row (xv x n))))
    (hmaxge : ∀ n : S819200.Idx, ∃ (s l : Fin 16), rmax emb (ix1 (Cert.Spec.row (xv x n))) ≤ p4 (ix3 (n0 := 2) (n1 := 16) (n2 := 16) 1 s l))
    (p : Fin 4096) (q : Fin 200) :
    out9 x emb W b p4 (ix3 (n0 := 4096) (n1 := 200) (n2 := 1) p q 0) = Cert.Spec.out x emb W b p q :=
  bridge x emb W b p4 hminge hminle hmaxle hmaxge (htable_of_table emb W b p4) p q

end Cert.KernelIdeal.Hand.Bridge

end
-- ==== Proof.TileMinMaxValue.lean ====
/-
  The tile's lanes by their universal property. Every step replaces a lane by `op` of it and a table entry; when `op x y`
  is below both arguments (for a transitive relation `R`) each lane ends below its starting value and below every entry it
  met, and when `m` below two values is below their `op`, a bound `m` of the starting value and of every entry is a bound
  of the result. At the extended reals this gives the minimum (core 0: `op = min`, `R = ≤`) and the maximum (core 1:
  `op = max`, `R = ≥`) of the table entries the tile's index words name.
-/
import proofs.«211894_g61933428415975_cont_9to1c4b_619_7_alg».proof.Proof.TileMinMaxI

noncomputable section

namespace Cert.KernelIdeal.Hand.MinMaxValue

open Cert.KernelIdeal Cert.KernelIdeal.Gen
open Cert.KernelIdeal.Hand.MinMax
open Idealize.ShloMosaic

/-! ## For any relation the operation descends along -/

section Mono

variable {F : FTy → Type} (op : F .f32 → F .f32 → F .f32) (R : F .f32 → F .f32 → Prop)
  (hrefl : ∀ x, R x x) (htrans : ∀ {x y z}, R x y → R y z → R x z) (hl : ∀ x y, R (op x y) x) (hr : ∀ x y, R (op x y) y)

include hl in
theorem step_self (fI : Vec F S25600 .i32) (fT : Vec F S100000 .f32) (p : ℕ) (a : FVec F S16 .f32) (l : S16.Idx) :
    R (step op fI fT p a l) (a l) := hl _ _

include hr in
theorem step_elem (fI : Vec F S25600 .i32) (fT : Vec F S100000 .f32) (p : ℕ) (a : FVec F S16 .f32) (l : S16.Idx) :
    R (step op fI fT p a l) (gat fT (wd fI (p + (l 0).val))) := hr _ _

include htrans hl in
theorem trip_self (fI : Vec F S25600 .i32) (fT : Vec F S100000 .f32) (j : ℕ) (a : FVec F S16 .f32) (l : S16.Idx) :
    R (trip op fI fT j a l) (a l) := htrans (hl _ _) (htrans (hl _ _) (htrans (hl _ _) (htrans (hl _ _) (htrans (hl _ _) (htrans (hl _ _) (htrans (hl _ _) (hl _ _)))))))

include htrans hl hr in
theorem trip_elem (fI : Vec F S25600 .i32) (fT : Vec F S100000 .f32) (j : ℕ) (a : FVec F S16 .f32) (l : S16.Idx) (u : ℕ) (hu : u < 8) :
    R (trip op fI fT j a l) (gat fT (wd fI (128 * j + 16 * u + (l 0).val))) := by
  interval_cases u
  · exact htrans (hl _ _) (htrans (hl _ _) (htrans (hl _ _) (htrans (hl _ _) (htrans (hl _ _) (htrans (hl _ _) (htrans (hl _ _) (hr _ _)))))))
  · exact htrans (hl _ _) (htrans (hl _ _) (htrans (hl _ _) (htrans (hl _ _) (htrans (hl _ _) (htrans (hl _ _) (hr _ _))))))
  · exact htrans (hl _ _) (htrans (hl _ _) (htrans (hl _ _) (htrans (hl _ _) (htrans (hl _ _) (hr _ _)))))
  · exact htrans (hl _ _) (htrans (hl _ _) (htrans (hl _ _) (htrans (hl _ _) (hr _ _))))
  · exact htrans (hl _ _) (htrans (hl _ _) (htrans (hl _ _) (hr _ _)))
  · exact htrans (hl _ _) (htrans (hl _ _) (hr _ _))
  · exact htrans (hl _ _) (hr _ _)
  · exact hr _ _

include hrefl htrans hl in
theorem inner_self (fI : Vec F S25600 .i32) (fT : Vec F S100000 .f32) (a : FVec F S16 .f32) (l : S16.Idx) :
    ∀ j, R (inner op fI fT j a l) (a l)
  | 0 => hrefl _
  | j + 1 => htrans (trip_self op R htrans hl fI fT j _ l) (inner_self fI fT a l j)

include hrefl htrans hl in
theorem inner_mono (fI : Vec F S25600 .i32) (fT : Vec F S100000 .f32) (a : FVec F S16 .f32) (l : S16.Idx) (j : ℕ) :
    ∀ J, j ≤ J → R (inner op fI fT J a l) (inner op fI fT j a l) := by
  intro J hJ
  induction J, hJ using Nat.le_induction with
  | base => exact hrefl _
  | succ J _ ih => exact htrans (trip_self op R htrans hl fI fT J _ l) ih

include hrefl htrans hl hr in
theorem inner_elem (fI : Vec F S25600 .i32) (fT : Vec F S100000 .f32) (a : FVec F S16 .f32) (l : S16.Idx) (J j u : ℕ) (hj : j < J) (hu : u < 8) :
    R (inner op fI fT J a l) (gat fT (wd fI (128 * j + 16 * u + (l 0).val))) :=
  htrans (inner_mono op R hrefl htrans hl fI fT a l (j + 1) J hj) (trip_elem op R htrans hl hr fI fT j _ l u hu)

include hrefl htrans hl in
theorem outer_mono (xv : Vec F S819200 .i32) (fT : Vec F S100000 .f32) (L : grid1.Coords) (a : FVec F S16 .f32) (l : S16.Idx) (t : ℕ) :
    ∀ T, t ≤ T → R (outer op xv fT L T a l) (outer op xv fT L t a l) := by
  intro T hT
  induction T, hT using Nat.le_induction with
  | base => exact hrefl _
  | succ T _ ih => exact htrans (inner_self op R hrefl htrans hl _ fT _ l 200) ih

include hrefl htrans hl hr in
theorem outer_elem (xv : Vec F S819200 .i32) (fT : Vec F S100000 .f32) (L : grid1.Coords) (a : FVec F S16 .f32) (l : S16.Idx) (T t j u : ℕ)
    (ht : t < T) (hj : j < 200) (hu : u < 8) :
    R (outer op xv fT L T a l) (gat fT (wd (chunk xv L t) (128 * j + 16 * u + (l 0).val))) :=
  htrans (outer_mono op R hrefl htrans hl xv fT L a l (t + 1) T ht) (inner_elem op R hrefl htrans hl hr (chunk xv L t) fT _ l 200 j u hj hu)

/-! ## A bound of everything met is a bound of the result -/

variable (m : F .f32) (hglb : ∀ x y, R m x → R m y → R m (op x y))

include hglb in
theorem trip_glb (fI : Vec F S25600 .i32) (fT : Vec F S100000 .f32) (hT : ∀ p, R m (gat fT (wd fI p))) (j : ℕ) (a : FVec F S16 .f32)
    (ha : ∀ l, R m (a l)) (l : S16.Idx) : R m (trip op fI fT j a l) :=
  hglb _ _ (hglb _ _ (hglb _ _ (hglb _ _ (hglb _ _ (hglb _ _ (hglb _ _ (hglb _ _ (ha l) (hT _)) (hT _)) (hT _)) (hT _)) (hT _)) (hT _)) (hT _)) (hT _)

include hglb in
theorem inner_glb (fI : Vec F S25600 .i32) (fT : Vec F S100000 .f32) (hT : ∀ p, R m (gat fT (wd fI p))) (a : FVec F S16 .f32)
    (ha : ∀ l, R m (a l)) : ∀ j l, R m (inner op fI fT j a l)
  | 0, l => ha l
  | j + 1, l => trip_glb op R m hglb fI fT hT j _ (inner_glb fI fT hT a ha j) l

include hglb in
theorem outer_glb (xv : Vec F S819200 .i32) (fT : Vec F S100000 .f32) (L : grid1.Coords) (hT : ∀ t p, R m (gat fT (wd (chunk xv L t) p)))
    (a : FVec F S16 .f32) (ha : ∀ l, R m (a l)) : ∀ t l, R m (outer op xv fT L t a l)
  | 0, l => ha l
  | t + 1, l => inner_glb op R m hglb _ fT (hT t) _ (outer_glb xv fT L hT a ha t) 200 l

end Mono

/-! ## At the extended reals -/

theorem posInf : (Scalar.ofBits (F := Ideal) .f32 0x7F800000#32 : EReal) = ⊤ := by
  show Ideal.ofBits .f32 0x7F800000#32 = ⊤
  simp [Ideal.ofBits, Ideal.ieee]
theorem negInf : (Scalar.ofBits (F := Ideal) .f32 0xFF800000#32 : EReal) = ⊥ := by
  show Ideal.ofBits .f32 0xFF800000#32 = ⊥
  simp [Ideal.ofBits, Ideal.ieee]

/-- A word of a chunk is a word of the index array, so the entry it names is one of the entries the array names. -/
theorem gat_chunk (xv : Vec Ideal S819200 .i32) (fT : Vec Ideal S100000 .f32) (L : grid1.Coords) (t p : ℕ) :
    ∃ n : S819200.Idx, gat fT (wd (chunk xv L t) p) = fT (ValueIdx.ix1 (Cert.Spec.row (xv n))) := ⟨_, rfl⟩

/-- Position `r` of the tile's 51200 words, as chunk, trip, step and lane. -/
theorem gat_at (xv : Vec Ideal S819200 .i32) (fT : Vec Ideal S100000 .f32) (L : grid1.Coords) (n : S819200.Idx)
    (hn : 51200 * (L 1).val ≤ (n 0).val ∧ (n 0).val < 51200 * (L 1).val + 51200) :
    ∃ (t j u : ℕ) (l : S16.Idx), t < 2 ∧ j < 200 ∧ u < 8 ∧
      gat fT (wd (chunk xv L t) (128 * j + 16 * u + (l 0).val)) = fT (ValueIdx.ix1 (Cert.Spec.row (xv n))) := by
  obtain ⟨h1, h2⟩ := hn
  have hs : (L 1).val < 16 := (L 1).isLt
  refine ⟨((n 0).val - 51200 * (L 1).val) / 25600, (((n 0).val - 51200 * (L 1).val) % 25600) / 128, ((((n 0).val - 51200 * (L 1).val) % 25600) % 128) / 16,
    ValueIdx.ix1 ⟨((((n 0).val - 51200 * (L 1).val) % 25600) % 128) % 16, Nat.mod_lt _ (by norm_num)⟩, by omega, by omega, by omega, ?_⟩
  show fT (ValueIdx.ix1 (Cert.Spec.row (xv _))) = fT (ValueIdx.ix1 (Cert.Spec.row (xv n)))
  congr 4
  rw [ValueIdx.eq_ix1 n]
  refine funext fun (a : Fin 1) => ?_
  obtain rfl : a = 0 := Subsingleton.elim _ _
  apply Fin.ext
  show (51200 * (L 1).val + 25600 * (((n 0).val - 51200 * (L 1).val) / 25600)
      + (128 * ((((n 0).val - 51200 * (L 1).val) % 25600) / 128) + 16 * (((((n 0).val - 51200 * (L 1).val) % 25600) % 128) / 16)
        + ((((n 0).val - 51200 * (L 1).val) % 25600) % 128) % 16) % 25600) % 819200 = (n 0).val
  omega

theorem part_min_ge (xv : Vec Ideal S819200 .i32) (rmin rmax : Vec Ideal S100000 .f32) (L : grid1.Coords) (h0 : (L 0).val = 0) (l : S16.Idx) :
    (⨅ n : S819200.Idx, rmin (ValueIdx.ix1 (Cert.Spec.row (xv n)))) ≤ part (F := Ideal) xv rmin rmax L l := by
  rw [part_min xv rmin rmax L h0]
  refine outer_glb (F := Ideal) _ (fun x y : EReal => x ≤ y) _ (fun x y hx hy => le_min hx hy) xv rmin L ?_ _ ?_ 2 l
  · intro t p
    obtain ⟨n, hn⟩ := gat_chunk xv rmin L t p
    rw [hn]; exact iInf_le _ n
  · intro l; show _ ≤ (Scalar.ofBits (F := Ideal) .f32 0x7F800000#32 : EReal); rw [posInf]; exact le_top

theorem part_min_le (xv : Vec Ideal S819200 .i32) (rmin rmax : Vec Ideal S100000 .f32) (L : grid1.Coords) (h0 : (L 0).val = 0) (n : S819200.Idx)
    (hn : 51200 * (L 1).val ≤ (n 0).val ∧ (n 0).val < 51200 * (L 1).val + 51200) :
    ∃ l, part (F := Ideal) xv rmin rmax L l ≤ rmin (ValueIdx.ix1 (Cert.Spec.row (xv n))) := by
  obtain ⟨t, j, u, l, ht, hj, hu, he⟩ := gat_at xv rmin L n hn
  refine ⟨l, ?_⟩
  rw [part_min xv rmin rmax L h0, ← he]
  exact outer_elem (F := Ideal) _ (fun x y : EReal => x ≤ y) (fun _ => le_rfl) (fun h h' => le_trans h h') (fun _ _ => min_le_left _ _) (fun _ _ => min_le_right _ _)
    xv rmin L _ l 2 t j u ht hj hu

theorem part_max_le (xv : Vec Ideal S819200 .i32) (rmin rmax : Vec Ideal S100000 .f32) (L : grid1.Coords) (h0 : (L 0).val = 1) (l : S16.Idx) :
    part (F := Ideal) xv rmin rmax L l ≤ (⨆ n : S819200.Idx, rmax (ValueIdx.ix1 (Cert.Spec.row (xv n)))) := by
  rw [part_max xv rmin rmax L (by omega)]
  refine outer_glb (F := Ideal) _ (fun x y : EReal => y ≤ x) _ (fun x y hx hy => max_le hx hy) xv rmax L ?_ _ ?_ 2 l
  · intro t p
    obtain ⟨n, hn⟩ := gat_chunk xv rmax L t p
    rw [hn]; exact le_iSup (fun n : S819200.Idx => rmax (ValueIdx.ix1 (Cert.Spec.row (xv n)))) n
  · intro l; show (Scalar.ofBits (F := Ideal) .f32 0xFF800000#32 : EReal) ≤ _; rw [negInf]; exact bot_le

theorem part_max_ge (xv : Vec Ideal S819200 .i32) (rmin rmax : Vec Ideal S100000 .f32) (L : grid1.Coords) (h0 : (L 0).val = 1) (n : S819200.Idx)
    (hn : 51200 * (L 1).val ≤ (n 0).val ∧ (n 0).val < 51200 * (L 1).val + 51200) :
    ∃ l, rmax (ValueIdx.ix1 (Cert.Spec.row (xv n))) ≤ part (F := Ideal) xv rmin rmax L l := by
  obtain ⟨t, j, u, l, ht, hj, hu, he⟩ := gat_at xv rmax L n hn
  refine ⟨l, ?_⟩
  rw [part_max xv rmin rmax L (by omega), ← he]
  exact outer_elem (F := Ideal) _ (fun x y : EReal => y ≤ x) (fun _ => le_rfl) (fun h h' => le_trans h' h) (fun _ _ => le_max_left _ _) (fun _ _ => le_max_right _ _)
    xv rmax L _ l 2 t j u ht hj hu

end Cert.KernelIdeal.Hand.MinMaxValue

end
-- ==== Proof.TileMinMaxBridge.lean ====
/-
  The tiles' lanes as one array of partial extrema, in the form the value bridge uses. Tile `(c, s)` leaves its sixteen
  lanes in row `(c, s)` of a `2 × 16 × 16` array. Slab 0 (the minimum tiles): every entry is at least the infimum of
  the gathered row minima, and every gathered row minimum is at least some entry (word `n` belongs to tile
  `n / 51200`, whose range is the 51200 words from `51200 (n / 51200)` on). Slab 1 (the maximum tiles): the mirror image.
-/
import proofs.«211894_g61933428415975_cont_9to1c4b_619_7_alg».proof.Proof.TileMinMaxValue

noncomputable section

namespace Cert.KernelIdeal.Hand.MinMaxValue

open Cert.KernelIdeal Cert.KernelIdeal.Gen
open Cert.KernelIdeal.Hand.MinMax
open Idealize.ShloMosaic Idealize.ShloMosaic.ValueIdx

variable (xv : S819200.Idx → BitVec 32) (rmin rmax : S100000.Idx → EReal)

/-- The array of partial extrema the 32 tiles leave, over the extended reals. -/
abbrev p4 : S2x16x16.Idx → EReal := P4 (F := Ideal) xv rmin rmax

/-- Entry `(c, s, l)` of the array of partials is lane `l` of tile `(c, s)`. -/
theorem P4_ix3 (c : Fin 2) (s l : Fin 16) :
    p4 xv rmin rmax (ix3 (n0 := 2) (n1 := 16) (n2 := 16) c s l) = (part (F := Ideal) xv rmin rmax (mkL c s) (ix1 (n := 16) l) : EReal) := rfl

/-- Word `n` lies in the range of tile `n / 51200`. -/
theorem tile_of (n : S819200.Idx) : ∃ s : Fin 16, 51200 * s.val ≤ (n 0).val ∧ (n 0).val < 51200 * s.val + 51200 := by
  have hn : (n 0).val < 819200 := (n 0).isLt
  exact ⟨⟨(n 0).val / 51200, by omega⟩, by show 51200 * ((n 0).val / 51200) ≤ _; omega, by show _ < 51200 * ((n 0).val / 51200) + 51200; omega⟩

theorem hminge (s l : Fin 16) :
    (⨅ n : S819200.Idx, rmin (ix1 (Cert.Spec.row (xv n)))) ≤ p4 xv rmin rmax (ix3 (n0 := 2) (n1 := 16) (n2 := 16) 0 s l) := by
  rw [P4_ix3]
  exact part_min_ge xv rmin rmax (mkL (0 : Fin 2) s) rfl _

theorem hminle (n : S819200.Idx) :
    ∃ (s l : Fin 16), p4 xv rmin rmax (ix3 (n0 := 2) (n1 := 16) (n2 := 16) 0 s l) ≤ rmin (ix1 (Cert.Spec.row (xv n))) := by
  obtain ⟨s, hs⟩ := tile_of n
  obtain ⟨l, hl⟩ := part_min_le xv rmin rmax (mkL (0 : Fin 2) s) rfl n hs
  obtain ⟨l0, rfl⟩ : ∃ l0 : Fin 16, l = ix1 (n := 16) l0 := ⟨l 0, eq_ix1 l⟩
  refine ⟨s, l0, ?_⟩
  rw [P4_ix3]
  exact hl

theorem hmaxle (s l : Fin 16) :
    p4 xv rmin rmax (ix3 (n0 := 2) (n1 := 16) (n2 := 16) 1 s l) ≤ ⨆ n : S819200.Idx, rmax (ix1 (Cert.Spec.row (xv n))) := by
  rw [P4_ix3]
  exact part_max_le xv rmin rmax (mkL (1 : Fin 2) s) rfl _

theorem hmaxge (n : S819200.Idx) :
    ∃ (s l : Fin 16), rmax (ix1 (Cert.Spec.row (xv n))) ≤ p4 xv rmin rmax (ix3 (n0 := 2) (n1 := 16) (n2 := 16) 1 s l) := by
  obtain ⟨s, hs⟩ := tile_of n
  obtain ⟨l, hl⟩ := part_max_ge xv rmin rmax (mkL (1 : Fin 2) s) rfl n hs
  obtain ⟨l0, rfl⟩ : ∃ l0 : Fin 16, l = ix1 (n := 16) l0 := ⟨l 0, eq_ix1 l⟩
  refine ⟨s, l0, ?_⟩
  rw [P4_ix3]
  exact hl

end Cert.KernelIdeal.Hand.MinMaxValue

end
-- ==== Proof.RunValue.lean ====
/-
  The program's result at the extended reals, entry by entry: entry (p, q, 0) of the result array is the
  specification's entry (p, q) — the valuation chain of the run identified with the chain of pure functions the
  specification's bridge is stated over, the partial extrema being the ones the first call's tiles compute.
-/
import proofs.«211894_g61933428415975_cont_9to1c4b_619_7_alg».proof.Proof.RunI
import proofs.«211894_g61933428415975_cont_9to1c4b_619_7_alg».proof.Proof.ValueBridge
import proofs.«211894_g61933428415975_cont_9to1c4b_619_7_alg».proof.Proof.TileMinMaxBridge

noncomputable section

namespace Cert.KernelIdeal.Hand

open Cert.KernelIdeal Cert.KernelIdeal.Gen
open Idealize.ShloMosaic Idealize.ShloMosaic.ValueIdx

variable (m : (ℓ : Loc nD τ sig) → Buf (Elt Ideal) ℓ)

/-- The result array is the bridge's chain at the launch memory's arguments and the tiles' partial extrema. -/
theorem W9_v9_bridge (d : Dev nD) :
    W9 (F := Ideal) (W6r m) (g3r m) d (Proc.devRef .tc main_v9)
      = Bridge.out9 (m ((SparseCore.T (τ := τ) d).loc main_arg0)) (m ((SparseCore.T (τ := τ) d).loc main_arg1))
          (m ((SparseCore.T (τ := τ) d).loc main_arg2)) (m ((SparseCore.T (τ := τ) d).loc main_arg3))
          (MinMaxValue.p4 (Bridge.xv (m ((SparseCore.T (τ := τ) d).loc main_arg0))) (Bridge.rmin (m ((SparseCore.T (τ := τ) d).loc main_arg1)))
            (Bridge.rmax (m ((SparseCore.T (τ := τ) d).loc main_arg1)))) := by
  rw [W9_v9, g3r_eq, p4r_eq]
  rfl

/-- THE RESULT, entry by entry, is the specification's. -/
theorem out_apply (d : Dev nD) (p : Fin 4096) (q : Fin 200) :
    W9 (F := Ideal) (W6r m) (g3r m) d (Proc.devRef .tc main_v9) (ix3 (n0 := 4096) (n1 := 200) (n2 := 1) p q 0)
      = Cert.Spec.out (m ((SparseCore.T (τ := τ) d).loc main_arg0)) (m ((SparseCore.T (τ := τ) d).loc main_arg1))
          (m ((SparseCore.T (τ := τ) d).loc main_arg2)) (m ((SparseCore.T (τ := τ) d).loc main_arg3)) p q := by
  rw [W9_v9_bridge]
  exact Bridge.bridge_of_partials _ _ _ _ _ (MinMaxValue.hminge _ _ _) (MinMaxValue.hminle _ _ _) (MinMaxValue.hmaxle _ _ _)
    (MinMaxValue.hmaxge _ _ _) p q

end Cert.KernelIdeal.Hand

end
-- ==== Proof.RefOps.lean ====
/-
  The reference program's @main as the list of its 81 host operations, the outlined functions' operations
  listed at their call sites over the call's buffers, and its run: every weakly fair execution terminates
  with each buffer at the operations' fold over the launch contents.
-/
import proofs.«211894_g61933428415975_cont_9to1c4b_619_7_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's 81 operations, in order (the callees' operations inline). -/
abbrev ops : List (HloOp τ sig (Elt F)) :=
  [ StableHlo.TRef.nullary main_call0.c (constantI S_ 32 0#32),
    StableHlo.TRef.unary main_call0.c main_call0.v0 (broadcastInDim S4096x200 ![] bcast_S_S4096x200),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S4096x200 ![] bcast_S_S4096x200),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S4096x200x1 ![0, 1] bcast_S4096x200_S4096x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x200x1 ![] bcast_S_S4096x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x200x1 ![0, 1, 2] bcast_S1x1x1_S4096x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x200x1_S4096x200_d2 h_S_),
    StableHlo.TRef.binary (.of main_arg1) main_call0.v5 main_call0.v13 (fun x i => Host.gather gather_S100000x128_S4096x200x1_S4096x200x128_2_0_n_n_0_2_1128 x i),
    StableHlo.TRef.unary main_call0.v12 main_call0.v14 (broadcastInDim S4096x200x128 ![0, 1] bcast_S4096x200_S4096x200x128_0_1),
    StableHlo.TRef.nullary main_call0.cst (constant S_ .f32 0x7FC00000#32),
    StableHlo.TRef.unary main_call0.cst main_call0.v15 (broadcastInDim S4096x200x128 ![] bcast_S_S4096x200x128),
    StableHlo.TRef.ternary main_call0.v14 main_call0.v13 main_call0.v15 main_call0.v16 select,
    StableHlo.nullary main_cst (constant S_ .f32 0x7F800000#32),
    StableHlo.binary main_v0 main_cst main_v1 ((fun x v => Host.reduce FloatOps.minimumf x v reducesTo_S4096x200x128_S_d0_1_2 h_S_) : (⟨S4096x200x128, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_v1 main_cst_0 main_v2 (minimumf : (⟨S_, .f32⟩ : BufTy).Contents (Elt F) → (⟨S_, .f32⟩ : BufTy).Contents (Elt F) → (⟨S_, .f32⟩ : BufTy).Contents (Elt F)),
    StableHlo.nullary main_cst_1 (constant S_ .f32 0xFF800000#32),
    StableHlo.binary main_v0 main_cst_1 main_v3 ((fun x v => Host.reduce FloatOps.maximumf x v reducesTo_S4096x200x128_S_d0_1_2 h_S_) : (⟨S4096x200x128, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v3 main_cst_2 main_v4 (maximumf : (⟨S_, .f32⟩ : BufTy).Contents (Elt F) → (⟨S_, .f32⟩ : BufTy).Contents (Elt F) → (⟨S_, .f32⟩ : BufTy).Contents (Elt F)),
    StableHlo.binary main_v4 main_v2 main_v5 (subf : (⟨S_, .f32⟩ : BufTy).Contents (Elt F) → (⟨S_, .f32⟩ : BufTy).Contents (Elt F) → (⟨S_, .f32⟩ : BufTy).Contents (Elt F)),
    StableHlo.nullary main_cst_3 (constant S_ .f32 0x437F0000#32),
    StableHlo.binary main_v5 main_cst_3 main_v6 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x34000000#32),
    StableHlo.binary main_v6 main_cst_4 main_v7 (maximumf : (⟨S_, .f32⟩ : BufTy).Contents (Elt F) → (⟨S_, .f32⟩ : BufTy).Contents (Elt F) → (⟨S_, .f32⟩ : BufTy).Contents (Elt F)),
    StableHlo.binary main_v2 main_v7 main_v8 (Host.divf : (⟨S_, .f32⟩ : BufTy).Contents (Elt F) → (⟨S_, .f32⟩ : BufTy).Contents (Elt F) → (⟨S_, .f32⟩ : BufTy).Contents (Elt F)),
    StableHlo.TRef.unary (.of main_v8) main_call1.v0 Host.roundeven,
    StableHlo.nullary main_cst_5 (constant S_ .f32 0xC3000000#32),
    StableHlo.binary main_cst_5 main_v9 main_v10 (subf : (⟨S_, .f32⟩ : BufTy).Contents (Elt F) → (⟨S_, .f32⟩ : BufTy).Contents (Elt F) → (⟨S_, .f32⟩ : BufTy).Contents (Elt F)),
    StableHlo.nullary main_cst_6 (constant S_ .f32 0xC3000000#32),
    StableHlo.nullary main_cst_7 (constant S_ .f32 0x42FE0000#32),
    StableHlo.TRef.unary (.of main_cst_6) main_call2.v0 id,
    StableHlo.TRef.binary main_call2.v0 (.of main_v10) main_call2.v1 maximumf,
    StableHlo.TRef.unary (.of main_cst_7) main_call2.v2 id,
    StableHlo.TRef.binary main_call2.v2 main_call2.v1 main_call2.v3 minimumf,
    StableHlo.unary main_v7 main_v12 (broadcastInDim S4096x200x128 ![] bcast_S_S4096x200x128 : (⟨S_, .f32⟩ : BufTy).Contents (Elt F) → (⟨S4096x200x128, .f32⟩ : BufTy).Contents (Elt F)),
    StableHlo.binary main_v0 main_v12 main_v13 (Host.divf : (⟨S4096x200x128, .f32⟩ : BufTy).Contents (Elt F) → (⟨S4096x200x128, .f32⟩ : BufTy).Contents (Elt F) → (⟨S4096x200x128, .f32⟩ : BufTy).Contents (Elt F)),
    StableHlo.TRef.unary (.of main_v13) main_call3.v0 Host.roundeven,
    StableHlo.unary main_v11 main_v15 (broadcastInDim S4096x200x128 ![] bcast_S_S4096x200x128 : (⟨S_, .f32⟩ : BufTy).Contents (Elt F) → (⟨S4096x200x128, .f32⟩ : BufTy).Contents (Elt F)),
    StableHlo.binary main_v14 main_v15 main_v16 (addf : (⟨S4096x200x128, .f32⟩ : BufTy).Contents (Elt F) → (⟨S4096x200x128, .f32⟩ : BufTy).Contents (Elt F) → (⟨S4096x200x128, .f32⟩ : BufTy).Contents (Elt F)),
    StableHlo.nullary main_cst_8 (constant S_ .f32 0xC3000000#32),
    StableHlo.unary main_cst_8 main_v17 (broadcastInDim S4096x200x128 ![] bcast_S_S4096x200x128 : (⟨S_, .f32⟩ : BufTy).Contents (Elt F) → (⟨S4096x200x128, .f32⟩ : BufTy).Contents (Elt F)),
    StableHlo.binary main_v16 main_v17 main_v18 (cmpf .oge : (⟨S4096x200x128, .f32⟩ : BufTy).Contents (Elt F) → (⟨S4096x200x128, .f32⟩ : BufTy).Contents (Elt F) → (⟨S4096x200x128, .i1⟩ : BufTy).Contents (Elt F)),
    StableHlo.nullary main_cst_9 (constant S_ .f32 0x42FE0000#32),
    StableHlo.unary main_cst_9 main_v19 (broadcastInDim S4096x200x128 ![] bcast_S_S4096x200x128 : (⟨S_, .f32⟩ : BufTy).Contents (Elt F) → (⟨S4096x200x128, .f32⟩ : BufTy).Contents (Elt F)),
    StableHlo.binary main_v16 main_v19 main_v20 (cmpf .ole : (⟨S4096x200x128, .f32⟩ : BufTy).Contents (Elt F) → (⟨S4096x200x128, .f32⟩ : BufTy).Contents (Elt F) → (⟨S4096x200x128, .i1⟩ : BufTy).Contents (Elt F)),
    StableHlo.binary main_v18 main_v20 main_v21 (andi : (⟨S4096x200x128, .i1⟩ : BufTy).Contents (Elt F) → (⟨S4096x200x128, .i1⟩ : BufTy).Contents (Elt F) → (⟨S4096x200x128, .i1⟩ : BufTy).Contents (Elt F)),
    StableHlo.nullary main_cst_10 (constant S_ .f32 0xC3000000#32),
    StableHlo.nullary main_cst_11 (constant S_ .f32 0x42FE0000#32),
    StableHlo.TRef.unary (.of main_cst_10) main_call4.v0 id,
    StableHlo.TRef.unary main_call4.v0 main_call4.v1 (broadcastInDim S4096x200x128 ![] bcast_S_S4096x200x128),
    StableHlo.TRef.binary main_call4.v1 (.of main_v16) main_call4.v2 maximumf,
    StableHlo.TRef.unary (.of main_cst_11) main_call4.v3 id,
    StableHlo.TRef.unary main_call4.v3 main_call4.v4 (broadcastInDim S4096x200x128 ![] bcast_S_S4096x200x128),
    StableHlo.TRef.binary main_call4.v4 main_call4.v2 main_call4.v5 minimumf,
    StableHlo.unary main_v11 main_v23 (broadcastInDim S4096x200x128 ![] bcast_S_S4096x200x128 : (⟨S_, .f32⟩ : BufTy).Contents (Elt F) → (⟨S4096x200x128, .f32⟩ : BufTy).Contents (Elt F)),
    StableHlo.binary main_v22 main_v23 main_v24 (subf : (⟨S4096x200x128, .f32⟩ : BufTy).Contents (Elt F) → (⟨S4096x200x128, .f32⟩ : BufTy).Contents (Elt F) → (⟨S4096x200x128, .f32⟩ : BufTy).Contents (Elt F)),
    StableHlo.unary main_v7 main_v25 (broadcastInDim S4096x200x128 ![] bcast_S_S4096x200x128 : (⟨S_, .f32⟩ : BufTy).Contents (Elt F) → (⟨S4096x200x128, .f32⟩ : BufTy).Contents (Elt F)),
    StableHlo.binary main_v24 main_v25 main_v26 (mulf : (⟨S4096x200x128, .f32⟩ : BufTy).Contents (Elt F) → (⟨S4096x200x128, .f32⟩ : BufTy).Contents (Elt F) → (⟨S4096x200x128, .f32⟩ : BufTy).Contents (Elt F)),
    StableHlo.nullary main_cst_12 (constant S_ .f32 0x00000000#32),
    StableHlo.TRef.unary (.of main_cst_12) main_call5.v0 id,
    StableHlo.TRef.unary main_call5.v0 main_call5.v1 (broadcastInDim S4096x200x128 ![] bcast_S_S4096x200x128),
    StableHlo.TRef.ternary (.of main_v21) (.of main_v0) main_call5.v1 main_call5.v2 select,
    StableHlo.binary main_v26 main_v27 main_v28 (subf : (⟨S4096x200x128, .f32⟩ : BufTy).Contents (Elt F) → (⟨S4096x200x128, .f32⟩ : BufTy).Contents (Elt F) → (⟨S4096x200x128, .f32⟩ : BufTy).Contents (Elt F)),
    StableHlo.binary main_v28 main_v27 main_v29 (addf : (⟨S4096x200x128, .f32⟩ : BufTy).Contents (Elt F) → (⟨S4096x200x128, .f32⟩ : BufTy).Contents (Elt F) → (⟨S4096x200x128, .f32⟩ : BufTy).Contents (Elt F)),
    StableHlo.unary main_arg2 main_v30 ((transpose S128x1 [1, 0] · transposes_S1x128_S128x1_1_0) : (⟨S1x128, .f32⟩ : BufTy).Contents (Elt F) → (⟨S128x1, .f32⟩ : BufTy).Contents (Elt F)),
    StableHlo.binary main_v29 main_v30 main_v31 ((fun l r => Host.dotGeneral dot_S4096x200x128_S128x1_S4096x200x1_2_0_01_1_n_n none l r) : (⟨S4096x200x128, .f32⟩ : BufTy).Contents (Elt F) → (⟨S128x1, .f32⟩ : BufTy).Contents (Elt F) → (⟨S4096x200x1, .f32⟩ : BufTy).Contents (Elt F)),
    StableHlo.unary main_arg3 main_v32 (broadcastInDim S1x1x1 ![2] bcast_S1_S1x1x1_2 : (⟨S1, .f32⟩ : BufTy).Contents (Elt F) → (⟨S1x1x1, .f32⟩ : BufTy).Contents (Elt F)),
    StableHlo.unary main_v32 main_v33 (broadcastInDim S4096x200x1 ![0, 1, 2] bcast_S1x1x1_S4096x200x1_0_1_2 : (⟨S1x1x1, .f32⟩ : BufTy).Contents (Elt F) → (⟨S4096x200x1, .f32⟩ : BufTy).Contents (Elt F)),
    StableHlo.binary main_v31 main_v33 main_v34 (addf : (⟨S4096x200x1, .f32⟩ : BufTy).Contents (Elt F) → (⟨S4096x200x1, .f32⟩ : BufTy).Contents (Elt F) → (⟨S4096x200x1, .f32⟩ : BufTy).Contents (Elt F)) ]

/-- Operations 0 to 22 of the line. -/
def opsA : List (HloOp τ sig (Elt F)) :=
  [ StableHlo.TRef.nullary main_call0.c (constantI S_ 32 0#32),
    StableHlo.TRef.unary main_call0.c main_call0.v0 (broadcastInDim S4096x200 ![] bcast_S_S4096x200),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S4096x200 ![] bcast_S_S4096x200),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S4096x200x1 ![0, 1] bcast_S4096x200_S4096x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x200x1 ![] bcast_S_S4096x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x200x1 ![0, 1, 2] bcast_S1x1x1_S4096x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x200x1_S4096x200_d2 h_S_),
    StableHlo.TRef.binary (.of main_arg1) main_call0.v5 main_call0.v13 (fun x i => Host.gather gather_S100000x128_S4096x200x1_S4096x200x128_2_0_n_n_0_2_1128 x i),
    StableHlo.TRef.unary main_call0.v12 main_call0.v14 (broadcastInDim S4096x200x128 ![0, 1] bcast_S4096x200_S4096x200x128_0_1),
    StableHlo.TRef.nullary main_call0.cst (constant S_ .f32 0x7FC00000#32),
    StableHlo.TRef.unary main_call0.cst main_call0.v15 (broadcastInDim S4096x200x128 ![] bcast_S_S4096x200x128),
    StableHlo.TRef.ternary main_call0.v14 main_call0.v13 main_call0.v15 main_call0.v16 select ]

/-- Operations 23 to 45 of the line. -/
def opsB : List (HloOp τ sig (Elt F)) :=
  [ StableHlo.nullary main_cst (constant S_ .f32 0x7F800000#32),
    StableHlo.binary main_v0 main_cst main_v1 ((fun x v => Host.reduce FloatOps.minimumf x v reducesTo_S4096x200x128_S_d0_1_2 h_S_) : (⟨S4096x200x128, .f32⟩ : BufTy).Contents (Elt F) → (⟨S_, .f32⟩ : BufTy).Contents (Elt F) → (⟨S_, .f32⟩ : BufTy).Contents (Elt F)),
    StableHlo.nullary main_cst_0 (constant S_ .f32 0x00000000#32),
    StableHlo.binary main_v1 main_cst_0 main_v2 (minimumf : (⟨S_, .f32⟩ : BufTy).Contents (Elt F) → (⟨S_, .f32⟩ : BufTy).Contents (Elt F) → (⟨S_, .f32⟩ : BufTy).Contents (Elt F)),
    StableHlo.nullary main_cst_1 (constant S_ .f32 0xFF800000#32),
    StableHlo.binary main_v0 main_cst_1 main_v3 ((fun x v => Host.reduce FloatOps.maximumf x v reducesTo_S4096x200x128_S_d0_1_2 h_S_) : (⟨S4096x200x128, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v3 main_cst_2 main_v4 (maximumf : (⟨S_, .f32⟩ : BufTy).Contents (Elt F) → (⟨S_, .f32⟩ : BufTy).Contents (Elt F) → (⟨S_, .f32⟩ : BufTy).Contents (Elt F)),
    StableHlo.binary main_v4 main_v2 main_v5 (subf : (⟨S_, .f32⟩ : BufTy).Contents (Elt F) → (⟨S_, .f32⟩ : BufTy).Contents (Elt F) → (⟨S_, .f32⟩ : BufTy).Contents (Elt F)),
    StableHlo.nullary main_cst_3 (constant S_ .f32 0x437F0000#32),
    StableHlo.binary main_v5 main_cst_3 main_v6 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x34000000#32),
    StableHlo.binary main_v6 main_cst_4 main_v7 (maximumf : (⟨S_, .f32⟩ : BufTy).Contents (Elt F) → (⟨S_, .f32⟩ : BufTy).Contents (Elt F) → (⟨S_, .f32⟩ : BufTy).Contents (Elt F)),
    StableHlo.binary main_v2 main_v7 main_v8 (Host.divf : (⟨S_, .f32⟩ : BufTy).Contents (Elt F) → (⟨S_, .f32⟩ : BufTy).Contents (Elt F) → (⟨S_, .f32⟩ : BufTy).Contents (Elt F)),
    StableHlo.TRef.unary (.of main_v8) main_call1.v0 Host.roundeven,
    StableHlo.nullary main_cst_5 (constant S_ .f32 0xC3000000#32),
    StableHlo.binary main_cst_5 main_v9 main_v10 (subf : (⟨S_, .f32⟩ : BufTy).Contents (Elt F) → (⟨S_, .f32⟩ : BufTy).Contents (Elt F) → (⟨S_, .f32⟩ : BufTy).Contents (Elt F)),
    StableHlo.nullary main_cst_6 (constant S_ .f32 0xC3000000#32),
    StableHlo.nullary main_cst_7 (constant S_ .f32 0x42FE0000#32),
    StableHlo.TRef.unary (.of main_cst_6) main_call2.v0 id,
    StableHlo.TRef.binary main_call2.v0 (.of main_v10) main_call2.v1 maximumf,
    StableHlo.TRef.unary (.of main_cst_7) main_call2.v2 id,
    StableHlo.TRef.binary main_call2.v2 main_call2.v1 main_call2.v3 minimumf ]

/-- Operations 46 to 57 of the line. -/
def opsC : List (HloOp τ sig (Elt F)) :=
  [ StableHlo.unary main_v7 main_v12 (broadcastInDim S4096x200x128 ![] bcast_S_S4096x200x128 : (⟨S_, .f32⟩ : BufTy).Contents (Elt F) → (⟨S4096x200x128, .f32⟩ : BufTy).Contents (Elt F)),
    StableHlo.binary main_v0 main_v12 main_v13 (Host.divf : (⟨S4096x200x128, .f32⟩ : BufTy).Contents (Elt F) → (⟨S4096x200x128, .f32⟩ : BufTy).Contents (Elt F) → (⟨S4096x200x128, .f32⟩ : BufTy).Contents (Elt F)),
    StableHlo.TRef.unary (.of main_v13) main_call3.v0 Host.roundeven,
    StableHlo.unary main_v11 main_v15 (broadcastInDim S4096x200x128 ![] bcast_S_S4096x200x128 : (⟨S_, .f32⟩ : BufTy).Contents (Elt F) → (⟨S4096x200x128, .f32⟩ : BufTy).Contents (Elt F)),
    StableHlo.binary main_v14 main_v15 main_v16 (addf : (⟨S4096x200x128, .f32⟩ : BufTy).Contents (Elt F) → (⟨S4096x200x128, .f32⟩ : BufTy).Contents (Elt F) → (⟨S4096x200x128, .f32⟩ : BufTy).Contents (Elt F)),
    StableHlo.nullary main_cst_8 (constant S_ .f32 0xC3000000#32),
    StableHlo.unary main_cst_8 main_v17 (broadcastInDim S4096x200x128 ![] bcast_S_S4096x200x128 : (⟨S_, .f32⟩ : BufTy).Contents (Elt F) → (⟨S4096x200x128, .f32⟩ : BufTy).Contents (Elt F)),
    StableHlo.binary main_v16 main_v17 main_v18 (cmpf .oge : (⟨S4096x200x128, .f32⟩ : BufTy).Contents (Elt F) → (⟨S4096x200x128, .f32⟩ : BufTy).Contents (Elt F) → (⟨S4096x200x128, .i1⟩ : BufTy).Contents (Elt F)),
    StableHlo.nullary main_cst_9 (constant S_ .f32 0x42FE0000#32),
    StableHlo.unary main_cst_9 main_v19 (broadcastInDim S4096x200x128 ![] bcast_S_S4096x200x128 : (⟨S_, .f32⟩ : BufTy).Contents (Elt F) → (⟨S4096x200x128, .f32⟩ : BufTy).Contents (Elt F)),
    StableHlo.binary main_v16 main_v19 main_v20 (cmpf .ole : (⟨S4096x200x128, .f32⟩ : BufTy).Contents (Elt F) → (⟨S4096x200x128, .f32⟩ : BufTy).Contents (Elt F) → (⟨S4096x200x128, .i1⟩ : BufTy).Contents (Elt F)),
    StableHlo.binary main_v18 main_v20 main_v21 (andi : (⟨S4096x200x128, .i1⟩ : BufTy).Contents (Elt F) → (⟨S4096x200x128, .i1⟩ : BufTy).Contents (Elt F) → (⟨S4096x200x128, .i1⟩ : BufTy).Contents (Elt F)) ]

/-- Operations 58 to 75 of the line. -/
def opsD : List (HloOp τ sig (Elt F)) :=
  [ StableHlo.nullary main_cst_10 (constant S_ .f32 0xC3000000#32),
    StableHlo.nullary main_cst_11 (constant S_ .f32 0x42FE0000#32),
    StableHlo.TRef.unary (.of main_cst_10) main_call4.v0 id,
    StableHlo.TRef.unary main_call4.v0 main_call4.v1 (broadcastInDim S4096x200x128 ![] bcast_S_S4096x200x128),
    StableHlo.TRef.binary main_call4.v1 (.of main_v16) main_call4.v2 maximumf,
    StableHlo.TRef.unary (.of main_cst_11) main_call4.v3 id,
    StableHlo.TRef.unary main_call4.v3 main_call4.v4 (broadcastInDim S4096x200x128 ![] bcast_S_S4096x200x128),
    StableHlo.TRef.binary main_call4.v4 main_call4.v2 main_call4.v5 minimumf,
    StableHlo.unary main_v11 main_v23 (broadcastInDim S4096x200x128 ![] bcast_S_S4096x200x128 : (⟨S_, .f32⟩ : BufTy).Contents (Elt F) → (⟨S4096x200x128, .f32⟩ : BufTy).Contents (Elt F)),
    StableHlo.binary main_v22 main_v23 main_v24 (subf : (⟨S4096x200x128, .f32⟩ : BufTy).Contents (Elt F) → (⟨S4096x200x128, .f32⟩ : BufTy).Contents (Elt F) → (⟨S4096x200x128, .f32⟩ : BufTy).Contents (Elt F)),
    StableHlo.unary main_v7 main_v25 (broadcastInDim S4096x200x128 ![] bcast_S_S4096x200x128 : (⟨S_, .f32⟩ : BufTy).Contents (Elt F) → (⟨S4096x200x128, .f32⟩ : BufTy).Contents (Elt F)),
    StableHlo.binary main_v24 main_v25 main_v26 (mulf : (⟨S4096x200x128, .f32⟩ : BufTy).Contents (Elt F) → (⟨S4096x200x128, .f32⟩ : BufTy).Contents (Elt F) → (⟨S4096x200x128, .f32⟩ : BufTy).Contents (Elt F)),
    StableHlo.nullary main_cst_12 (constant S_ .f32 0x00000000#32),
    StableHlo.TRef.unary (.of main_cst_12) main_call5.v0 id,
    StableHlo.TRef.unary main_call5.v0 main_call5.v1 (broadcastInDim S4096x200x128 ![] bcast_S_S4096x200x128),
    StableHlo.TRef.ternary (.of main_v21) (.of main_v0) main_call5.v1 main_call5.v2 select,
    StableHlo.binary main_v26 main_v27 main_v28 (subf : (⟨S4096x200x128, .f32⟩ : BufTy).Contents (Elt F) → (⟨S4096x200x128, .f32⟩ : BufTy).Contents (Elt F) → (⟨S4096x200x128, .f32⟩ : BufTy).Contents (Elt F)),
    StableHlo.binary main_v28 main_v27 main_v29 (addf : (⟨S4096x200x128, .f32⟩ : BufTy).Contents (Elt F) → (⟨S4096x200x128, .f32⟩ : BufTy).Contents (Elt F) → (⟨S4096x200x128, .f32⟩ : BufTy).Contents (Elt F)) ]

/-- Operations 76 to 80 of the line. -/
def opsE : List (HloOp τ sig (Elt F)) :=
  [ StableHlo.unary main_arg2 main_v30 ((transpose S128x1 [1, 0] · transposes_S1x128_S128x1_1_0) : (⟨S1x128, .f32⟩ : BufTy).Contents (Elt F) → (⟨S128x1, .f32⟩ : BufTy).Contents (Elt F)),
    StableHlo.binary main_v29 main_v30 main_v31 ((fun l r => Host.dotGeneral dot_S4096x200x128_S128x1_S4096x200x1_2_0_01_1_n_n none l r) : (⟨S4096x200x128, .f32⟩ : BufTy).Contents (Elt F) → (⟨S128x1, .f32⟩ : BufTy).Contents (Elt F) → (⟨S4096x200x1, .f32⟩ : BufTy).Contents (Elt F)),
    StableHlo.unary main_arg3 main_v32 (broadcastInDim S1x1x1 ![2] bcast_S1_S1x1x1_2 : (⟨S1, .f32⟩ : BufTy).Contents (Elt F) → (⟨S1x1x1, .f32⟩ : BufTy).Contents (Elt F)),
    StableHlo.unary main_v32 main_v33 (broadcastInDim S4096x200x1 ![0, 1, 2] bcast_S1x1x1_S4096x200x1_0_1_2 : (⟨S1x1x1, .f32⟩ : BufTy).Contents (Elt F) → (⟨S4096x200x1, .f32⟩ : BufTy).Contents (Elt F)),
    StableHlo.binary main_v31 main_v33 main_v34 (addf : (⟨S4096x200x1, .f32⟩ : BufTy).Contents (Elt F) → (⟨S4096x200x1, .f32⟩ : BufTy).Contents (Elt F) → (⟨S4096x200x1, .f32⟩ : BufTy).Contents (Elt F)) ]

/-- The line is its five consecutive parts. -/
theorem ops_split : (ops : List (HloOp τ sig (Elt F))) = opsA ++ (opsB ++ (opsC ++ (opsD ++ opsE))) := rfl

/-- The fold over a concatenation is the folds in turn. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after opsE (after opsD (after opsC (after opsB (after opsA V)))) := by
  rw [ops_split]; simp only [after_append]

/-- @main is that straight line: a call is the callee's body applied to the call's buffers, and sequencing a body
    before the rest of the line is, by the definition of sequencing, the body's steps followed by the rest. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., unary_bufs_sub .., nullary_bufs_sub .., binary_bufs_sub .., nullary_bufs_sub .., nullary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., binary_bufs_sub .., unary_bufs_sub .., unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStage.lean ====
/-
  The reference function stage by stage, as pure functions of arrays: the table rows gathered at the index
  words (negative words wrapped by the table's length, out-of-range reads filled with the not-a-number
  constant), the least and greatest gathered entry joined with zero, the quantisation step and zero point,
  the quantised and de-quantised entries, the pass-through term added and subtracted, and the product with
  the weight row plus the bias.
-/
import proofs.«211894_g61933428415975_cont_9to1c4b_619_7_alg».proof.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F] [Facts]

/-- The index words, a negative word moved up by the table's length. -/
def wrapIdx (x : IVec S4096x200 32) : IVec S4096x200 32 :=
  select (cmpi .slt x (broadcastInDim S4096x200 ![] bcast_S_S4096x200 (constantI S_ 32 0#32)))
    (addi x (broadcastInDim S4096x200 ![] bcast_S_S4096x200 (constantI S_ 32 100000#32))) x

/-- The wrapped index words as a column of start indices. -/
def idxCol (x : IVec S4096x200 32) : IVec S4096x200x1 32 :=
  broadcastInDim S4096x200x1 ![0, 1] bcast_S4096x200_S4096x200x1_0_1 (wrapIdx x)

/-- Per index word, whether the wrapped word lies in `0 … 99999`. -/
def inRange (x : IVec S4096x200 32) : IVec S4096x200 1 :=
  Host.reduce IntOp.andi
    (andi (cmpi .sge (idxCol x) (broadcastInDim S4096x200x1 ![] bcast_S_S4096x200x1 (constantI S_ 32 0#32)))
      (cmpi .sle (idxCol x) (broadcastInDim S4096x200x1 ![0, 1, 2] bcast_S1x1x1_S4096x200x1_0_1_2 (broadcastInDim S1x1x1 ![2] bcast_S1_S1x1x1_2 (constantI S1 32 99999#32)))))
    (constantI S_ 1 1#1) reducesTo_S4096x200x1_S4096x200_d2 h_S_

/-- The gathered rows: the table's row at each wrapped word, the not-a-number constant where the word is out of range. -/
def takeF (emb : FVec F S100000x128 .f32) (x : IVec S4096x200 32) : FVec F S4096x200x128 .f32 :=
  select (broadcastInDim S4096x200x128 ![0, 1] bcast_S4096x200_S4096x200x128_0_1 (inRange x))
    (Host.gather gather_S100000x128_S4096x200x1_S4096x200x128_2_0_n_n_0_2_1128 emb (idxCol x))
    (broadcastInDim S4096x200x128 ![] bcast_S_S4096x200x128 (constant S_ .f32 0x7FC00000#32))

/-- The least entry, joined with zero. -/
def loF (h : FVec F S4096x200x128 .f32) : FVec F S_ .f32 :=
  minimumf (Host.reduce FloatOps.minimumf h (constant S_ .f32 0x7F800000#32) reducesTo_S4096x200x128_S_d0_1_2 h_S_) (constant S_ .f32 0x00000000#32)

/-- The greatest entry, joined with zero. -/
def hiF (h : FVec F S4096x200x128 .f32) : FVec F S_ .f32 :=
  maximumf (Host.reduce FloatOps.maximumf h (constant S_ .f32 0xFF800000#32) reducesTo_S4096x200x128_S_d0_1_2 h_S_) (constant S_ .f32 0x00000000#32)

/-- The quantisation step. -/
def sF (h : FVec F S4096x200x128 .f32) : FVec F S_ .f32 :=
  maximumf (Host.divf (subf (hiF h) (loF h)) (constant S_ .f32 0x437F0000#32)) (constant S_ .f32 0x34000000#32)

/-- The zero point. -/
def zF (h : FVec F S4096x200x128 .f32) : FVec F S_ .f32 :=
  minimumf (constant S_ .f32 0x42FE0000#32) (maximumf (constant S_ .f32 0xC3000000#32) (subf (constant S_ .f32 0xC3000000#32) (Host.roundeven (Host.divf (loF h) (sF h)))))

/-- The quantised entries before clipping. -/
def xqF (h : FVec F S4096x200x128 .f32) (s z : FVec F S_ .f32) : FVec F S4096x200x128 .f32 :=
  addf (Host.roundeven (Host.divf h (broadcastInDim S4096x200x128 ![] bcast_S_S4096x200x128 s))) (broadcastInDim S4096x200x128 ![] bcast_S_S4096x200x128 z)

/-- Whether a quantised entry lies in the clipping range. -/
def maskF (xq : FVec F S4096x200x128 .f32) : IVec S4096x200x128 1 :=
  andi (cmpf .oge xq (broadcastInDim S4096x200x128 ![] bcast_S_S4096x200x128 (constant S_ .f32 0xC3000000#32))) (cmpf .ole xq (broadcastInDim S4096x200x128 ![] bcast_S_S4096x200x128 (constant S_ .f32 0x42FE0000#32)))

/-- The clipped entries de-quantised. -/
def deqF (xq : FVec F S4096x200x128 .f32) (s z : FVec F S_ .f32) : FVec F S4096x200x128 .f32 :=
  mulf (subf (minimumf (broadcastInDim S4096x200x128 ![] bcast_S_S4096x200x128 (constant S_ .f32 0x42FE0000#32)) (maximumf (broadcastInDim S4096x200x128 ![] bcast_S_S4096x200x128 (constant S_ .f32 0xC3000000#32)) xq)) (broadcastInDim S4096x200x128 ![] bcast_S_S4096x200x128 z)) (broadcastInDim S4096x200x128 ![] bcast_S_S4096x200x128 s)

/-- The pass-through term: the gathered entry inside the clipping range, zero outside. -/
def passF (mask : IVec S4096x200x128 1) (h : FVec F S4096x200x128 .f32) : FVec F S4096x200x128 .f32 :=
  select mask h (broadcastInDim S4096x200x128 ![] bcast_S_S4096x200x128 (constant S_ .f32 0x00000000#32))

/-- The de-quantised entries with the pass-through term subtracted and added back. -/
def hqF (h : FVec F S4096x200x128 .f32) (s z : FVec F S_ .f32) (xq : FVec F S4096x200x128 .f32) (mask : IVec S4096x200x128 1) :
    FVec F S4096x200x128 .f32 :=
  addf (subf (deqF xq s z) (passF mask h)) (passF mask h)

/-- The product with the weight row (transposed to a column) plus the bias broadcast over every entry. -/
def outF (hq : FVec F S4096x200x128 .f32) (W : FVec F S1x128 .f32) (b : FVec F S1 .f32) : FVec F S4096x200x1 .f32 :=
  addf (Host.dotGeneral dot_S4096x200x128_S128x1_S4096x200x1_2_0_01_1_n_n none hq (transpose S128x1 [1, 0] W transposes_S1x128_S128x1_1_0))
    (broadcastInDim S4096x200x1 ![0, 1, 2] bcast_S1x1x1_S4096x200x1_0_1_2 (broadcastInDim S1x1x1 ![2] bcast_S1_S1x1x1_2 b))

/-- The gathered rows of the reference's arguments. -/
def hR (x : IVec S4096x200 32) (emb : FVec F S100000x128 .f32) : FVec F S4096x200x128 .f32 := takeF emb x
/-- The quantisation step of the reference's arguments. -/
def sR (x : IVec S4096x200 32) (emb : FVec F S100000x128 .f32) : FVec F S_ .f32 := sF (hR x emb)
/-- The zero point of the reference's arguments. -/
def zR (x : IVec S4096x200 32) (emb : FVec F S100000x128 .f32) : FVec F S_ .f32 := zF (hR x emb)
/-- The quantised entries of the reference's arguments. -/
def xqR (x : IVec S4096x200 32) (emb : FVec F S100000x128 .f32) : FVec F S4096x200x128 .f32 := xqF (hR x emb) (sR x emb) (zR x emb)
/-- The fake-quantised entries of the reference's arguments. -/
def hqR (x : IVec S4096x200 32) (emb : FVec F S100000x128 .f32) : FVec F S4096x200x128 .f32 :=
  hqF (hR x emb) (sR x emb) (zR x emb) (xqR x emb) (maskF (xqR x emb))

/-- The reference's result: the operations' composed pure term of the four arguments. -/
def refOut (x : IVec S4096x200 32) (emb : FVec F S100000x128 .f32) (W : FVec F S1x128 .f32) (b : FVec F S1 .f32) :
    FVec F S4096x200x1 .f32 :=
  outF (hqR x emb) W b

end Cert.ReferenceIdeal.RefValue

end
-- ==== Proof.RefFrame.lean ====
/-
  The reference's four argument buffers are written by no operation of the line: after the fold each holds
  what it held at launch, so every weakly fair execution of @main ends with the arguments unchanged.
-/
import proofs.«211894_g61933428415975_cont_9to1c4b_619_7_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Every weakly fair execution of @main terminates with the four arguments unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (arg0_eq _), (h c main_arg1).trans (arg1_eq _),
      (h c main_arg2).trans (arg2_eq _), (h c main_arg3).trans (arg3_eq _)⟩)
    (run_main m ρ)

end Cert.ReferenceIdeal.RefValue

end
-- ==== Proof.RefSegA.lean ====
/-
  The first part of the line (the gather with its index wrap and out-of-range fill): the gathered rows as a
  function of the table and the index words; the weight row and the bias are not written.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segA_v0 (V : Valuation τ sig (Elt F)) :
    after opsA V (main_v0 : DevRef τ sig) = takeF (V (main_arg1 : DevRef τ sig)) (V (main_arg0 : DevRef τ sig)) := by
  unfold opsA
  after_results_simp
  simp only [TRef.toBuf, TRef.ofBuf, cast_eq]
  rfl

theorem segA_arg2 (V : Valuation τ sig (Elt F)) :
    after opsA V (main_arg2 : DevRef τ sig) = V (main_arg2 : DevRef τ sig) := by
  unfold opsA
  after_results_simp

theorem segA_arg3 (V : Valuation τ sig (Elt F)) :
    after opsA V (main_arg3 : DevRef τ sig) = V (main_arg3 : DevRef τ sig) := by
  unfold opsA
  after_results_simp

end Cert.ReferenceIdeal.RefValue

end
-- ==== Proof.RefSegB.lean ====
/-
  The second part of the line (the scalars): the quantisation step and the zero point as functions of the
  gathered rows, which are not written, nor are the weight row and the bias.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segB_v7 (V : Valuation τ sig (Elt F)) :
    after opsB V (main_v7 : DevRef τ sig) = sF (V (main_v0 : DevRef τ sig)) := by
  unfold opsB
  after_results_simp
  rfl

theorem segB_v11 (V : Valuation τ sig (Elt F)) :
    after opsB V (main_v11 : DevRef τ sig) = zF (V (main_v0 : DevRef τ sig)) := by
  unfold opsB
  after_results_simp
  simp only [TRef.toBuf, TRef.ofBuf, cast_eq]
  rfl

theorem segB_v0 (V : Valuation τ sig (Elt F)) :
    after opsB V (main_v0 : DevRef τ sig) = V (main_v0 : DevRef τ sig) := by
  unfold opsB
  after_results_simp

theorem segB_arg2 (V : Valuation τ sig (Elt F)) :
    after opsB V (main_arg2 : DevRef τ sig) = V (main_arg2 : DevRef τ sig) := by
  unfold opsB
  after_results_simp

theorem segB_arg3 (V : Valuation τ sig (Elt F)) :
    after opsB V (main_arg3 : DevRef τ sig) = V (main_arg3 : DevRef τ sig) := by
  unfold opsB
  after_results_simp

end Cert.ReferenceIdeal.RefValue

end
-- ==== Proof.RefSegC.lean ====
/-
  The third part of the line: the quantised entries before clipping, as a function of the gathered rows, the
  step and the zero point; none of those three is written, nor are the weight row and the bias.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segC_v16 (V : Valuation τ sig (Elt F)) :
    after opsC V (main_v16 : DevRef τ sig) = xqF (V (main_v0 : DevRef τ sig)) (V (main_v7 : DevRef τ sig)) (V (main_v11 : DevRef τ sig)) := by
  unfold opsC
  after_results_simp
  simp only [TRef.toBuf, TRef.ofBuf, cast_eq]
  rfl

theorem segC_v0 (V : Valuation τ sig (Elt F)) :
    after opsC V (main_v0 : DevRef τ sig) = V (main_v0 : DevRef τ sig) := by
  unfold opsC
  after_results_simp

theorem segC_v7 (V : Valuation τ sig (Elt F)) :
    after opsC V (main_v7 : DevRef τ sig) = V (main_v7 : DevRef τ sig) := by
  unfold opsC
  after_results_simp

theorem segC_v11 (V : Valuation τ sig (Elt F)) :
    after opsC V (main_v11 : DevRef τ sig) = V (main_v11 : DevRef τ sig) := by
  unfold opsC
  after_results_simp

theorem segC_arg2 (V : Valuation τ sig (Elt F)) :
    after opsC V (main_arg2 : DevRef τ sig) = V (main_arg2 : DevRef τ sig) := by
  unfold opsC
  after_results_simp

theorem segC_arg3 (V : Valuation τ sig (Elt F)) :
    after opsC V (main_arg3 : DevRef τ sig) = V (main_arg3 : DevRef τ sig) := by
  unfold opsC
  after_results_simp

end Cert.ReferenceIdeal.RefValue

end
-- ==== Proof.RefSegC2.lean ====
/-
  The third part of the line: which quantised entries lie in the clipping range.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segC_v21 (V : Valuation τ sig (Elt F)) :
    after opsC V (main_v21 : DevRef τ sig) = maskF (xqF (V (main_v0 : DevRef τ sig)) (V (main_v7 : DevRef τ sig)) (V (main_v11 : DevRef τ sig))) := by
  unfold opsC
  after_results_simp
  simp only [TRef.toBuf, TRef.ofBuf, cast_eq]
  rfl

end Cert.ReferenceIdeal.RefValue

end
-- ==== Proof.RefSegD.lean ====
/-
  The fourth part of the line: the clipped entries de-quantised, with the pass-through term subtracted and
  added back; the weight row and the bias are not written.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segD_v29 (V : Valuation τ sig (Elt F)) :
    after opsD V (main_v29 : DevRef τ sig) = hqF (V (main_v0 : DevRef τ sig)) (V (main_v7 : DevRef τ sig)) (V (main_v11 : DevRef τ sig)) (V (main_v16 : DevRef τ sig)) (V (main_v21 : DevRef τ sig)) := by
  unfold opsD
  after_results_simp
  simp only [TRef.toBuf, TRef.ofBuf, cast_eq]
  rfl

theorem segD_arg2 (V : Valuation τ sig (Elt F)) :
    after opsD V (main_arg2 : DevRef τ sig) = V (main_arg2 : DevRef τ sig) := by
  unfold opsD
  after_results_simp

theorem segD_arg3 (V : Valuation τ sig (Elt F)) :
    after opsD V (main_arg3 : DevRef τ sig) = V (main_arg3 : DevRef τ sig) := by
  unfold opsD
  after_results_simp

end Cert.ReferenceIdeal.RefValue

end
-- ==== Proof.RefSegE.lean ====
/-
  The last part of the line: the product with the transposed weight row plus the broadcast bias.
-/
import proofs.«211894_g61933428415975_cont_9to1c4b_619_7_alg».proof.Proof.RefOps
import proofs.«211894_g61933428415975_cont_9to1c4b_619_7_alg».proof.Proof.RefStage

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem segE_v34 (V : Valuation τ sig (Elt F)) :
    after opsE V (main_v34 : DevRef τ sig) = outF (V (main_v29 : DevRef τ sig)) (V (main_arg2 : DevRef τ sig)) (V (main_arg3 : DevRef τ sig)) := by
  unfold opsE
  after_results_simp
  rfl

end Cert.ReferenceIdeal.RefValue

end
-- ==== Proof.RefRun.lean ====
/-
  The reference's run: every weakly fair execution of @main terminates with the result buffer at the composed
  pure term `refOut` of the four arguments' launch contents, and the arguments unchanged. The fold over the line is
  the folds over its five parts in turn; each part's result is one stage function of the values the part reads,
  and the values a later part reads are left alone by the parts in between.
-/
import proofs.«211894_g61933428415975_cont_9to1c4b_619_7_alg».proof.Proof.RefOps
import proofs.«211894_g61933428415975_cont_9to1c4b_619_7_alg».proof.Proof.RefStage
import proofs.«211894_g61933428415975_cont_9to1c4b_619_7_alg».proof.Proof.RefFrame
import proofs.«211894_g61933428415975_cont_9to1c4b_619_7_alg».proof.Proof.RefSegA
import proofs.«211894_g61933428415975_cont_9to1c4b_619_7_alg».proof.Proof.RefSegB
import proofs.«211894_g61933428415975_cont_9to1c4b_619_7_alg».proof.Proof.RefSegC
import proofs.«211894_g61933428415975_cont_9to1c4b_619_7_alg».proof.Proof.RefSegC2
import proofs.«211894_g61933428415975_cont_9to1c4b_619_7_alg».proof.Proof.RefSegD
import proofs.«211894_g61933428415975_cont_9to1c4b_619_7_alg».proof.Proof.RefSegE

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The fold over the whole line, read at the result buffer, is the composed term of the arguments. -/
theorem out_eq (V : Valuation τ sig (Elt F)) :
    after ops V (main_v34 : DevRef τ sig)
      = refOut (V (main_arg0 : DevRef τ sig)) (V (main_arg1 : DevRef τ sig)) (V (main_arg2 : DevRef τ sig)) (V (main_arg3 : DevRef τ sig)) := by
  rw [after_ops, segE_v34, segD_v29, segD_arg2, segD_arg3, segC_v16, segC_v21, segC_v0, segC_v7, segC_v11, segC_arg2, segC_arg3,
    segB_v7, segB_v11, segB_v0, segB_arg2, segB_arg3, segA_v0, segA_arg2, segA_arg3]
  rfl

/-- On every device, from any memory with zero counters: every weakly fair execution of @main terminates with the
    result at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v34)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v34).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.RefGLaws.lean ====
/-
  Laws of the extended reals the reference's last steps use. Subtracting a real and adding it back changes
  nothing, at an infinity too: an infinity minus a real is that infinity, and plus the real again it still is.
  The pass-through term of the reference is a real entry where a condition holds and zero elsewhere, so the
  same holds for it.
-/
import Idealize.ShloMosaic.PureOps.Ideal

namespace Cert.ReferenceIdeal.RefValue.Laws

open Idealize.ShloMosaic

/-- Subtracting a real from an extended real and adding it back gives the extended real. -/
theorem sub_add_cancel_real (y : EReal) (r : ℝ) : y - (r : EReal) + (r : EReal) = y := by
  induction y using EReal.rec with
  | bot => simp
  | coe a => norm_cast; ring_nf
  | top => simp

/-- The same for a term known to be a real. -/
theorem sub_add_cancel_of_real (y p : EReal) (hp : ∃ r : ℝ, p = (r : EReal)) : y - p + p = y := by
  obtain ⟨r, rfl⟩ := hp
  exact sub_add_cancel_real y r

/-- The f32 pattern of zero is the extended real zero. -/
theorem ofBits_zero_f32 : Ideal.ofBits .f32 0x00000000#32 = 0 := by simp [Ideal.ofBits, Ideal.ieee]

/-- A term that is a real entry under a condition and zero otherwise is a real. -/
theorem ite_real (c : Prop) [Decidable c] (e : EReal) (he : ∃ r : ℝ, e = (r : EReal)) :
    ∃ r : ℝ, (if c then e else (0 : EReal)) = (r : EReal) := by
  by_cases hc : c
  · simpa [hc] using he
  · exact ⟨0, by simp [hc]⟩

/-- The pass-through term subtracted and added back changes nothing: if-then-else form. -/
theorem sub_add_cancel_ite (c : Prop) [Decidable c] (y e : EReal) (he : ∃ r : ℝ, e = (r : EReal)) :
    y - (if c then e else (0 : EReal)) + (if c then e else (0 : EReal)) = y :=
  sub_add_cancel_of_real y _ (ite_real c e he)

/-- The same with the zero spelt as the f32 pattern the programs print. -/
theorem sub_add_cancel_ite_bits (c : Prop) [Decidable c] (y e : EReal) (he : ∃ r : ℝ, e = (r : EReal)) :
    y - (if c then e else Ideal.ofBits .f32 0x00000000#32) + (if c then e else Ideal.ofBits .f32 0x00000000#32) = y := by
  rw [ofBits_zero_f32]; exact sub_add_cancel_ite c y e he

end Cert.ReferenceIdeal.RefValue.Laws
-- ==== Proof.RefGTake.lean ====
/-
  The gathered rows read at an index. Under the hypothesis that every index word is below the table's length
  (as an unsigned number), the word's sign bit is clear, so the wrap of negative words leaves it alone; the
  wrapped word lies in 0 … 99999, so the range test is 1 and the fill constant is never selected; and the
  gather's start index, the word read as a signed integer and clamped to the last row, is the word itself.
  Entry (p, q, k) of the gathered rows is therefore the table's entry (row named by word (p, q), k).
-/
import proofs.«211894_g61933428415975_cont_9to1c4b_619_7_alg».proof.Proof.RefStage
import proofs.«211894_g61933428415975_cont_9to1c4b_619_7_alg».proof.Proof.Spec
import Idealize.ShloMosaic.Lib.Pipeline.Value
import Idealize.ShloMosaic.Lib.ValueIdx
import Idealize.ShloMosaic.Lib.IdealHost
import Idealize.ShloMosaic.Lib.Affine
import Idealize.ShloMosaic.PureOps.Reduce

noncomputable section

namespace Cert.ReferenceIdeal.RefValue

open Cert.ReferenceIdeal Idealize.ShloMosaic Idealize.ShloMosaic.ValueIdx
open Cert.ReferenceIdeal.Facts₀ Cert.ReferenceIdeal.Facts

variable [Facts]

/-- A word below 100000 unsigned is not negative signed. -/
theorem toInt_of_lt (w : BitVec 32) (h : w.toNat < 100000) : w.toInt = (w.toNat : Int) := by
  rw [BitVec.toInt_eq_toNat_cond]; split <;> omega

/-- The wrap of negative words leaves a word below 100000 alone. -/
theorem wrapIdx_apply (x : IVec S4096x200 32) (i : S4096x200.Idx) (h : (x i).toNat < 100000) : wrapIdx x i = x i := by
  unfold wrapIdx
  rw [select_apply]
  have hc : ¬ (cmpi .slt x (broadcastInDim S4096x200 ![] bcast_S_S4096x200 (constantI S_ 32 0#32)) i = 1#1) := by
    show ¬ (IntOp.cmpi .slt (x i) _ = 1#1)
    rw [broadcastInDim_scalar_apply, IntOp.cmpi_slt, toInt_of_lt _ h]
    show ¬ ((x i).toNat : Int) < (0#32).toInt
    have : (0#32).toInt = 0 := by decide
    omega
  rw [eq_zero_of_ne_one hc, select_zero]

/-- The column of start indices at (p, q, u) is the wrapped word (p, q). -/
theorem idxCol_apply (x : IVec S4096x200 32) (p : Fin 4096) (q : Fin 200) (u : Fin 1) :
    idxCol x (ix3 p q u) = wrapIdx x (ix2 p q) := by
  unfold idxCol
  refine broadcastInDim_apply _ _ _ (ix3 p q u) (ix2 p q) fun ax => ?_
  match ax with
  | ⟨0, _⟩ => rfl
  | ⟨1, _⟩ => rfl

/-- A reduction by "and" of an array of ones, started at one, is one. -/
theorem reduce_andi_one {s t u : Shape} {axes : List (Fin s.rank)} (y : s.Idx → BitVec 1) (init : u.Idx → BitVec 1)
    (h : s.ReducesTo axes t) (hu : 0 < u.numel) (j : t.Idx) (hinit : init (Shape.Idx.first hu) = 1#1)
    (hy : ∀ i, y i = 1#1) : Host.reduce IntOp.andi y init h hu j = 1#1 := by
  rw [Host.reduce_eq_foldl, hinit]
  generalize (((List.finRange s.numel).map s.rowMajor.symm).filter fun i => h.drop i = j) = l
  induction l with
  | nil => rfl
  | cons a l ih =>
    rw [List.foldl_cons, hy a]
    exact ih

/-- The range test is one at every index word below 100000. -/
theorem inRange_apply (x : IVec S4096x200 32) (hx : ∀ i, (x i).toNat < 100000) (j : S4096x200.Idx) :
    inRange x j = 1#1 := by
  unfold inRange
  refine reduce_andi_one _ _ _ _ _ rfl fun i => ?_
  obtain ⟨p, q, u, rfl⟩ : ∃ (p : Fin 4096) (q : Fin 200) (u : Fin 1), i = ix3 p q u := ⟨i 0, i 1, i 2, eq_ix3 i⟩
  show IntOp.andi (IntOp.cmpi .sge (idxCol x (ix3 p q u)) (0#32)) (IntOp.cmpi .sle (idxCol x (ix3 p q u)) (99999#32)) = 1#1
  have hw := hx (ix2 p q)
  rw [idxCol_apply, wrapIdx_apply _ _ hw, IntOp.andi_eq_one, IntOp.cmpi_sge, IntOp.cmpi_sle, toInt_of_lt _ hw]
  have e0 : (0#32).toInt = 0 := by decide
  have e1 : (99999#32).toInt = 99999 := by decide
  rw [e0, e1]
  omega

/-- The gather's dimension numbers. -/
abbrev gd : GatherDims S100000x128 S4096x200x1 S4096x200x128 := gather_S100000x128_S4096x200x1_S4096x200x128_2_0_n_n_0_2_1128

/-- The gather read at (p, q, k): the table at (start, k), the start being the start-index word (p, q, 0) read as a
    signed integer and clamped to the last row. -/
theorem gather_apply {α : Type} (emb : S100000x128.Idx → α) (idx : IVec S4096x200x1 32) (p : Fin 4096) (q : Fin 200)
    (k : Fin 128) :
    Host.gather gd emb idx (ix3 p q k) = emb (ix2 ⟨min (idx (ix3 p q 0)).toInt.toNat 99999, by omega⟩ k) := by
  unfold Host.gather
  congr 1
  funext a
  refine Fin.ext ?_
  match a with
  | ⟨0, _⟩ =>
    show gd.start (ix3 p q k) idx 0 + gd.batchCoord (ix3 p q k) 0 + gd.offCoord (ix3 p q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 p q k) ⟨List.idxOf (0 : Fin 2) gd.startIndexMap,
        List.idxOf_lt_length_iff.2 (List.mem_singleton.mpr rfl)⟩ = ix3 p q 0 := by
      funext b; refine Fin.ext ?_
      match b with
      | ⟨0, _⟩ => rfl
      | ⟨1, _⟩ => rfl
      | ⟨2, _⟩ => rfl
    rw [hsi]
    rfl
  | ⟨1, _⟩ =>
    show gd.start (ix3 p q k) idx 1 + gd.batchCoord (ix3 p q k) 1 + gd.offCoord (ix3 p q k) 1 = _
    rw [GatherDims.batchCoord_eq_zero _ _ _ List.not_mem_nil]
    have hs : gd.start (ix3 p q k) idx 1 = 0 := by
      unfold GatherDims.start
      have hmem : (1 : Fin 2) ∉ gd.startIndexMap := fun h => absurd (List.mem_singleton.mp h) (by decide)
      rw [dif_neg hmem]
    have hoff : gd.offCoord (ix3 p q k) 1 = k.val := by
      unfold GatherDims.offCoord
      have hk : (1 : Fin 2) ∈ gd.sKept :=
        (GatherDims.mem_sKept _ _).mpr ⟨fun h => absurd (List.mem_singleton.mp h) (by decide), List.not_mem_nil⟩
      rw [dif_pos hk]
      have hidx : List.idxOf (1 : Fin 2) gd.sKept = 0 := rfl
      have key : ∀ (n : Nat) (hn : n < gd.offsetDims.length), n = 0 → (ix3 p q k gd.offsetDims[n]).val = k.val := by
        intro n hn h0; subst h0; rfl
      exact key _ _ hidx
    rw [hs, hoff]
    show 0 + 0 + k.val = k.val
    omega

/-- THE GATHERED ROWS AT AN ENTRY: the table's entry in the row the index word names. -/
theorem takeF_apply {F : FTy → Type} [FloatOps F] (x : IVec S4096x200 32) (emb : FVec F S100000x128 .f32)
    (hx : ∀ i, (x i).toNat < 100000) (p : Fin 4096) (q : Fin 200) (k : Fin 128) :
    takeF emb x (ix3 p q k) = emb (ix2 (Cert.Spec.row (x (ix2 p q))) k) := by
  unfold takeF
  rw [select_apply]
  have hm : broadcastInDim S4096x200x128 ![0, 1] bcast_S4096x200_S4096x200x128_0_1 (inRange x) (ix3 p q k) = 1#1 := by
    rw [broadcastInDim_apply _ _ _ (ix3 p q k) (ix2 p q) (fun ax => by
      match ax with
      | ⟨0, _⟩ => rfl
      | ⟨1, _⟩ => rfl)]
    exact inRange_apply x hx _
  rw [hm, select_one]
  show Host.gather gd emb (idxCol x) (ix3 p q k) = _
  rw [gather_apply]
  have hrow : (⟨min (idxCol x (ix3 p q 0)).toInt.toNat 99999, by omega⟩ : Fin 100000) = Cert.Spec.row (x (ix2 p q)) := by
    apply Fin.ext
    show min (idxCol x (ix3 p q 0)).toInt.toNat 99999 = (x (ix2 p q)).toNat % 100000
    rw [idxCol_apply, wrapIdx_apply _ _ (hx _)]
    have h := hx (ix2 p q)
    have e := toInt_of_lt _ h
    omega
  rw [hrow]

end Cert.ReferenceIdeal.RefValue

end
-- ==== Proof.RefGRed.lean ====
/-
  The reference's two full reductions. A reduction by minimum over every axis, started at +infinity, is the
  infimum of the entries: the operation is commutative and associative, so the fold runs over the set of all
  indices in any order; a fold of "min" from the top element over a finite set is the set's infimum; and an
  index of a rank-3 array is its three coordinates. The same holds for maximum, -infinity and the supremum.
-/
import proofs.«211894_g61933428415975_cont_9to1c4b_619_7_alg».proof.Proof.RefStage
import Idealize.ShloMosaic.PureOps.Ideal.Laws
import Idealize.ShloMosaic.PureOps.Reduce
import Idealize.ShloMosaic.Lib.ValueIdx

noncomputable section

namespace Cert.ReferenceIdeal.RefValue

open Cert.ReferenceIdeal Idealize.ShloMosaic Idealize.ShloMosaic.ValueIdx
open Cert.ReferenceIdeal.Facts₀ Cert.ReferenceIdeal.Facts

variable [Facts]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- An infimum over a rank-3 index set is the triple infimum over the coordinates. -/
theorem iInf_idx3 {n0 n1 n2 : Nat} (f : (⟨3, ![n0, n1, n2]⟩ : Shape).Idx → EReal) :
    ⨅ i, f i = ⨅ (p : Fin n0) (q : Fin n1) (k : Fin n2), f (ix3 p q k) := by
  rw [← Equiv.iInf_comp (idxEquiv3 (n0 := n0) (n1 := n1) (n2 := n2)).symm, iInf_prod]
  refine iInf_congr fun p => ?_
  rw [iInf_prod]
  rfl

/-- A supremum over a rank-3 index set is the triple supremum over the coordinates. -/
theorem iSup_idx3 {n0 n1 n2 : Nat} (f : (⟨3, ![n0, n1, n2]⟩ : Shape).Idx → EReal) :
    ⨆ i, f i = ⨆ (p : Fin n0) (q : Fin n1) (k : Fin n2), f (ix3 p q k) := by
  rw [← Equiv.iSup_comp (idxEquiv3 (n0 := n0) (n1 := n1) (n2 := n2)).symm, iSup_prod]
  refine iSup_congr fun p => ?_
  rw [iSup_prod]
  rfl

/-- The f32 pattern 0x7F800000 is +infinity. -/
theorem ofBits_pinf : Ideal.ofBits .f32 0x7F800000#32 = ⊤ := by simp [Ideal.ofBits, Ideal.ieee]
/-- The f32 pattern 0xFF800000 is -infinity. -/
theorem ofBits_ninf : Ideal.ofBits .f32 0xFF800000#32 = ⊥ := by simp [Ideal.ofBits, Ideal.ieee]

/-- Every index of the array reduces into the one index of the rank-0 result. -/
theorem filter_drop_all :
    (Finset.univ.filter fun i : S4096x200x128.Idx => reducesTo_S4096x200x128_S_d0_1_2.drop i = ix0) = Finset.univ := by
  ext i
  simp only [Finset.mem_filter, Finset.mem_univ, true_and, iff_true]
  exact eq_ix0 _

theorem reduce_min_all (h : FVec Ideal S4096x200x128 .f32) :
    Host.reduce FloatOps.minimumf h (constant (F := Ideal) S_ .f32 0x7F800000#32) reducesTo_S4096x200x128_S_d0_1_2 h_S_ ix0
      = ⨅ (p : Fin 4096) (q : Fin 200) (k : Fin 128), h (ix3 p q k) := by
  rw [Host.reduce_eq_fold, filter_drop_all]
  show Finset.univ.fold (fun a b : EReal => min a b) (Ideal.ofBits .f32 0x7F800000#32) h = _
  rw [ofBits_pinf, ← iInf_idx3, ← Finset.inf_univ_eq_iInf]
  rfl

theorem reduce_max_all (h : FVec Ideal S4096x200x128 .f32) :
    Host.reduce FloatOps.maximumf h (constant (F := Ideal) S_ .f32 0xFF800000#32) reducesTo_S4096x200x128_S_d0_1_2 h_S_ ix0
      = ⨆ (p : Fin 4096) (q : Fin 200) (k : Fin 128), h (ix3 p q k) := by
  rw [Host.reduce_eq_fold, filter_drop_all]
  show Finset.univ.fold (fun a b : EReal => max a b) (Ideal.ofBits .f32 0xFF800000#32) h = _
  rw [ofBits_ninf, ← iSup_idx3, ← Finset.sup_univ_eq_iSup]
  rfl

end Cert.ReferenceIdeal.RefValue

end
-- ==== Proof.RefGOut.lean ====
/-
  The reference's last step read at an entry. Over the extended reals the host's product of the [4096, 200, 128]
  array with the weight column contracts the last axis: entry (p, q, 0) is the sum over k of the array's entry
  (p, q, k) times the column's entry (k, 0), and the column is the weight row transposed. The bias is one number
  spread over every entry.
-/
import proofs.«211894_g61933428415975_cont_9to1c4b_619_7_alg».proof.Proof.RefStage
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.RefValue

open Cert.ReferenceIdeal Idealize.ShloMosaic Idealize.ShloMosaic.ValueIdx
open Cert.ReferenceIdeal.Facts₀ Cert.ReferenceIdeal.Facts

variable [Facts]

/-- The product's dimension numbers. -/
abbrev dd : DotDims S4096x200x128 S128x1 S4096x200x1 := dot_S4096x200x128_S128x1_S4096x200x1_2_0_01_1_n_n

theorem dd_rank : dd.contr.rank = 1 := rfl
theorem dd_size : dd.contr.size ⟨0, by rw [dd_rank]; exact Nat.one_pos⟩ = 128 := rfl

/-- The product read at (p, q, 0): the sum over the contracted axis. -/
theorem dot_apply (l : FVec Ideal S4096x200x128 .f32) (r : FVec Ideal S128x1 .f32) (p : Fin 4096) (q : Fin 200) :
    Host.dotGeneral (F := Ideal) dd none l r (ix3 p q 0) = ∑ k : Fin 128, l (ix3 p q k) * r (ix2 k 0) := by
  show FloatOps.dotGeneral dd none .single l r (ix3 p q 0) = _
  rw [Ideal.dotGeneral_apply, ← Equiv.sum_comp (contrEquiv1 dd 128 dd_rank dd_size).symm]
  refine Finset.sum_congr rfl fun k _ => ?_
  have hk := contrEquiv1_symm_val dd 128 dd_rank dd_size k
  have el : dd.lhsIdx (ix3 p q 0) ((contrEquiv1 dd 128 dd_rank dd_size).symm k) = ix3 p q k := funext fun a => Fin.ext (by
    match a with
    | ⟨0, _⟩ => rfl
    | ⟨1, _⟩ => rfl
    | ⟨2, _⟩ => exact hk)
  have er : dd.rhsIdx (ix3 p q 0) ((contrEquiv1 dd 128 dd_rank dd_size).symm k) = ix2 k 0 := funext fun a => Fin.ext (by
    match a with
    | ⟨0, _⟩ => exact hk
    | ⟨1, _⟩ => rfl)
  rw [el, er]

theorem outF_apply (hq : FVec Ideal S4096x200x128 .f32) (W : FVec Ideal S1x128 .f32) (b : FVec Ideal S1 .f32)
    (p : Fin 4096) (q : Fin 200) :
    outF hq W b (ix3 p q 0) = (∑ k : Fin 128, hq (ix3 p q k) * W (ix2 0 k)) + b (ix1 0) := by
  unfold outF
  rw [addf_apply, dot_apply]
  congr 1
  · refine Finset.sum_congr rfl fun k _ => ?_
    rw [transpose_ix2_apply]
  · rw [broadcastInDim_apply _ _ _ (ix3 p q 0) (ix3 (0 : Fin 1) (0 : Fin 1) (0 : Fin 1)) (fun ax => by
      match ax with
      | ⟨0, _⟩ => rfl
      | ⟨1, _⟩ => rfl
      | ⟨2, _⟩ => rfl)]
    exact broadcastInDim_apply _ _ _ (ix3 (0 : Fin 1) (0 : Fin 1) (0 : Fin 1)) (ix1 (0 : Fin 1)) (fun ax => by
      match ax with
      | ⟨0, _⟩ => rfl)

end Cert.ReferenceIdeal.RefValue

end
-- ==== Proof.RefRead.lean ====
/-
  The reference's result read at an entry, against the specification. With every index word below the table's
  length and every table entry a real: the gathered rows are the table's rows the words name; the least and
  greatest gathered entries, joined with zero, give the specification's step and zero point; each entry is
  fake-quantised as the specification says, the pass-through term (a real: a table entry or zero) subtracted and
  added back changing nothing; and the product with the weight row plus the bias is the specification's score
  of the row the word names.
-/
import proofs.«211894_g61933428415975_cont_9to1c4b_619_7_alg».proof.Proof.RefStage
import proofs.«211894_g61933428415975_cont_9to1c4b_619_7_alg».proof.Proof.Spec
import proofs.«211894_g61933428415975_cont_9to1c4b_619_7_alg».proof.Proof.RefGLaws
import proofs.«211894_g61933428415975_cont_9to1c4b_619_7_alg».proof.Proof.RefGTake
import proofs.«211894_g61933428415975_cont_9to1c4b_619_7_alg».proof.Proof.RefGRed
import proofs.«211894_g61933428415975_cont_9to1c4b_619_7_alg».proof.Proof.RefGOut
import Idealize.ShloMosaic.PureOps.Ideal.Laws
import Idealize.ShloMosaic.Lib.Pipeline.Value
import Idealize.ShloMosaic.Lib.ValueIdx
import Idealize.ShloMosaic.Lib.IdealHost

noncomputable section

namespace Cert.ReferenceIdeal.RefValue

open Cert.ReferenceIdeal Idealize.ShloMosaic Idealize.ShloMosaic.ValueIdx
open Cert.ReferenceIdeal.Facts₀ Cert.ReferenceIdeal.Facts

variable [Facts]

/-- The gathered rows of the reference's arguments at an entry. -/
theorem hR_apply (x : IVec S4096x200 32) (emb : FVec Ideal S100000x128 .f32) (hx : ∀ i, (x i).toNat < 100000)
    (p : Fin 4096) (q : Fin 200) (k : Fin 128) :
    hR x emb (ix3 p q k) = emb (ix2 (Cert.Spec.row (x (ix2 p q))) k) := takeF_apply x emb hx p q k

/-- The least gathered entry joined with zero. -/
theorem loF_hR (x : IVec S4096x200 32) (emb : FVec Ideal S100000x128 .f32) (hx : ∀ i, (x i).toNat < 100000) :
    loF (hR x emb) ix0 = min (Cert.Spec.lo x emb) Cert.Spec.c0 := by
  unfold loF
  rw [minimumf_apply, reduce_min_all]
  simp only [hR_apply x emb hx]
  rfl

/-- The greatest gathered entry joined with zero. -/
theorem hiF_hR (x : IVec S4096x200 32) (emb : FVec Ideal S100000x128 .f32) (hx : ∀ i, (x i).toNat < 100000) :
    hiF (hR x emb) ix0 = max (Cert.Spec.hi x emb) Cert.Spec.c0 := by
  unfold hiF
  rw [maximumf_apply, reduce_max_all]
  simp only [hR_apply x emb hx]
  rfl

/-- The quantisation step is the specification's. -/
theorem sR_apply (x : IVec S4096x200 32) (emb : FVec Ideal S100000x128 .f32) (hx : ∀ i, (x i).toNat < 100000) :
    sR x emb ix0 = Cert.Spec.scale (Cert.Spec.lo x emb) (Cert.Spec.hi x emb) := by
  unfold sR sF
  rw [maximumf_apply, hostDivf_apply, subf_apply, loF_hR x emb hx, hiF_hR x emb hx]
  rfl

/-- The zero point is the specification's. -/
theorem zR_apply (x : IVec S4096x200 32) (emb : FVec Ideal S100000x128 .f32) (hx : ∀ i, (x i).toNat < 100000) :
    zR x emb ix0 = Cert.Spec.zp (Cert.Spec.lo x emb) (Cert.Spec.hi x emb) := by
  have hs := sR_apply x emb hx
  unfold sR at hs
  unfold zR zF
  rw [minimumf_apply, maximumf_apply, subf_apply]
  show min _ (max _ (_ - Ideal.liftRound Ideal.roundHalfEven (Ideal.div (loF (hR x emb) ix0) (sF (hR x emb) ix0)))) = _
  rw [loF_hR x emb hx, hs]
  rfl

/-- An entry fake-quantised as the reference computes it is the specification's: the pass-through term is a real
    (a table entry, or zero), so subtracting it and adding it back changes nothing. -/
theorem hqR_apply (x : IVec S4096x200 32) (emb : FVec Ideal S100000x128 .f32) (hx : ∀ i, (x i).toNat < 100000)
    (hfin : ∀ i, ∃ r : ℝ, emb i = (r : EReal)) (p : Fin 4096) (q : Fin 200) (k : Fin 128) :
    hqR x emb (ix3 p q k)
      = Cert.Spec.fq (Cert.Spec.lo x emb) (Cert.Spec.hi x emb) (emb (ix2 (Cert.Spec.row (x (ix2 p q))) k)) := by
  have hs := sR_apply x emb hx
  have hz := zR_apply x emb hx
  have he := hR_apply x emb hx p q k
  unfold hqR hqF
  rw [addf_apply, subf_apply]
  have hp : ∃ r : ℝ, passF (maskF (xqR x emb)) (hR x emb) (ix3 p q k) = (r : EReal) := by
    unfold passF
    rw [select_apply]
    unfold Scalar.select
    split
    · rw [he]; exact hfin _
    · exact ⟨0, by rw [broadcastInDim_scalar_apply, constant_apply, Laws.ofBits_zero_f32]; rfl⟩
  rw [Laws.sub_add_cancel_of_real _ _ hp]
  unfold deqF
  rw [mulf_apply, subf_apply, minimumf_apply, maximumf_apply]
  rw [broadcastInDim_scalar_apply, broadcastInDim_scalar_apply, broadcastInDim_scalar_apply, broadcastInDim_scalar_apply,
    constant_apply, constant_apply, hs, hz]
  unfold xqR xqF
  rw [addf_apply]
  show (min _ (max _ (Ideal.liftRound Ideal.roundHalfEven (Ideal.div (hR x emb (ix3 p q k))
    (broadcastInDim S4096x200x128 ![] bcast_S_S4096x200x128 (sR x emb) (ix3 p q k)))
      + broadcastInDim S4096x200x128 ![] bcast_S_S4096x200x128 (zR x emb) (ix3 p q k))) - _) * _ = _
  rw [broadcastInDim_scalar_apply, broadcastInDim_scalar_apply, he, hs, hz]
  rfl

/-- THE REFERENCE'S RESULT AT AN ENTRY is the specification's. -/
theorem refOut_apply (x : IVec S4096x200 32) (emb : FVec Ideal S100000x128 .f32) (W : FVec Ideal S1x128 .f32)
    (b : FVec Ideal S1 .f32) (hx : ∀ i, (x i).toNat < 100000) (hfin : ∀ i, ∃ r : ℝ, emb i = (r : EReal))
    (p : Fin 4096) (q : Fin 200) :
    refOut x emb W b (ix3 p q 0) = Cert.Spec.out x emb W b p q := by
  unfold refOut
  rw [outF_apply]
  simp only [hqR_apply x emb hx hfin]
  rfl

end Cert.ReferenceIdeal.RefValue

end
-- ==== Proof.PreDecode.lean ====
/-
  The precondition read back. The claim's precondition is a conjunction of four "all" tests, each a reduction by
  "and" of a one-bit array over every axis, started at the constant 1: every entry of the three float arrays is
  below +infinity in absolute value, and every word of the index array lies in [0, 99999] as a signed integer.
  The result being 1 gives each test at each index; a signed word in [0, 99999] has its sign bit clear, so its
  unsigned value is its signed value and is below 100000; an extended real whose absolute value is below +infinity
  is neither infinity, hence a real.
-/
import proofs.«211894_g61933428415975_cont_9to1c4b_619_7_alg».proof.Proof.Gen.Pre_input_domain
import Idealize.ShloMosaic.Lib.ReduceAll
import Idealize.ShloMosaic.Lib.ValueIdx
import Idealize.ShloMosaic.Lib.IdealHost

noncomputable section

namespace Cert.Pre_input_domain.Decode

open Idealize.ShloMosaic Cert.Pre_input_domain

/-- The rank-0 shape has one index. -/
instance : Subsingleton S_.Idx := ⟨fun a b => funext fun d => d.elim0⟩

/-- A 32-bit word in [0, 99999] signed is below 100000 unsigned. -/
theorem toNat_lt_of_signed (w : BitVec 32) (h0 : (0#32).toInt ≤ w.toInt) (h1 : w.toInt ≤ (99999#32).toInt) :
    w.toNat < 100000 := by
  have e0 : (0#32).toInt = 0 := by decide
  have e1 : (99999#32).toInt = 99999 := by decide
  rw [e0] at h0
  rw [e1] at h1
  have h32 := w.isLt
  rw [BitVec.toInt_eq_toNat_cond] at h0 h1
  split at h0 <;> omega

theorem x_inrange {F : FTy → Type} [FloatOps F] (x : IVec S4096x200 32) (emb : FVec F S100000x128 .f32)
    (W : FVec F S1x128 .f32) (b : FVec F S1 .f32)
    (h : Cert.Pre_input_domain.fn (F := F) x emb W b = fun _ => 1#1) : ∀ i, (x i).toNat < 100000 := by
  intro i
  have e := congrFun h ValueIdx.ix0
  dsimp only [fn, fn_part1] at e
  simp only [Idealize.ShloMosaic.andi, IntOp.andi_eq_one] at e
  obtain ⟨-, hx⟩ := e
  have hi := Host.reduce_andi_all _ _ _ _ _ hx i
  simp only [Idealize.ShloMosaic.andi, IntOp.andi_eq_one, Idealize.ShloMosaic.cmpi, ValueIdx.broadcastInDim_scalar_apply, constantI,
    IntOp.cmpi_sge, IntOp.cmpi_sle] at hi
  exact toNat_lt_of_signed _ hi.1 hi.2

/-- The f32 pattern 0x7F800000 is +infinity. -/
theorem ofBits_inf : Ideal.ofBits .f32 0x7F800000#32 = ⊤ := by simp [Ideal.ofBits, Ideal.ieee]

/-- An extended real whose absolute value max x (-x) is below +infinity is neither infinity: it is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

theorem emb_real (x : IVec S4096x200 32) (emb : FVec Ideal S100000x128 .f32) (W : FVec Ideal S1x128 .f32)
    (b : FVec Ideal S1 .f32) (h : Cert.Pre_input_domain.fn (F := Ideal) x emb W b = fun _ => 1#1) :
    ∀ i, ∃ r : ℝ, emb i = (r : EReal) := by
  intro i
  have e := congrFun h ValueIdx.ix0
  dsimp only [fn, fn_part1] at e
  simp only [Idealize.ShloMosaic.andi, IntOp.andi_eq_one] at e
  obtain ⟨⟨⟨he, -⟩, -⟩, -⟩ := e
  exact real_of_abs_lt _ (Host.reduce_andi_all _ _ _ _ _ he i)

theorem W_real (x : IVec S4096x200 32) (emb : FVec Ideal S100000x128 .f32) (W : FVec Ideal S1x128 .f32)
    (b : FVec Ideal S1 .f32) (h : Cert.Pre_input_domain.fn (F := Ideal) x emb W b = fun _ => 1#1) :
    ∀ i, ∃ r : ℝ, W i = (r : EReal) := by
  intro i
  have e := congrFun h ValueIdx.ix0
  dsimp only [fn, fn_part1] at e
  simp only [Idealize.ShloMosaic.andi, IntOp.andi_eq_one] at e
  obtain ⟨⟨⟨-, hW⟩, -⟩, -⟩ := e
  exact real_of_abs_lt _ (Host.reduce_andi_all _ _ _ _ _ hW i)

theorem b_real (x : IVec S4096x200 32) (emb : FVec Ideal S100000x128 .f32) (W : FVec Ideal S1x128 .f32)
    (b : FVec Ideal S1 .f32) (h : Cert.Pre_input_domain.fn (F := Ideal) x emb W b = fun _ => 1#1) :
    ∀ i, ∃ r : ℝ, b i = (r : EReal) := by
  intro i
  have e := congrFun h ValueIdx.ix0
  dsimp only [fn, fn_part1] at e
  simp only [Idealize.ShloMosaic.andi, IntOp.andi_eq_one] at e
  obtain ⟨⟨-, hb⟩, -⟩ := e
  exact real_of_abs_lt _ (Host.reduce_andi_all _ _ _ _ _ hb i)

end Cert.Pre_input_domain.Decode

end
-- ==== Proof.lean ====
/-
  The five conjuncts of the claim.

  The kernel gathers, for every index word, the score of the table row the word names. It computes the scores of all
  100000 rows once: a first pass takes each row's least and greatest entry; the 2 x 16 tiles of a SparseCore call fold
  those extrema over the rows the index words name, each tile over its own 51200 words and 16 lanes; a second pass
  reduces the 512 partial extrema to the quantisation step and zero point and scores every row; a second SparseCore
  call gathers the scores. The reference gathers the rows first, takes the extrema of the gathered entries, fake-
  quantises them and contracts with the weights. The two agree because an infimum (supremum) may be taken in any
  grouping — over the entries of a row, then over the words of a tile's lane, then over lanes and tiles — and because
  the reference's straight-through form (y - p) + p is y whenever p is a real number, which the table's entries are.

  The three frames: each program runs to the end on every weakly fair schedule, faults nowhere, and leaves its
  arguments as launched. For the kernel, at either float instance, that is the launch theorem for SparseCore programs
  applied to @main (six reshapes, two pipelines entered as regions, two calls), the two tiles' bodies at a symbolic grid
  point, and the splits of what the calls hand over; it needs the index words in range, which the precondition gives.
  The idealization rewrote nothing, so it is preserved trivially.
-/
import proofs.«211894_g61933428415975_cont_9to1c4b_619_7_alg».proof.Defs
import proofs.«211894_g61933428415975_cont_9to1c4b_619_7_alg».proof.Proof.RunI
import proofs.«211894_g61933428415975_cont_9to1c4b_619_7_alg».proof.Proof.RunB
import proofs.«211894_g61933428415975_cont_9to1c4b_619_7_alg».proof.Proof.RunValue
import proofs.«211894_g61933428415975_cont_9to1c4b_619_7_alg».proof.Proof.RefRun
import proofs.«211894_g61933428415975_cont_9to1c4b_619_7_alg».proof.Proof.RefRead
import proofs.«211894_g61933428415975_cont_9to1c4b_619_7_alg».proof.Proof.PreDecode
import Idealize.ShloMosaic.Adequacy
import Idealize.ShloMosaic.Init

noncomputable section

namespace Cert.Proof

open Idealize.ShloMosaic Idealize.SL.Sem

/-! ## The precondition, decoded -/

/-- The index words are in range, at either float instance. -/
theorem hx_I (m : (ℓ : Loc Cert.KernelIdeal.nD Cert.KernelIdeal.τ Cert.KernelIdeal.sig) → Buf (Elt Ideal) ℓ) (h : Cert.Pre_KernelIdeal m) :
    ∀ (d : Dev Cert.KernelIdeal.nD) i, (m ((SparseCore.T (τ := Cert.KernelIdeal.τ) d).loc Cert.KernelIdeal.main_arg0) i).toNat < 100000 :=
  fun d => Cert.Pre_input_domain.Decode.x_inrange (F := Ideal) _ _ _ _ (h d)

theorem hx_B (m : (ℓ : Loc Cert.Kernel.nD Cert.Kernel.τ Cert.Kernel.sig) → Buf (Elt Bits) ℓ) (h : Cert.Pre_Kernel m) :
    ∀ (d : Dev Cert.Kernel.nD) i, (m ((SparseCore.T (τ := Cert.Kernel.τ) d).loc Cert.Kernel.main_arg0) i).toNat < 100000 :=
  fun d => Cert.Pre_input_domain.Decode.x_inrange (F := Bits) _ _ _ _ (h d)

/-! ## The frames -/

section B
open Cert.Kernel Cert.Kernel.Hand

theorem memB0 : (Proc.devRef .tc (main_arg0 : Ref sig .tc) : DevRef τ sig) ∈ UC := by decide
theorem memB1 : (Proc.devRef .tc (main_arg1 : Ref sig .tc) : DevRef τ sig) ∈ UC := by decide
theorem memB2 : (Proc.devRef .tc (main_arg2 : Ref sig .tc) : DevRef τ sig) ∈ UC := by decide
theorem memB3 : (Proc.devRef .tc (main_arg3 : Ref sig .tc) : DevRef τ sig) ∈ UC := by decide

/-- The program as printed runs, and every buffer no step writes — the four arguments among them — ends as launched. -/
theorem frame_p : Cert.frame_Kernel := fun m ρ hpre =>
  (θ_run Cert.Kernel.defs _ _).mono
    (fun r h c => ⟨(h c _ memB0).trans (W9_arg0 m c), (h c _ memB1).trans (W9_arg1 m c), (h c _ memB2).trans (W9_arg2 m c), (h c _ memB3).trans (W9_arg3 m c)⟩)
    (Cert.Kernel.Hand.run (F := Bits) m ρ (hx_B m hpre))

end B

section I
open Cert.KernelIdeal Cert.KernelIdeal.Hand

theorem mem0 : (Proc.devRef .tc (main_arg0 : Ref sig .tc) : DevRef τ sig) ∈ UC := by decide
theorem mem1 : (Proc.devRef .tc (main_arg1 : Ref sig .tc) : DevRef τ sig) ∈ UC := by decide
theorem mem2 : (Proc.devRef .tc (main_arg2 : Ref sig .tc) : DevRef τ sig) ∈ UC := by decide
theorem mem3 : (Proc.devRef .tc (main_arg3 : Ref sig .tc) : DevRef τ sig) ∈ UC := by decide
theorem mem9 : (Proc.devRef .tc (main_v9 : Ref sig .tc) : DevRef τ sig) ∈ UC := by decide

/-- The same for the idealized program. -/
theorem frame_pi : Cert.frame_KernelIdeal := fun m ρ hpre =>
  (θ_run Cert.KernelIdeal.defs _ _).mono
    (fun r h c => ⟨(h c _ mem0).trans (W9_arg0 m c), (h c _ mem1).trans (W9_arg1 m c), (h c _ mem2).trans (W9_arg2 m c), (h c _ mem3).trans (W9_arg3 m c)⟩)
    (Cert.KernelIdeal.Hand.run (F := Ideal) m ρ (hx_I m hpre))

end I

/-- The reference's run with its result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-! ## Equal results -/

section Alg
open Cert.KernelIdeal Cert.KernelIdeal.Hand

/-- The common result: entry (p, q, 0) is the score of the table row index word (p, q) names. -/
def vout (m : (ℓ : Loc nD τ sig) → Buf (Elt Ideal) ℓ) (c : Dev nD) : Buf (Elt Ideal) ((c.tc : Thread nD τ).loc main_v9) :=
  fun i => Cert.Spec.out (m ((c.tc : Thread nD τ).loc main_arg0)) (m ((c.tc : Thread nD τ).loc main_arg1)) (m ((c.tc : Thread nD τ).loc main_arg2)) (m ((c.tc : Thread nD τ).loc main_arg3))
    ⟨(i 0).val, (i 0).isLt⟩ ⟨(i 1).val, (i 1).isLt⟩

/-- An index of the result array is (p, q, 0). -/
theorem idx_split (i : S4096x200x1.Idx) : i = ValueIdx.ix3 (⟨(i 0).val, (i 0).isLt⟩ : Fin 4096) (⟨(i 1).val, (i 1).isLt⟩ : Fin 200) (0 : Fin 1) := by
  funext a
  match a with
  | ⟨0, _⟩ => rfl
  | ⟨1, _⟩ => rfl
  | ⟨2, h2⟩ =>
    have h1 : (i ⟨2, h2⟩).val < 1 := (i ⟨2, h2⟩).isLt
    exact Fin.ext (show (i ⟨2, h2⟩).val = 0 by omega)

/-- Both programs end with the result at the specification's function of arguments that agree: the kernel's by the
    chain of its stages read at an index, the reference's by its operations read at an index. -/
theorem algebraic : Cert.algebraic_KernelIdeal_ReferenceIdeal := by
  intro m g m' g' hpre hagree
  refine ⟨vout m, ?_, ?_⟩
  · refine (θ_run Cert.KernelIdeal.defs _ _).mono (fun r h c => ⟨?_, (h c _ mem0).trans (W9_arg0 m c), (h c _ mem1).trans (W9_arg1 m c), (h c _ mem2).trans (W9_arg2 m c), (h c _ mem3).trans (W9_arg3 m c)⟩)
      (Cert.KernelIdeal.Hand.run (F := Ideal) m g (hx_I m hpre))
    refine (h c _ mem9).trans ?_
    funext i
    rw [idx_split i]
    exact out_apply m c _ _
  · refine (θ_run Cert.ReferenceIdeal.defs _ _).mono (fun r h c => ⟨?_, (h c).2⟩) (Cert.ReferenceIdeal.RefValue.run (F := Ideal) m' g')
    refine (h c).1.trans ?_
    rw [(hagree c).1, (hagree c).2.1, (hagree c).2.2.1, (hagree c).2.2.2]
    funext i
    rw [idx_split i]
    exact Cert.ReferenceIdeal.RefValue.refOut_apply _ _ _ _
      (Cert.Pre_input_domain.Decode.x_inrange (F := Ideal) _ _ _ _ (hpre c))
      (Cert.Pre_input_domain.Decode.emb_real _ _ _ _ (hpre c)) _ _

end Alg

/-! ## The claim -/

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
